-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x128 : Shape := ⟨3, ![32, 2048, 128]⟩
abbrev S_ : Shape := ⟨0, ![]⟩

class Facts : Prop where
  bcast_S_S32x2048x128 : S_.BroadcastsInDim S32x2048x128 (![] : Fin 0 → Fin S32x2048x128.rank)
  reducesTo_S32x2048x128_S_d0_1_2 : S32x2048x128.ReducesTo [0, 1, 2] S_
  h_S_ : 0 < S_.numel

variable [Facts]

def fn {F : FTy → Type} [FloatOps F] (main_arg0 : FVec F S32x2048x128 .f32) (main_arg1 : FVec F S32x2048x128 .f32) : IVec S_ 1 :=
  let main_v0 : FVec F S32x2048x128 .f32 := Host.absf main_arg0
  let main_cst : FVec F S_ .f32 := constant S_ .f32 0x7F800000#32
  let main_v1 : FVec F S32x2048x128 .f32 := broadcastInDim S32x2048x128 ![] bcast_S_S32x2048x128 main_cst
  let main_v2 : IVec S32x2048x128 1 := cmpf .olt main_v0 main_v1
  let main_c : IVec S_ 1 := constantI S_ 1 1#1
  let main_v3 : IVec S_ 1 := (fun x v => Host.reduce IntOp.andi x v reducesTo_S32x2048x128_S_d0_1_2 h_S_) main_v2 main_c
  let main_v4 : FVec F S32x2048x128 .f32 := Host.absf main_arg1
  let main_cst_0 : FVec F S_ .f32 := constant S_ .f32 0x7F800000#32
  let main_v5 : FVec F S32x2048x128 .f32 := broadcastInDim S32x2048x128 ![] bcast_S_S32x2048x128 main_cst_0
  let main_v6 : IVec S32x2048x128 1 := cmpf .olt main_v4 main_v5
  let main_c_1 : IVec S_ 1 := constantI S_ 1 1#1
  let main_v7 : IVec S_ 1 := (fun x v => Host.reduce IntOp.andi x v reducesTo_S32x2048x128_S_d0_1_2 h_S_) main_v6 main_c_1
  let main_v8 : IVec S_ 1 := andi main_v3 main_v7
  main_v8
-- ==== Kernel.lean ====
abbrev S32x2048x128 : Shape := ⟨3, ![32, 2048, 128]⟩
abbrev S32x4096x128 : Shape := ⟨3, ![32, 4096, 128]⟩
abbrev S8x2048x128 : Shape := ⟨3, ![8, 2048, 128]⟩
abbrev S8x4096x128 : Shape := ⟨3, ![8, 4096, 128]⟩
abbrev S128x128 : Shape := ⟨2, ![128, 128]⟩
abbrev S_ : Shape := ⟨0, ![]⟩
abbrev S16 : Shape := ⟨1, ![16]⟩
abbrev S1x16 : Shape := ⟨2, ![1, 16]⟩
abbrev S1x128x128 : Shape := ⟨3, ![1, 128, 128]⟩

abbrev nBuf : Table → Nat
  | .hbm => 5
  | .local .tc .vmem => 8
  | .local .scVector .vmem => 1
  | _ => 0

abbrev bufTy : (tb : Table) → Fin (nBuf tb) → BufTy
  | .hbm, ⟨0, _⟩ => ⟨S32x2048x128, .f32⟩
  | .hbm, ⟨1, _⟩ => ⟨S32x2048x128, .f32⟩
  | .hbm, ⟨2, _⟩ => ⟨S32x4096x128, .f32⟩
  | .hbm, ⟨3, _⟩ => ⟨S32x4096x128, .f32⟩
  | .hbm, ⟨4, _⟩ => ⟨S32x4096x128, .f32⟩
  | .local .tc .vmem, ⟨0, _⟩ => ⟨S8x2048x128, .f32⟩
  | .local .tc .vmem, ⟨1, _⟩ => ⟨S8x2048x128, .f32⟩
  | .local .tc .vmem, ⟨2, _⟩ => ⟨S8x4096x128, .f32⟩
  | .local .tc .vmem, ⟨3, _⟩ => ⟨S8x4096x128, .f32⟩
  | .local .tc .vmem, ⟨4, _⟩ => ⟨S8x2048x128, .f32⟩
  | .local .tc .vmem, ⟨5, _⟩ => ⟨S8x2048x128, .f32⟩
  | .local .tc .vmem, ⟨6, _⟩ => ⟨S8x2048x128, .f32⟩
  | .local .tc .vmem, ⟨7, _⟩ => ⟨S8x2048x128, .f32⟩
  | .local .scVector .vmem, ⟨0, _⟩ => ⟨S128x128, .f32⟩
  | _, _ => ⟨S32x2048x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => true
  | ⟨1, _⟩ => true
  | ⟨2, _⟩ => true
  | ⟨3, _⟩ => true
  | ⟨4, _⟩ => false
  | ⟨5, _⟩ => true
  | ⟨6, _⟩ => true
  | ⟨7, _⟩ => true
  | ⟨8, _⟩ => true
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v1_scv : Ref sig .scVector := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc2_stg0_0 : Ref sig .tc := ⟨.vmem, 4, rfl⟩
abbrev cc2_stg0_1 : Ref sig .tc := ⟨.vmem, 5, rfl⟩
abbrev cc2_stg1_0 : Ref sig .tc := ⟨.vmem, 6, rfl⟩
abbrev cc2_stg1_1 : Ref sig .tc := ⟨.vmem, 7, rfl⟩
abbrev cc1_scratch0 : Ref sig .scVector := ⟨.vmem, 0, rfl⟩
abbrev cc0_sem0_0 : DmaSem sig := 0
abbrev cc0_sem0_1 : DmaSem sig := 1
abbrev cc0_sem1_0 : DmaSem sig := 2
abbrev cc0_sem1_1 : DmaSem sig := 3
abbrev cc2_sem0_0 : DmaSem sig := 5
abbrev cc2_sem0_1 : DmaSem sig := 6
abbrev cc2_sem1_0 : DmaSem sig := 7
abbrev cc2_sem1_1 : DmaSem sig := 8
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![2, 16], ![false, false]⟩

def k1_off1 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let c0_i32_2936 : BitVec 32 := 0#32
  ![v1.toNat, 2048, 0]
def k1_off2 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2176_i32 : BitVec 32 := 2176#32
  let c0_i32_2939 : BitVec 32 := 0#32
  ![v1.toNat, 2176, 0]
def k1_off3 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2304_i32 : BitVec 32 := 2304#32
  let c0_i32_2942 : BitVec 32 := 0#32
  ![v1.toNat, 2304, 0]
def k1_off4 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2432_i32 : BitVec 32 := 2432#32
  let c0_i32_2945 : BitVec 32 := 0#32
  ![v1.toNat, 2432, 0]
def k1_off5 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2560_i32 : BitVec 32 := 2560#32
  let c0_i32_2948 : BitVec 32 := 0#32
  ![v1.toNat, 2560, 0]
def k1_off6 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2688_i32 : BitVec 32 := 2688#32
  let c0_i32_2951 : BitVec 32 := 0#32
  ![v1.toNat, 2688, 0]
def k1_off7 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2816_i32 : BitVec 32 := 2816#32
  let c0_i32_2954 : BitVec 32 := 0#32
  ![v1.toNat, 2816, 0]
def k1_off8 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2944_i32 : BitVec 32 := 2944#32
  let c0_i32_2957 : BitVec 32 := 0#32
  ![v1.toNat, 2944, 0]
def k1_off9 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3072_i32 : BitVec 32 := 3072#32
  let c0_i32_2960 : BitVec 32 := 0#32
  ![v1.toNat, 3072, 0]
def k1_off10 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3200_i32 : BitVec 32 := 3200#32
  let c0_i32_2963 : BitVec 32 := 0#32
  ![v1.toNat, 3200, 0]
def k1_off11 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3328_i32 : BitVec 32 := 3328#32
  let c0_i32_2966 : BitVec 32 := 0#32
  ![v1.toNat, 3328, 0]
def k1_off12 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3456_i32 : BitVec 32 := 3456#32
  let c0_i32_2969 : BitVec 32 := 0#32
  ![v1.toNat, 3456, 0]
def k1_off13 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3584_i32 : BitVec 32 := 3584#32
  let c0_i32_2972 : BitVec 32 := 0#32
  ![v1.toNat, 3584, 0]
def k1_off14 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3712_i32 : BitVec 32 := 3712#32
  let c0_i32_2975 : BitVec 32 := 0#32
  ![v1.toNat, 3712, 0]
def k1_off15 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3840_i32 : BitVec 32 := 3840#32
  let c0_i32_2978 : BitVec 32 := 0#32
  ![v1.toNat, 3840, 0]
def k1_off16 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3968_i32 : BitVec 32 := 3968#32
  let c0_i32_2981 : BitVec 32 := 0#32
  ![v1.toNat, 3968, 0]
abbrev grid2 : Pipeline.Grid := ⟨1, ![4], ![false]⟩

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S8x2048x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8x2048x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class K0.Facts₀ : Prop where
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x2048x128.size a ≤ S32x2048x128.size a
  hwx0_0 : ∀ i : grid0.Coords, EltTy.bits .f32 = 32 ∨ (Rect.block (s := S32x2048x128) S8x2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x4096x128.size a ≤ S32x4096x128.size a
  hwx0_1 : ∀ i : grid0.Coords, EltTy.bits .f32 = 32 ∨ (Rect.block (s := S32x4096x128) S8x4096x128.size (cc0_transform_1 i) (hinb0_1 i)).WholeWords (EltTy.packing .f32)

class K1.Facts₀ : Prop where
  hcore1 : grid1.bound 0 ≤ τ.nSC
  hsub1 : grid1.bound 1 ≤ τ.nSub
  k1_off1_inb : ∀ i : grid1.Coords, ∀ a, (k1_off1 i) a + S1x128x128.size a ≤ S32x4096x128.size a
  k1_off2_inb : ∀ i : grid1.Coords, ∀ a, (k1_off2 i) a + S1x128x128.size a ≤ S32x4096x128.size a
  k1_off3_inb : ∀ i : grid1.Coords, ∀ a, (k1_off3 i) a + S1x128x128.size a ≤ S32x4096x128.size a
  k1_off4_inb : ∀ i : grid1.Coords, ∀ a, (k1_off4 i) a + S1x128x128.size a ≤ S32x4096x128.size a
  k1_off5_inb : ∀ i : grid1.Coords, ∀ a, (k1_off5 i) a + S1x128x128.size a ≤ S32x4096x128.size a
  k1_off6_inb : ∀ i : grid1.Coords, ∀ a, (k1_off6 i) a + S1x128x128.size a ≤ S32x4096x128.size a
  k1_off7_inb : ∀ i : grid1.Coords, ∀ a, (k1_off7 i) a + S1x128x128.size a ≤ S32x4096x128.size a
  k1_off8_inb : ∀ i : grid1.Coords, ∀ a, (k1_off8 i) a + S1x128x128.size a ≤ S32x4096x128.size a
  k1_off9_inb : ∀ i : grid1.Coords, ∀ a, (k1_off9 i) a + S1x128x128.size a ≤ S32x4096x128.size a
  k1_off10_inb : ∀ i : grid1.Coords, ∀ a, (k1_off10 i) a + S1x128x128.size a ≤ S32x4096x128.size a
  k1_off11_inb : ∀ i : grid1.Coords, ∀ a, (k1_off11 i) a + S1x128x128.size a ≤ S32x4096x128.size a
  k1_off12_inb : ∀ i : grid1.Coords, ∀ a, (k1_off12 i) a + S1x128x128.size a ≤ S32x4096x128.size a
  k1_off13_inb : ∀ i : grid1.Coords, ∀ a, (k1_off13 i) a + S1x128x128.size a ≤ S32x4096x128.size a
  k1_off14_inb : ∀ i : grid1.Coords, ∀ a, (k1_off14 i) a + S1x128x128.size a ≤ S32x4096x128.size a
  k1_off15_inb : ∀ i : grid1.Coords, ∀ a, (k1_off15 i) a + S1x128x128.size a ≤ S32x4096x128.size a
  k1_off16_inb : ∀ i : grid1.Coords, ∀ a, (k1_off16 i) a + S1x128x128.size a ≤ S32x4096x128.size a

class K2.Facts₀ : Prop where
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_1 i = cc2_transform_1 i'
  hinb2_0 : ∀ (i : grid2.Coords) a, (cc2_transform_1 i a + 1) * S8x2048x128.size a ≤ S32x2048x128.size a
  hwx2_0 : ∀ i : grid2.Coords, EltTy.bits .f32 = 32 ∨ (Rect.block (s := S32x2048x128) S8x2048x128.size (cc2_transform_1 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_2 i = cc2_transform_2 i'
  hinb2_1 : ∀ (i : grid2.Coords) a, (cc2_transform_2 i a + 1) * S8x2048x128.size a ≤ S32x4096x128.size a
  hwx2_1 : ∀ i : grid2.Coords, EltTy.bits .f32 = 32 ∨ (Rect.block (s := S32x4096x128) S8x2048x128.size (cc2_transform_2 i) (hinb2_1 i)).WholeWords (EltTy.packing .f32)

class Shapes1.Facts₀ : Prop where
  inb_S8x2048x128_S8x2048x128_0_0_0 : ∀ a, (![0, 0, 0] : Fin 3 → Nat) a + S8x2048x128.size a ≤ S8x2048x128.size a
  h_S8x2048x128 : 0 < S8x2048x128.numel
  inb_S8x4096x128_S8x2048x128_0_0_0 : ∀ a, (![0, 0, 0] : Fin 3 → Nat) a + S8x2048x128.size a ≤ S8x4096x128.size a
  inb_S8x4096x128_S8x2048x128_0_2048_0 : ∀ a, (![0, 2048, 0] : Fin 3 → Nat) a + S8x2048x128.size a ≤ S8x4096x128.size a
  inb_S128x128_S1x16_0_0 : ∀ a, (![0, 0] : Fin 2 → Nat) a + S1x16.size a ≤ S128x128.size a
  h_S1x16 : 0 < S1x16.numel
  shapeCasts_S1x16_S16 : S1x16.ShapeCasts S16
  shapeCasts_S16_S1x16 : S16.ShapeCasts S1x16
  inb_S128x128_S1x16_0_16 : ∀ a, (![0, 16] : Fin 2 → Nat) a + S1x16.size a ≤ S128x128.size a
  inb_S128x128_S1x16_0_32 : ∀ a, (![0, 32] : Fin 2 → Nat) a + S1x16.size a ≤ S128x128.size a
  inb_S128x128_S1x16_0_48 : ∀ a, (![0, 48] : Fin 2 → Nat) a + S1x16.size a ≤ S128x128.size a
  inb_S128x128_S1x16_0_64 : ∀ a, (![0, 64] : Fin 2 → Nat) a + S1x16.size a ≤ S128x128.size a
  inb_S128x128_S1x16_0_80 : ∀ a, (![0, 80] : Fin 2 → Nat) a + S1x16.size a ≤ S128x128.size a
  inb_S128x128_S1x16_0_96 : ∀ a, (![0, 96] : Fin 2 → Nat) a + S1x16.size a ≤ S128x128.size a
  inb_S128x128_S1x16_0_112 : ∀ a, (![0, 112] : Fin 2 → Nat) a + S1x16.size a ≤ S128x128.size a
  inb_S128x128_S1x16_1_0 : ∀ a, (![1, 0] : Fin 2 → Nat) a + S1x16.size a ≤ S128x128.size a
  inb_S128x128_S1x16_1_16 : ∀ a, (![1, 16] : Fin 2 → Nat) a + S1x16.size a ≤ S128x128.size a
  inb_S128x128_S1x16_1_32 : ∀ a, (![1, 32] : Fin 2 → Nat) a + S1x16.size a ≤ S128x128.size a
  inb_S128x128_S1x16_1_48 : ∀ a, (![1, 48] : Fin 2 → Nat) a + S1x16.size a ≤ S128x128.size a
  inb_S128x128_S1x16_1_64 : ∀ a, (![1, 64] : Fin 2 → Nat) a + S1x16.size a ≤ S128x128.size a
  inb_S128x128_S1x16_1_80 : ∀ a, (![1, 80] : Fin 2 → Nat) a + S1x16.size a ≤ S128x128.size a
  inb_S128x128_S1x16_1_96 : ∀ a, (![1, 96] : Fin 2 → Nat) a + S1x16.size a ≤ S128x128.size a
  inb_S128x128_S1x16_1_112 : ∀ a, (![1, 112] : Fin 2 → Nat) a + S1x16.size a ≤ S128x128.size a
  inb_S128x128_S1x16_2_0 : ∀ a, (![2, 0] : Fin 2 → Nat) a + S1x16.size a ≤ S128x128.size a
  inb_S128x128_S1x16_2_16 : ∀ a, (![2, 16] : Fin 2 → Nat) a + S1x16.size a ≤ S128x128.size a
  inb_S128x128_S1x16_2_32 : ∀ a, (![2, 32] : Fin 2 → Nat) a + S1x16.size a ≤ S128x128.size a
  inb_S128x128_S1x16_2_48 : ∀ a, (![2, 48] : Fin 2 → Nat) a + S1x16.size a ≤ S128x128.size a
  inb_S128x128_S1x16_2_64 : ∀ a, (![2, 64] : Fin 2 → Nat) a + S1x16.size a ≤ S128x128.size a
  inb_S128x128_S1x16_2_80 : ∀ a, (![2, 80] : Fin 2 → Nat) a + S1x16.size a ≤ S128x128.size a
  inb_S128x128_S1x16_2_96 : ∀ a, (![2, 96] : Fin 2 → Nat) a + S1x16.size a ≤ S128x128.size a
  inb_S128x128_S1x16_2_112 : ∀ a, (![2, 112] : Fin 2 → Nat) a + S1x16.size a ≤ S128x128.size a
  inb_S128x128_S1x16_3_0 : ∀ a, (![3, 0] : Fin 2 → Nat) a + S1x16.size a ≤ S128x128.size a
  inb_S128x128_S1x16_3_16 : ∀ a, (![3, 16] : Fin 2 → Nat) a + S1x16.size a ≤ S128x128.size a
  inb_S128x128_S1x16_3_32 : ∀ a, (![3, 32] : Fin 2 → Nat) a + S1x16.size a ≤ S128x128.size a
  inb_S128x128_S1x16_3_48 : ∀ a, (![3, 48] : Fin 2 → Nat) a + S1x16.size a ≤ S128x128.size a
  inb_S128x128_S1x16_3_64 : ∀ a, (![3, 64] : Fin 2 → Nat) a + S1x16.size a ≤ S128x128.size a
  inb_S128x128_S1x16_3_80 : ∀ a, (![3, 80] : Fin 2 → Nat) a + S1x16.size a ≤ S128x128.size a
  inb_S128x128_S1x16_3_96 : ∀ a, (![3, 96] : Fin 2 → Nat) a + S1x16.size a ≤ S128x128.size a
  inb_S128x128_S1x16_3_112 : ∀ a, (![3, 112] : Fin 2 → Nat) a + S1x16.size a ≤ S128x128.size a
  inb_S128x128_S1x16_4_0 : ∀ a, (![4, 0] : Fin 2 → Nat) a + S1x16.size a ≤ S128x128.size a
  inb_S128x128_S1x16_4_16 : ∀ a, (![4, 16] : Fin 2 → Nat) a + S1x16.size a ≤ S128x128.size a
  inb_S128x128_S1x16_4_32 : ∀ a, (![4, 32] : Fin 2 → Nat) a + S1x16.size a ≤ S128x128.size a
  inb_S128x128_S1x16_4_48 : ∀ a, (![4, 48] : Fin 2 → Nat) a + S1x16.size a ≤ S128x128.size a
  inb_S128x128_S1x16_4_64 : ∀ a, (![4, 64] : Fin 2 → Nat) a + S1x16.size a ≤ S128x128.size a
  inb_S128x128_S1x16_4_80 : ∀ a, (![4, 80] : Fin 2 → Nat) a + S1x16.size a ≤ S128x128.size a
  inb_S128x128_S1x16_4_96 : ∀ a, (![4, 96] : Fin 2 → Nat) a + S1x16.size a ≤ S128x128.size a
  inb_S128x128_S1x16_4_112 : ∀ a, (![4, 112] : Fin 2 → Nat) a + S1x16.size a ≤ S128x128.size a
  inb_S128x128_S1x16_5_0 : ∀ a, (![5, 0] : Fin 2 → Nat) a + S1x16.size a ≤ S128x128.size a
  inb_S128x128_S1x16_5_16 : ∀ a, (![5, 16] : Fin 2 → Nat) a + S1x16.size a ≤ S128x128.size a
  inb_S128x128_S1x16_5_32 : ∀ a, (![5, 32] : Fin 2 → Nat) a + S1x16.size a ≤ S128x128.size a
  inb_S128x128_S1x16_5_48 : ∀ a, (![5, 48] : Fin 2 → Nat) a + S1x16.size a ≤ S128x128.size a
  inb_S128x128_S1x16_5_64 : ∀ a, (![5, 64] : Fin 2 → Nat) a + S1x16.size a ≤ S128x128.size a
  inb_S128x128_S1x16_5_80 : ∀ a, (![5, 80] : Fin 2 → Nat) a + S1x16.size a ≤ S128x128.size a
  inb_S128x128_S1x16_5_96 : ∀ a, (![5, 96] : Fin 2 → Nat) a + S1x16.size a ≤ S128x128.size a
  inb_S128x128_S1x16_5_112 : ∀ a, (![5, 112] : Fin 2 → Nat) a + S1x16.size a ≤ S128x128.size a
  inb_S128x128_S1x16_6_0 : ∀ a, (![6, 0] : Fin 2 → Nat) a + S1x16.size a ≤ S128x128.size a
  inb_S128x128_S1x16_6_16 : ∀ a, (![6, 16] : Fin 2 → Nat) a + S1x16.size a ≤ S128x128.size a
  inb_S128x128_S1x16_6_32 : ∀ a, (![6, 32] : Fin 2 → Nat) a + S1x16.size a ≤ S128x128.size a
  inb_S128x128_S1x16_6_48 : ∀ a, (![6, 48] : Fin 2 → Nat) a + S1x16.size a ≤ S128x128.size a
  inb_S128x128_S1x16_6_64 : ∀ a, (![6, 64] : Fin 2 → Nat) a + S1x16.size a ≤ S128x128.size a
  inb_S128x128_S1x16_6_80 : ∀ a, (![6, 80] : Fin 2 → Nat) a + S1x16.size a ≤ S128x128.size a
  inb_S128x128_S1x16_6_96 : ∀ a, (![6, 96] : Fin 2 → Nat) a + S1x16.size a ≤ S128x128.size a
  inb_S128x128_S1x16_6_112 : ∀ a, (![6, 112] : Fin 2 → Nat) a + S1x16.size a ≤ S128x128.size a
  inb_S128x128_S1x16_7_0 : ∀ a, (![7, 0] : Fin 2 → Nat) a + S1x16.size a ≤ S128x128.size a
  inb_S128x128_S1x16_7_16 : ∀ a, (![7, 16] : Fin 2 → Nat) a + S1x16.size a ≤ S128x128.size a
  inb_S128x128_S1x16_7_32 : ∀ a, (![7, 32] : Fin 2 → Nat) a + S1x16.size a ≤ S128x128.size a
  inb_S128x128_S1x16_7_48 : ∀ a, (![7, 48] : Fin 2 → Nat) a + S1x16.size a ≤ S128x128.size a
  inb_S128x128_S1x16_7_64 : ∀ a, (![7, 64] : Fin 2 → Nat) a + S1x16.size a ≤ S128x128.size a
  inb_S128x128_S1x16_7_80 : ∀ a, (![7, 80] : Fin 2 → Nat) a + S1x16.size a ≤ S128x128.size a
  inb_S128x128_S1x16_7_96 : ∀ a, (![7, 96] : Fin 2 → Nat) a + S1x16.size a ≤ S128x128.size a
  inb_S128x128_S1x16_7_112 : ∀ a, (![7, 112] : Fin 2 → Nat) a + S1x16.size a ≤ S128x128.size a
  inb_S128x128_S1x16_8_0 : ∀ a, (![8, 0] : Fin 2 → Nat) a + S1x16.size a ≤ S128x128.size a
  inb_S128x128_S1x16_8_16 : ∀ a, (![8, 16] : Fin 2 → Nat) a + S1x16.size a ≤ S128x128.size a
  inb_S128x128_S1x16_8_32 : ∀ a, (![8, 32] : Fin 2 → Nat) a + S1x16.size a ≤ S128x128.size a
  inb_S128x128_S1x16_8_48 : ∀ a, (![8, 48] : Fin 2 → Nat) a + S1x16.size a ≤ S128x128.size a
  inb_S128x128_S1x16_8_64 : ∀ a, (![8, 64] : Fin 2 → Nat) a + S1x16.size a ≤ S128x128.size a
  inb_S128x128_S1x16_8_80 : ∀ a, (![8, 80] : Fin 2 → Nat) a + S1x16.size a ≤ S128x128.size a
  inb_S128x128_S1x16_8_96 : ∀ a, (![8, 96] : Fin 2 → Nat) a + S1x16.size a ≤ S128x128.size a
  inb_S128x128_S1x16_8_112 : ∀ a, (![8, 112] : Fin 2 → Nat) a + S1x16.size a ≤ S128x128.size a
  inb_S128x128_S1x16_9_0 : ∀ a, (![9, 0] : Fin 2 → Nat) a + S1x16.size a ≤ S128x128.size a
  inb_S128x128_S1x16_9_16 : ∀ a, (![9, 16] : Fin 2 → Nat) a + S1x16.size a ≤ S128x128.size a
  inb_S128x128_S1x16_9_32 : ∀ a, (![9, 32] : Fin 2 → Nat) a + S1x16.size a ≤ S128x128.size a
  inb_S128x128_S1x16_9_48 : ∀ a, (![9, 48] : Fin 2 → Nat) a + S1x16.size a ≤ S128x128.size a
  inb_S128x128_S1x16_9_64 : ∀ a, (![9, 64] : Fin 2 → Nat) a + S1x16.size a ≤ S128x128.size a
  inb_S128x128_S1x16_9_80 : ∀ a, (![9, 80] : Fin 2 → Nat) a + S1x16.size a ≤ S128x128.size a
  inb_S128x128_S1x16_9_96 : ∀ a, (![9, 96] : Fin 2 → Nat) a + S1x16.size a ≤ S128x128.size a
  inb_S128x128_S1x16_9_112 : ∀ a, (![9, 112] : Fin 2 → Nat) a + S1x16.size a ≤ S128x128.size a
  inb_S128x128_S1x16_10_0 : ∀ a, (![10, 0] : Fin 2 → Nat) a + S1x16.size a ≤ S128x128.size a
  inb_S128x128_S1x16_10_16 : ∀ a, (![10, 16] : Fin 2 → Nat) a + S1x16.size a ≤ S128x128.size a
  inb_S128x128_S1x16_10_32 : ∀ a, (![10, 32] : Fin 2 → Nat) a + S1x16.size a ≤ S128x128.size a
  inb_S128x128_S1x16_10_48 : ∀ a, (![10, 48] : Fin 2 → Nat) a + S1x16.size a ≤ S128x128.size a
  inb_S128x128_S1x16_10_64 : ∀ a, (![10, 64] : Fin 2 → Nat) a + S1x16.size a ≤ S128x128.size a
  inb_S128x128_S1x16_10_80 : ∀ a, (![10, 80] : Fin 2 → Nat) a + S1x16.size a ≤ S128x128.size a
  inb_S128x128_S1x16_10_96 : ∀ a, (![10, 96] : Fin 2 → Nat) a + S1x16.size a ≤ S128x128.size a
  inb_S128x128_S1x16_10_112 : ∀ a, (![10, 112] : Fin 2 → Nat) a + S1x16.size a ≤ S128x128.size a
  inb_S128x128_S1x16_11_0 : ∀ a, (![11, 0] : Fin 2 → Nat) a + S1x16.size a ≤ S128x128.size a
  inb_S128x128_S1x16_11_16 : ∀ a, (![11, 16] : Fin 2 → Nat) a + S1x16.size a ≤ S128x128.size a
  inb_S128x128_S1x16_11_32 : ∀ a, (![11, 32] : Fin 2 → Nat) a + S1x16.size a ≤ S128x128.size a
  inb_S128x128_S1x16_11_48 : ∀ a, (![11, 48] : Fin 2 → Nat) a + S1x16.size a ≤ S128x128.size a
  inb_S128x128_S1x16_11_64 : ∀ a, (![11, 64] : Fin 2 → Nat) a + S1x16.size a ≤ S128x128.size a
  inb_S128x128_S1x16_11_80 : ∀ a, (![11, 80] : Fin 2 → Nat) a + S1x16.size a ≤ S128x128.size a
  inb_S128x128_S1x16_11_96 : ∀ a, (![11, 96] : Fin 2 → Nat) a + S1x16.size a ≤ S128x128.size a
  inb_S128x128_S1x16_11_112 : ∀ a, (![11, 112] : Fin 2 → Nat) a + S1x16.size a ≤ S128x128.size a
  inb_S128x128_S1x16_12_0 : ∀ a, (![12, 0] : Fin 2 → Nat) a + S1x16.size a ≤ S128x128.size a
  inb_S128x128_S1x16_12_16 : ∀ a, (![12, 16] : Fin 2 → Nat) a + S1x16.size a ≤ S128x128.size a
  inb_S128x128_S1x16_12_32 : ∀ a, (![12, 32] : Fin 2 → Nat) a + S1x16.size a ≤ S128x128.size a
  inb_S128x128_S1x16_12_48 : ∀ a, (![12, 48] : Fin 2 → Nat) a + S1x16.size a ≤ S128x128.size a
  inb_S128x128_S1x16_12_64 : ∀ a, (![12, 64] : Fin 2 → Nat) a + S1x16.size a ≤ S128x128.size a
  inb_S128x128_S1x16_12_80 : ∀ a, (![12, 80] : Fin 2 → Nat) a + S1x16.size a ≤ S128x128.size a
  inb_S128x128_S1x16_12_96 : ∀ a, (![12, 96] : Fin 2 → Nat) a + S1x16.size a ≤ S128x128.size a
  inb_S128x128_S1x16_12_112 : ∀ a, (![12, 112] : Fin 2 → Nat) a + S1x16.size a ≤ S128x128.size a
  inb_S128x128_S1x16_13_0 : ∀ a, (![13, 0] : Fin 2 → Nat) a + S1x16.size a ≤ S128x128.size a
  inb_S128x128_S1x16_13_16 : ∀ a, (![13, 16] : Fin 2 → Nat) a + S1x16.size a ≤ S128x128.size a
  inb_S128x128_S1x16_13_32 : ∀ a, (![13, 32] : Fin 2 → Nat) a + S1x16.size a ≤ S128x128.size a
  inb_S128x128_S1x16_13_48 : ∀ a, (![13, 48] : Fin 2 → Nat) a + S1x16.size a ≤ S128x128.size a
  inb_S128x128_S1x16_13_64 : ∀ a, (![13, 64] : Fin 2 → Nat) a + S1x16.size a ≤ S128x128.size a
  inb_S128x128_S1x16_13_80 : ∀ a, (![13, 80] : Fin 2 → Nat) a + S1x16.size a ≤ S128x128.size a
  inb_S128x128_S1x16_13_96 : ∀ a, (![13, 96] : Fin 2 → Nat) a + S1x16.size a ≤ S128x128.size a
  inb_S128x128_S1x16_13_112 : ∀ a, (![13, 112] : Fin 2 → Nat) a + S1x16.size a ≤ S128x128.size a
  inb_S128x128_S1x16_14_0 : ∀ a, (![14, 0] : Fin 2 → Nat) a + S1x16.size a ≤ S128x128.size a
  inb_S128x128_S1x16_14_16 : ∀ a, (![14, 16] : Fin 2 → Nat) a + S1x16.size a ≤ S128x128.size a
  inb_S128x128_S1x16_14_32 : ∀ a, (![14, 32] : Fin 2 → Nat) a + S1x16.size a ≤ S128x128.size a
  inb_S128x128_S1x16_14_48 : ∀ a, (![14, 48] : Fin 2 → Nat) a + S1x16.size a ≤ S128x128.size a
  inb_S128x128_S1x16_14_64 : ∀ a, (![14, 64] : Fin 2 → Nat) a + S1x16.size a ≤ S128x128.size a
  inb_S128x128_S1x16_14_80 : ∀ a, (![14, 80] : Fin 2 → Nat) a + S1x16.size a ≤ S128x128.size a
  inb_S128x128_S1x16_14_96 : ∀ a, (![14, 96] : Fin 2 → Nat) a + S1x16.size a ≤ S128x128.size a
  inb_S128x128_S1x16_14_112 : ∀ a, (![14, 112] : Fin 2 → Nat) a + S1x16.size a ≤ S128x128.size a
  inb_S128x128_S1x16_15_0 : ∀ a, (![15, 0] : Fin 2 → Nat) a + S1x16.size a ≤ S128x128.size a
  inb_S128x128_S1x16_15_16 : ∀ a, (![15, 16] : Fin 2 → Nat) a + S1x16.size a ≤ S128x128.size a
  inb_S128x128_S1x16_15_32 : ∀ a, (![15, 32] : Fin 2 → Nat) a + S1x16.size a ≤ S128x128.size a
  inb_S128x128_S1x16_15_48 : ∀ a, (![15, 48] : Fin 2 → Nat) a + S1x16.size a ≤ S128x128.size a
  inb_S128x128_S1x16_15_64 : ∀ a, (![15, 64] : Fin 2 → Nat) a + S1x16.size a ≤ S128x128.size a
  inb_S128x128_S1x16_15_80 : ∀ a, (![15, 80] : Fin 2 → Nat) a + S1x16.size a ≤ S128x128.size a
  inb_S128x128_S1x16_15_96 : ∀ a, (![15, 96] : Fin 2 → Nat) a + S1x16.size a ≤ S128x128.size a
  inb_S128x128_S1x16_15_112 : ∀ a, (![15, 112] : Fin 2 → Nat) a + S1x16.size a ≤ S128x128.size a
  inb_S128x128_S1x16_16_0 : ∀ a, (![16, 0] : Fin 2 → Nat) a + S1x16.size a ≤ S128x128.size a
  inb_S128x128_S1x16_16_16 : ∀ a, (![16, 16] : Fin 2 → Nat) a + S1x16.size a ≤ S128x128.size a
  inb_S128x128_S1x16_16_32 : ∀ a, (![16, 32] : Fin 2 → Nat) a + S1x16.size a ≤ S128x128.size a
  inb_S128x128_S1x16_16_48 : ∀ a, (![16, 48] : Fin 2 → Nat) a + S1x16.size a ≤ S128x128.size a
  inb_S128x128_S1x16_16_64 : ∀ a, (![16, 64] : Fin 2 → Nat) a + S1x16.size a ≤ S128x128.size a
  inb_S128x128_S1x16_16_80 : ∀ a, (![16, 80] : Fin 2 → Nat) a + S1x16.size a ≤ S128x128.size a
  inb_S128x128_S1x16_16_96 : ∀ a, (![16, 96] : Fin 2 → Nat) a + S1x16.size a ≤ S128x128.size a
  inb_S128x128_S1x16_16_112 : ∀ a, (![16, 112] : Fin 2 → Nat) a + S1x16.size a ≤ S128x128.size a
  inb_S128x128_S1x16_17_0 : ∀ a, (![17, 0] : Fin 2 → Nat) a + S1x16.size a ≤ S128x128.size a
  inb_S128x128_S1x16_17_16 : ∀ a, (![17, 16] : Fin 2 → Nat) a + S1x16.size a ≤ S128x128.size a
  inb_S128x128_S1x16_17_32 : ∀ a, (![17, 32] : Fin 2 → Nat) a + S1x16.size a ≤ S128x128.size a
  inb_S128x128_S1x16_17_48 : ∀ a, (![17, 48] : Fin 2 → Nat) a + S1x16.size a ≤ S128x128.size a
  inb_S128x128_S1x16_17_64 : ∀ a, (![17, 64] : Fin 2 → Nat) a + S1x16.size a ≤ S128x128.size a
  inb_S128x128_S1x16_17_80 : ∀ a, (![17, 80] : Fin 2 → Nat) a + S1x16.size a ≤ S128x128.size a
  inb_S128x128_S1x16_17_96 : ∀ a, (![17, 96] : Fin 2 → Nat) a + S1x16.size a ≤ S128x128.size a
  inb_S128x128_S1x16_17_112 : ∀ a, (![17, 112] : Fin 2 → Nat) a + S1x16.size a ≤ S128x128.size a
  inb_S128x128_S1x16_18_0 : ∀ a, (![18, 0] : Fin 2 → Nat) a + S1x16.size a ≤ S128x128.size a
  inb_S128x128_S1x16_18_16 : ∀ a, (![18, 16] : Fin 2 → Nat) a + S1x16.size a ≤ S128x128.size a
  inb_S128x128_S1x16_18_32 : ∀ a, (![18, 32] : Fin 2 → Nat) a + S1x16.size a ≤ S128x128.size a
  inb_S128x128_S1x16_18_48 : ∀ a, (![18, 48] : Fin 2 → Nat) a + S1x16.size a ≤ S128x128.size a
  inb_S128x128_S1x16_18_64 : ∀ a, (![18, 64] : Fin 2 → Nat) a + S1x16.size a ≤ S128x128.size a
  inb_S128x128_S1x16_18_80 : ∀ a, (![18, 80] : Fin 2 → Nat) a + S1x16.size a ≤ S128x128.size a
  inb_S128x128_S1x16_18_96 : ∀ a, (![18, 96] : Fin 2 → Nat) a + S1x16.size a ≤ S128x128.size a
  inb_S128x128_S1x16_18_112 : ∀ a, (![18, 112] : Fin 2 → Nat) a + S1x16.size a ≤ S128x128.size a
  inb_S128x128_S1x16_19_0 : ∀ a, (![19, 0] : Fin 2 → Nat) a + S1x16.size a ≤ S128x128.size a
  inb_S128x128_S1x16_19_16 : ∀ a, (![19, 16] : Fin 2 → Nat) a + S1x16.size a ≤ S128x128.size a
  inb_S128x128_S1x16_19_32 : ∀ a, (![19, 32] : Fin 2 → Nat) a + S1x16.size a ≤ S128x128.size a
  inb_S128x128_S1x16_19_48 : ∀ a, (![19, 48] : Fin 2 → Nat) a + S1x16.size a ≤ S128x128.size a
  inb_S128x128_S1x16_19_64 : ∀ a, (![19, 64] : Fin 2 → Nat) a + S1x16.size a ≤ S128x128.size a
  inb_S128x128_S1x16_19_80 : ∀ a, (![19, 80] : Fin 2 → Nat) a + S1x16.size a ≤ S128x128.size a
  inb_S128x128_S1x16_19_96 : ∀ a, (![19, 96] : Fin 2 → Nat) a + S1x16.size a ≤ S128x128.size a
  inb_S128x128_S1x16_19_112 : ∀ a, (![19, 112] : Fin 2 → Nat) a + S1x16.size a ≤ S128x128.size a
  inb_S128x128_S1x16_20_0 : ∀ a, (![20, 0] : Fin 2 → Nat) a + S1x16.size a ≤ S128x128.size a
  inb_S128x128_S1x16_20_16 : ∀ a, (![20, 16] : Fin 2 → Nat) a + S1x16.size a ≤ S128x128.size a
  inb_S128x128_S1x16_20_32 : ∀ a, (![20, 32] : Fin 2 → Nat) a + S1x16.size a ≤ S128x128.size a
  inb_S128x128_S1x16_20_48 : ∀ a, (![20, 48] : Fin 2 → Nat) a + S1x16.size a ≤ S128x128.size a
  inb_S128x128_S1x16_20_64 : ∀ a, (![20, 64] : Fin 2 → Nat) a + S1x16.size a ≤ S128x128.size a
  inb_S128x128_S1x16_20_80 : ∀ a, (![20, 80] : Fin 2 → Nat) a + S1x16.size a ≤ S128x128.size a
  inb_S128x128_S1x16_20_96 : ∀ a, (![20, 96] : Fin 2 → Nat) a + S1x16.size a ≤ S128x128.size a
  inb_S128x128_S1x16_20_112 : ∀ a, (![20, 112] : Fin 2 → Nat) a + S1x16.size a ≤ S128x128.size a
  inb_S128x128_S1x16_21_0 : ∀ a, (![21, 0] : Fin 2 → Nat) a + S1x16.size a ≤ S128x128.size a
  inb_S128x128_S1x16_21_16 : ∀ a, (![21, 16] : Fin 2 → Nat) a + S1x16.size a ≤ S128x128.size a
  inb_S128x128_S1x16_21_32 : ∀ a, (![21, 32] : Fin 2 → Nat) a + S1x16.size a ≤ S128x128.size a
  inb_S128x128_S1x16_21_48 : ∀ a, (![21, 48] : Fin 2 → Nat) a + S1x16.size a ≤ S128x128.size a
  inb_S128x128_S1x16_21_64 : ∀ a, (![21, 64] : Fin 2 → Nat) a + S1x16.size a ≤ S128x128.size a
  inb_S128x128_S1x16_21_80 : ∀ a, (![21, 80] : Fin 2 → Nat) a + S1x16.size a ≤ S128x128.size a
  inb_S128x128_S1x16_21_96 : ∀ a, (![21, 96] : Fin 2 → Nat) a + S1x16.size a ≤ S128x128.size a
  inb_S128x128_S1x16_21_112 : ∀ a, (![21, 112] : Fin 2 → Nat) a + S1x16.size a ≤ S128x128.size a
  inb_S128x128_S1x16_22_0 : ∀ a, (![22, 0] : Fin 2 → Nat) a + S1x16.size a ≤ S128x128.size a
  inb_S128x128_S1x16_22_16 : ∀ a, (![22, 16] : Fin 2 → Nat) a + S1x16.size a ≤ S128x128.size a
  inb_S128x128_S1x16_22_32 : ∀ a, (![22, 32] : Fin 2 → Nat) a + S1x16.size a ≤ S128x128.size a
  inb_S128x128_S1x16_22_48 : ∀ a, (![22, 48] : Fin 2 → Nat) a + S1x16.size a ≤ S128x128.size a
  inb_S128x128_S1x16_22_64 : ∀ a, (![22, 64] : Fin 2 → Nat) a + S1x16.size a ≤ S128x128.size a
  inb_S128x128_S1x16_22_80 : ∀ a, (![22, 80] : Fin 2 → Nat) a + S1x16.size a ≤ S128x128.size a
  inb_S128x128_S1x16_22_96 : ∀ a, (![22, 96] : Fin 2 → Nat) a + S1x16.size a ≤ S128x128.size a
  inb_S128x128_S1x16_22_112 : ∀ a, (![22, 112] : Fin 2 → Nat) a + S1x16.size a ≤ S128x128.size a
  inb_S128x128_S1x16_23_0 : ∀ a, (![23, 0] : Fin 2 → Nat) a + S1x16.size a ≤ S128x128.size a
  inb_S128x128_S1x16_23_16 : ∀ a, (![23, 16] : Fin 2 → Nat) a + S1x16.size a ≤ S128x128.size a
  inb_S128x128_S1x16_23_32 : ∀ a, (![23, 32] : Fin 2 → Nat) a + S1x16.size a ≤ S128x128.size a
  inb_S128x128_S1x16_23_48 : ∀ a, (![23, 48] : Fin 2 → Nat) a + S1x16.size a ≤ S128x128.size a
  inb_S128x128_S1x16_23_64 : ∀ a, (![23, 64] : Fin 2 → Nat) a + S1x16.size a ≤ S128x128.size a
  inb_S128x128_S1x16_23_80 : ∀ a, (![23, 80] : Fin 2 → Nat) a + S1x16.size a ≤ S128x128.size a
  inb_S128x128_S1x16_23_96 : ∀ a, (![23, 96] : Fin 2 → Nat) a + S1x16.size a ≤ S128x128.size a
  inb_S128x128_S1x16_23_112 : ∀ a, (![23, 112] : Fin 2 → Nat) a + S1x16.size a ≤ S128x128.size a
  inb_S128x128_S1x16_24_0 : ∀ a, (![24, 0] : Fin 2 → Nat) a + S1x16.size a ≤ S128x128.size a
  inb_S128x128_S1x16_24_16 : ∀ a, (![24, 16] : Fin 2 → Nat) a + S1x16.size a ≤ S128x128.size a
  inb_S128x128_S1x16_24_32 : ∀ a, (![24, 32] : Fin 2 → Nat) a + S1x16.size a ≤ S128x128.size a
  inb_S128x128_S1x16_24_48 : ∀ a, (![24, 48] : Fin 2 → Nat) a + S1x16.size a ≤ S128x128.size a
  inb_S128x128_S1x16_24_64 : ∀ a, (![24, 64] : Fin 2 → Nat) a + S1x16.size a ≤ S128x128.size a
  inb_S128x128_S1x16_24_80 : ∀ a, (![24, 80] : Fin 2 → Nat) a + S1x16.size a ≤ S128x128.size a
  inb_S128x128_S1x16_24_96 : ∀ a, (![24, 96] : Fin 2 → Nat) a + S1x16.size a ≤ S128x128.size a
  inb_S128x128_S1x16_24_112 : ∀ a, (![24, 112] : Fin 2 → Nat) a + S1x16.size a ≤ S128x128.size a
  inb_S128x128_S1x16_25_0 : ∀ a, (![25, 0] : Fin 2 → Nat) a + S1x16.size a ≤ S128x128.size a
  inb_S128x128_S1x16_25_16 : ∀ a, (![25, 16] : Fin 2 → Nat) a + S1x16.size a ≤ S128x128.size a
  inb_S128x128_S1x16_25_32 : ∀ a, (![25, 32] : Fin 2 → Nat) a + S1x16.size a ≤ S128x128.size a
  inb_S128x128_S1x16_25_48 : ∀ a, (![25, 48] : Fin 2 → Nat) a + S1x16.size a ≤ S128x128.size a
  inb_S128x128_S1x16_25_64 : ∀ a, (![25, 64] : Fin 2 → Nat) a + S1x16.size a ≤ S128x128.size a
  inb_S128x128_S1x16_25_80 : ∀ a, (![25, 80] : Fin 2 → Nat) a + S1x16.size a ≤ S128x128.size a
  inb_S128x128_S1x16_25_96 : ∀ a, (![25, 96] : Fin 2 → Nat) a + S1x16.size a ≤ S128x128.size a
  inb_S128x128_S1x16_25_112 : ∀ a, (![25, 112] : Fin 2 → Nat) a + S1x16.size a ≤ S128x128.size a
  inb_S128x128_S1x16_26_0 : ∀ a, (![26, 0] : Fin 2 → Nat) a + S1x16.size a ≤ S128x128.size a
  inb_S128x128_S1x16_26_16 : ∀ a, (![26, 16] : Fin 2 → Nat) a + S1x16.size a ≤ S128x128.size a
  inb_S128x128_S1x16_26_32 : ∀ a, (![26, 32] : Fin 2 → Nat) a + S1x16.size a ≤ S128x128.size a
  inb_S128x128_S1x16_26_48 : ∀ a, (![26, 48] : Fin 2 → Nat) a + S1x16.size a ≤ S128x128.size a
  inb_S128x128_S1x16_26_64 : ∀ a, (![26, 64] : Fin 2 → Nat) a + S1x16.size a ≤ S128x128.size a
  inb_S128x128_S1x16_26_80 : ∀ a, (![26, 80] : Fin 2 → Nat) a + S1x16.size a ≤ S128x128.size a
  inb_S128x128_S1x16_26_96 : ∀ a, (![26, 96] : Fin 2 → Nat) a + S1x16.size a ≤ S128x128.size a
  inb_S128x128_S1x16_26_112 : ∀ a, (![26, 112] : Fin 2 → Nat) a + S1x16.size a ≤ S128x128.size a
  inb_S128x128_S1x16_27_0 : ∀ a, (![27, 0] : Fin 2 → Nat) a + S1x16.size a ≤ S128x128.size a
  inb_S128x128_S1x16_27_16 : ∀ a, (![27, 16] : Fin 2 → Nat) a + S1x16.size a ≤ S128x128.size a
  inb_S128x128_S1x16_27_32 : ∀ a, (![27, 32] : Fin 2 → Nat) a + S1x16.size a ≤ S128x128.size a
  inb_S128x128_S1x16_27_48 : ∀ a, (![27, 48] : Fin 2 → Nat) a + S1x16.size a ≤ S128x128.size a
  inb_S128x128_S1x16_27_64 : ∀ a, (![27, 64] : Fin 2 → Nat) a + S1x16.size a ≤ S128x128.size a
  inb_S128x128_S1x16_27_80 : ∀ a, (![27, 80] : Fin 2 → Nat) a + S1x16.size a ≤ S128x128.size a
  inb_S128x128_S1x16_27_96 : ∀ a, (![27, 96] : Fin 2 → Nat) a + S1x16.size a ≤ S128x128.size a
  inb_S128x128_S1x16_27_112 : ∀ a, (![27, 112] : Fin 2 → Nat) a + S1x16.size a ≤ S128x128.size a
  inb_S128x128_S1x16_28_0 : ∀ a, (![28, 0] : Fin 2 → Nat) a + S1x16.size a ≤ S128x128.size a
  inb_S128x128_S1x16_28_16 : ∀ a, (![28, 16] : Fin 2 → Nat) a + S1x16.size a ≤ S128x128.size a
  inb_S128x128_S1x16_28_32 : ∀ a, (![28, 32] : Fin 2 → Nat) a + S1x16.size a ≤ S128x128.size a
  inb_S128x128_S1x16_28_48 : ∀ a, (![28, 48] : Fin 2 → Nat) a + S1x16.size a ≤ S128x128.size a
  inb_S128x128_S1x16_28_64 : ∀ a, (![28, 64] : Fin 2 → Nat) a + S1x16.size a ≤ S128x128.size a
  inb_S128x128_S1x16_28_80 : ∀ a, (![28, 80] : Fin 2 → Nat) a + S1x16.size a ≤ S128x128.size a
  inb_S128x128_S1x16_28_96 : ∀ a, (![28, 96] : Fin 2 → Nat) a + S1x16.size a ≤ S128x128.size a
  inb_S128x128_S1x16_28_112 : ∀ a, (![28, 112] : Fin 2 → Nat) a + S1x16.size a ≤ S128x128.size a
  inb_S128x128_S1x16_29_0 : ∀ a, (![29, 0] : Fin 2 → Nat) a + S1x16.size a ≤ S128x128.size a
  inb_S128x128_S1x16_29_16 : ∀ a, (![29, 16] : Fin 2 → Nat) a + S1x16.size a ≤ S128x128.size a
  inb_S128x128_S1x16_29_32 : ∀ a, (![29, 32] : Fin 2 → Nat) a + S1x16.size a ≤ S128x128.size a
  inb_S128x128_S1x16_29_48 : ∀ a, (![29, 48] : Fin 2 → Nat) a + S1x16.size a ≤ S128x128.size a
  inb_S128x128_S1x16_29_64 : ∀ a, (![29, 64] : Fin 2 → Nat) a + S1x16.size a ≤ S128x128.size a
  inb_S128x128_S1x16_29_80 : ∀ a, (![29, 80] : Fin 2 → Nat) a + S1x16.size a ≤ S128x128.size a
  inb_S128x128_S1x16_29_96 : ∀ a, (![29, 96] : Fin 2 → Nat) a + S1x16.size a ≤ S128x128.size a
  inb_S128x128_S1x16_29_112 : ∀ a, (![29, 112] : Fin 2 → Nat) a + S1x16.size a ≤ S128x128.size a
  inb_S128x128_S1x16_30_0 : ∀ a, (![30, 0] : Fin 2 → Nat) a + S1x16.size a ≤ S128x128.size a
  inb_S128x128_S1x16_30_16 : ∀ a, (![30, 16] : Fin 2 → Nat) a + S1x16.size a ≤ S128x128.size a
  inb_S128x128_S1x16_30_32 : ∀ a, (![30, 32] : Fin 2 → Nat) a + S1x16.size a ≤ S128x128.size a
  inb_S128x128_S1x16_30_48 : ∀ a, (![30, 48] : Fin 2 → Nat) a + S1x16.size a ≤ S128x128.size a
  inb_S128x128_S1x16_30_64 : ∀ a, (![30, 64] : Fin 2 → Nat) a + S1x16.size a ≤ S128x128.size a
  inb_S128x128_S1x16_30_80 : ∀ a, (![30, 80] : Fin 2 → Nat) a + S1x16.size a ≤ S128x128.size a
  inb_S128x128_S1x16_30_96 : ∀ a, (![30, 96] : Fin 2 → Nat) a + S1x16.size a ≤ S128x128.size a
  inb_S128x128_S1x16_30_112 : ∀ a, (![30, 112] : Fin 2 → Nat) a + S1x16.size a ≤ S128x128.size a
  inb_S128x128_S1x16_31_0 : ∀ a, (![31, 0] : Fin 2 → Nat) a + S1x16.size a ≤ S128x128.size a
  inb_S128x128_S1x16_31_16 : ∀ a, (![31, 16] : Fin 2 → Nat) a + S1x16.size a ≤ S128x128.size a
  inb_S128x128_S1x16_31_32 : ∀ a, (![31, 32] : Fin 2 → Nat) a + S1x16.size a ≤ S128x128.size a
  inb_S128x128_S1x16_31_48 : ∀ a, (![31, 48] : Fin 2 → Nat) a + S1x16.size a ≤ S128x128.size a
  inb_S128x128_S1x16_31_64 : ∀ a, (![31, 64] : Fin 2 → Nat) a + S1x16.size a ≤ S128x128.size a
  inb_S128x128_S1x16_31_80 : ∀ a, (![31, 80] : Fin 2 → Nat) a + S1x16.size a ≤ S128x128.size a
  inb_S128x128_S1x16_31_96 : ∀ a, (![31, 96] : Fin 2 → Nat) a + S1x16.size a ≤ S128x128.size a
  inb_S128x128_S1x16_31_112 : ∀ a, (![31, 112] : Fin 2 → Nat) a + S1x16.size a ≤ S128x128.size a
  inb_S128x128_S1x16_32_0 : ∀ a, (![32, 0] : Fin 2 → Nat) a + S1x16.size a ≤ S128x128.size a
  inb_S128x128_S1x16_32_16 : ∀ a, (![32, 16] : Fin 2 → Nat) a + S1x16.size a ≤ S128x128.size a
  inb_S128x128_S1x16_32_32 : ∀ a, (![32, 32] : Fin 2 → Nat) a + S1x16.size a ≤ S128x128.size a
  inb_S128x128_S1x16_32_48 : ∀ a, (![32, 48] : Fin 2 → Nat) a + S1x16.size a ≤ S128x128.size a
  inb_S128x128_S1x16_32_64 : ∀ a, (![32, 64] : Fin 2 → Nat) a + S1x16.size a ≤ S128x128.size a
  inb_S128x128_S1x16_32_80 : ∀ a, (![32, 80] : Fin 2 → Nat) a + S1x16.size a ≤ S128x128.size a
  inb_S128x128_S1x16_32_96 : ∀ a, (![32, 96] : Fin 2 → Nat) a + S1x16.size a ≤ S128x128.size a
  inb_S128x128_S1x16_32_112 : ∀ a, (![32, 112] : Fin 2 → Nat) a + S1x16.size a ≤ S128x128.size a
  inb_S128x128_S1x16_33_0 : ∀ a, (![33, 0] : Fin 2 → Nat) a + S1x16.size a ≤ S128x128.size a
  inb_S128x128_S1x16_33_16 : ∀ a, (![33, 16] : Fin 2 → Nat) a + S1x16.size a ≤ S128x128.size a
  inb_S128x128_S1x16_33_32 : ∀ a, (![33, 32] : Fin 2 → Nat) a + S1x16.size a ≤ S128x128.size a
  inb_S128x128_S1x16_33_48 : ∀ a, (![33, 48] : Fin 2 → Nat) a + S1x16.size a ≤ S128x128.size a
  inb_S128x128_S1x16_33_64 : ∀ a, (![33, 64] : Fin 2 → Nat) a + S1x16.size a ≤ S128x128.size a
  inb_S128x128_S1x16_33_80 : ∀ a, (![33, 80] : Fin 2 → Nat) a + S1x16.size a ≤ S128x128.size a
  inb_S128x128_S1x16_33_96 : ∀ a, (![33, 96] : Fin 2 → Nat) a + S1x16.size a ≤ S128x128.size a
  inb_S128x128_S1x16_33_112 : ∀ a, (![33, 112] : Fin 2 → Nat) a + S1x16.size a ≤ S128x128.size a
  inb_S128x128_S1x16_34_0 : ∀ a, (![34, 0] : Fin 2 → Nat) a + S1x16.size a ≤ S128x128.size a
  inb_S128x128_S1x16_34_16 : ∀ a, (![34, 16] : Fin 2 → Nat) a + S1x16.size a ≤ S128x128.size a
  inb_S128x128_S1x16_34_32 : ∀ a, (![34, 32] : Fin 2 → Nat) a + S1x16.size a ≤ S128x128.size a
  inb_S128x128_S1x16_34_48 : ∀ a, (![34, 48] : Fin 2 → Nat) a + S1x16.size a ≤ S128x128.size a
  inb_S128x128_S1x16_34_64 : ∀ a, (![34, 64] : Fin 2 → Nat) a + S1x16.size a ≤ S128x128.size a
  inb_S128x128_S1x16_34_80 : ∀ a, (![34, 80] : Fin 2 → Nat) a + S1x16.size a ≤ S128x128.size a
  inb_S128x128_S1x16_34_96 : ∀ a, (![34, 96] : Fin 2 → Nat) a + S1x16.size a ≤ S128x128.size a
  inb_S128x128_S1x16_34_112 : ∀ a, (![34, 112] : Fin 2 → Nat) a + S1x16.size a ≤ S128x128.size a
  inb_S128x128_S1x16_35_0 : ∀ a, (![35, 0] : Fin 2 → Nat) a + S1x16.size a ≤ S128x128.size a
  inb_S128x128_S1x16_35_16 : ∀ a, (![35, 16] : Fin 2 → Nat) a + S1x16.size a ≤ S128x128.size a
  inb_S128x128_S1x16_35_32 : ∀ a, (![35, 32] : Fin 2 → Nat) a + S1x16.size a ≤ S128x128.size a
  inb_S128x128_S1x16_35_48 : ∀ a, (![35, 48] : Fin 2 → Nat) a + S1x16.size a ≤ S128x128.size a
  inb_S128x128_S1x16_35_64 : ∀ a, (![35, 64] : Fin 2 → Nat) a + S1x16.size a ≤ S128x128.size a
  inb_S128x128_S1x16_35_80 : ∀ a, (![35, 80] : Fin 2 → Nat) a + S1x16.size a ≤ S128x128.size a
  inb_S128x128_S1x16_35_96 : ∀ a, (![35, 96] : Fin 2 → Nat) a + S1x16.size a ≤ S128x128.size a
  inb_S128x128_S1x16_35_112 : ∀ a, (![35, 112] : Fin 2 → Nat) a + S1x16.size a ≤ S128x128.size a
  inb_S128x128_S1x16_36_0 : ∀ a, (![36, 0] : Fin 2 → Nat) a + S1x16.size a ≤ S128x128.size a
  inb_S128x128_S1x16_36_16 : ∀ a, (![36, 16] : Fin 2 → Nat) a + S1x16.size a ≤ S128x128.size a
  inb_S128x128_S1x16_36_32 : ∀ a, (![36, 32] : Fin 2 → Nat) a + S1x16.size a ≤ S128x128.size a
  inb_S128x128_S1x16_36_48 : ∀ a, (![36, 48] : Fin 2 → Nat) a + S1x16.size a ≤ S128x128.size a
  inb_S128x128_S1x16_36_64 : ∀ a, (![36, 64] : Fin 2 → Nat) a + S1x16.size a ≤ S128x128.size a
  inb_S128x128_S1x16_36_80 : ∀ a, (![36, 80] : Fin 2 → Nat) a + S1x16.size a ≤ S128x128.size a
  inb_S128x128_S1x16_36_96 : ∀ a, (![36, 96] : Fin 2 → Nat) a + S1x16.size a ≤ S128x128.size a
  inb_S128x128_S1x16_36_112 : ∀ a, (![36, 112] : Fin 2 → Nat) a + S1x16.size a ≤ S128x128.size a
  inb_S128x128_S1x16_37_0 : ∀ a, (![37, 0] : Fin 2 → Nat) a + S1x16.size a ≤ S128x128.size a
  inb_S128x128_S1x16_37_16 : ∀ a, (![37, 16] : Fin 2 → Nat) a + S1x16.size a ≤ S128x128.size a
  inb_S128x128_S1x16_37_32 : ∀ a, (![37, 32] : Fin 2 → Nat) a + S1x16.size a ≤ S128x128.size a
  inb_S128x128_S1x16_37_48 : ∀ a, (![37, 48] : Fin 2 → Nat) a + S1x16.size a ≤ S128x128.size a
  inb_S128x128_S1x16_37_64 : ∀ a, (![37, 64] : Fin 2 → Nat) a + S1x16.size a ≤ S128x128.size a
  inb_S128x128_S1x16_37_80 : ∀ a, (![37, 80] : Fin 2 → Nat) a + S1x16.size a ≤ S128x128.size a
  inb_S128x128_S1x16_37_96 : ∀ a, (![37, 96] : Fin 2 → Nat) a + S1x16.size a ≤ S128x128.size a
  inb_S128x128_S1x16_37_112 : ∀ a, (![37, 112] : Fin 2 → Nat) a + S1x16.size a ≤ S128x128.size a
  inb_S128x128_S1x16_38_0 : ∀ a, (![38, 0] : Fin 2 → Nat) a + S1x16.size a ≤ S128x128.size a
  inb_S128x128_S1x16_38_16 : ∀ a, (![38, 16] : Fin 2 → Nat) a + S1x16.size a ≤ S128x128.size a
  inb_S128x128_S1x16_38_32 : ∀ a, (![38, 32] : Fin 2 → Nat) a + S1x16.size a ≤ S128x128.size a
  inb_S128x128_S1x16_38_48 : ∀ a, (![38, 48] : Fin 2 → Nat) a + S1x16.size a ≤ S128x128.size a
  inb_S128x128_S1x16_38_64 : ∀ a, (![38, 64] : Fin 2 → Nat) a + S1x16.size a ≤ S128x128.size a
  inb_S128x128_S1x16_38_80 : ∀ a, (![38, 80] : Fin 2 → Nat) a + S1x16.size a ≤ S128x128.size a
  inb_S128x128_S1x16_38_96 : ∀ a, (![38, 96] : Fin 2 → Nat) a + S1x16.size a ≤ S128x128.size a
  inb_S128x128_S1x16_38_112 : ∀ a, (![38, 112] : Fin 2 → Nat) a + S1x16.size a ≤ S128x128.size a
  inb_S128x128_S1x16_39_0 : ∀ a, (![39, 0] : Fin 2 → Nat) a + S1x16.size a ≤ S128x128.size a
  inb_S128x128_S1x16_39_16 : ∀ a, (![39, 16] : Fin 2 → Nat) a + S1x16.size a ≤ S128x128.size a
  inb_S128x128_S1x16_39_32 : ∀ a, (![39, 32] : Fin 2 → Nat) a + S1x16.size a ≤ S128x128.size a
  inb_S128x128_S1x16_39_48 : ∀ a, (![39, 48] : Fin 2 → Nat) a + S1x16.size a ≤ S128x128.size a
  inb_S128x128_S1x16_39_64 : ∀ a, (![39, 64] : Fin 2 → Nat) a + S1x16.size a ≤ S128x128.size a
  inb_S128x128_S1x16_39_80 : ∀ a, (![39, 80] : Fin 2 → Nat) a + S1x16.size a ≤ S128x128.size a
  inb_S128x128_S1x16_39_96 : ∀ a, (![39, 96] : Fin 2 → Nat) a + S1x16.size a ≤ S128x128.size a
  inb_S128x128_S1x16_39_112 : ∀ a, (![39, 112] : Fin 2 → Nat) a + S1x16.size a ≤ S128x128.size a
  inb_S128x128_S1x16_40_0 : ∀ a, (![40, 0] : Fin 2 → Nat) a + S1x16.size a ≤ S128x128.size a
  inb_S128x128_S1x16_40_16 : ∀ a, (![40, 16] : Fin 2 → Nat) a + S1x16.size a ≤ S128x128.size a
  inb_S128x128_S1x16_40_32 : ∀ a, (![40, 32] : Fin 2 → Nat) a + S1x16.size a ≤ S128x128.size a
  inb_S128x128_S1x16_40_48 : ∀ a, (![40, 48] : Fin 2 → Nat) a + S1x16.size a ≤ S128x128.size a
  inb_S128x128_S1x16_40_64 : ∀ a, (![40, 64] : Fin 2 → Nat) a + S1x16.size a ≤ S128x128.size a
  inb_S128x128_S1x16_40_80 : ∀ a, (![40, 80] : Fin 2 → Nat) a + S1x16.size a ≤ S128x128.size a
  inb_S128x128_S1x16_40_96 : ∀ a, (![40, 96] : Fin 2 → Nat) a + S1x16.size a ≤ S128x128.size a
  inb_S128x128_S1x16_40_112 : ∀ a, (![40, 112] : Fin 2 → Nat) a + S1x16.size a ≤ S128x128.size a
  inb_S128x128_S1x16_41_0 : ∀ a, (![41, 0] : Fin 2 → Nat) a + S1x16.size a ≤ S128x128.size a
  inb_S128x128_S1x16_41_16 : ∀ a, (![41, 16] : Fin 2 → Nat) a + S1x16.size a ≤ S128x128.size a
  inb_S128x128_S1x16_41_32 : ∀ a, (![41, 32] : Fin 2 → Nat) a + S1x16.size a ≤ S128x128.size a
  inb_S128x128_S1x16_41_48 : ∀ a, (![41, 48] : Fin 2 → Nat) a + S1x16.size a ≤ S128x128.size a
  inb_S128x128_S1x16_41_64 : ∀ a, (![41, 64] : Fin 2 → Nat) a + S1x16.size a ≤ S128x128.size a
  inb_S128x128_S1x16_41_80 : ∀ a, (![41, 80] : Fin 2 → Nat) a + S1x16.size a ≤ S128x128.size a
  inb_S128x128_S1x16_41_96 : ∀ a, (![41, 96] : Fin 2 → Nat) a + S1x16.size a ≤ S128x128.size a
  inb_S128x128_S1x16_41_112 : ∀ a, (![41, 112] : Fin 2 → Nat) a + S1x16.size a ≤ S128x128.size a
  inb_S128x128_S1x16_42_0 : ∀ a, (![42, 0] : Fin 2 → Nat) a + S1x16.size a ≤ S128x128.size a
  inb_S128x128_S1x16_42_16 : ∀ a, (![42, 16] : Fin 2 → Nat) a + S1x16.size a ≤ S128x128.size a
  inb_S128x128_S1x16_42_32 : ∀ a, (![42, 32] : Fin 2 → Nat) a + S1x16.size a ≤ S128x128.size a
  inb_S128x128_S1x16_42_48 : ∀ a, (![42, 48] : Fin 2 → Nat) a + S1x16.size a ≤ S128x128.size a
  inb_S128x128_S1x16_42_64 : ∀ a, (![42, 64] : Fin 2 → Nat) a + S1x16.size a ≤ S128x128.size a
  inb_S128x128_S1x16_42_80 : ∀ a, (![42, 80] : Fin 2 → Nat) a + S1x16.size a ≤ S128x128.size a
  inb_S128x128_S1x16_42_96 : ∀ a, (![42, 96] : Fin 2 → Nat) a + S1x16.size a ≤ S128x128.size a
  inb_S128x128_S1x16_42_112 : ∀ a, (![42, 112] : Fin 2 → Nat) a + S1x16.size a ≤ S128x128.size a
  inb_S128x128_S1x16_43_0 : ∀ a, (![43, 0] : Fin 2 → Nat) a + S1x16.size a ≤ S128x128.size a
  inb_S128x128_S1x16_43_16 : ∀ a, (![43, 16] : Fin 2 → Nat) a + S1x16.size a ≤ S128x128.size a
  inb_S128x128_S1x16_43_32 : ∀ a, (![43, 32] : Fin 2 → Nat) a + S1x16.size a ≤ S128x128.size a
  inb_S128x128_S1x16_43_48 : ∀ a, (![43, 48] : Fin 2 → Nat) a + S1x16.size a ≤ S128x128.size a
  inb_S128x128_S1x16_43_64 : ∀ a, (![43, 64] : Fin 2 → Nat) a + S1x16.size a ≤ S128x128.size a
  inb_S128x128_S1x16_43_80 : ∀ a, (![43, 80] : Fin 2 → Nat) a + S1x16.size a ≤ S128x128.size a
  inb_S128x128_S1x16_43_96 : ∀ a, (![43, 96] : Fin 2 → Nat) a + S1x16.size a ≤ S128x128.size a
  inb_S128x128_S1x16_43_112 : ∀ a, (![43, 112] : Fin 2 → Nat) a + S1x16.size a ≤ S128x128.size a
  inb_S128x128_S1x16_44_0 : ∀ a, (![44, 0] : Fin 2 → Nat) a + S1x16.size a ≤ S128x128.size a
  inb_S128x128_S1x16_44_16 : ∀ a, (![44, 16] : Fin 2 → Nat) a + S1x16.size a ≤ S128x128.size a
  inb_S128x128_S1x16_44_32 : ∀ a, (![44, 32] : Fin 2 → Nat) a + S1x16.size a ≤ S128x128.size a
  inb_S128x128_S1x16_44_48 : ∀ a, (![44, 48] : Fin 2 → Nat) a + S1x16.size a ≤ S128x128.size a
  inb_S128x128_S1x16_44_64 : ∀ a, (![44, 64] : Fin 2 → Nat) a + S1x16.size a ≤ S128x128.size a
  inb_S128x128_S1x16_44_80 : ∀ a, (![44, 80] : Fin 2 → Nat) a + S1x16.size a ≤ S128x128.size a
  inb_S128x128_S1x16_44_96 : ∀ a, (![44, 96] : Fin 2 → Nat) a + S1x16.size a ≤ S128x128.size a
  inb_S128x128_S1x16_44_112 : ∀ a, (![44, 112] : Fin 2 → Nat) a + S1x16.size a ≤ S128x128.size a
  inb_S128x128_S1x16_45_0 : ∀ a, (![45, 0] : Fin 2 → Nat) a + S1x16.size a ≤ S128x128.size a
  inb_S128x128_S1x16_45_16 : ∀ a, (![45, 16] : Fin 2 → Nat) a + S1x16.size a ≤ S128x128.size a
  inb_S128x128_S1x16_45_32 : ∀ a, (![45, 32] : Fin 2 → Nat) a + S1x16.size a ≤ S128x128.size a
  inb_S128x128_S1x16_45_48 : ∀ a, (![45, 48] : Fin 2 → Nat) a + S1x16.size a ≤ S128x128.size a
  inb_S128x128_S1x16_45_64 : ∀ a, (![45, 64] : Fin 2 → Nat) a + S1x16.size a ≤ S128x128.size a
  inb_S128x128_S1x16_45_80 : ∀ a, (![45, 80] : Fin 2 → Nat) a + S1x16.size a ≤ S128x128.size a
  inb_S128x128_S1x16_45_96 : ∀ a, (![45, 96] : Fin 2 → Nat) a + S1x16.size a ≤ S128x128.size a
  inb_S128x128_S1x16_45_112 : ∀ a, (![45, 112] : Fin 2 → Nat) a + S1x16.size a ≤ S128x128.size a
  inb_S128x128_S1x16_46_0 : ∀ a, (![46, 0] : Fin 2 → Nat) a + S1x16.size a ≤ S128x128.size a
  inb_S128x128_S1x16_46_16 : ∀ a, (![46, 16] : Fin 2 → Nat) a + S1x16.size a ≤ S128x128.size a
  inb_S128x128_S1x16_46_32 : ∀ a, (![46, 32] : Fin 2 → Nat) a + S1x16.size a ≤ S128x128.size a
  inb_S128x128_S1x16_46_48 : ∀ a, (![46, 48] : Fin 2 → Nat) a + S1x16.size a ≤ S128x128.size a
  inb_S128x128_S1x16_46_64 : ∀ a, (![46, 64] : Fin 2 → Nat) a + S1x16.size a ≤ S128x128.size a
  inb_S128x128_S1x16_46_80 : ∀ a, (![46, 80] : Fin 2 → Nat) a + S1x16.size a ≤ S128x128.size a
  inb_S128x128_S1x16_46_96 : ∀ a, (![46, 96] : Fin 2 → Nat) a + S1x16.size a ≤ S128x128.size a
  inb_S128x128_S1x16_46_112 : ∀ a, (![46, 112] : Fin 2 → Nat) a + S1x16.size a ≤ S128x128.size a
  inb_S128x128_S1x16_47_0 : ∀ a, (![47, 0] : Fin 2 → Nat) a + S1x16.size a ≤ S128x128.size a
  inb_S128x128_S1x16_47_16 : ∀ a, (![47, 16] : Fin 2 → Nat) a + S1x16.size a ≤ S128x128.size a
  inb_S128x128_S1x16_47_32 : ∀ a, (![47, 32] : Fin 2 → Nat) a + S1x16.size a ≤ S128x128.size a
  inb_S128x128_S1x16_47_48 : ∀ a, (![47, 48] : Fin 2 → Nat) a + S1x16.size a ≤ S128x128.size a
  inb_S128x128_S1x16_47_64 : ∀ a, (![47, 64] : Fin 2 → Nat) a + S1x16.size a ≤ S128x128.size a
  inb_S128x128_S1x16_47_80 : ∀ a, (![47, 80] : Fin 2 → Nat) a + S1x16.size a ≤ S128x128.size a
  inb_S128x128_S1x16_47_96 : ∀ a, (![47, 96] : Fin 2 → Nat) a + S1x16.size a ≤ S128x128.size a
  inb_S128x128_S1x16_47_112 : ∀ a, (![47, 112] : Fin 2 → Nat) a + S1x16.size a ≤ S128x128.size a
  inb_S128x128_S1x16_48_0 : ∀ a, (![48, 0] : Fin 2 → Nat) a + S1x16.size a ≤ S128x128.size a
  inb_S128x128_S1x16_48_16 : ∀ a, (![48, 16] : Fin 2 → Nat) a + S1x16.size a ≤ S128x128.size a
  inb_S128x128_S1x16_48_32 : ∀ a, (![48, 32] : Fin 2 → Nat) a + S1x16.size a ≤ S128x128.size a
  inb_S128x128_S1x16_48_48 : ∀ a, (![48, 48] : Fin 2 → Nat) a + S1x16.size a ≤ S128x128.size a
  inb_S128x128_S1x16_48_64 : ∀ a, (![48, 64] : Fin 2 → Nat) a + S1x16.size a ≤ S128x128.size a
  inb_S128x128_S1x16_48_80 : ∀ a, (![48, 80] : Fin 2 → Nat) a + S1x16.size a ≤ S128x128.size a
  inb_S128x128_S1x16_48_96 : ∀ a, (![48, 96] : Fin 2 → Nat) a + S1x16.size a ≤ S128x128.size a
  inb_S128x128_S1x16_48_112 : ∀ a, (![48, 112] : Fin 2 → Nat) a + S1x16.size a ≤ S128x128.size a
  inb_S128x128_S1x16_49_0 : ∀ a, (![49, 0] : Fin 2 → Nat) a + S1x16.size a ≤ S128x128.size a
  inb_S128x128_S1x16_49_16 : ∀ a, (![49, 16] : Fin 2 → Nat) a + S1x16.size a ≤ S128x128.size a
  inb_S128x128_S1x16_49_32 : ∀ a, (![49, 32] : Fin 2 → Nat) a + S1x16.size a ≤ S128x128.size a
  inb_S128x128_S1x16_49_48 : ∀ a, (![49, 48] : Fin 2 → Nat) a + S1x16.size a ≤ S128x128.size a
  inb_S128x128_S1x16_49_64 : ∀ a, (![49, 64] : Fin 2 → Nat) a + S1x16.size a ≤ S128x128.size a
  inb_S128x128_S1x16_49_80 : ∀ a, (![49, 80] : Fin 2 → Nat) a + S1x16.size a ≤ S128x128.size a
  inb_S128x128_S1x16_49_96 : ∀ a, (![49, 96] : Fin 2 → Nat) a + S1x16.size a ≤ S128x128.size a
  inb_S128x128_S1x16_49_112 : ∀ a, (![49, 112] : Fin 2 → Nat) a + S1x16.size a ≤ S128x128.size a
  inb_S128x128_S1x16_50_0 : ∀ a, (![50, 0] : Fin 2 → Nat) a + S1x16.size a ≤ S128x128.size a
  inb_S128x128_S1x16_50_16 : ∀ a, (![50, 16] : Fin 2 → Nat) a + S1x16.size a ≤ S128x128.size a
  inb_S128x128_S1x16_50_32 : ∀ a, (![50, 32] : Fin 2 → Nat) a + S1x16.size a ≤ S128x128.size a
  inb_S128x128_S1x16_50_48 : ∀ a, (![50, 48] : Fin 2 → Nat) a + S1x16.size a ≤ S128x128.size a
  inb_S128x128_S1x16_50_64 : ∀ a, (![50, 64] : Fin 2 → Nat) a + S1x16.size a ≤ S128x128.size a
  inb_S128x128_S1x16_50_80 : ∀ a, (![50, 80] : Fin 2 → Nat) a + S1x16.size a ≤ S128x128.size a
  inb_S128x128_S1x16_50_96 : ∀ a, (![50, 96] : Fin 2 → Nat) a + S1x16.size a ≤ S128x128.size a
  inb_S128x128_S1x16_50_112 : ∀ a, (![50, 112] : Fin 2 → Nat) a + S1x16.size a ≤ S128x128.size a
  inb_S128x128_S1x16_51_0 : ∀ a, (![51, 0] : Fin 2 → Nat) a + S1x16.size a ≤ S128x128.size a
  inb_S128x128_S1x16_51_16 : ∀ a, (![51, 16] : Fin 2 → Nat) a + S1x16.size a ≤ S128x128.size a
  inb_S128x128_S1x16_51_32 : ∀ a, (![51, 32] : Fin 2 → Nat) a + S1x16.size a ≤ S128x128.size a
  inb_S128x128_S1x16_51_48 : ∀ a, (![51, 48] : Fin 2 → Nat) a + S1x16.size a ≤ S128x128.size a
  inb_S128x128_S1x16_51_64 : ∀ a, (![51, 64] : Fin 2 → Nat) a + S1x16.size a ≤ S128x128.size a
  inb_S128x128_S1x16_51_80 : ∀ a, (![51, 80] : Fin 2 → Nat) a + S1x16.size a ≤ S128x128.size a
  inb_S128x128_S1x16_51_96 : ∀ a, (![51, 96] : Fin 2 → Nat) a + S1x16.size a ≤ S128x128.size a
  inb_S128x128_S1x16_51_112 : ∀ a, (![51, 112] : Fin 2 → Nat) a + S1x16.size a ≤ S128x128.size a
  inb_S128x128_S1x16_52_0 : ∀ a, (![52, 0] : Fin 2 → Nat) a + S1x16.size a ≤ S128x128.size a
  inb_S128x128_S1x16_52_16 : ∀ a, (![52, 16] : Fin 2 → Nat) a + S1x16.size a ≤ S128x128.size a
  inb_S128x128_S1x16_52_32 : ∀ a, (![52, 32] : Fin 2 → Nat) a + S1x16.size a ≤ S128x128.size a
  inb_S128x128_S1x16_52_48 : ∀ a, (![52, 48] : Fin 2 → Nat) a + S1x16.size a ≤ S128x128.size a
  inb_S128x128_S1x16_52_64 : ∀ a, (![52, 64] : Fin 2 → Nat) a + S1x16.size a ≤ S128x128.size a
  inb_S128x128_S1x16_52_80 : ∀ a, (![52, 80] : Fin 2 → Nat) a + S1x16.size a ≤ S128x128.size a
  inb_S128x128_S1x16_52_96 : ∀ a, (![52, 96] : Fin 2 → Nat) a + S1x16.size a ≤ S128x128.size a
  inb_S128x128_S1x16_52_112 : ∀ a, (![52, 112] : Fin 2 → Nat) a + S1x16.size a ≤ S128x128.size a
  inb_S128x128_S1x16_53_0 : ∀ a, (![53, 0] : Fin 2 → Nat) a + S1x16.size a ≤ S128x128.size a
  inb_S128x128_S1x16_53_16 : ∀ a, (![53, 16] : Fin 2 → Nat) a + S1x16.size a ≤ S128x128.size a
  inb_S128x128_S1x16_53_32 : ∀ a, (![53, 32] : Fin 2 → Nat) a + S1x16.size a ≤ S128x128.size a
  inb_S128x128_S1x16_53_48 : ∀ a, (![53, 48] : Fin 2 → Nat) a + S1x16.size a ≤ S128x128.size a
  inb_S128x128_S1x16_53_64 : ∀ a, (![53, 64] : Fin 2 → Nat) a + S1x16.size a ≤ S128x128.size a
  inb_S128x128_S1x16_53_80 : ∀ a, (![53, 80] : Fin 2 → Nat) a + S1x16.size a ≤ S128x128.size a
  inb_S128x128_S1x16_53_96 : ∀ a, (![53, 96] : Fin 2 → Nat) a + S1x16.size a ≤ S128x128.size a
  inb_S128x128_S1x16_53_112 : ∀ a, (![53, 112] : Fin 2 → Nat) a + S1x16.size a ≤ S128x128.size a
  inb_S128x128_S1x16_54_0 : ∀ a, (![54, 0] : Fin 2 → Nat) a + S1x16.size a ≤ S128x128.size a
  inb_S128x128_S1x16_54_16 : ∀ a, (![54, 16] : Fin 2 → Nat) a + S1x16.size a ≤ S128x128.size a
  inb_S128x128_S1x16_54_32 : ∀ a, (![54, 32] : Fin 2 → Nat) a + S1x16.size a ≤ S128x128.size a
  inb_S128x128_S1x16_54_48 : ∀ a, (![54, 48] : Fin 2 → Nat) a + S1x16.size a ≤ S128x128.size a
  inb_S128x128_S1x16_54_64 : ∀ a, (![54, 64] : Fin 2 → Nat) a + S1x16.size a ≤ S128x128.size a
  inb_S128x128_S1x16_54_80 : ∀ a, (![54, 80] : Fin 2 → Nat) a + S1x16.size a ≤ S128x128.size a
  inb_S128x128_S1x16_54_96 : ∀ a, (![54, 96] : Fin 2 → Nat) a + S1x16.size a ≤ S128x128.size a
  inb_S128x128_S1x16_54_112 : ∀ a, (![54, 112] : Fin 2 → Nat) a + S1x16.size a ≤ S128x128.size a
  inb_S128x128_S1x16_55_0 : ∀ a, (![55, 0] : Fin 2 → Nat) a + S1x16.size a ≤ S128x128.size a
  inb_S128x128_S1x16_55_16 : ∀ a, (![55, 16] : Fin 2 → Nat) a + S1x16.size a ≤ S128x128.size a
  inb_S128x128_S1x16_55_32 : ∀ a, (![55, 32] : Fin 2 → Nat) a + S1x16.size a ≤ S128x128.size a
  inb_S128x128_S1x16_55_48 : ∀ a, (![55, 48] : Fin 2 → Nat) a + S1x16.size a ≤ S128x128.size a
  inb_S128x128_S1x16_55_64 : ∀ a, (![55, 64] : Fin 2 → Nat) a + S1x16.size a ≤ S128x128.size a
  inb_S128x128_S1x16_55_80 : ∀ a, (![55, 80] : Fin 2 → Nat) a + S1x16.size a ≤ S128x128.size a
  inb_S128x128_S1x16_55_96 : ∀ a, (![55, 96] : Fin 2 → Nat) a + S1x16.size a ≤ S128x128.size a
  inb_S128x128_S1x16_55_112 : ∀ a, (![55, 112] : Fin 2 → Nat) a + S1x16.size a ≤ S128x128.size a
  inb_S128x128_S1x16_56_0 : ∀ a, (![56, 0] : Fin 2 → Nat) a + S1x16.size a ≤ S128x128.size a
  inb_S128x128_S1x16_56_16 : ∀ a, (![56, 16] : Fin 2 → Nat) a + S1x16.size a ≤ S128x128.size a
  inb_S128x128_S1x16_56_32 : ∀ a, (![56, 32] : Fin 2 → Nat) a + S1x16.size a ≤ S128x128.size a
  inb_S128x128_S1x16_56_48 : ∀ a, (![56, 48] : Fin 2 → Nat) a + S1x16.size a ≤ S128x128.size a
  inb_S128x128_S1x16_56_64 : ∀ a, (![56, 64] : Fin 2 → Nat) a + S1x16.size a ≤ S128x128.size a
  inb_S128x128_S1x16_56_80 : ∀ a, (![56, 80] : Fin 2 → Nat) a + S1x16.size a ≤ S128x128.size a
  inb_S128x128_S1x16_56_96 : ∀ a, (![56, 96] : Fin 2 → Nat) a + S1x16.size a ≤ S128x128.size a
  inb_S128x128_S1x16_56_112 : ∀ a, (![56, 112] : Fin 2 → Nat) a + S1x16.size a ≤ S128x128.size a
  inb_S128x128_S1x16_57_0 : ∀ a, (![57, 0] : Fin 2 → Nat) a + S1x16.size a ≤ S128x128.size a
  inb_S128x128_S1x16_57_16 : ∀ a, (![57, 16] : Fin 2 → Nat) a + S1x16.size a ≤ S128x128.size a
  inb_S128x128_S1x16_57_32 : ∀ a, (![57, 32] : Fin 2 → Nat) a + S1x16.size a ≤ S128x128.size a
  inb_S128x128_S1x16_57_48 : ∀ a, (![57, 48] : Fin 2 → Nat) a + S1x16.size a ≤ S128x128.size a
  inb_S128x128_S1x16_57_64 : ∀ a, (![57, 64] : Fin 2 → Nat) a + S1x16.size a ≤ S128x128.size a
  inb_S128x128_S1x16_57_80 : ∀ a, (![57, 80] : Fin 2 → Nat) a + S1x16.size a ≤ S128x128.size a
  inb_S128x128_S1x16_57_96 : ∀ a, (![57, 96] : Fin 2 → Nat) a + S1x16.size a ≤ S128x128.size a
  inb_S128x128_S1x16_57_112 : ∀ a, (![57, 112] : Fin 2 → Nat) a + S1x16.size a ≤ S128x128.size a
  inb_S128x128_S1x16_58_0 : ∀ a, (![58, 0] : Fin 2 → Nat) a + S1x16.size a ≤ S128x128.size a
  inb_S128x128_S1x16_58_16 : ∀ a, (![58, 16] : Fin 2 → Nat) a + S1x16.size a ≤ S128x128.size a
  inb_S128x128_S1x16_58_32 : ∀ a, (![58, 32] : Fin 2 → Nat) a + S1x16.size a ≤ S128x128.size a
  inb_S128x128_S1x16_58_48 : ∀ a, (![58, 48] : Fin 2 → Nat) a + S1x16.size a ≤ S128x128.size a
  inb_S128x128_S1x16_58_64 : ∀ a, (![58, 64] : Fin 2 → Nat) a + S1x16.size a ≤ S128x128.size a
  inb_S128x128_S1x16_58_80 : ∀ a, (![58, 80] : Fin 2 → Nat) a + S1x16.size a ≤ S128x128.size a
  inb_S128x128_S1x16_58_96 : ∀ a, (![58, 96] : Fin 2 → Nat) a + S1x16.size a ≤ S128x128.size a
  inb_S128x128_S1x16_58_112 : ∀ a, (![58, 112] : Fin 2 → Nat) a + S1x16.size a ≤ S128x128.size a
  inb_S128x128_S1x16_59_0 : ∀ a, (![59, 0] : Fin 2 → Nat) a + S1x16.size a ≤ S128x128.size a
  inb_S128x128_S1x16_59_16 : ∀ a, (![59, 16] : Fin 2 → Nat) a + S1x16.size a ≤ S128x128.size a
  inb_S128x128_S1x16_59_32 : ∀ a, (![59, 32] : Fin 2 → Nat) a + S1x16.size a ≤ S128x128.size a
  inb_S128x128_S1x16_59_48 : ∀ a, (![59, 48] : Fin 2 → Nat) a + S1x16.size a ≤ S128x128.size a
  inb_S128x128_S1x16_59_64 : ∀ a, (![59, 64] : Fin 2 → Nat) a + S1x16.size a ≤ S128x128.size a
  inb_S128x128_S1x16_59_80 : ∀ a, (![59, 80] : Fin 2 → Nat) a + S1x16.size a ≤ S128x128.size a
  inb_S128x128_S1x16_59_96 : ∀ a, (![59, 96] : Fin 2 → Nat) a + S1x16.size a ≤ S128x128.size a
  inb_S128x128_S1x16_59_112 : ∀ a, (![59, 112] : Fin 2 → Nat) a + S1x16.size a ≤ S128x128.size a
  inb_S128x128_S1x16_60_0 : ∀ a, (![60, 0] : Fin 2 → Nat) a + S1x16.size a ≤ S128x128.size a
  inb_S128x128_S1x16_60_16 : ∀ a, (![60, 16] : Fin 2 → Nat) a + S1x16.size a ≤ S128x128.size a
  inb_S128x128_S1x16_60_32 : ∀ a, (![60, 32] : Fin 2 → Nat) a + S1x16.size a ≤ S128x128.size a
  inb_S128x128_S1x16_60_48 : ∀ a, (![60, 48] : Fin 2 → Nat) a + S1x16.size a ≤ S128x128.size a
  inb_S128x128_S1x16_60_64 : ∀ a, (![60, 64] : Fin 2 → Nat) a + S1x16.size a ≤ S128x128.size a
  inb_S128x128_S1x16_60_80 : ∀ a, (![60, 80] : Fin 2 → Nat) a + S1x16.size a ≤ S128x128.size a
  inb_S128x128_S1x16_60_96 : ∀ a, (![60, 96] : Fin 2 → Nat) a + S1x16.size a ≤ S128x128.size a
  inb_S128x128_S1x16_60_112 : ∀ a, (![60, 112] : Fin 2 → Nat) a + S1x16.size a ≤ S128x128.size a
  inb_S128x128_S1x16_61_0 : ∀ a, (![61, 0] : Fin 2 → Nat) a + S1x16.size a ≤ S128x128.size a
  inb_S128x128_S1x16_61_16 : ∀ a, (![61, 16] : Fin 2 → Nat) a + S1x16.size a ≤ S128x128.size a
  inb_S128x128_S1x16_61_32 : ∀ a, (![61, 32] : Fin 2 → Nat) a + S1x16.size a ≤ S128x128.size a
  inb_S128x128_S1x16_61_48 : ∀ a, (![61, 48] : Fin 2 → Nat) a + S1x16.size a ≤ S128x128.size a
  inb_S128x128_S1x16_61_64 : ∀ a, (![61, 64] : Fin 2 → Nat) a + S1x16.size a ≤ S128x128.size a
  inb_S128x128_S1x16_61_80 : ∀ a, (![61, 80] : Fin 2 → Nat) a + S1x16.size a ≤ S128x128.size a
  inb_S128x128_S1x16_61_96 : ∀ a, (![61, 96] : Fin 2 → Nat) a + S1x16.size a ≤ S128x128.size a
  inb_S128x128_S1x16_61_112 : ∀ a, (![61, 112] : Fin 2 → Nat) a + S1x16.size a ≤ S128x128.size a
  inb_S128x128_S1x16_62_0 : ∀ a, (![62, 0] : Fin 2 → Nat) a + S1x16.size a ≤ S128x128.size a
  inb_S128x128_S1x16_62_16 : ∀ a, (![62, 16] : Fin 2 → Nat) a + S1x16.size a ≤ S128x128.size a
  inb_S128x128_S1x16_62_32 : ∀ a, (![62, 32] : Fin 2 → Nat) a + S1x16.size a ≤ S128x128.size a
  inb_S128x128_S1x16_62_48 : ∀ a, (![62, 48] : Fin 2 → Nat) a + S1x16.size a ≤ S128x128.size a
  inb_S128x128_S1x16_62_64 : ∀ a, (![62, 64] : Fin 2 → Nat) a + S1x16.size a ≤ S128x128.size a
  inb_S128x128_S1x16_62_80 : ∀ a, (![62, 80] : Fin 2 → Nat) a + S1x16.size a ≤ S128x128.size a
  inb_S128x128_S1x16_62_96 : ∀ a, (![62, 96] : Fin 2 → Nat) a + S1x16.size a ≤ S128x128.size a
  inb_S128x128_S1x16_62_112 : ∀ a, (![62, 112] : Fin 2 → Nat) a + S1x16.size a ≤ S128x128.size a
  inb_S128x128_S1x16_63_0 : ∀ a, (![63, 0] : Fin 2 → Nat) a + S1x16.size a ≤ S128x128.size a
  inb_S128x128_S1x16_63_16 : ∀ a, (![63, 16] : Fin 2 → Nat) a + S1x16.size a ≤ S128x128.size a
  inb_S128x128_S1x16_63_32 : ∀ a, (![63, 32] : Fin 2 → Nat) a + S1x16.size a ≤ S128x128.size a
  inb_S128x128_S1x16_63_48 : ∀ a, (![63, 48] : Fin 2 → Nat) a + S1x16.size a ≤ S128x128.size a
  inb_S128x128_S1x16_63_64 : ∀ a, (![63, 64] : Fin 2 → Nat) a + S1x16.size a ≤ S128x128.size a
  inb_S128x128_S1x16_63_80 : ∀ a, (![63, 80] : Fin 2 → Nat) a + S1x16.size a ≤ S128x128.size a
  inb_S128x128_S1x16_63_96 : ∀ a, (![63, 96] : Fin 2 → Nat) a + S1x16.size a ≤ S128x128.size a
  inb_S128x128_S1x16_63_112 : ∀ a, (![63, 112] : Fin 2 → Nat) a + S1x16.size a ≤ S128x128.size a
  inb_S128x128_S1x16_64_0 : ∀ a, (![64, 0] : Fin 2 → Nat) a + S1x16.size a ≤ S128x128.size a
  inb_S128x128_S1x16_64_16 : ∀ a, (![64, 16] : Fin 2 → Nat) a + S1x16.size a ≤ S128x128.size a
  inb_S128x128_S1x16_64_32 : ∀ a, (![64, 32] : Fin 2 → Nat) a + S1x16.size a ≤ S128x128.size a
  inb_S128x128_S1x16_64_48 : ∀ a, (![64, 48] : Fin 2 → Nat) a + S1x16.size a ≤ S128x128.size a
  inb_S128x128_S1x16_64_64 : ∀ a, (![64, 64] : Fin 2 → Nat) a + S1x16.size a ≤ S128x128.size a
  inb_S128x128_S1x16_64_80 : ∀ a, (![64, 80] : Fin 2 → Nat) a + S1x16.size a ≤ S128x128.size a
  inb_S128x128_S1x16_64_96 : ∀ a, (![64, 96] : Fin 2 → Nat) a + S1x16.size a ≤ S128x128.size a
  inb_S128x128_S1x16_64_112 : ∀ a, (![64, 112] : Fin 2 → Nat) a + S1x16.size a ≤ S128x128.size a
  inb_S128x128_S1x16_65_0 : ∀ a, (![65, 0] : Fin 2 → Nat) a + S1x16.size a ≤ S128x128.size a
  inb_S128x128_S1x16_65_16 : ∀ a, (![65, 16] : Fin 2 → Nat) a + S1x16.size a ≤ S128x128.size a
  inb_S128x128_S1x16_65_32 : ∀ a, (![65, 32] : Fin 2 → Nat) a + S1x16.size a ≤ S128x128.size a
  inb_S128x128_S1x16_65_48 : ∀ a, (![65, 48] : Fin 2 → Nat) a + S1x16.size a ≤ S128x128.size a
  inb_S128x128_S1x16_65_64 : ∀ a, (![65, 64] : Fin 2 → Nat) a + S1x16.size a ≤ S128x128.size a
  inb_S128x128_S1x16_65_80 : ∀ a, (![65, 80] : Fin 2 → Nat) a + S1x16.size a ≤ S128x128.size a
  inb_S128x128_S1x16_65_96 : ∀ a, (![65, 96] : Fin 2 → Nat) a + S1x16.size a ≤ S128x128.size a
  inb_S128x128_S1x16_65_112 : ∀ a, (![65, 112] : Fin 2 → Nat) a + S1x16.size a ≤ S128x128.size a
  inb_S128x128_S1x16_66_0 : ∀ a, (![66, 0] : Fin 2 → Nat) a + S1x16.size a ≤ S128x128.size a
  inb_S128x128_S1x16_66_16 : ∀ a, (![66, 16] : Fin 2 → Nat) a + S1x16.size a ≤ S128x128.size a
  inb_S128x128_S1x16_66_32 : ∀ a, (![66, 32] : Fin 2 → Nat) a + S1x16.size a ≤ S128x128.size a
  inb_S128x128_S1x16_66_48 : ∀ a, (![66, 48] : Fin 2 → Nat) a + S1x16.size a ≤ S128x128.size a
  inb_S128x128_S1x16_66_64 : ∀ a, (![66, 64] : Fin 2 → Nat) a + S1x16.size a ≤ S128x128.size a
  inb_S128x128_S1x16_66_80 : ∀ a, (![66, 80] : Fin 2 → Nat) a + S1x16.size a ≤ S128x128.size a
  inb_S128x128_S1x16_66_96 : ∀ a, (![66, 96] : Fin 2 → Nat) a + S1x16.size a ≤ S128x128.size a
  inb_S128x128_S1x16_66_112 : ∀ a, (![66, 112] : Fin 2 → Nat) a + S1x16.size a ≤ S128x128.size a
  inb_S128x128_S1x16_67_0 : ∀ a, (![67, 0] : Fin 2 → Nat) a + S1x16.size a ≤ S128x128.size a
  inb_S128x128_S1x16_67_16 : ∀ a, (![67, 16] : Fin 2 → Nat) a + S1x16.size a ≤ S128x128.size a
  inb_S128x128_S1x16_67_32 : ∀ a, (![67, 32] : Fin 2 → Nat) a + S1x16.size a ≤ S128x128.size a
  inb_S128x128_S1x16_67_48 : ∀ a, (![67, 48] : Fin 2 → Nat) a + S1x16.size a ≤ S128x128.size a
  inb_S128x128_S1x16_67_64 : ∀ a, (![67, 64] : Fin 2 → Nat) a + S1x16.size a ≤ S128x128.size a
  inb_S128x128_S1x16_67_80 : ∀ a, (![67, 80] : Fin 2 → Nat) a + S1x16.size a ≤ S128x128.size a
  inb_S128x128_S1x16_67_96 : ∀ a, (![67, 96] : Fin 2 → Nat) a + S1x16.size a ≤ S128x128.size a
  inb_S128x128_S1x16_67_112 : ∀ a, (![67, 112] : Fin 2 → Nat) a + S1x16.size a ≤ S128x128.size a
  inb_S128x128_S1x16_68_0 : ∀ a, (![68, 0] : Fin 2 → Nat) a + S1x16.size a ≤ S128x128.size a
  inb_S128x128_S1x16_68_16 : ∀ a, (![68, 16] : Fin 2 → Nat) a + S1x16.size a ≤ S128x128.size a
  inb_S128x128_S1x16_68_32 : ∀ a, (![68, 32] : Fin 2 → Nat) a + S1x16.size a ≤ S128x128.size a
  inb_S128x128_S1x16_68_48 : ∀ a, (![68, 48] : Fin 2 → Nat) a + S1x16.size a ≤ S128x128.size a
  inb_S128x128_S1x16_68_64 : ∀ a, (![68, 64] : Fin 2 → Nat) a + S1x16.size a ≤ S128x128.size a
  inb_S128x128_S1x16_68_80 : ∀ a, (![68, 80] : Fin 2 → Nat) a + S1x16.size a ≤ S128x128.size a
  inb_S128x128_S1x16_68_96 : ∀ a, (![68, 96] : Fin 2 → Nat) a + S1x16.size a ≤ S128x128.size a
  inb_S128x128_S1x16_68_112 : ∀ a, (![68, 112] : Fin 2 → Nat) a + S1x16.size a ≤ S128x128.size a
  inb_S128x128_S1x16_69_0 : ∀ a, (![69, 0] : Fin 2 → Nat) a + S1x16.size a ≤ S128x128.size a
  inb_S128x128_S1x16_69_16 : ∀ a, (![69, 16] : Fin 2 → Nat) a + S1x16.size a ≤ S128x128.size a
  inb_S128x128_S1x16_69_32 : ∀ a, (![69, 32] : Fin 2 → Nat) a + S1x16.size a ≤ S128x128.size a
  inb_S128x128_S1x16_69_48 : ∀ a, (![69, 48] : Fin 2 → Nat) a + S1x16.size a ≤ S128x128.size a
  inb_S128x128_S1x16_69_64 : ∀ a, (![69, 64] : Fin 2 → Nat) a + S1x16.size a ≤ S128x128.size a
  inb_S128x128_S1x16_69_80 : ∀ a, (![69, 80] : Fin 2 → Nat) a + S1x16.size a ≤ S128x128.size a
  inb_S128x128_S1x16_69_96 : ∀ a, (![69, 96] : Fin 2 → Nat) a + S1x16.size a ≤ S128x128.size a
  inb_S128x128_S1x16_69_112 : ∀ a, (![69, 112] : Fin 2 → Nat) a + S1x16.size a ≤ S128x128.size a
  inb_S128x128_S1x16_70_0 : ∀ a, (![70, 0] : Fin 2 → Nat) a + S1x16.size a ≤ S128x128.size a
  inb_S128x128_S1x16_70_16 : ∀ a, (![70, 16] : Fin 2 → Nat) a + S1x16.size a ≤ S128x128.size a
  inb_S128x128_S1x16_70_32 : ∀ a, (![70, 32] : Fin 2 → Nat) a + S1x16.size a ≤ S128x128.size a
  inb_S128x128_S1x16_70_48 : ∀ a, (![70, 48] : Fin 2 → Nat) a + S1x16.size a ≤ S128x128.size a
  inb_S128x128_S1x16_70_64 : ∀ a, (![70, 64] : Fin 2 → Nat) a + S1x16.size a ≤ S128x128.size a
  inb_S128x128_S1x16_70_80 : ∀ a, (![70, 80] : Fin 2 → Nat) a + S1x16.size a ≤ S128x128.size a
  inb_S128x128_S1x16_70_96 : ∀ a, (![70, 96] : Fin 2 → Nat) a + S1x16.size a ≤ S128x128.size a
  inb_S128x128_S1x16_70_112 : ∀ a, (![70, 112] : Fin 2 → Nat) a + S1x16.size a ≤ S128x128.size a
  inb_S128x128_S1x16_71_0 : ∀ a, (![71, 0] : Fin 2 → Nat) a + S1x16.size a ≤ S128x128.size a
  inb_S128x128_S1x16_71_16 : ∀ a, (![71, 16] : Fin 2 → Nat) a + S1x16.size a ≤ S128x128.size a
  inb_S128x128_S1x16_71_32 : ∀ a, (![71, 32] : Fin 2 → Nat) a + S1x16.size a ≤ S128x128.size a
  inb_S128x128_S1x16_71_48 : ∀ a, (![71, 48] : Fin 2 → Nat) a + S1x16.size a ≤ S128x128.size a
  inb_S128x128_S1x16_71_64 : ∀ a, (![71, 64] : Fin 2 → Nat) a + S1x16.size a ≤ S128x128.size a
  inb_S128x128_S1x16_71_80 : ∀ a, (![71, 80] : Fin 2 → Nat) a + S1x16.size a ≤ S128x128.size a
  inb_S128x128_S1x16_71_96 : ∀ a, (![71, 96] : Fin 2 → Nat) a + S1x16.size a ≤ S128x128.size a
  inb_S128x128_S1x16_71_112 : ∀ a, (![71, 112] : Fin 2 → Nat) a + S1x16.size a ≤ S128x128.size a
  inb_S128x128_S1x16_72_0 : ∀ a, (![72, 0] : Fin 2 → Nat) a + S1x16.size a ≤ S128x128.size a
  inb_S128x128_S1x16_72_16 : ∀ a, (![72, 16] : Fin 2 → Nat) a + S1x16.size a ≤ S128x128.size a
  inb_S128x128_S1x16_72_32 : ∀ a, (![72, 32] : Fin 2 → Nat) a + S1x16.size a ≤ S128x128.size a
  inb_S128x128_S1x16_72_48 : ∀ a, (![72, 48] : Fin 2 → Nat) a + S1x16.size a ≤ S128x128.size a
  inb_S128x128_S1x16_72_64 : ∀ a, (![72, 64] : Fin 2 → Nat) a + S1x16.size a ≤ S128x128.size a
  inb_S128x128_S1x16_72_80 : ∀ a, (![72, 80] : Fin 2 → Nat) a + S1x16.size a ≤ S128x128.size a
  inb_S128x128_S1x16_72_96 : ∀ a, (![72, 96] : Fin 2 → Nat) a + S1x16.size a ≤ S128x128.size a
  inb_S128x128_S1x16_72_112 : ∀ a, (![72, 112] : Fin 2 → Nat) a + S1x16.size a ≤ S128x128.size a
  inb_S128x128_S1x16_73_0 : ∀ a, (![73, 0] : Fin 2 → Nat) a + S1x16.size a ≤ S128x128.size a
  inb_S128x128_S1x16_73_16 : ∀ a, (![73, 16] : Fin 2 → Nat) a + S1x16.size a ≤ S128x128.size a
  inb_S128x128_S1x16_73_32 : ∀ a, (![73, 32] : Fin 2 → Nat) a + S1x16.size a ≤ S128x128.size a
  inb_S128x128_S1x16_73_48 : ∀ a, (![73, 48] : Fin 2 → Nat) a + S1x16.size a ≤ S128x128.size a
  inb_S128x128_S1x16_73_64 : ∀ a, (![73, 64] : Fin 2 → Nat) a + S1x16.size a ≤ S128x128.size a
  inb_S128x128_S1x16_73_80 : ∀ a, (![73, 80] : Fin 2 → Nat) a + S1x16.size a ≤ S128x128.size a
  inb_S128x128_S1x16_73_96 : ∀ a, (![73, 96] : Fin 2 → Nat) a + S1x16.size a ≤ S128x128.size a
  inb_S128x128_S1x16_73_112 : ∀ a, (![73, 112] : Fin 2 → Nat) a + S1x16.size a ≤ S128x128.size a
  inb_S128x128_S1x16_74_0 : ∀ a, (![74, 0] : Fin 2 → Nat) a + S1x16.size a ≤ S128x128.size a
  inb_S128x128_S1x16_74_16 : ∀ a, (![74, 16] : Fin 2 → Nat) a + S1x16.size a ≤ S128x128.size a
  inb_S128x128_S1x16_74_32 : ∀ a, (![74, 32] : Fin 2 → Nat) a + S1x16.size a ≤ S128x128.size a
  inb_S128x128_S1x16_74_48 : ∀ a, (![74, 48] : Fin 2 → Nat) a + S1x16.size a ≤ S128x128.size a
  inb_S128x128_S1x16_74_64 : ∀ a, (![74, 64] : Fin 2 → Nat) a + S1x16.size a ≤ S128x128.size a
  inb_S128x128_S1x16_74_80 : ∀ a, (![74, 80] : Fin 2 → Nat) a + S1x16.size a ≤ S128x128.size a
  inb_S128x128_S1x16_74_96 : ∀ a, (![74, 96] : Fin 2 → Nat) a + S1x16.size a ≤ S128x128.size a
  inb_S128x128_S1x16_74_112 : ∀ a, (![74, 112] : Fin 2 → Nat) a + S1x16.size a ≤ S128x128.size a
  inb_S128x128_S1x16_75_0 : ∀ a, (![75, 0] : Fin 2 → Nat) a + S1x16.size a ≤ S128x128.size a
  inb_S128x128_S1x16_75_16 : ∀ a, (![75, 16] : Fin 2 → Nat) a + S1x16.size a ≤ S128x128.size a
  inb_S128x128_S1x16_75_32 : ∀ a, (![75, 32] : Fin 2 → Nat) a + S1x16.size a ≤ S128x128.size a
  inb_S128x128_S1x16_75_48 : ∀ a, (![75, 48] : Fin 2 → Nat) a + S1x16.size a ≤ S128x128.size a
  inb_S128x128_S1x16_75_64 : ∀ a, (![75, 64] : Fin 2 → Nat) a + S1x16.size a ≤ S128x128.size a
  inb_S128x128_S1x16_75_80 : ∀ a, (![75, 80] : Fin 2 → Nat) a + S1x16.size a ≤ S128x128.size a
  inb_S128x128_S1x16_75_96 : ∀ a, (![75, 96] : Fin 2 → Nat) a + S1x16.size a ≤ S128x128.size a
  inb_S128x128_S1x16_75_112 : ∀ a, (![75, 112] : Fin 2 → Nat) a + S1x16.size a ≤ S128x128.size a
  inb_S128x128_S1x16_76_0 : ∀ a, (![76, 0] : Fin 2 → Nat) a + S1x16.size a ≤ S128x128.size a
  inb_S128x128_S1x16_76_16 : ∀ a, (![76, 16] : Fin 2 → Nat) a + S1x16.size a ≤ S128x128.size a
  inb_S128x128_S1x16_76_32 : ∀ a, (![76, 32] : Fin 2 → Nat) a + S1x16.size a ≤ S128x128.size a
  inb_S128x128_S1x16_76_48 : ∀ a, (![76, 48] : Fin 2 → Nat) a + S1x16.size a ≤ S128x128.size a
  inb_S128x128_S1x16_76_64 : ∀ a, (![76, 64] : Fin 2 → Nat) a + S1x16.size a ≤ S128x128.size a
  inb_S128x128_S1x16_76_80 : ∀ a, (![76, 80] : Fin 2 → Nat) a + S1x16.size a ≤ S128x128.size a
  inb_S128x128_S1x16_76_96 : ∀ a, (![76, 96] : Fin 2 → Nat) a + S1x16.size a ≤ S128x128.size a
  inb_S128x128_S1x16_76_112 : ∀ a, (![76, 112] : Fin 2 → Nat) a + S1x16.size a ≤ S128x128.size a
  inb_S128x128_S1x16_77_0 : ∀ a, (![77, 0] : Fin 2 → Nat) a + S1x16.size a ≤ S128x128.size a
  inb_S128x128_S1x16_77_16 : ∀ a, (![77, 16] : Fin 2 → Nat) a + S1x16.size a ≤ S128x128.size a
  inb_S128x128_S1x16_77_32 : ∀ a, (![77, 32] : Fin 2 → Nat) a + S1x16.size a ≤ S128x128.size a
  inb_S128x128_S1x16_77_48 : ∀ a, (![77, 48] : Fin 2 → Nat) a + S1x16.size a ≤ S128x128.size a
  inb_S128x128_S1x16_77_64 : ∀ a, (![77, 64] : Fin 2 → Nat) a + S1x16.size a ≤ S128x128.size a
  inb_S128x128_S1x16_77_80 : ∀ a, (![77, 80] : Fin 2 → Nat) a + S1x16.size a ≤ S128x128.size a
  inb_S128x128_S1x16_77_96 : ∀ a, (![77, 96] : Fin 2 → Nat) a + S1x16.size a ≤ S128x128.size a
  inb_S128x128_S1x16_77_112 : ∀ a, (![77, 112] : Fin 2 → Nat) a + S1x16.size a ≤ S128x128.size a
  inb_S128x128_S1x16_78_0 : ∀ a, (![78, 0] : Fin 2 → Nat) a + S1x16.size a ≤ S128x128.size a
  inb_S128x128_S1x16_78_16 : ∀ a, (![78, 16] : Fin 2 → Nat) a + S1x16.size a ≤ S128x128.size a
  inb_S128x128_S1x16_78_32 : ∀ a, (![78, 32] : Fin 2 → Nat) a + S1x16.size a ≤ S128x128.size a
  inb_S128x128_S1x16_78_48 : ∀ a, (![78, 48] : Fin 2 → Nat) a + S1x16.size a ≤ S128x128.size a
  inb_S128x128_S1x16_78_64 : ∀ a, (![78, 64] : Fin 2 → Nat) a + S1x16.size a ≤ S128x128.size a
  inb_S128x128_S1x16_78_80 : ∀ a, (![78, 80] : Fin 2 → Nat) a + S1x16.size a ≤ S128x128.size a
  inb_S128x128_S1x16_78_96 : ∀ a, (![78, 96] : Fin 2 → Nat) a + S1x16.size a ≤ S128x128.size a
  inb_S128x128_S1x16_78_112 : ∀ a, (![78, 112] : Fin 2 → Nat) a + S1x16.size a ≤ S128x128.size a
  inb_S128x128_S1x16_79_0 : ∀ a, (![79, 0] : Fin 2 → Nat) a + S1x16.size a ≤ S128x128.size a
  inb_S128x128_S1x16_79_16 : ∀ a, (![79, 16] : Fin 2 → Nat) a + S1x16.size a ≤ S128x128.size a
  inb_S128x128_S1x16_79_32 : ∀ a, (![79, 32] : Fin 2 → Nat) a + S1x16.size a ≤ S128x128.size a
  inb_S128x128_S1x16_79_48 : ∀ a, (![79, 48] : Fin 2 → Nat) a + S1x16.size a ≤ S128x128.size a
  inb_S128x128_S1x16_79_64 : ∀ a, (![79, 64] : Fin 2 → Nat) a + S1x16.size a ≤ S128x128.size a
  inb_S128x128_S1x16_79_80 : ∀ a, (![79, 80] : Fin 2 → Nat) a + S1x16.size a ≤ S128x128.size a
  inb_S128x128_S1x16_79_96 : ∀ a, (![79, 96] : Fin 2 → Nat) a + S1x16.size a ≤ S128x128.size a
  inb_S128x128_S1x16_79_112 : ∀ a, (![79, 112] : Fin 2 → Nat) a + S1x16.size a ≤ S128x128.size a
  inb_S128x128_S1x16_80_0 : ∀ a, (![80, 0] : Fin 2 → Nat) a + S1x16.size a ≤ S128x128.size a
  inb_S128x128_S1x16_80_16 : ∀ a, (![80, 16] : Fin 2 → Nat) a + S1x16.size a ≤ S128x128.size a
  inb_S128x128_S1x16_80_32 : ∀ a, (![80, 32] : Fin 2 → Nat) a + S1x16.size a ≤ S128x128.size a
  inb_S128x128_S1x16_80_48 : ∀ a, (![80, 48] : Fin 2 → Nat) a + S1x16.size a ≤ S128x128.size a
  inb_S128x128_S1x16_80_64 : ∀ a, (![80, 64] : Fin 2 → Nat) a + S1x16.size a ≤ S128x128.size a
  inb_S128x128_S1x16_80_80 : ∀ a, (![80, 80] : Fin 2 → Nat) a + S1x16.size a ≤ S128x128.size a
  inb_S128x128_S1x16_80_96 : ∀ a, (![80, 96] : Fin 2 → Nat) a + S1x16.size a ≤ S128x128.size a
  inb_S128x128_S1x16_80_112 : ∀ a, (![80, 112] : Fin 2 → Nat) a + S1x16.size a ≤ S128x128.size a
  inb_S128x128_S1x16_81_0 : ∀ a, (![81, 0] : Fin 2 → Nat) a + S1x16.size a ≤ S128x128.size a
  inb_S128x128_S1x16_81_16 : ∀ a, (![81, 16] : Fin 2 → Nat) a + S1x16.size a ≤ S128x128.size a
  inb_S128x128_S1x16_81_32 : ∀ a, (![81, 32] : Fin 2 → Nat) a + S1x16.size a ≤ S128x128.size a
  inb_S128x128_S1x16_81_48 : ∀ a, (![81, 48] : Fin 2 → Nat) a + S1x16.size a ≤ S128x128.size a
  inb_S128x128_S1x16_81_64 : ∀ a, (![81, 64] : Fin 2 → Nat) a + S1x16.size a ≤ S128x128.size a
  inb_S128x128_S1x16_81_80 : ∀ a, (![81, 80] : Fin 2 → Nat) a + S1x16.size a ≤ S128x128.size a
  inb_S128x128_S1x16_81_96 : ∀ a, (![81, 96] : Fin 2 → Nat) a + S1x16.size a ≤ S128x128.size a
  inb_S128x128_S1x16_81_112 : ∀ a, (![81, 112] : Fin 2 → Nat) a + S1x16.size a ≤ S128x128.size a
  inb_S128x128_S1x16_82_0 : ∀ a, (![82, 0] : Fin 2 → Nat) a + S1x16.size a ≤ S128x128.size a
  inb_S128x128_S1x16_82_16 : ∀ a, (![82, 16] : Fin 2 → Nat) a + S1x16.size a ≤ S128x128.size a
  inb_S128x128_S1x16_82_32 : ∀ a, (![82, 32] : Fin 2 → Nat) a + S1x16.size a ≤ S128x128.size a
  inb_S128x128_S1x16_82_48 : ∀ a, (![82, 48] : Fin 2 → Nat) a + S1x16.size a ≤ S128x128.size a
  inb_S128x128_S1x16_82_64 : ∀ a, (![82, 64] : Fin 2 → Nat) a + S1x16.size a ≤ S128x128.size a
  inb_S128x128_S1x16_82_80 : ∀ a, (![82, 80] : Fin 2 → Nat) a + S1x16.size a ≤ S128x128.size a
  inb_S128x128_S1x16_82_96 : ∀ a, (![82, 96] : Fin 2 → Nat) a + S1x16.size a ≤ S128x128.size a
  inb_S128x128_S1x16_82_112 : ∀ a, (![82, 112] : Fin 2 → Nat) a + S1x16.size a ≤ S128x128.size a
  inb_S128x128_S1x16_83_0 : ∀ a, (![83, 0] : Fin 2 → Nat) a + S1x16.size a ≤ S128x128.size a
  inb_S128x128_S1x16_83_16 : ∀ a, (![83, 16] : Fin 2 → Nat) a + S1x16.size a ≤ S128x128.size a
  inb_S128x128_S1x16_83_32 : ∀ a, (![83, 32] : Fin 2 → Nat) a + S1x16.size a ≤ S128x128.size a
  inb_S128x128_S1x16_83_48 : ∀ a, (![83, 48] : Fin 2 → Nat) a + S1x16.size a ≤ S128x128.size a
  inb_S128x128_S1x16_83_64 : ∀ a, (![83, 64] : Fin 2 → Nat) a + S1x16.size a ≤ S128x128.size a
  inb_S128x128_S1x16_83_80 : ∀ a, (![83, 80] : Fin 2 → Nat) a + S1x16.size a ≤ S128x128.size a
  inb_S128x128_S1x16_83_96 : ∀ a, (![83, 96] : Fin 2 → Nat) a + S1x16.size a ≤ S128x128.size a
  inb_S128x128_S1x16_83_112 : ∀ a, (![83, 112] : Fin 2 → Nat) a + S1x16.size a ≤ S128x128.size a
  inb_S128x128_S1x16_84_0 : ∀ a, (![84, 0] : Fin 2 → Nat) a + S1x16.size a ≤ S128x128.size a
  inb_S128x128_S1x16_84_16 : ∀ a, (![84, 16] : Fin 2 → Nat) a + S1x16.size a ≤ S128x128.size a
  inb_S128x128_S1x16_84_32 : ∀ a, (![84, 32] : Fin 2 → Nat) a + S1x16.size a ≤ S128x128.size a
  inb_S128x128_S1x16_84_48 : ∀ a, (![84, 48] : Fin 2 → Nat) a + S1x16.size a ≤ S128x128.size a
  inb_S128x128_S1x16_84_64 : ∀ a, (![84, 64] : Fin 2 → Nat) a + S1x16.size a ≤ S128x128.size a
  inb_S128x128_S1x16_84_80 : ∀ a, (![84, 80] : Fin 2 → Nat) a + S1x16.size a ≤ S128x128.size a
  inb_S128x128_S1x16_84_96 : ∀ a, (![84, 96] : Fin 2 → Nat) a + S1x16.size a ≤ S128x128.size a
  inb_S128x128_S1x16_84_112 : ∀ a, (![84, 112] : Fin 2 → Nat) a + S1x16.size a ≤ S128x128.size a
  inb_S128x128_S1x16_85_0 : ∀ a, (![85, 0] : Fin 2 → Nat) a + S1x16.size a ≤ S128x128.size a
  inb_S128x128_S1x16_85_16 : ∀ a, (![85, 16] : Fin 2 → Nat) a + S1x16.size a ≤ S128x128.size a
  inb_S128x128_S1x16_85_32 : ∀ a, (![85, 32] : Fin 2 → Nat) a + S1x16.size a ≤ S128x128.size a
  inb_S128x128_S1x16_85_48 : ∀ a, (![85, 48] : Fin 2 → Nat) a + S1x16.size a ≤ S128x128.size a
  inb_S128x128_S1x16_85_64 : ∀ a, (![85, 64] : Fin 2 → Nat) a + S1x16.size a ≤ S128x128.size a
  inb_S128x128_S1x16_85_80 : ∀ a, (![85, 80] : Fin 2 → Nat) a + S1x16.size a ≤ S128x128.size a
  inb_S128x128_S1x16_85_96 : ∀ a, (![85, 96] : Fin 2 → Nat) a + S1x16.size a ≤ S128x128.size a
  inb_S128x128_S1x16_85_112 : ∀ a, (![85, 112] : Fin 2 → Nat) a + S1x16.size a ≤ S128x128.size a
  inb_S128x128_S1x16_86_0 : ∀ a, (![86, 0] : Fin 2 → Nat) a + S1x16.size a ≤ S128x128.size a
  inb_S128x128_S1x16_86_16 : ∀ a, (![86, 16] : Fin 2 → Nat) a + S1x16.size a ≤ S128x128.size a
  inb_S128x128_S1x16_86_32 : ∀ a, (![86, 32] : Fin 2 → Nat) a + S1x16.size a ≤ S128x128.size a
  inb_S128x128_S1x16_86_48 : ∀ a, (![86, 48] : Fin 2 → Nat) a + S1x16.size a ≤ S128x128.size a
  inb_S128x128_S1x16_86_64 : ∀ a, (![86, 64] : Fin 2 → Nat) a + S1x16.size a ≤ S128x128.size a
  inb_S128x128_S1x16_86_80 : ∀ a, (![86, 80] : Fin 2 → Nat) a + S1x16.size a ≤ S128x128.size a
  inb_S128x128_S1x16_86_96 : ∀ a, (![86, 96] : Fin 2 → Nat) a + S1x16.size a ≤ S128x128.size a
  inb_S128x128_S1x16_86_112 : ∀ a, (![86, 112] : Fin 2 → Nat) a + S1x16.size a ≤ S128x128.size a
  inb_S128x128_S1x16_87_0 : ∀ a, (![87, 0] : Fin 2 → Nat) a + S1x16.size a ≤ S128x128.size a
  inb_S128x128_S1x16_87_16 : ∀ a, (![87, 16] : Fin 2 → Nat) a + S1x16.size a ≤ S128x128.size a
  inb_S128x128_S1x16_87_32 : ∀ a, (![87, 32] : Fin 2 → Nat) a + S1x16.size a ≤ S128x128.size a
  inb_S128x128_S1x16_87_48 : ∀ a, (![87, 48] : Fin 2 → Nat) a + S1x16.size a ≤ S128x128.size a
  inb_S128x128_S1x16_87_64 : ∀ a, (![87, 64] : Fin 2 → Nat) a + S1x16.size a ≤ S128x128.size a
  inb_S128x128_S1x16_87_80 : ∀ a, (![87, 80] : Fin 2 → Nat) a + S1x16.size a ≤ S128x128.size a
  inb_S128x128_S1x16_87_96 : ∀ a, (![87, 96] : Fin 2 → Nat) a + S1x16.size a ≤ S128x128.size a
  inb_S128x128_S1x16_87_112 : ∀ a, (![87, 112] : Fin 2 → Nat) a + S1x16.size a ≤ S128x128.size a
  inb_S128x128_S1x16_88_0 : ∀ a, (![88, 0] : Fin 2 → Nat) a + S1x16.size a ≤ S128x128.size a
  inb_S128x128_S1x16_88_16 : ∀ a, (![88, 16] : Fin 2 → Nat) a + S1x16.size a ≤ S128x128.size a
  inb_S128x128_S1x16_88_32 : ∀ a, (![88, 32] : Fin 2 → Nat) a + S1x16.size a ≤ S128x128.size a
  inb_S128x128_S1x16_88_48 : ∀ a, (![88, 48] : Fin 2 → Nat) a + S1x16.size a ≤ S128x128.size a
  inb_S128x128_S1x16_88_64 : ∀ a, (![88, 64] : Fin 2 → Nat) a + S1x16.size a ≤ S128x128.size a
  inb_S128x128_S1x16_88_80 : ∀ a, (![88, 80] : Fin 2 → Nat) a + S1x16.size a ≤ S128x128.size a
  inb_S128x128_S1x16_88_96 : ∀ a, (![88, 96] : Fin 2 → Nat) a + S1x16.size a ≤ S128x128.size a
  inb_S128x128_S1x16_88_112 : ∀ a, (![88, 112] : Fin 2 → Nat) a + S1x16.size a ≤ S128x128.size a
  inb_S128x128_S1x16_89_0 : ∀ a, (![89, 0] : Fin 2 → Nat) a + S1x16.size a ≤ S128x128.size a
  inb_S128x128_S1x16_89_16 : ∀ a, (![89, 16] : Fin 2 → Nat) a + S1x16.size a ≤ S128x128.size a
  inb_S128x128_S1x16_89_32 : ∀ a, (![89, 32] : Fin 2 → Nat) a + S1x16.size a ≤ S128x128.size a
  inb_S128x128_S1x16_89_48 : ∀ a, (![89, 48] : Fin 2 → Nat) a + S1x16.size a ≤ S128x128.size a
  inb_S128x128_S1x16_89_64 : ∀ a, (![89, 64] : Fin 2 → Nat) a + S1x16.size a ≤ S128x128.size a
  inb_S128x128_S1x16_89_80 : ∀ a, (![89, 80] : Fin 2 → Nat) a + S1x16.size a ≤ S128x128.size a
  inb_S128x128_S1x16_89_96 : ∀ a, (![89, 96] : Fin 2 → Nat) a + S1x16.size a ≤ S128x128.size a
  inb_S128x128_S1x16_89_112 : ∀ a, (![89, 112] : Fin 2 → Nat) a + S1x16.size a ≤ S128x128.size a
  inb_S128x128_S1x16_90_0 : ∀ a, (![90, 0] : Fin 2 → Nat) a + S1x16.size a ≤ S128x128.size a
  inb_S128x128_S1x16_90_16 : ∀ a, (![90, 16] : Fin 2 → Nat) a + S1x16.size a ≤ S128x128.size a
  inb_S128x128_S1x16_90_32 : ∀ a, (![90, 32] : Fin 2 → Nat) a + S1x16.size a ≤ S128x128.size a
  inb_S128x128_S1x16_90_48 : ∀ a, (![90, 48] : Fin 2 → Nat) a + S1x16.size a ≤ S128x128.size a
  inb_S128x128_S1x16_90_64 : ∀ a, (![90, 64] : Fin 2 → Nat) a + S1x16.size a ≤ S128x128.size a
  inb_S128x128_S1x16_90_80 : ∀ a, (![90, 80] : Fin 2 → Nat) a + S1x16.size a ≤ S128x128.size a
  inb_S128x128_S1x16_90_96 : ∀ a, (![90, 96] : Fin 2 → Nat) a + S1x16.size a ≤ S128x128.size a
  inb_S128x128_S1x16_90_112 : ∀ a, (![90, 112] : Fin 2 → Nat) a + S1x16.size a ≤ S128x128.size a
  inb_S128x128_S1x16_91_0 : ∀ a, (![91, 0] : Fin 2 → Nat) a + S1x16.size a ≤ S128x128.size a
  inb_S128x128_S1x16_91_16 : ∀ a, (![91, 16] : Fin 2 → Nat) a + S1x16.size a ≤ S128x128.size a
  inb_S128x128_S1x16_91_32 : ∀ a, (![91, 32] : Fin 2 → Nat) a + S1x16.size a ≤ S128x128.size a
  inb_S128x128_S1x16_91_48 : ∀ a, (![91, 48] : Fin 2 → Nat) a + S1x16.size a ≤ S128x128.size a
  inb_S128x128_S1x16_91_64 : ∀ a, (![91, 64] : Fin 2 → Nat) a + S1x16.size a ≤ S128x128.size a
  inb_S128x128_S1x16_91_80 : ∀ a, (![91, 80] : Fin 2 → Nat) a + S1x16.size a ≤ S128x128.size a
  inb_S128x128_S1x16_91_96 : ∀ a, (![91, 96] : Fin 2 → Nat) a + S1x16.size a ≤ S128x128.size a
  inb_S128x128_S1x16_91_112 : ∀ a, (![91, 112] : Fin 2 → Nat) a + S1x16.size a ≤ S128x128.size a
  inb_S128x128_S1x16_92_0 : ∀ a, (![92, 0] : Fin 2 → Nat) a + S1x16.size a ≤ S128x128.size a
  inb_S128x128_S1x16_92_16 : ∀ a, (![92, 16] : Fin 2 → Nat) a + S1x16.size a ≤ S128x128.size a
  inb_S128x128_S1x16_92_32 : ∀ a, (![92, 32] : Fin 2 → Nat) a + S1x16.size a ≤ S128x128.size a
  inb_S128x128_S1x16_92_48 : ∀ a, (![92, 48] : Fin 2 → Nat) a + S1x16.size a ≤ S128x128.size a
  inb_S128x128_S1x16_92_64 : ∀ a, (![92, 64] : Fin 2 → Nat) a + S1x16.size a ≤ S128x128.size a
  inb_S128x128_S1x16_92_80 : ∀ a, (![92, 80] : Fin 2 → Nat) a + S1x16.size a ≤ S128x128.size a
  inb_S128x128_S1x16_92_96 : ∀ a, (![92, 96] : Fin 2 → Nat) a + S1x16.size a ≤ S128x128.size a
  inb_S128x128_S1x16_92_112 : ∀ a, (![92, 112] : Fin 2 → Nat) a + S1x16.size a ≤ S128x128.size a
  inb_S128x128_S1x16_93_0 : ∀ a, (![93, 0] : Fin 2 → Nat) a + S1x16.size a ≤ S128x128.size a
  inb_S128x128_S1x16_93_16 : ∀ a, (![93, 16] : Fin 2 → Nat) a + S1x16.size a ≤ S128x128.size a
  inb_S128x128_S1x16_93_32 : ∀ a, (![93, 32] : Fin 2 → Nat) a + S1x16.size a ≤ S128x128.size a
  inb_S128x128_S1x16_93_48 : ∀ a, (![93, 48] : Fin 2 → Nat) a + S1x16.size a ≤ S128x128.size a
  inb_S128x128_S1x16_93_64 : ∀ a, (![93, 64] : Fin 2 → Nat) a + S1x16.size a ≤ S128x128.size a
  inb_S128x128_S1x16_93_80 : ∀ a, (![93, 80] : Fin 2 → Nat) a + S1x16.size a ≤ S128x128.size a
  inb_S128x128_S1x16_93_96 : ∀ a, (![93, 96] : Fin 2 → Nat) a + S1x16.size a ≤ S128x128.size a
  inb_S128x128_S1x16_93_112 : ∀ a, (![93, 112] : Fin 2 → Nat) a + S1x16.size a ≤ S128x128.size a
  inb_S128x128_S1x16_94_0 : ∀ a, (![94, 0] : Fin 2 → Nat) a + S1x16.size a ≤ S128x128.size a
  inb_S128x128_S1x16_94_16 : ∀ a, (![94, 16] : Fin 2 → Nat) a + S1x16.size a ≤ S128x128.size a
  inb_S128x128_S1x16_94_32 : ∀ a, (![94, 32] : Fin 2 → Nat) a + S1x16.size a ≤ S128x128.size a
  inb_S128x128_S1x16_94_48 : ∀ a, (![94, 48] : Fin 2 → Nat) a + S1x16.size a ≤ S128x128.size a
  inb_S128x128_S1x16_94_64 : ∀ a, (![94, 64] : Fin 2 → Nat) a + S1x16.size a ≤ S128x128.size a
  inb_S128x128_S1x16_94_80 : ∀ a, (![94, 80] : Fin 2 → Nat) a + S1x16.size a ≤ S128x128.size a
  inb_S128x128_S1x16_94_96 : ∀ a, (![94, 96] : Fin 2 → Nat) a + S1x16.size a ≤ S128x128.size a
  inb_S128x128_S1x16_94_112 : ∀ a, (![94, 112] : Fin 2 → Nat) a + S1x16.size a ≤ S128x128.size a
  inb_S128x128_S1x16_95_0 : ∀ a, (![95, 0] : Fin 2 → Nat) a + S1x16.size a ≤ S128x128.size a
  inb_S128x128_S1x16_95_16 : ∀ a, (![95, 16] : Fin 2 → Nat) a + S1x16.size a ≤ S128x128.size a
  inb_S128x128_S1x16_95_32 : ∀ a, (![95, 32] : Fin 2 → Nat) a + S1x16.size a ≤ S128x128.size a
  inb_S128x128_S1x16_95_48 : ∀ a, (![95, 48] : Fin 2 → Nat) a + S1x16.size a ≤ S128x128.size a
  inb_S128x128_S1x16_95_64 : ∀ a, (![95, 64] : Fin 2 → Nat) a + S1x16.size a ≤ S128x128.size a
  inb_S128x128_S1x16_95_80 : ∀ a, (![95, 80] : Fin 2 → Nat) a + S1x16.size a ≤ S128x128.size a
  inb_S128x128_S1x16_95_96 : ∀ a, (![95, 96] : Fin 2 → Nat) a + S1x16.size a ≤ S128x128.size a
  inb_S128x128_S1x16_95_112 : ∀ a, (![95, 112] : Fin 2 → Nat) a + S1x16.size a ≤ S128x128.size a
  inb_S128x128_S1x16_96_0 : ∀ a, (![96, 0] : Fin 2 → Nat) a + S1x16.size a ≤ S128x128.size a
  inb_S128x128_S1x16_96_16 : ∀ a, (![96, 16] : Fin 2 → Nat) a + S1x16.size a ≤ S128x128.size a
  inb_S128x128_S1x16_96_32 : ∀ a, (![96, 32] : Fin 2 → Nat) a + S1x16.size a ≤ S128x128.size a
  inb_S128x128_S1x16_96_48 : ∀ a, (![96, 48] : Fin 2 → Nat) a + S1x16.size a ≤ S128x128.size a
  inb_S128x128_S1x16_96_64 : ∀ a, (![96, 64] : Fin 2 → Nat) a + S1x16.size a ≤ S128x128.size a
  inb_S128x128_S1x16_96_80 : ∀ a, (![96, 80] : Fin 2 → Nat) a + S1x16.size a ≤ S128x128.size a
  inb_S128x128_S1x16_96_96 : ∀ a, (![96, 96] : Fin 2 → Nat) a + S1x16.size a ≤ S128x128.size a
  inb_S128x128_S1x16_96_112 : ∀ a, (![96, 112] : Fin 2 → Nat) a + S1x16.size a ≤ S128x128.size a
  inb_S128x128_S1x16_97_0 : ∀ a, (![97, 0] : Fin 2 → Nat) a + S1x16.size a ≤ S128x128.size a
  inb_S128x128_S1x16_97_16 : ∀ a, (![97, 16] : Fin 2 → Nat) a + S1x16.size a ≤ S128x128.size a
  inb_S128x128_S1x16_97_32 : ∀ a, (![97, 32] : Fin 2 → Nat) a + S1x16.size a ≤ S128x128.size a
  inb_S128x128_S1x16_97_48 : ∀ a, (![97, 48] : Fin 2 → Nat) a + S1x16.size a ≤ S128x128.size a
  inb_S128x128_S1x16_97_64 : ∀ a, (![97, 64] : Fin 2 → Nat) a + S1x16.size a ≤ S128x128.size a
  inb_S128x128_S1x16_97_80 : ∀ a, (![97, 80] : Fin 2 → Nat) a + S1x16.size a ≤ S128x128.size a
  inb_S128x128_S1x16_97_96 : ∀ a, (![97, 96] : Fin 2 → Nat) a + S1x16.size a ≤ S128x128.size a
  inb_S128x128_S1x16_97_112 : ∀ a, (![97, 112] : Fin 2 → Nat) a + S1x16.size a ≤ S128x128.size a
  inb_S128x128_S1x16_98_0 : ∀ a, (![98, 0] : Fin 2 → Nat) a + S1x16.size a ≤ S128x128.size a
  inb_S128x128_S1x16_98_16 : ∀ a, (![98, 16] : Fin 2 → Nat) a + S1x16.size a ≤ S128x128.size a
  inb_S128x128_S1x16_98_32 : ∀ a, (![98, 32] : Fin 2 → Nat) a + S1x16.size a ≤ S128x128.size a
  inb_S128x128_S1x16_98_48 : ∀ a, (![98, 48] : Fin 2 → Nat) a + S1x16.size a ≤ S128x128.size a
  inb_S128x128_S1x16_98_64 : ∀ a, (![98, 64] : Fin 2 → Nat) a + S1x16.size a ≤ S128x128.size a
  inb_S128x128_S1x16_98_80 : ∀ a, (![98, 80] : Fin 2 → Nat) a + S1x16.size a ≤ S128x128.size a
  inb_S128x128_S1x16_98_96 : ∀ a, (![98, 96] : Fin 2 → Nat) a + S1x16.size a ≤ S128x128.size a
  inb_S128x128_S1x16_98_112 : ∀ a, (![98, 112] : Fin 2 → Nat) a + S1x16.size a ≤ S128x128.size a
  inb_S128x128_S1x16_99_0 : ∀ a, (![99, 0] : Fin 2 → Nat) a + S1x16.size a ≤ S128x128.size a
  inb_S128x128_S1x16_99_16 : ∀ a, (![99, 16] : Fin 2 → Nat) a + S1x16.size a ≤ S128x128.size a
  inb_S128x128_S1x16_99_32 : ∀ a, (![99, 32] : Fin 2 → Nat) a + S1x16.size a ≤ S128x128.size a
  inb_S128x128_S1x16_99_48 : ∀ a, (![99, 48] : Fin 2 → Nat) a + S1x16.size a ≤ S128x128.size a
  inb_S128x128_S1x16_99_64 : ∀ a, (![99, 64] : Fin 2 → Nat) a + S1x16.size a ≤ S128x128.size a
  inb_S128x128_S1x16_99_80 : ∀ a, (![99, 80] : Fin 2 → Nat) a + S1x16.size a ≤ S128x128.size a
  inb_S128x128_S1x16_99_96 : ∀ a, (![99, 96] : Fin 2 → Nat) a + S1x16.size a ≤ S128x128.size a
  inb_S128x128_S1x16_99_112 : ∀ a, (![99, 112] : Fin 2 → Nat) a + S1x16.size a ≤ S128x128.size a
  inb_S128x128_S1x16_100_0 : ∀ a, (![100, 0] : Fin 2 → Nat) a + S1x16.size a ≤ S128x128.size a
  inb_S128x128_S1x16_100_16 : ∀ a, (![100, 16] : Fin 2 → Nat) a + S1x16.size a ≤ S128x128.size a
  inb_S128x128_S1x16_100_32 : ∀ a, (![100, 32] : Fin 2 → Nat) a + S1x16.size a ≤ S128x128.size a
  inb_S128x128_S1x16_100_48 : ∀ a, (![100, 48] : Fin 2 → Nat) a + S1x16.size a ≤ S128x128.size a
  inb_S128x128_S1x16_100_64 : ∀ a, (![100, 64] : Fin 2 → Nat) a + S1x16.size a ≤ S128x128.size a
  inb_S128x128_S1x16_100_80 : ∀ a, (![100, 80] : Fin 2 → Nat) a + S1x16.size a ≤ S128x128.size a
  inb_S128x128_S1x16_100_96 : ∀ a, (![100, 96] : Fin 2 → Nat) a + S1x16.size a ≤ S128x128.size a
  inb_S128x128_S1x16_100_112 : ∀ a, (![100, 112] : Fin 2 → Nat) a + S1x16.size a ≤ S128x128.size a
  inb_S128x128_S1x16_101_0 : ∀ a, (![101, 0] : Fin 2 → Nat) a + S1x16.size a ≤ S128x128.size a
  inb_S128x128_S1x16_101_16 : ∀ a, (![101, 16] : Fin 2 → Nat) a + S1x16.size a ≤ S128x128.size a
  inb_S128x128_S1x16_101_32 : ∀ a, (![101, 32] : Fin 2 → Nat) a + S1x16.size a ≤ S128x128.size a
  inb_S128x128_S1x16_101_48 : ∀ a, (![101, 48] : Fin 2 → Nat) a + S1x16.size a ≤ S128x128.size a
  inb_S128x128_S1x16_101_64 : ∀ a, (![101, 64] : Fin 2 → Nat) a + S1x16.size a ≤ S128x128.size a
  inb_S128x128_S1x16_101_80 : ∀ a, (![101, 80] : Fin 2 → Nat) a + S1x16.size a ≤ S128x128.size a
  inb_S128x128_S1x16_101_96 : ∀ a, (![101, 96] : Fin 2 → Nat) a + S1x16.size a ≤ S128x128.size a
  inb_S128x128_S1x16_101_112 : ∀ a, (![101, 112] : Fin 2 → Nat) a + S1x16.size a ≤ S128x128.size a
  inb_S128x128_S1x16_102_0 : ∀ a, (![102, 0] : Fin 2 → Nat) a + S1x16.size a ≤ S128x128.size a
  inb_S128x128_S1x16_102_16 : ∀ a, (![102, 16] : Fin 2 → Nat) a + S1x16.size a ≤ S128x128.size a
  inb_S128x128_S1x16_102_32 : ∀ a, (![102, 32] : Fin 2 → Nat) a + S1x16.size a ≤ S128x128.size a
  inb_S128x128_S1x16_102_48 : ∀ a, (![102, 48] : Fin 2 → Nat) a + S1x16.size a ≤ S128x128.size a
  inb_S128x128_S1x16_102_64 : ∀ a, (![102, 64] : Fin 2 → Nat) a + S1x16.size a ≤ S128x128.size a
  inb_S128x128_S1x16_102_80 : ∀ a, (![102, 80] : Fin 2 → Nat) a + S1x16.size a ≤ S128x128.size a
  inb_S128x128_S1x16_102_96 : ∀ a, (![102, 96] : Fin 2 → Nat) a + S1x16.size a ≤ S128x128.size a
  inb_S128x128_S1x16_102_112 : ∀ a, (![102, 112] : Fin 2 → Nat) a + S1x16.size a ≤ S128x128.size a
  inb_S128x128_S1x16_103_0 : ∀ a, (![103, 0] : Fin 2 → Nat) a + S1x16.size a ≤ S128x128.size a
  inb_S128x128_S1x16_103_16 : ∀ a, (![103, 16] : Fin 2 → Nat) a + S1x16.size a ≤ S128x128.size a
  inb_S128x128_S1x16_103_32 : ∀ a, (![103, 32] : Fin 2 → Nat) a + S1x16.size a ≤ S128x128.size a
  inb_S128x128_S1x16_103_48 : ∀ a, (![103, 48] : Fin 2 → Nat) a + S1x16.size a ≤ S128x128.size a
  inb_S128x128_S1x16_103_64 : ∀ a, (![103, 64] : Fin 2 → Nat) a + S1x16.size a ≤ S128x128.size a
  inb_S128x128_S1x16_103_80 : ∀ a, (![103, 80] : Fin 2 → Nat) a + S1x16.size a ≤ S128x128.size a
  inb_S128x128_S1x16_103_96 : ∀ a, (![103, 96] : Fin 2 → Nat) a + S1x16.size a ≤ S128x128.size a
  inb_S128x128_S1x16_103_112 : ∀ a, (![103, 112] : Fin 2 → Nat) a + S1x16.size a ≤ S128x128.size a
  inb_S128x128_S1x16_104_0 : ∀ a, (![104, 0] : Fin 2 → Nat) a + S1x16.size a ≤ S128x128.size a
  inb_S128x128_S1x16_104_16 : ∀ a, (![104, 16] : Fin 2 → Nat) a + S1x16.size a ≤ S128x128.size a
  inb_S128x128_S1x16_104_32 : ∀ a, (![104, 32] : Fin 2 → Nat) a + S1x16.size a ≤ S128x128.size a
  inb_S128x128_S1x16_104_48 : ∀ a, (![104, 48] : Fin 2 → Nat) a + S1x16.size a ≤ S128x128.size a
  inb_S128x128_S1x16_104_64 : ∀ a, (![104, 64] : Fin 2 → Nat) a + S1x16.size a ≤ S128x128.size a
  inb_S128x128_S1x16_104_80 : ∀ a, (![104, 80] : Fin 2 → Nat) a + S1x16.size a ≤ S128x128.size a
  inb_S128x128_S1x16_104_96 : ∀ a, (![104, 96] : Fin 2 → Nat) a + S1x16.size a ≤ S128x128.size a
  inb_S128x128_S1x16_104_112 : ∀ a, (![104, 112] : Fin 2 → Nat) a + S1x16.size a ≤ S128x128.size a
  inb_S128x128_S1x16_105_0 : ∀ a, (![105, 0] : Fin 2 → Nat) a + S1x16.size a ≤ S128x128.size a
  inb_S128x128_S1x16_105_16 : ∀ a, (![105, 16] : Fin 2 → Nat) a + S1x16.size a ≤ S128x128.size a
  inb_S128x128_S1x16_105_32 : ∀ a, (![105, 32] : Fin 2 → Nat) a + S1x16.size a ≤ S128x128.size a
  inb_S128x128_S1x16_105_48 : ∀ a, (![105, 48] : Fin 2 → Nat) a + S1x16.size a ≤ S128x128.size a
  inb_S128x128_S1x16_105_64 : ∀ a, (![105, 64] : Fin 2 → Nat) a + S1x16.size a ≤ S128x128.size a
  inb_S128x128_S1x16_105_80 : ∀ a, (![105, 80] : Fin 2 → Nat) a + S1x16.size a ≤ S128x128.size a
  inb_S128x128_S1x16_105_96 : ∀ a, (![105, 96] : Fin 2 → Nat) a + S1x16.size a ≤ S128x128.size a
  inb_S128x128_S1x16_105_112 : ∀ a, (![105, 112] : Fin 2 → Nat) a + S1x16.size a ≤ S128x128.size a
  inb_S128x128_S1x16_106_0 : ∀ a, (![106, 0] : Fin 2 → Nat) a + S1x16.size a ≤ S128x128.size a
  inb_S128x128_S1x16_106_16 : ∀ a, (![106, 16] : Fin 2 → Nat) a + S1x16.size a ≤ S128x128.size a
  inb_S128x128_S1x16_106_32 : ∀ a, (![106, 32] : Fin 2 → Nat) a + S1x16.size a ≤ S128x128.size a
  inb_S128x128_S1x16_106_48 : ∀ a, (![106, 48] : Fin 2 → Nat) a + S1x16.size a ≤ S128x128.size a
  inb_S128x128_S1x16_106_64 : ∀ a, (![106, 64] : Fin 2 → Nat) a + S1x16.size a ≤ S128x128.size a
  inb_S128x128_S1x16_106_80 : ∀ a, (![106, 80] : Fin 2 → Nat) a + S1x16.size a ≤ S128x128.size a
  inb_S128x128_S1x16_106_96 : ∀ a, (![106, 96] : Fin 2 → Nat) a + S1x16.size a ≤ S128x128.size a
  inb_S128x128_S1x16_106_112 : ∀ a, (![106, 112] : Fin 2 → Nat) a + S1x16.size a ≤ S128x128.size a
  inb_S128x128_S1x16_107_0 : ∀ a, (![107, 0] : Fin 2 → Nat) a + S1x16.size a ≤ S128x128.size a
  inb_S128x128_S1x16_107_16 : ∀ a, (![107, 16] : Fin 2 → Nat) a + S1x16.size a ≤ S128x128.size a
  inb_S128x128_S1x16_107_32 : ∀ a, (![107, 32] : Fin 2 → Nat) a + S1x16.size a ≤ S128x128.size a
  inb_S128x128_S1x16_107_48 : ∀ a, (![107, 48] : Fin 2 → Nat) a + S1x16.size a ≤ S128x128.size a
  inb_S128x128_S1x16_107_64 : ∀ a, (![107, 64] : Fin 2 → Nat) a + S1x16.size a ≤ S128x128.size a
  inb_S128x128_S1x16_107_80 : ∀ a, (![107, 80] : Fin 2 → Nat) a + S1x16.size a ≤ S128x128.size a
  inb_S128x128_S1x16_107_96 : ∀ a, (![107, 96] : Fin 2 → Nat) a + S1x16.size a ≤ S128x128.size a
  inb_S128x128_S1x16_107_112 : ∀ a, (![107, 112] : Fin 2 → Nat) a + S1x16.size a ≤ S128x128.size a
  inb_S128x128_S1x16_108_0 : ∀ a, (![108, 0] : Fin 2 → Nat) a + S1x16.size a ≤ S128x128.size a
  inb_S128x128_S1x16_108_16 : ∀ a, (![108, 16] : Fin 2 → Nat) a + S1x16.size a ≤ S128x128.size a
  inb_S128x128_S1x16_108_32 : ∀ a, (![108, 32] : Fin 2 → Nat) a + S1x16.size a ≤ S128x128.size a
  inb_S128x128_S1x16_108_48 : ∀ a, (![108, 48] : Fin 2 → Nat) a + S1x16.size a ≤ S128x128.size a
  inb_S128x128_S1x16_108_64 : ∀ a, (![108, 64] : Fin 2 → Nat) a + S1x16.size a ≤ S128x128.size a
  inb_S128x128_S1x16_108_80 : ∀ a, (![108, 80] : Fin 2 → Nat) a + S1x16.size a ≤ S128x128.size a
  inb_S128x128_S1x16_108_96 : ∀ a, (![108, 96] : Fin 2 → Nat) a + S1x16.size a ≤ S128x128.size a
  inb_S128x128_S1x16_108_112 : ∀ a, (![108, 112] : Fin 2 → Nat) a + S1x16.size a ≤ S128x128.size a
  inb_S128x128_S1x16_109_0 : ∀ a, (![109, 0] : Fin 2 → Nat) a + S1x16.size a ≤ S128x128.size a
  inb_S128x128_S1x16_109_16 : ∀ a, (![109, 16] : Fin 2 → Nat) a + S1x16.size a ≤ S128x128.size a
  inb_S128x128_S1x16_109_32 : ∀ a, (![109, 32] : Fin 2 → Nat) a + S1x16.size a ≤ S128x128.size a
  inb_S128x128_S1x16_109_48 : ∀ a, (![109, 48] : Fin 2 → Nat) a + S1x16.size a ≤ S128x128.size a
  inb_S128x128_S1x16_109_64 : ∀ a, (![109, 64] : Fin 2 → Nat) a + S1x16.size a ≤ S128x128.size a
  inb_S128x128_S1x16_109_80 : ∀ a, (![109, 80] : Fin 2 → Nat) a + S1x16.size a ≤ S128x128.size a
  inb_S128x128_S1x16_109_96 : ∀ a, (![109, 96] : Fin 2 → Nat) a + S1x16.size a ≤ S128x128.size a
  inb_S128x128_S1x16_109_112 : ∀ a, (![109, 112] : Fin 2 → Nat) a + S1x16.size a ≤ S128x128.size a
  inb_S128x128_S1x16_110_0 : ∀ a, (![110, 0] : Fin 2 → Nat) a + S1x16.size a ≤ S128x128.size a
  inb_S128x128_S1x16_110_16 : ∀ a, (![110, 16] : Fin 2 → Nat) a + S1x16.size a ≤ S128x128.size a
  inb_S128x128_S1x16_110_32 : ∀ a, (![110, 32] : Fin 2 → Nat) a + S1x16.size a ≤ S128x128.size a
  inb_S128x128_S1x16_110_48 : ∀ a, (![110, 48] : Fin 2 → Nat) a + S1x16.size a ≤ S128x128.size a
  inb_S128x128_S1x16_110_64 : ∀ a, (![110, 64] : Fin 2 → Nat) a + S1x16.size a ≤ S128x128.size a
  inb_S128x128_S1x16_110_80 : ∀ a, (![110, 80] : Fin 2 → Nat) a + S1x16.size a ≤ S128x128.size a
  inb_S128x128_S1x16_110_96 : ∀ a, (![110, 96] : Fin 2 → Nat) a + S1x16.size a ≤ S128x128.size a
  inb_S128x128_S1x16_110_112 : ∀ a, (![110, 112] : Fin 2 → Nat) a + S1x16.size a ≤ S128x128.size a
  inb_S128x128_S1x16_111_0 : ∀ a, (![111, 0] : Fin 2 → Nat) a + S1x16.size a ≤ S128x128.size a
  inb_S128x128_S1x16_111_16 : ∀ a, (![111, 16] : Fin 2 → Nat) a + S1x16.size a ≤ S128x128.size a
  inb_S128x128_S1x16_111_32 : ∀ a, (![111, 32] : Fin 2 → Nat) a + S1x16.size a ≤ S128x128.size a
  inb_S128x128_S1x16_111_48 : ∀ a, (![111, 48] : Fin 2 → Nat) a + S1x16.size a ≤ S128x128.size a
  inb_S128x128_S1x16_111_64 : ∀ a, (![111, 64] : Fin 2 → Nat) a + S1x16.size a ≤ S128x128.size a
  inb_S128x128_S1x16_111_80 : ∀ a, (![111, 80] : Fin 2 → Nat) a + S1x16.size a ≤ S128x128.size a
  inb_S128x128_S1x16_111_96 : ∀ a, (![111, 96] : Fin 2 → Nat) a + S1x16.size a ≤ S128x128.size a
  inb_S128x128_S1x16_111_112 : ∀ a, (![111, 112] : Fin 2 → Nat) a + S1x16.size a ≤ S128x128.size a
  inb_S128x128_S1x16_112_0 : ∀ a, (![112, 0] : Fin 2 → Nat) a + S1x16.size a ≤ S128x128.size a
  inb_S128x128_S1x16_112_16 : ∀ a, (![112, 16] : Fin 2 → Nat) a + S1x16.size a ≤ S128x128.size a
  inb_S128x128_S1x16_112_32 : ∀ a, (![112, 32] : Fin 2 → Nat) a + S1x16.size a ≤ S128x128.size a
  inb_S128x128_S1x16_112_48 : ∀ a, (![112, 48] : Fin 2 → Nat) a + S1x16.size a ≤ S128x128.size a
  inb_S128x128_S1x16_112_64 : ∀ a, (![112, 64] : Fin 2 → Nat) a + S1x16.size a ≤ S128x128.size a
  inb_S128x128_S1x16_112_80 : ∀ a, (![112, 80] : Fin 2 → Nat) a + S1x16.size a ≤ S128x128.size a
  inb_S128x128_S1x16_112_96 : ∀ a, (![112, 96] : Fin 2 → Nat) a + S1x16.size a ≤ S128x128.size a
  inb_S128x128_S1x16_112_112 : ∀ a, (![112, 112] : Fin 2 → Nat) a + S1x16.size a ≤ S128x128.size a
  inb_S128x128_S1x16_113_0 : ∀ a, (![113, 0] : Fin 2 → Nat) a + S1x16.size a ≤ S128x128.size a
  inb_S128x128_S1x16_113_16 : ∀ a, (![113, 16] : Fin 2 → Nat) a + S1x16.size a ≤ S128x128.size a
  inb_S128x128_S1x16_113_32 : ∀ a, (![113, 32] : Fin 2 → Nat) a + S1x16.size a ≤ S128x128.size a
  inb_S128x128_S1x16_113_48 : ∀ a, (![113, 48] : Fin 2 → Nat) a + S1x16.size a ≤ S128x128.size a
  inb_S128x128_S1x16_113_64 : ∀ a, (![113, 64] : Fin 2 → Nat) a + S1x16.size a ≤ S128x128.size a
  inb_S128x128_S1x16_113_80 : ∀ a, (![113, 80] : Fin 2 → Nat) a + S1x16.size a ≤ S128x128.size a
  inb_S128x128_S1x16_113_96 : ∀ a, (![113, 96] : Fin 2 → Nat) a + S1x16.size a ≤ S128x128.size a
  inb_S128x128_S1x16_113_112 : ∀ a, (![113, 112] : Fin 2 → Nat) a + S1x16.size a ≤ S128x128.size a
  inb_S128x128_S1x16_114_0 : ∀ a, (![114, 0] : Fin 2 → Nat) a + S1x16.size a ≤ S128x128.size a
  inb_S128x128_S1x16_114_16 : ∀ a, (![114, 16] : Fin 2 → Nat) a + S1x16.size a ≤ S128x128.size a
  inb_S128x128_S1x16_114_32 : ∀ a, (![114, 32] : Fin 2 → Nat) a + S1x16.size a ≤ S128x128.size a
  inb_S128x128_S1x16_114_48 : ∀ a, (![114, 48] : Fin 2 → Nat) a + S1x16.size a ≤ S128x128.size a
  inb_S128x128_S1x16_114_64 : ∀ a, (![114, 64] : Fin 2 → Nat) a + S1x16.size a ≤ S128x128.size a
  inb_S128x128_S1x16_114_80 : ∀ a, (![114, 80] : Fin 2 → Nat) a + S1x16.size a ≤ S128x128.size a
  inb_S128x128_S1x16_114_96 : ∀ a, (![114, 96] : Fin 2 → Nat) a + S1x16.size a ≤ S128x128.size a
  inb_S128x128_S1x16_114_112 : ∀ a, (![114, 112] : Fin 2 → Nat) a + S1x16.size a ≤ S128x128.size a
  inb_S128x128_S1x16_115_0 : ∀ a, (![115, 0] : Fin 2 → Nat) a + S1x16.size a ≤ S128x128.size a
  inb_S128x128_S1x16_115_16 : ∀ a, (![115, 16] : Fin 2 → Nat) a + S1x16.size a ≤ S128x128.size a
  inb_S128x128_S1x16_115_32 : ∀ a, (![115, 32] : Fin 2 → Nat) a + S1x16.size a ≤ S128x128.size a
  inb_S128x128_S1x16_115_48 : ∀ a, (![115, 48] : Fin 2 → Nat) a + S1x16.size a ≤ S128x128.size a
  inb_S128x128_S1x16_115_64 : ∀ a, (![115, 64] : Fin 2 → Nat) a + S1x16.size a ≤ S128x128.size a
  inb_S128x128_S1x16_115_80 : ∀ a, (![115, 80] : Fin 2 → Nat) a + S1x16.size a ≤ S128x128.size a
  inb_S128x128_S1x16_115_96 : ∀ a, (![115, 96] : Fin 2 → Nat) a + S1x16.size a ≤ S128x128.size a
  inb_S128x128_S1x16_115_112 : ∀ a, (![115, 112] : Fin 2 → Nat) a + S1x16.size a ≤ S128x128.size a
  inb_S128x128_S1x16_116_0 : ∀ a, (![116, 0] : Fin 2 → Nat) a + S1x16.size a ≤ S128x128.size a
  inb_S128x128_S1x16_116_16 : ∀ a, (![116, 16] : Fin 2 → Nat) a + S1x16.size a ≤ S128x128.size a
  inb_S128x128_S1x16_116_32 : ∀ a, (![116, 32] : Fin 2 → Nat) a + S1x16.size a ≤ S128x128.size a
  inb_S128x128_S1x16_116_48 : ∀ a, (![116, 48] : Fin 2 → Nat) a + S1x16.size a ≤ S128x128.size a
  inb_S128x128_S1x16_116_64 : ∀ a, (![116, 64] : Fin 2 → Nat) a + S1x16.size a ≤ S128x128.size a
  inb_S128x128_S1x16_116_80 : ∀ a, (![116, 80] : Fin 2 → Nat) a + S1x16.size a ≤ S128x128.size a
  inb_S128x128_S1x16_116_96 : ∀ a, (![116, 96] : Fin 2 → Nat) a + S1x16.size a ≤ S128x128.size a
  inb_S128x128_S1x16_116_112 : ∀ a, (![116, 112] : Fin 2 → Nat) a + S1x16.size a ≤ S128x128.size a
  inb_S128x128_S1x16_117_0 : ∀ a, (![117, 0] : Fin 2 → Nat) a + S1x16.size a ≤ S128x128.size a
  inb_S128x128_S1x16_117_16 : ∀ a, (![117, 16] : Fin 2 → Nat) a + S1x16.size a ≤ S128x128.size a
  inb_S128x128_S1x16_117_32 : ∀ a, (![117, 32] : Fin 2 → Nat) a + S1x16.size a ≤ S128x128.size a
  inb_S128x128_S1x16_117_48 : ∀ a, (![117, 48] : Fin 2 → Nat) a + S1x16.size a ≤ S128x128.size a
  inb_S128x128_S1x16_117_64 : ∀ a, (![117, 64] : Fin 2 → Nat) a + S1x16.size a ≤ S128x128.size a
  inb_S128x128_S1x16_117_80 : ∀ a, (![117, 80] : Fin 2 → Nat) a + S1x16.size a ≤ S128x128.size a
  inb_S128x128_S1x16_117_96 : ∀ a, (![117, 96] : Fin 2 → Nat) a + S1x16.size a ≤ S128x128.size a
  inb_S128x128_S1x16_117_112 : ∀ a, (![117, 112] : Fin 2 → Nat) a + S1x16.size a ≤ S128x128.size a
  inb_S128x128_S1x16_118_0 : ∀ a, (![118, 0] : Fin 2 → Nat) a + S1x16.size a ≤ S128x128.size a
  inb_S128x128_S1x16_118_16 : ∀ a, (![118, 16] : Fin 2 → Nat) a + S1x16.size a ≤ S128x128.size a
  inb_S128x128_S1x16_118_32 : ∀ a, (![118, 32] : Fin 2 → Nat) a + S1x16.size a ≤ S128x128.size a
  inb_S128x128_S1x16_118_48 : ∀ a, (![118, 48] : Fin 2 → Nat) a + S1x16.size a ≤ S128x128.size a
  inb_S128x128_S1x16_118_64 : ∀ a, (![118, 64] : Fin 2 → Nat) a + S1x16.size a ≤ S128x128.size a
  inb_S128x128_S1x16_118_80 : ∀ a, (![118, 80] : Fin 2 → Nat) a + S1x16.size a ≤ S128x128.size a
  inb_S128x128_S1x16_118_96 : ∀ a, (![118, 96] : Fin 2 → Nat) a + S1x16.size a ≤ S128x128.size a
  inb_S128x128_S1x16_118_112 : ∀ a, (![118, 112] : Fin 2 → Nat) a + S1x16.size a ≤ S128x128.size a
  inb_S128x128_S1x16_119_0 : ∀ a, (![119, 0] : Fin 2 → Nat) a + S1x16.size a ≤ S128x128.size a
  inb_S128x128_S1x16_119_16 : ∀ a, (![119, 16] : Fin 2 → Nat) a + S1x16.size a ≤ S128x128.size a
  inb_S128x128_S1x16_119_32 : ∀ a, (![119, 32] : Fin 2 → Nat) a + S1x16.size a ≤ S128x128.size a
  inb_S128x128_S1x16_119_48 : ∀ a, (![119, 48] : Fin 2 → Nat) a + S1x16.size a ≤ S128x128.size a
  inb_S128x128_S1x16_119_64 : ∀ a, (![119, 64] : Fin 2 → Nat) a + S1x16.size a ≤ S128x128.size a
  inb_S128x128_S1x16_119_80 : ∀ a, (![119, 80] : Fin 2 → Nat) a + S1x16.size a ≤ S128x128.size a
  inb_S128x128_S1x16_119_96 : ∀ a, (![119, 96] : Fin 2 → Nat) a + S1x16.size a ≤ S128x128.size a
  inb_S128x128_S1x16_119_112 : ∀ a, (![119, 112] : Fin 2 → Nat) a + S1x16.size a ≤ S128x128.size a
  inb_S128x128_S1x16_120_0 : ∀ a, (![120, 0] : Fin 2 → Nat) a + S1x16.size a ≤ S128x128.size a
  inb_S128x128_S1x16_120_16 : ∀ a, (![120, 16] : Fin 2 → Nat) a + S1x16.size a ≤ S128x128.size a
  inb_S128x128_S1x16_120_32 : ∀ a, (![120, 32] : Fin 2 → Nat) a + S1x16.size a ≤ S128x128.size a
  inb_S128x128_S1x16_120_48 : ∀ a, (![120, 48] : Fin 2 → Nat) a + S1x16.size a ≤ S128x128.size a
  inb_S128x128_S1x16_120_64 : ∀ a, (![120, 64] : Fin 2 → Nat) a + S1x16.size a ≤ S128x128.size a
  inb_S128x128_S1x16_120_80 : ∀ a, (![120, 80] : Fin 2 → Nat) a + S1x16.size a ≤ S128x128.size a
  inb_S128x128_S1x16_120_96 : ∀ a, (![120, 96] : Fin 2 → Nat) a + S1x16.size a ≤ S128x128.size a
  inb_S128x128_S1x16_120_112 : ∀ a, (![120, 112] : Fin 2 → Nat) a + S1x16.size a ≤ S128x128.size a
  inb_S128x128_S1x16_121_0 : ∀ a, (![121, 0] : Fin 2 → Nat) a + S1x16.size a ≤ S128x128.size a
  inb_S128x128_S1x16_121_16 : ∀ a, (![121, 16] : Fin 2 → Nat) a + S1x16.size a ≤ S128x128.size a
  inb_S128x128_S1x16_121_32 : ∀ a, (![121, 32] : Fin 2 → Nat) a + S1x16.size a ≤ S128x128.size a
  inb_S128x128_S1x16_121_48 : ∀ a, (![121, 48] : Fin 2 → Nat) a + S1x16.size a ≤ S128x128.size a
  inb_S128x128_S1x16_121_64 : ∀ a, (![121, 64] : Fin 2 → Nat) a + S1x16.size a ≤ S128x128.size a
  inb_S128x128_S1x16_121_80 : ∀ a, (![121, 80] : Fin 2 → Nat) a + S1x16.size a ≤ S128x128.size a
  inb_S128x128_S1x16_121_96 : ∀ a, (![121, 96] : Fin 2 → Nat) a + S1x16.size a ≤ S128x128.size a
  inb_S128x128_S1x16_121_112 : ∀ a, (![121, 112] : Fin 2 → Nat) a + S1x16.size a ≤ S128x128.size a
  inb_S128x128_S1x16_122_0 : ∀ a, (![122, 0] : Fin 2 → Nat) a + S1x16.size a ≤ S128x128.size a
  inb_S128x128_S1x16_122_16 : ∀ a, (![122, 16] : Fin 2 → Nat) a + S1x16.size a ≤ S128x128.size a
  inb_S128x128_S1x16_122_32 : ∀ a, (![122, 32] : Fin 2 → Nat) a + S1x16.size a ≤ S128x128.size a
  inb_S128x128_S1x16_122_48 : ∀ a, (![122, 48] : Fin 2 → Nat) a + S1x16.size a ≤ S128x128.size a
  inb_S128x128_S1x16_122_64 : ∀ a, (![122, 64] : Fin 2 → Nat) a + S1x16.size a ≤ S128x128.size a
  inb_S128x128_S1x16_122_80 : ∀ a, (![122, 80] : Fin 2 → Nat) a + S1x16.size a ≤ S128x128.size a
  inb_S128x128_S1x16_122_96 : ∀ a, (![122, 96] : Fin 2 → Nat) a + S1x16.size a ≤ S128x128.size a
  inb_S128x128_S1x16_122_112 : ∀ a, (![122, 112] : Fin 2 → Nat) a + S1x16.size a ≤ S128x128.size a
  inb_S128x128_S1x16_123_0 : ∀ a, (![123, 0] : Fin 2 → Nat) a + S1x16.size a ≤ S128x128.size a
  inb_S128x128_S1x16_123_16 : ∀ a, (![123, 16] : Fin 2 → Nat) a + S1x16.size a ≤ S128x128.size a
  inb_S128x128_S1x16_123_32 : ∀ a, (![123, 32] : Fin 2 → Nat) a + S1x16.size a ≤ S128x128.size a
  inb_S128x128_S1x16_123_48 : ∀ a, (![123, 48] : Fin 2 → Nat) a + S1x16.size a ≤ S128x128.size a
  inb_S128x128_S1x16_123_64 : ∀ a, (![123, 64] : Fin 2 → Nat) a + S1x16.size a ≤ S128x128.size a
  inb_S128x128_S1x16_123_80 : ∀ a, (![123, 80] : Fin 2 → Nat) a + S1x16.size a ≤ S128x128.size a
  inb_S128x128_S1x16_123_96 : ∀ a, (![123, 96] : Fin 2 → Nat) a + S1x16.size a ≤ S128x128.size a
  inb_S128x128_S1x16_123_112 : ∀ a, (![123, 112] : Fin 2 → Nat) a + S1x16.size a ≤ S128x128.size a
  inb_S128x128_S1x16_124_0 : ∀ a, (![124, 0] : Fin 2 → Nat) a + S1x16.size a ≤ S128x128.size a

class Shapes2.Facts₀ : Prop where
  inb_S128x128_S1x16_124_16 : ∀ a, (![124, 16] : Fin 2 → Nat) a + S1x16.size a ≤ S128x128.size a
  inb_S128x128_S1x16_124_32 : ∀ a, (![124, 32] : Fin 2 → Nat) a + S1x16.size a ≤ S128x128.size a
  inb_S128x128_S1x16_124_48 : ∀ a, (![124, 48] : Fin 2 → Nat) a + S1x16.size a ≤ S128x128.size a
  inb_S128x128_S1x16_124_64 : ∀ a, (![124, 64] : Fin 2 → Nat) a + S1x16.size a ≤ S128x128.size a
  inb_S128x128_S1x16_124_80 : ∀ a, (![124, 80] : Fin 2 → Nat) a + S1x16.size a ≤ S128x128.size a
  inb_S128x128_S1x16_124_96 : ∀ a, (![124, 96] : Fin 2 → Nat) a + S1x16.size a ≤ S128x128.size a
  inb_S128x128_S1x16_124_112 : ∀ a, (![124, 112] : Fin 2 → Nat) a + S1x16.size a ≤ S128x128.size a
  inb_S128x128_S1x16_125_0 : ∀ a, (![125, 0] : Fin 2 → Nat) a + S1x16.size a ≤ S128x128.size a
  inb_S128x128_S1x16_125_16 : ∀ a, (![125, 16] : Fin 2 → Nat) a + S1x16.size a ≤ S128x128.size a
  inb_S128x128_S1x16_125_32 : ∀ a, (![125, 32] : Fin 2 → Nat) a + S1x16.size a ≤ S128x128.size a
  inb_S128x128_S1x16_125_48 : ∀ a, (![125, 48] : Fin 2 → Nat) a + S1x16.size a ≤ S128x128.size a
  inb_S128x128_S1x16_125_64 : ∀ a, (![125, 64] : Fin 2 → Nat) a + S1x16.size a ≤ S128x128.size a
  inb_S128x128_S1x16_125_80 : ∀ a, (![125, 80] : Fin 2 → Nat) a + S1x16.size a ≤ S128x128.size a
  inb_S128x128_S1x16_125_96 : ∀ a, (![125, 96] : Fin 2 → Nat) a + S1x16.size a ≤ S128x128.size a
  inb_S128x128_S1x16_125_112 : ∀ a, (![125, 112] : Fin 2 → Nat) a + S1x16.size a ≤ S128x128.size a
  inb_S128x128_S1x16_126_0 : ∀ a, (![126, 0] : Fin 2 → Nat) a + S1x16.size a ≤ S128x128.size a
  inb_S128x128_S1x16_126_16 : ∀ a, (![126, 16] : Fin 2 → Nat) a + S1x16.size a ≤ S128x128.size a
  inb_S128x128_S1x16_126_32 : ∀ a, (![126, 32] : Fin 2 → Nat) a + S1x16.size a ≤ S128x128.size a
  inb_S128x128_S1x16_126_48 : ∀ a, (![126, 48] : Fin 2 → Nat) a + S1x16.size a ≤ S128x128.size a
  inb_S128x128_S1x16_126_64 : ∀ a, (![126, 64] : Fin 2 → Nat) a + S1x16.size a ≤ S128x128.size a
  inb_S128x128_S1x16_126_80 : ∀ a, (![126, 80] : Fin 2 → Nat) a + S1x16.size a ≤ S128x128.size a
  inb_S128x128_S1x16_126_96 : ∀ a, (![126, 96] : Fin 2 → Nat) a + S1x16.size a ≤ S128x128.size a
  inb_S128x128_S1x16_126_112 : ∀ a, (![126, 112] : Fin 2 → Nat) a + S1x16.size a ≤ S128x128.size a
  inb_S128x128_S1x16_127_0 : ∀ a, (![127, 0] : Fin 2 → Nat) a + S1x16.size a ≤ S128x128.size a
  inb_S128x128_S1x16_127_16 : ∀ a, (![127, 16] : Fin 2 → Nat) a + S1x16.size a ≤ S128x128.size a
  inb_S128x128_S1x16_127_32 : ∀ a, (![127, 32] : Fin 2 → Nat) a + S1x16.size a ≤ S128x128.size a
  inb_S128x128_S1x16_127_48 : ∀ a, (![127, 48] : Fin 2 → Nat) a + S1x16.size a ≤ S128x128.size a
  inb_S128x128_S1x16_127_64 : ∀ a, (![127, 64] : Fin 2 → Nat) a + S1x16.size a ≤ S128x128.size a
  inb_S128x128_S1x16_127_80 : ∀ a, (![127, 80] : Fin 2 → Nat) a + S1x16.size a ≤ S128x128.size a
  inb_S128x128_S1x16_127_96 : ∀ a, (![127, 96] : Fin 2 → Nat) a + S1x16.size a ≤ S128x128.size a
  inb_S128x128_S1x16_127_112 : ∀ a, (![127, 112] : Fin 2 → Nat) a + S1x16.size a ≤ S128x128.size a
  squeezes_S1x128x128_S128x128 : S1x128x128.Squeezes S128x128
  hcc1_scratch1 : 4 + S_.numel ≤ 9
  hscKind : ∀ q, scKind q ≠ .tc
  hscCore : ∀ q, scNCore q ≤ τ.nSC
  hscSub : ∀ q, scNSub q ≤ τ.nSub

class Facts₀ : Prop where
  k0 : K0.Facts₀
  k1 : K1.Facts₀
  k2 : K2.Facts₀
  shapes1 : Shapes1.Facts₀
  shapes2 : Shapes2.Facts₀
attribute [instance] Facts₀.k0 Facts₀.k1 Facts₀.k2 Facts₀.shapes1 Facts₀.shapes2

variable [Facts₀]

abbrev cc1_scratch1 : DmaSems sig S_ := SemArray.consecutive 4 S_ hcc1_scratch1

abbrev win0_0 : Pipeline.Window sig grid0 :=
  Pipeline.Window.ofSpec (Memref.whole main_arg0) S8x2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x4096x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win2_0 : Pipeline.Window sig grid2 :=
  Pipeline.Window.ofSpec (Memref.whole main_arg1) S8x2048x128.size cc2_transform_1 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S8x2048x128.size cc2_transform_2 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

class Facts : Prop extends Facts₀ where

variable [Facts]
-- ==== ReferenceIdeal.lean ====
abbrev S32x2048x128 : Shape := ⟨3, ![32, 2048, 128]⟩
abbrev S_ : Shape := ⟨0, ![]⟩
abbrev S32x4096x128 : Shape := ⟨3, ![32, 4096, 128]⟩

abbrev nBuf : Space → Nat
  | .hbm => 14
  | .vmem => 0
  | .smem => 0
  | _ => 0

abbrev bufTy : (tb : Table) → Fin (tcTables nBuf tb) → BufTy
  | .hbm, ⟨0, _⟩ => ⟨S32x2048x128, .f32⟩
  | .hbm, ⟨1, _⟩ => ⟨S32x2048x128, .f32⟩
  | .hbm, ⟨2, _⟩ => ⟨S_, .f32⟩
  | .hbm, ⟨3, _⟩ => ⟨S32x4096x128, .f32⟩
  | .hbm, ⟨4, _⟩ => ⟨S_, .f32⟩
  | .hbm, ⟨5, _⟩ => ⟨S32x4096x128, .f32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S32x4096x128, .f32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S32x4096x128, .f32⟩
  | _, _ => ⟨S32x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_c : Ref sig .tc := ⟨.hbm, 6, rfl⟩
abbrev main_c_1 : Ref sig .tc := ⟨.hbm, 7, rfl⟩
abbrev main_c_2 : Ref sig .tc := ⟨.hbm, 8, rfl⟩
abbrev main_v2 : Ref sig .tc := ⟨.hbm, 9, rfl⟩
abbrev main_c_3 : Ref sig .tc := ⟨.hbm, 10, rfl⟩
abbrev main_c_4 : Ref sig .tc := ⟨.hbm, 11, rfl⟩
abbrev main_c_5 : Ref sig .tc := ⟨.hbm, 12, rfl⟩
abbrev main_v3 : Ref sig .tc := ⟨.hbm, 13, rfl⟩

abbrev nD : Nat := 1
abbrev τ : Topo := Topo.v7x

variable {F : FTy → Type} [FloatOps F]

class Facts₀ : Prop where
  bcast_S_S32x4096x128 : S_.BroadcastsInDim S32x4096x128 (![] : Fin 0 → Fin S32x4096x128.rank)
  updateFits_S32x4096x128_S32x2048x128 : S32x4096x128.Slices (fun _ => 0) S32x2048x128
  h_S_ : 0 < S_.numel

variable [Facts₀]

class Facts : Prop extends Facts₀ where

variable [Facts]
-- ==== Proof.Spec.lean ====
/-
  The value both programs compute, as one function of an input array.

  A prefill writes an input `x : f32[32, 2048, 128]` into a zero cache `f32[32, 4096, 128]` at offset (0, 0, 0): in each
  of the 32 batch entries, rows 0 … 2047 of the cache are the input's rows and rows 2048 … 4095 are zero. `padded x`
  is that cache, entry by entry. It is stated for any float instance: the zero is the word `0x00000000` read at the
  instance, so the same term is the kernel's stored zero and the reference's zero constant.
-/
import Idealize.ShloMosaic.PureOps
import Idealize.ShloMosaic.Lib.ValueIdx

noncomputable section

namespace Cert.Proof.Spec

open Idealize.ShloMosaic

/-- The input's shape and the cache's. -/
abbrev SIn : Shape := ⟨3, ![32, 2048, 128]⟩
abbrev SOut : Shape := ⟨3, ![32, 4096, 128]⟩

variable {F : FTy → Type} [FloatOps F]

/-- The zero both programs write: the all-zero word read as an f32. -/
abbrev zero32 : F .f32 := Scalar.ofBits .f32 0x00000000#32

/-- The cache after the prefill: entry `(b, r, x)` is the input's `(b, r, x)` when `r < 2048`, and zero otherwise. -/
def padded (x : FVec F SIn .f32) : FVec F SOut .f32 :=
  fun j => if h : (j 1).val < 2048 then x (ValueIdx.ix3 (j 0 : Fin 32) (⟨(j 1).val, h⟩ : Fin 2048) (j 2 : Fin 128)) else zero32

theorem padded_lt (x : FVec F SIn .f32) (j : SOut.Idx) (h : (j 1).val < 2048) :
    padded x j = x (ValueIdx.ix3 (j 0 : Fin 32) (⟨(j 1).val, h⟩ : Fin 2048) (j 2 : Fin 128)) := dif_pos h

theorem padded_ge (x : FVec F SIn .f32) (j : SOut.Idx) (h : ¬ (j 1).val < 2048) :
    padded x j = zero32 := dif_neg h

end Cert.Proof.Spec

end
-- ==== Proof.Setup.lean ====
/-
  The program as the launch theorem of a SparseCore program sees it, and the names the other modules share.

  The program has three kernels: a TensorCore call that writes `[kx | 0]` into the key cache block by block (four
  blocks of eight batch entries), a vector-subcore kernel on 2 × 16 tiles in which tile `(c, s)` zero-fills rows
  2048 … 4095 of batch entry `2 s + c` of a fresh array by sixteen copies of one zeroed 128 × 128 scratch, and a
  second TensorCore call that overwrites rows 0 … 2047 of a copy of that array with `vx`. Here: the label signature,
  the body table, the ghost state (the handshakes' rounds beside the pipelines' rounds beside the transfers' counters),
  a tile's thread, and the sixteen 128 × 128 destination slices of one tile with the assertion that holds them all.
-/
import proofs.«209718_g39419209842710_cont_8to1_b_1024_25_alg».proof.KernelIdeal
import proofs.«209718_g39419209842710_cont_8to1_b_1024_25_alg».proof.Proof.Gen.KernelIdeal
import proofs.«209718_g39419209842710_cont_8to1_b_1024_25_alg».proof.Proof.Gen.KernelIdeal.Launch
import proofs.«209718_g39419209842710_cont_8to1_b_1024_25_alg».proof.Proof.Gen.KernelIdeal.Points
import proofs.«209718_g39419209842710_cont_8to1_b_1024_25_alg».proof.Proof.Spec
import Idealize.ShloMosaic.Lib.SparseCore.Launch
import Idealize.ShloMosaic.Lib.Pipeline.Kit
import Idealize.ShloMosaic.Lib.Pipeline.Regions
import Idealize.ShloMosaic.Lib.Batch
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the two pipelines' rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds: the left factor. -/
abbrev EH : Emb UH (MT nD τ sig (HIx 1) (Elt F) ℕ UU ℕ) := embL
/-- The pipelines' rounds: the left factor of the right factor. The transfers' counters are found by instance. -/
def EP : Emb UP (MT nD τ sig (HIx 1) (Elt F) ℕ UU ℕ) :=
  ((Emb.inl : Emb UP (UP × Counters)).trans (Emb.inr : Emb (UP × Counters) UU)).trans
    (uEmb (nD := nD) (τ := τ) (sig := sig) (Ix := HIx 1) (Val := Elt F) (Name := ℕ) (U := UU) (Lvl := ℕ)).toEmb

instance EP_landsIn : (EP : Emb UP 𝕄).LandsIn (upEmb : UEmb _ 𝕄) := by unfold EP; infer_instance

/-! ## A tile: its coordinates, its thread, its sixteen destination slices -/

/-- The grid point of SparseCore `c`, vector subcore `s`. -/
def coordsV (c : Fin (grid1.bound 0)) (s : Fin (grid1.bound 1)) : grid1.Coords :=
  fun | 0 => c | 1 => s | ⟨_ + 2, h⟩ => absurd h (Nat.not_lt.2 (Nat.le_add_left _ _))

/-- The thread of the tile at grid point `L`. -/
abbrev Vt (d : Dev nD) (L : grid1.Coords) : Thread nD τ := V d ((L 0).castLE hcore1) ((L 1).castLE hsub1)

/-- The location of the array the vector-subcore kernel fills, as the TensorCore names it. -/
abbrev o1Loc (d : Dev nD) : Loc nD τ sig := (SparseCore.T d).loc main_v1

-- the sixteen 128-row slices of batch entry `2 s + c` a tile copies its zero scratch into, spelt as the kernel slices them
abbrev dst1 (L : grid1.Coords) : Memref sig .scVector .hbm S128x128 .f32 :=
  ((Memref.whole main_v1_scv : Memref sig .scVector .hbm S32x4096x128 .f32).slice (Rect.unit (s := S32x4096x128) (k1_off1 L) S1x128x128.size (k1_off1_inb L)) (fun _ => rfl)).squeeze S128x128 squeezes_S1x128x128_S128x128
abbrev dst2 (L : grid1.Coords) : Memref sig .scVector .hbm S128x128 .f32 :=
  ((Memref.whole main_v1_scv : Memref sig .scVector .hbm S32x4096x128 .f32).slice (Rect.unit (s := S32x4096x128) (k1_off2 L) S1x128x128.size (k1_off2_inb L)) (fun _ => rfl)).squeeze S128x128 squeezes_S1x128x128_S128x128
abbrev dst3 (L : grid1.Coords) : Memref sig .scVector .hbm S128x128 .f32 :=
  ((Memref.whole main_v1_scv : Memref sig .scVector .hbm S32x4096x128 .f32).slice (Rect.unit (s := S32x4096x128) (k1_off3 L) S1x128x128.size (k1_off3_inb L)) (fun _ => rfl)).squeeze S128x128 squeezes_S1x128x128_S128x128
abbrev dst4 (L : grid1.Coords) : Memref sig .scVector .hbm S128x128 .f32 :=
  ((Memref.whole main_v1_scv : Memref sig .scVector .hbm S32x4096x128 .f32).slice (Rect.unit (s := S32x4096x128) (k1_off4 L) S1x128x128.size (k1_off4_inb L)) (fun _ => rfl)).squeeze S128x128 squeezes_S1x128x128_S128x128
abbrev dst5 (L : grid1.Coords) : Memref sig .scVector .hbm S128x128 .f32 :=
  ((Memref.whole main_v1_scv : Memref sig .scVector .hbm S32x4096x128 .f32).slice (Rect.unit (s := S32x4096x128) (k1_off5 L) S1x128x128.size (k1_off5_inb L)) (fun _ => rfl)).squeeze S128x128 squeezes_S1x128x128_S128x128
abbrev dst6 (L : grid1.Coords) : Memref sig .scVector .hbm S128x128 .f32 :=
  ((Memref.whole main_v1_scv : Memref sig .scVector .hbm S32x4096x128 .f32).slice (Rect.unit (s := S32x4096x128) (k1_off6 L) S1x128x128.size (k1_off6_inb L)) (fun _ => rfl)).squeeze S128x128 squeezes_S1x128x128_S128x128
abbrev dst7 (L : grid1.Coords) : Memref sig .scVector .hbm S128x128 .f32 :=
  ((Memref.whole main_v1_scv : Memref sig .scVector .hbm S32x4096x128 .f32).slice (Rect.unit (s := S32x4096x128) (k1_off7 L) S1x128x128.size (k1_off7_inb L)) (fun _ => rfl)).squeeze S128x128 squeezes_S1x128x128_S128x128
abbrev dst8 (L : grid1.Coords) : Memref sig .scVector .hbm S128x128 .f32 :=
  ((Memref.whole main_v1_scv : Memref sig .scVector .hbm S32x4096x128 .f32).slice (Rect.unit (s := S32x4096x128) (k1_off8 L) S1x128x128.size (k1_off8_inb L)) (fun _ => rfl)).squeeze S128x128 squeezes_S1x128x128_S128x128
abbrev dst9 (L : grid1.Coords) : Memref sig .scVector .hbm S128x128 .f32 :=
  ((Memref.whole main_v1_scv : Memref sig .scVector .hbm S32x4096x128 .f32).slice (Rect.unit (s := S32x4096x128) (k1_off9 L) S1x128x128.size (k1_off9_inb L)) (fun _ => rfl)).squeeze S128x128 squeezes_S1x128x128_S128x128
abbrev dst10 (L : grid1.Coords) : Memref sig .scVector .hbm S128x128 .f32 :=
  ((Memref.whole main_v1_scv : Memref sig .scVector .hbm S32x4096x128 .f32).slice (Rect.unit (s := S32x4096x128) (k1_off10 L) S1x128x128.size (k1_off10_inb L)) (fun _ => rfl)).squeeze S128x128 squeezes_S1x128x128_S128x128
abbrev dst11 (L : grid1.Coords) : Memref sig .scVector .hbm S128x128 .f32 :=
  ((Memref.whole main_v1_scv : Memref sig .scVector .hbm S32x4096x128 .f32).slice (Rect.unit (s := S32x4096x128) (k1_off11 L) S1x128x128.size (k1_off11_inb L)) (fun _ => rfl)).squeeze S128x128 squeezes_S1x128x128_S128x128
abbrev dst12 (L : grid1.Coords) : Memref sig .scVector .hbm S128x128 .f32 :=
  ((Memref.whole main_v1_scv : Memref sig .scVector .hbm S32x4096x128 .f32).slice (Rect.unit (s := S32x4096x128) (k1_off12 L) S1x128x128.size (k1_off12_inb L)) (fun _ => rfl)).squeeze S128x128 squeezes_S1x128x128_S128x128
abbrev dst13 (L : grid1.Coords) : Memref sig .scVector .hbm S128x128 .f32 :=
  ((Memref.whole main_v1_scv : Memref sig .scVector .hbm S32x4096x128 .f32).slice (Rect.unit (s := S32x4096x128) (k1_off13 L) S1x128x128.size (k1_off13_inb L)) (fun _ => rfl)).squeeze S128x128 squeezes_S1x128x128_S128x128
abbrev dst14 (L : grid1.Coords) : Memref sig .scVector .hbm S128x128 .f32 :=
  ((Memref.whole main_v1_scv : Memref sig .scVector .hbm S32x4096x128 .f32).slice (Rect.unit (s := S32x4096x128) (k1_off14 L) S1x128x128.size (k1_off14_inb L)) (fun _ => rfl)).squeeze S128x128 squeezes_S1x128x128_S128x128
abbrev dst15 (L : grid1.Coords) : Memref sig .scVector .hbm S128x128 .f32 :=
  ((Memref.whole main_v1_scv : Memref sig .scVector .hbm S32x4096x128 .f32).slice (Rect.unit (s := S32x4096x128) (k1_off15 L) S1x128x128.size (k1_off15_inb L)) (fun _ => rfl)).squeeze S128x128 squeezes_S1x128x128_S128x128
abbrev dst16 (L : grid1.Coords) : Memref sig .scVector .hbm S128x128 .f32 :=
  ((Memref.whole main_v1_scv : Memref sig .scVector .hbm S32x4096x128 .f32).slice (Rect.unit (s := S32x4096x128) (k1_off16 L) S1x128x128.size (k1_off16_inb L)) (fun _ => rfl)).squeeze S128x128 squeezes_S1x128x128_S128x128

/-- A tile's sixteen destination slices, each held whole at the full share, all at the contents `f` of the array. -/
def dstPts (d : Dev nD) (L : grid1.Coords) (f : Buf (Elt F) ((dst1 L).view.loc (Vt d L))) : sProp 𝕄 :=
  iprop(((dst1 L).view.loc (Vt d L) ↦[(dst1 L).view.set]{fullShare} f)
      ∗ ((dst2 L).view.loc (Vt d L) ↦[(dst2 L).view.set]{fullShare} f)
      ∗ ((dst3 L).view.loc (Vt d L) ↦[(dst3 L).view.set]{fullShare} f)
      ∗ ((dst4 L).view.loc (Vt d L) ↦[(dst4 L).view.set]{fullShare} f)
      ∗ ((dst5 L).view.loc (Vt d L) ↦[(dst5 L).view.set]{fullShare} f)
      ∗ ((dst6 L).view.loc (Vt d L) ↦[(dst6 L).view.set]{fullShare} f)
      ∗ ((dst7 L).view.loc (Vt d L) ↦[(dst7 L).view.set]{fullShare} f)
      ∗ ((dst8 L).view.loc (Vt d L) ↦[(dst8 L).view.set]{fullShare} f)
      ∗ ((dst9 L).view.loc (Vt d L) ↦[(dst9 L).view.set]{fullShare} f)
      ∗ ((dst10 L).view.loc (Vt d L) ↦[(dst10 L).view.set]{fullShare} f)
      ∗ ((dst11 L).view.loc (Vt d L) ↦[(dst11 L).view.set]{fullShare} f)
      ∗ ((dst12 L).view.loc (Vt d L) ↦[(dst12 L).view.set]{fullShare} f)
      ∗ ((dst13 L).view.loc (Vt d L) ↦[(dst13 L).view.set]{fullShare} f)
      ∗ ((dst14 L).view.loc (Vt d L) ↦[(dst14 L).view.set]{fullShare} f)
      ∗ ((dst15 L).view.loc (Vt d L) ↦[(dst15 L).view.set]{fullShare} f)
      ∗ ((dst16 L).view.loc (Vt d L) ↦[(dst16 L).view.set]{fullShare} f))

end Cert.Proof.KI

end
-- ==== Proof.Fill.lean ====
/-
  An array with its upper rows zeroed.

  The vector-subcore kernel zero-fills rows 2048 … 4095 of every batch entry of a fresh array and leaves the rest as it
  found it: `zeroTail f` is `f` on rows below 2048 and zero above. Overwriting rows 0 … 2047 of `zeroTail f` with an
  input `x` gives `padded x`, whatever `f` was.
-/
import proofs.«209718_g39419209842710_cont_8to1_b_1024_25_alg».proof.Proof.Spec

noncomputable section

namespace Cert.Proof.Spec

open Idealize.ShloMosaic

variable {F : FTy → Type} [FloatOps F]

/-- `f` with rows 2048 … 4095 of every batch entry set to zero. -/
def zeroTail (f : FVec F SOut .f32) : FVec F SOut .f32 :=
  fun j => if (j 1).val < 2048 then f j else zero32

theorem zeroTail_ge (f : FVec F SOut .f32) (j : SOut.Idx) (h : ¬ (j 1).val < 2048) : zeroTail f j = zero32 := if_neg h

end Cert.Proof.Spec

end
-- ==== Proof.V1Split.lean ====
/-
  Splitting one array among the tiles of the vector-subcore grid, and joining it back.

  The array is f32[32, 4096, 128]. Tile `(c, s)` of the 2 × 16 grid owns sixteen 128 × 128 slices of batch entry
  `2 s + c`: slice `n` (`n = 0 … 15`) is rows `[2048 + 128 n, 2048 + 128 (n + 1))`, all 128 columns. Since
  `b ↦ (b % 2, b / 2)` is a bijection of `{0 … 31}` onto `{0, 1} × {0 … 15}` and `r ↦ (r − 2048) / 128` sends
  `{2048 … 4095}` onto `{0 … 15}` with fibres the blocks, the 2 · 16 · 16 = 512 slices are pairwise disjoint and their
  union is exactly the elements whose row is at least 2048; what is left over is the rows below 2048. So the whole array,
  held at the full share, is the tiles' slices beside the lower rows (`v1_split`); and the slices all at zero beside
  the lower rows at `f` are the whole array at `f` with its upper rows zeroed (`v1_join`).
-/
import proofs.«209718_g39419209842710_cont_8to1_b_1024_25_alg».proof.Proof.Setup
import proofs.«209718_g39419209842710_cont_8to1_b_1024_25_alg».proof.Proof.Fill

noncomputable section

namespace Cert.Proof.KI

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-! ## The blocks: 128 consecutive rows of one batch entry -/

/-- The 128 rows from row `2048 + 128 n` of batch entry `b`, all columns. -/
def blk (b n : ℕ) : Finset S32x4096x128.Idx :=
  Finset.univ.filter fun j => (j 0).val = b ∧ 2048 + 128 * n ≤ (j 1).val ∧ (j 1).val < 2048 + 128 * (n + 1)

theorem mem_blk {b n : ℕ} {j : S32x4096x128.Idx} :
    j ∈ blk b n ↔ (j 0).val = b ∧ 2048 + 128 * n ≤ (j 1).val ∧ (j 1).val < 2048 + 128 * (n + 1) := by
  simp only [blk, Finset.mem_filter, Finset.mem_univ, true_and]

/-- A 1 × 128 × 128 slice of the array at offset `(b, 2048 + 128 n, 0)`, read as a 128 × 128 matrix, holds exactly the
    elements of block `n` of batch entry `b`: the slice fixes the first coordinate, takes 128 rows, and every column. -/
theorem set_unit_blk (b n : ℕ) (off : Fin 3 → ℕ) (inb : ∀ a, off a + S1x128x128.size a ≤ S32x4096x128.size a)
    (h : off = ![b, 2048 + 128 * n, 0]) :
    (((Memref.whole main_v1_scv : Memref sig .scVector .hbm S32x4096x128 .f32).slice (Rect.unit (s := S32x4096x128) off S1x128x128.size inb) (fun _ => rfl)).squeeze S128x128 squeezes_S1x128x128_S128x128).view.set = blk b n := by
  subst h
  show (((Memref.whole main_v1_scv : Memref sig .scVector .hbm S32x4096x128 .f32).view.slice (Rect.unit (s := S32x4096x128) ![b, 2048 + 128 * n, 0] S1x128x128.size inb)).reshape S128x128 squeezes_S1x128x128_S128x128.numel_eq).set = _
  rw [View.set_reshape]
  show ((View.whole (main_v1_scv : Ref sig .scVector)).slice (Rect.unit (s := S32x4096x128) ![b, 2048 + 128 * n, 0] S1x128x128.size inb)).set = _
  rw [View.set_slice_whole]
  ext j
  rw [mem_blk, Rect.mem_set_unit]
  have h2 : (j 2).val < 128 := (j 2).isLt
  constructor
  · intro h
    have h0 := h 0
    have h1 := h 1
    simp at h0 h1
    omega
  · intro h a
    fin_cases a <;> simp
    · omega
    · omega
    · exact h2

theorem set_dst1 (L : grid1.Coords) : (dst1 L).view.set = blk (2 * (L 1).val + (L 0).val) 0 :=
  set_unit_blk _ 0 _ _ (k1_off1_eq L)
theorem set_dst2 (L : grid1.Coords) : (dst2 L).view.set = blk (2 * (L 1).val + (L 0).val) 1 :=
  set_unit_blk _ 1 _ _ (k1_off2_eq L)
theorem set_dst3 (L : grid1.Coords) : (dst3 L).view.set = blk (2 * (L 1).val + (L 0).val) 2 :=
  set_unit_blk _ 2 _ _ (k1_off3_eq L)
theorem set_dst4 (L : grid1.Coords) : (dst4 L).view.set = blk (2 * (L 1).val + (L 0).val) 3 :=
  set_unit_blk _ 3 _ _ (k1_off4_eq L)
theorem set_dst5 (L : grid1.Coords) : (dst5 L).view.set = blk (2 * (L 1).val + (L 0).val) 4 :=
  set_unit_blk _ 4 _ _ (k1_off5_eq L)
theorem set_dst6 (L : grid1.Coords) : (dst6 L).view.set = blk (2 * (L 1).val + (L 0).val) 5 :=
  set_unit_blk _ 5 _ _ (k1_off6_eq L)
theorem set_dst7 (L : grid1.Coords) : (dst7 L).view.set = blk (2 * (L 1).val + (L 0).val) 6 :=
  set_unit_blk _ 6 _ _ (k1_off7_eq L)
theorem set_dst8 (L : grid1.Coords) : (dst8 L).view.set = blk (2 * (L 1).val + (L 0).val) 7 :=
  set_unit_blk _ 7 _ _ (k1_off8_eq L)
theorem set_dst9 (L : grid1.Coords) : (dst9 L).view.set = blk (2 * (L 1).val + (L 0).val) 8 :=
  set_unit_blk _ 8 _ _ (k1_off9_eq L)
theorem set_dst10 (L : grid1.Coords) : (dst10 L).view.set = blk (2 * (L 1).val + (L 0).val) 9 :=
  set_unit_blk _ 9 _ _ (k1_off10_eq L)
theorem set_dst11 (L : grid1.Coords) : (dst11 L).view.set = blk (2 * (L 1).val + (L 0).val) 10 :=
  set_unit_blk _ 10 _ _ (k1_off11_eq L)
theorem set_dst12 (L : grid1.Coords) : (dst12 L).view.set = blk (2 * (L 1).val + (L 0).val) 11 :=
  set_unit_blk _ 11 _ _ (k1_off12_eq L)
theorem set_dst13 (L : grid1.Coords) : (dst13 L).view.set = blk (2 * (L 1).val + (L 0).val) 12 :=
  set_unit_blk _ 12 _ _ (k1_off13_eq L)
theorem set_dst14 (L : grid1.Coords) : (dst14 L).view.set = blk (2 * (L 1).val + (L 0).val) 13 :=
  set_unit_blk _ 13 _ _ (k1_off14_eq L)
theorem set_dst15 (L : grid1.Coords) : (dst15 L).view.set = blk (2 * (L 1).val + (L 0).val) 14 :=
  set_unit_blk _ 14 _ _ (k1_off15_eq L)
theorem set_dst16 (L : grid1.Coords) : (dst16 L).view.set = blk (2 * (L 1).val + (L 0).val) 15 :=
  set_unit_blk _ 15 _ _ (k1_off16_eq L)

/-! ## Each slice, as the TensorCore names the array -/

theorem pts_dst1 (d : Dev nD) (L : grid1.Coords) (f : Buf (Elt F) (o1Loc d)) :
    ((dst1 L).view.loc (Vt d L) ↦[(dst1 L).view.set]{fullShare} f : sProp 𝕄) = o1Loc d ↦[blk (2 * (L 1).val + (L 0).val) 0]{fullShare} f := by
  rw [set_dst1]
theorem pts_dst2 (d : Dev nD) (L : grid1.Coords) (f : Buf (Elt F) (o1Loc d)) :
    ((dst2 L).view.loc (Vt d L) ↦[(dst2 L).view.set]{fullShare} f : sProp 𝕄) = o1Loc d ↦[blk (2 * (L 1).val + (L 0).val) 1]{fullShare} f := by
  rw [set_dst2]
theorem pts_dst3 (d : Dev nD) (L : grid1.Coords) (f : Buf (Elt F) (o1Loc d)) :
    ((dst3 L).view.loc (Vt d L) ↦[(dst3 L).view.set]{fullShare} f : sProp 𝕄) = o1Loc d ↦[blk (2 * (L 1).val + (L 0).val) 2]{fullShare} f := by
  rw [set_dst3]
theorem pts_dst4 (d : Dev nD) (L : grid1.Coords) (f : Buf (Elt F) (o1Loc d)) :
    ((dst4 L).view.loc (Vt d L) ↦[(dst4 L).view.set]{fullShare} f : sProp 𝕄) = o1Loc d ↦[blk (2 * (L 1).val + (L 0).val) 3]{fullShare} f := by
  rw [set_dst4]
theorem pts_dst5 (d : Dev nD) (L : grid1.Coords) (f : Buf (Elt F) (o1Loc d)) :
    ((dst5 L).view.loc (Vt d L) ↦[(dst5 L).view.set]{fullShare} f : sProp 𝕄) = o1Loc d ↦[blk (2 * (L 1).val + (L 0).val) 4]{fullShare} f := by
  rw [set_dst5]
theorem pts_dst6 (d : Dev nD) (L : grid1.Coords) (f : Buf (Elt F) (o1Loc d)) :
    ((dst6 L).view.loc (Vt d L) ↦[(dst6 L).view.set]{fullShare} f : sProp 𝕄) = o1Loc d ↦[blk (2 * (L 1).val + (L 0).val) 5]{fullShare} f := by
  rw [set_dst6]
theorem pts_dst7 (d : Dev nD) (L : grid1.Coords) (f : Buf (Elt F) (o1Loc d)) :
    ((dst7 L).view.loc (Vt d L) ↦[(dst7 L).view.set]{fullShare} f : sProp 𝕄) = o1Loc d ↦[blk (2 * (L 1).val + (L 0).val) 6]{fullShare} f := by
  rw [set_dst7]
theorem pts_dst8 (d : Dev nD) (L : grid1.Coords) (f : Buf (Elt F) (o1Loc d)) :
    ((dst8 L).view.loc (Vt d L) ↦[(dst8 L).view.set]{fullShare} f : sProp 𝕄) = o1Loc d ↦[blk (2 * (L 1).val + (L 0).val) 7]{fullShare} f := by
  rw [set_dst8]
theorem pts_dst9 (d : Dev nD) (L : grid1.Coords) (f : Buf (Elt F) (o1Loc d)) :
    ((dst9 L).view.loc (Vt d L) ↦[(dst9 L).view.set]{fullShare} f : sProp 𝕄) = o1Loc d ↦[blk (2 * (L 1).val + (L 0).val) 8]{fullShare} f := by
  rw [set_dst9]
theorem pts_dst10 (d : Dev nD) (L : grid1.Coords) (f : Buf (Elt F) (o1Loc d)) :
    ((dst10 L).view.loc (Vt d L) ↦[(dst10 L).view.set]{fullShare} f : sProp 𝕄) = o1Loc d ↦[blk (2 * (L 1).val + (L 0).val) 9]{fullShare} f := by
  rw [set_dst10]
theorem pts_dst11 (d : Dev nD) (L : grid1.Coords) (f : Buf (Elt F) (o1Loc d)) :
    ((dst11 L).view.loc (Vt d L) ↦[(dst11 L).view.set]{fullShare} f : sProp 𝕄) = o1Loc d ↦[blk (2 * (L 1).val + (L 0).val) 10]{fullShare} f := by
  rw [set_dst11]
theorem pts_dst12 (d : Dev nD) (L : grid1.Coords) (f : Buf (Elt F) (o1Loc d)) :
    ((dst12 L).view.loc (Vt d L) ↦[(dst12 L).view.set]{fullShare} f : sProp 𝕄) = o1Loc d ↦[blk (2 * (L 1).val + (L 0).val) 11]{fullShare} f := by
  rw [set_dst12]
theorem pts_dst13 (d : Dev nD) (L : grid1.Coords) (f : Buf (Elt F) (o1Loc d)) :
    ((dst13 L).view.loc (Vt d L) ↦[(dst13 L).view.set]{fullShare} f : sProp 𝕄) = o1Loc d ↦[blk (2 * (L 1).val + (L 0).val) 12]{fullShare} f := by
  rw [set_dst13]
theorem pts_dst14 (d : Dev nD) (L : grid1.Coords) (f : Buf (Elt F) (o1Loc d)) :
    ((dst14 L).view.loc (Vt d L) ↦[(dst14 L).view.set]{fullShare} f : sProp 𝕄) = o1Loc d ↦[blk (2 * (L 1).val + (L 0).val) 13]{fullShare} f := by
  rw [set_dst14]
theorem pts_dst15 (d : Dev nD) (L : grid1.Coords) (f : Buf (Elt F) (o1Loc d)) :
    ((dst15 L).view.loc (Vt d L) ↦[(dst15 L).view.set]{fullShare} f : sProp 𝕄) = o1Loc d ↦[blk (2 * (L 1).val + (L 0).val) 14]{fullShare} f := by
  rw [set_dst15]
theorem pts_dst16 (d : Dev nD) (L : grid1.Coords) (f : Buf (Elt F) (o1Loc d)) :
    ((dst16 L).view.loc (Vt d L) ↦[(dst16 L).view.set]{fullShare} f : sProp 𝕄) = o1Loc d ↦[blk (2 * (L 1).val + (L 0).val) 15]{fullShare} f := by
  rw [set_dst16]

/-! ## A chain of sixteen as an indexed product -/

theorem sep_congr_eq {P P' Q Q' : sProp 𝕄} (h₁ : P = P') (h₂ : Q = Q') : iprop(P ∗ Q) = iprop(P' ∗ Q') := by
  rw [h₁, h₂]

/-- An indexed separating product over `n + 1` indices is its first factor beside the product over the rest. -/
theorem bigSep_fin_succ {n : ℕ} (Φ : Fin (n + 1) → sProp 𝕄) :
    bigSep Finset.univ Φ = iprop(Φ 0 ∗ bigSep Finset.univ fun i : Fin n => Φ i.succ) := by
  rw [Fin.univ_succ, Finset.cons_eq_insert, bigSep_insert (by simp [Fin.succ_ne_zero]), bigSep_map]
  rfl

/-- The product over sixteen indices written out. -/
theorem bigSep_fin16 (Φ : Fin 16 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) := by
  iterate 15 rw [bigSep_fin_succ]
  rw [bigSep_univ_of_subsingleton 0]
  rfl

/-- A tile's sixteen slices are the sixteen blocks of its batch entry. -/
theorem dstPts_eq (d : Dev nD) (L : grid1.Coords) (f : Buf (Elt F) (o1Loc d)) :
    (dstPts d L f : sProp 𝕄) = bigSep Finset.univ fun n : Fin 16 => o1Loc d ↦[blk (2 * (L 1).val + (L 0).val) n.val]{fullShare} f := by
  rw [bigSep_fin16]
  unfold dstPts
  exact (sep_congr_eq (pts_dst1 d L f) (sep_congr_eq (pts_dst2 d L f) (sep_congr_eq (pts_dst3 d L f) (sep_congr_eq (pts_dst4 d L f) (sep_congr_eq (pts_dst5 d L f) (sep_congr_eq (pts_dst6 d L f) (sep_congr_eq (pts_dst7 d L f) (sep_congr_eq (pts_dst8 d L f) (sep_congr_eq (pts_dst9 d L f) (sep_congr_eq (pts_dst10 d L f) (sep_congr_eq (pts_dst11 d L f) (sep_congr_eq (pts_dst12 d L f) (sep_congr_eq (pts_dst13 d L f) (sep_congr_eq (pts_dst14 d L f) (sep_congr_eq (pts_dst15 d L f) (pts_dst16 d L f))))))))))))))))

/-! ## The cover: 2 × 16 × 16 blocks are exactly the rows from 2048 up -/

/-- The rows below 2048, of every batch entry: what the vector-subcore kernel leaves alone. -/
def lowRows : Finset S32x4096x128.Idx := Finset.univ.filter fun j => (j 1).val < 2048

/-- The block of SparseCore `c`, tile `s`, slice `n`: block `n` of batch entry `2 s + c`. -/
def tblk (t : Fin (grid1.bound 0) × Fin (grid1.bound 1) × Fin 16) : Finset S32x4096x128.Idx :=
  blk (2 * t.2.1.val + t.1.val) t.2.2.val

/-- Distinct (SparseCore, tile, slice) triples have disjoint blocks: an element of both has batch entry
    `2 s + c = 2 s' + c'` with `c, c' < 2`, so `c = c'` and `s = s'`; and its row lies in
    `[2048 + 128 n, 2048 + 128 (n + 1))` and in `[2048 + 128 n', 2048 + 128 (n' + 1))`, so `n = n'`. -/
theorem tblk_disjoint : ∀ t ∈ (Finset.univ : Finset (Fin (grid1.bound 0) × Fin (grid1.bound 1) × Fin 16)),
    ∀ t' ∈ (Finset.univ : Finset (Fin (grid1.bound 0) × Fin (grid1.bound 1) × Fin 16)), t ≠ t' → Disjoint (tblk t) (tblk t') := by
  rintro ⟨c, s, n⟩ - ⟨c', s', n'⟩ - hne
  rw [Finset.disjoint_left]
  intro j hj hj'
  rw [tblk, mem_blk] at hj hj'
  apply hne
  have hc : c.val < 2 := c.isLt
  have hc' : c'.val < 2 := c'.isLt
  simp only at hj hj'
  have e1 : c.val = c'.val := by omega
  have e2 : s.val = s'.val := by omega
  have e3 : n.val = n'.val := by omega
  exact Prod.ext (Fin.ext e1) (Prod.ext (Fin.ext e2) (Fin.ext e3))

/-- An element lies in some block exactly when its row is at least 2048: batch entry `b < 32` is `2 (b / 2) + b % 2`,
    and row `r` with `2048 ≤ r < 4096` lies in block `(r - 2048) / 128 < 16`. -/
theorem mem_cover (j : S32x4096x128.Idx) :
    j ∈ (Finset.univ : Finset (Fin (grid1.bound 0) × Fin (grid1.bound 1) × Fin 16)).biUnion tblk ↔ 2048 ≤ (j 1).val := by
  have h0 : (j 0).val < 32 := (j 0).isLt
  have h1 : (j 1).val < 4096 := (j 1).isLt
  rw [Finset.mem_biUnion]
  constructor
  · rintro ⟨t, -, ht⟩
    rw [tblk, mem_blk] at ht
    omega
  · intro h
    refine ⟨(⟨(j 0).val % 2, by show _ < 2; omega⟩, ⟨(j 0).val / 2, by show _ < 16; omega⟩, ⟨((j 1).val - 2048) / 128, by omega⟩),
      Finset.mem_univ _, ?_⟩
    rw [tblk, mem_blk]
    simp only
    omega

/-- What no block holds is the rows below 2048. -/
theorem sdiff_cover :
    Finset.univ \ (Finset.univ : Finset (Fin (grid1.bound 0) × Fin (grid1.bound 1) × Fin 16)).biUnion tblk = lowRows := by
  ext j
  rw [Finset.mem_sdiff, mem_cover]
  simp only [lowRows, Finset.mem_filter, Finset.mem_univ, true_and]
  omega

/-- The rows from 2048 up, held whole, are the tiles' slices held tile by tile. -/
theorem upper_eq (d : Dev nD) (f : Buf (Elt F) (o1Loc d)) :
    (o1Loc d ↦[(Finset.univ : Finset (Fin (grid1.bound 0) × Fin (grid1.bound 1) × Fin 16)).biUnion tblk]{fullShare} f : sProp 𝕄)
      = bigSep Finset.univ fun c : Fin (grid1.bound 0) => bigSep Finset.univ fun s : Fin (grid1.bound 1) => dstPts d (coordsV c s) f := by
  rw [pointsTo_biUnion Finset.univ (ℓ := o1Loc d) tblk tblk_disjoint, bigSep_univ_prod]
  refine bigSep_congr fun c _ => ?_
  rw [bigSep_univ_prod]
  refine bigSep_congr fun s _ => ?_
  rw [dstPts_eq]
  rfl

/-! ## Splitting the array among the tiles, and joining it back -/

/-- The whole array is the tiles' slices beside the rows below 2048. -/
theorem v1_split (d : Dev nD) (f : Buf (Elt F) (o1Loc d)) :
    (o1Loc d ↦{fullShare} f : sProp 𝕄)
      ⊢ iprop((bigSep Finset.univ fun c : Fin (grid1.bound 0) => bigSep Finset.univ fun s : Fin (grid1.bound 1) => dstPts d (coordsV c s) f)
          ∗ (o1Loc d ↦[lowRows]{fullShare} f)) := by
  rw [← upper_eq, ← sdiff_cover]
  exact (pointsTo_split_subset (Finset.subset_univ _)).1

/-- The tiles' slices all zero, beside the rows below 2048 at `f`, are the whole array at `f` with its rows from 2048
    up zeroed: the constant zero agrees with `zeroTail f` on rows ≥ 2048, and `f` agrees with it on rows < 2048. -/
theorem v1_join [FloatOps F] (d : Dev nD) (f : Buf (Elt F) (o1Loc d)) :
    iprop((bigSep Finset.univ fun c : Fin (grid1.bound 0) => bigSep Finset.univ fun s : Fin (grid1.bound 1) => dstPts d (coordsV c s) (fun _ => Cert.Proof.Spec.zero32))
        ∗ (o1Loc d ↦[lowRows]{fullShare} f))
      ⊢ (o1Loc d ↦{fullShare} Cert.Proof.Spec.zeroTail f : sProp 𝕄) := by
  have hU : (o1Loc d ↦[(Finset.univ : Finset (Fin (grid1.bound 0) × Fin (grid1.bound 1) × Fin 16)).biUnion tblk]{fullShare} (fun _ => Cert.Proof.Spec.zero32) : sProp 𝕄)
      = o1Loc d ↦[(Finset.univ : Finset (Fin (grid1.bound 0) × Fin (grid1.bound 1) × Fin 16)).biUnion tblk]{fullShare} Cert.Proof.Spec.zeroTail f :=
    pointsTo_congr fun i hi => (Cert.Proof.Spec.zeroTail_ge f i (by have := (mem_cover i).1 hi; omega)).symm
  have hL : (o1Loc d ↦[lowRows]{fullShare} f : sProp 𝕄) = o1Loc d ↦[lowRows]{fullShare} Cert.Proof.Spec.zeroTail f :=
    pointsTo_congr fun i hi => by
      have hlt : (i 1).val < 2048 := by
        simpa only [lowRows, Finset.mem_filter, Finset.mem_univ, true_and] using hi
      exact (if_pos hlt).symm
  have hbig : (bigSep Finset.univ fun c : Fin (grid1.bound 0) => bigSep Finset.univ fun s : Fin (grid1.bound 1) => dstPts d (coordsV c s) (fun _ => Cert.Proof.Spec.zero32) : sProp 𝕄)
      = o1Loc d ↦[(Finset.univ : Finset (Fin (grid1.bound 0) × Fin (grid1.bound 1) × Fin 16)).biUnion tblk]{fullShare} Cert.Proof.Spec.zeroTail f :=
    (upper_eq d (fun _ => Cert.Proof.Spec.zero32)).symm.trans hU
  rw [hbig, hL, ← sdiff_cover]
  exact (pointsTo_split_subset (Finset.subset_univ _)).2

end Cert.Proof.KI

end
-- ==== Proof.Pay.lean ====
/-
  What the SparseCore call's handshakes carry.

  The TensorCore hands each SparseCore the sixteen destination slices of each of its sixteen tiles, all at the array's
  launch contents; the sequencer hands tile `i` its own sixteen; each tile hands them back zero-filled, and the
  SparseCore hands all of them back. Nothing of the launch's is consumed by a tile's proof.
-/
import proofs.«209718_g39419209842710_cont_8to1_b_1024_25_alg».proof.Proof.V1Split

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)

theorem nCore_zero : (K (F := F)).nCore 0 = grid1.bound 0 := rfl
theorem nSub_zero : (K (F := F)).nSub 0 = grid1.bound 1 := rfl

/-- The grid point of SparseCore `c` of the call's grid, tile `i`. -/
abbrev tileAt (c : Fin ((K (F := F)).nCore 0)) (i : Fin ((K (F := F)).nSub 0)) : grid1.Coords :=
  coordsV (Fin.cast nCore_zero c) (Fin.cast nSub_zero i)

variable [FloatOps F]

/-- The one call's payloads. -/
def P : (K (F := F)).Pay (nD := nD) (Val := Elt F) (Name := ℕ) (U := UU) where
  st := fun q d c => match q with
    | 0 => bigSep Finset.univ fun i : Fin ((K (F := F)).nSub 0) => dstPts d (tileAt c i) (m (o1Loc d))
  dn := fun q d c => match q with
    | 0 => bigSep Finset.univ fun i : Fin ((K (F := F)).nSub 0) => dstPts d (tileAt c i) (fun _ => Spec.zero32)
  go := fun q d c i => match q with
    | 0 => dstPts d (tileAt c i) (m (o1Loc d))
  td := fun q d c i => match q with
    | 0 => dstPts d (tileAt c i) (fun _ => Spec.zero32)
  x := fun _ _ => iprop(emp)

/-- A tile's sixteen slices are plain elements of the array's buffer: they may ride in a handshake's payload. -/
theorem dstPts_storable (d : Dev nD) (L : grid1.Coords) (f : Buf (Elt F) (o1Loc d)) :
    BI.Storable (upEmb : UEmb _ 𝕄) (dstPts (F := F) d L f) := by
  rw [dstPts_eq]; infer_instance

set_option maxHeartbeats 2000000 in
instance P_storable : (P (F := F) m).IsStorable where
  st q d c := match q with
    | 0 => by
      haveI : ∀ i : Fin ((K (F := F)).nSub 0), BI.Storable (upEmb : UEmb _ 𝕄) (dstPts (F := F) d (tileAt c i) (m (o1Loc d))) :=
        fun i => dstPts_storable d (tileAt c i) (m (o1Loc d))
      show BI.Storable (upEmb : UEmb _ 𝕄) (bigSep Finset.univ fun i : Fin ((K (F := F)).nSub 0) => dstPts (F := F) d (tileAt c i) (m (o1Loc d)))
      infer_instance
  dn q d c := match q with
    | 0 => by
      haveI : ∀ i : Fin ((K (F := F)).nSub 0), BI.Storable (upEmb : UEmb _ 𝕄) (dstPts (F := F) d (tileAt c i) (fun _ => Spec.zero32)) :=
        fun i => dstPts_storable d (tileAt c i) (fun _ => Spec.zero32)
      show BI.Storable (upEmb : UEmb _ 𝕄) (bigSep Finset.univ fun i : Fin ((K (F := F)).nSub 0) => dstPts (F := F) d (tileAt c i) (fun _ => Spec.zero32))
      infer_instance
  go q d c i := match q with
    | 0 => dstPts_storable d (tileAt c i) (m (o1Loc d))
  td q d c i := match q with
    | 0 => dstPts_storable d (tileAt c i) (fun _ => Spec.zero32)

set_option maxHeartbeats 2000000 in
/-- A SparseCore's operands are its tiles' shares, and its results theirs. -/
theorem vecSplit : (K (F := F)).VecSplit' (P m) 0 := by
  intro d c
  show (bigSep Finset.univ fun i : Fin ((K (F := F)).nSub 0) => dstPts d (tileAt c i) (m (o1Loc d))) ⊢ |={Set.univ}=> iprop(
      (bigSep Finset.univ fun i : Fin ((K (F := F)).nSub 0) => dstPts d (tileAt c i) (m (o1Loc d)))
      ∗ ((bigSep Finset.univ fun i : Fin ((K (F := F)).nSub 0) => dstPts (F := F) d (tileAt c i) (fun _ => Spec.zero32))
          -∗ (bigSep Finset.univ fun i : Fin ((K (F := F)).nSub 0) => dstPts (F := F) d (tileAt c i) (fun _ => Spec.zero32))))
  iintro H; imodintro
  isplitl [H]; · iexact H
  iintro H; iexact H

end Cert.Proof.KI

end
-- ==== Proof.TcBodies.lean ====
/-
  The two TensorCore kernel bodies, each as a triple over its staging buffers.

  The key-cache body holds one block of eight batch entries of the input (8 × 2048 × 128) and one block of the cache
  (8 × 4096 × 128): it stores the input block into rows 0 … 2047 of the cache block and a zero vector into rows
  2048 … 4095. The value-cache body holds a block of the input and a block of the cache's first 2048 rows and stores the
  first into the second. What each leaves in its output buffer is the canonical reading of its stores, last first.
-/
import proofs.«209718_g39419209842710_cont_8to1_b_1024_25_alg».proof.Proof.Setup
import proofs.«209718_g39419209842710_cont_8to1_b_1024_25_alg».proof.Proof.Gen.KernelIdeal.Skeleton
import Idealize.ShloMosaic.Lib.Pipeline.FrameBody
import Idealize.ShloMosaic.Lib.Tactic

set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The bodies' rectangles -/

/-- The whole of an input block. -/
abbrev rIn : Rect S8x2048x128 := Rect.unit (s := S8x2048x128) ![0, 0, 0] S8x2048x128.size Shapes1.Facts₀.inb_S8x2048x128_S8x2048x128_0_0_0
/-- Rows 0 … 2047 of a cache block, and rows 2048 … 4095. -/
abbrev rLo : Rect S8x4096x128 := Rect.unit (s := S8x4096x128) ![0, 0, 0] S8x2048x128.size Shapes1.Facts₀.inb_S8x4096x128_S8x2048x128_0_0_0
abbrev rHi : Rect S8x4096x128 := Rect.unit (s := S8x4096x128) ![0, 2048, 0] S8x2048x128.size Shapes1.Facts₀.inb_S8x4096x128_S8x2048x128_0_2048_0

/-! ## What each body leaves in its output buffer -/

/-- The key-cache block after the body: the zero vector on the upper rows, the input block on the lower (the stores, last first). -/
def outK (x0 : Vec F S8x2048x128 .f32) : Vec F S8x4096x128 .f32 :=
  View.canon [⟨rHi, k0_pay1 (F := F)⟩, ⟨rLo, View.ld x0 rIn⟩]

/-- The value-cache block after the body: the input block. -/
def outV (x0 : Vec F S8x2048x128 .f32) : Vec F S8x2048x128 .f32 :=
  View.canon [⟨rIn, View.ld x0 rIn⟩]

theorem coverK (p1 p0 : Vec F S8x2048x128 .f32) (y : S8x4096x128.Idx) :
    ∃ pc ∈ ([⟨rHi, p1⟩, ⟨rLo, p0⟩] : List (View.Piece (Elt F) S8x4096x128 .f32)), y ∈ pc.1.set :=
  View.cover_of_tiled [⟨rHi, p1⟩, ⟨rLo, p0⟩] S8x2048x128.size (by rfl) y

theorem coverV (p0 : Vec F S8x2048x128 .f32) (y : S8x2048x128.Idx) :
    ∃ pc ∈ ([⟨rIn, p0⟩] : List (View.Piece (Elt F) S8x2048x128 .f32)), y ∈ pc.1.set :=
  View.cover_of_tiled [⟨rIn, p0⟩] S8x2048x128.size (by rfl) y

/-! ## The bodies' triples -/

set_option maxHeartbeats 1000000 in
/-- The key-cache body on whole staging memrefs, the input's at `x0` and the output's at anything, runs to the
    continuation holding the input's as it was and the output's at `outK x0`. -/
theorem sound_kernelK (c : Dev nD) (E : Set ℕ) (i : grid0.Coords) (arg1 : Memref sig .tc .vmem S8x2048x128 .f32) (harg1 : arg1.IsWhole)
    (arg2 : Memref sig .tc .vmem S8x4096x128 .f32) (harg2 : arg2.IsWhole) (x0 : Vec F S8x2048x128 .f32) (Kk : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (outK x0)) -∗ Kk ⟨⟩))
      ⊢ wp frame (wpE (defs₀ (F := F)) Variants.none c none) E (cc0__k_body i arg1 harg1 arg2 harg2) Kk := by
  simp only [cc0__k_body_eq_skeleton]; unfold cc0__k_body_skel
  unfold owns
  iintro ⟨⟨%f0, %hf0, H0⟩, ⟨%d2, %f2, -, H2⟩, Hk⟩
  subst hf0
  sl_exec
  sl_step
  iapply Hk
  isplitl [H0]
  · iexists f0; isplitr; · ipureintro; rfl
    iexact H0
  iexists _; isplitr
  swap; · iexact H2
  ipureintro
  exact View.read_writes_eq_canon _ _ _ (coverK _ _)

set_option maxHeartbeats 1000000 in
/-- The value-cache body: the array operand it never touches aside, the input's buffer at `x0` and the output's at
    anything, it runs to the continuation holding the input's as it was and the output's at `outV x0`. -/
theorem sound_kernelV (c : Dev nD) (E : Set ℕ) (i : grid2.Coords) (arg1 : Memref sig .tc .hbm S32x4096x128 .f32) (harg1 : arg1.IsWhole)
    (arg2 : Memref sig .tc .vmem S8x2048x128 .f32) (harg2 : arg2.IsWhole)
    (arg3 : Memref sig .tc .vmem S8x2048x128 .f32) (harg3 : arg3.IsWhole) (x0 : Vec F S8x2048x128 .f32) (Kk : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (outV x0)) -∗ Kk ⟨⟩))
      ⊢ wp frame (wpE (defs₀ (F := F)) Variants.none c none) E (cc2__vcopy_body i arg1 harg1 arg2 harg2 arg3 harg3) Kk := by
  simp only [cc2__vcopy_body_eq_skeleton]; unfold cc2__vcopy_body_skel
  unfold owns
  iintro ⟨⟨%f0, %hf0, H0⟩, ⟨%d2, %f2, -, H2⟩, Hk⟩
  subst hf0
  sl_exec
  sl_step
  iapply Hk
  isplitl [H0]
  · iexists f0; isplitr; · ipureintro; rfl
    iexact H0
  iexists _; isplitr
  swap; · iexact H2
  ipureintro
  exact View.read_writes_eq_canon _ _ _ (coverV _)

end Cert.Proof.KI

end
-- ==== Proof.TcRegions.lean ====
/-
  The two TensorCore calls as pipelines: their proof data and their body obligations.

  Each call walks four grid points; at point `t` it fetches block `t` (eight batch entries) of its input, runs its body,
  and writes block `t` of its output back. The proof data says what each staging buffer holds after the body at each
  point — the input's its block, the output's what the body's stores leave of that block — and that the body neither
  touches the scoped buffers no window stages nor changes what the TensorCore owes the SparseCore calls still to come.
-/
import proofs.«209718_g39419209842710_cont_8to1_b_1024_25_alg».proof.Proof.TcBodies
import proofs.«209718_g39419209842710_cont_8to1_b_1024_25_alg».proof.Proof.Fill

set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ)

/-- The pairs a TensorCore's waits may have recorded before SparseCore call `n`: those at level at most `8 n`. -/
def recAt (c : Dev nD) (n : ℕ) : Set (SemLoc sig × HIx 1) := {p | (K (F := F)).lev ((c : Thread nD τ), p.1) p.2 ≤ 8 * n}

/-! ## The key cache's call -/

/-- Block `t` of the key input, read off the launch memory. -/
def iblkK (c : Dev nD) (t : Fin cfg0.N) : ((cfg0.win 0).xblock (cfg0.grid.coords t)).Idx → Elt F (cfg0.win 0).elt :=
  ((cfg0.win 0).blk t).view.read (Elt F) (m ((c : Thread nD τ).loc main_arg0))

/-- The key call's proof data: the arrays as launched; after the body the input's buffer at its block and the cache's at
    `outK` of it; the invariant the scoped buffers no window stages; the TensorCore owing its start signals throughout. -/
def datK (c : Dev nD) : Dat τ (Elt F) (HIx 1) ℕ UU ℕ cfg0 c where
  A w := m ((cfg0.win w).arr.view.loc (c : Thread nD τ))
  after w t := match w with
    | ⟨0, _⟩ => iblkK m c t
    | ⟨1, _⟩ => outK (iblkK m c t)
  Φ _ := Pipeline.scopedRest (Ix := HIx 1) (Name := ℕ) (U := UU) (Lvl := ℕ) (Val := Elt F) spec0 c
  q _ := fullShare
  owed _ := (K (F := F)).Otc c 0
  recorded _ := recAt (F := F) c 0

theorem afterK_0 (c : Dev nD) (t : Fin cfg0.N) : (datK m c).after 0 t = iblkK m c t := by dsimp only [datK]
theorem afterK_1 (c : Dev nD) (t : Fin cfg0.N) : (datK m c).after 1 t = outK (iblkK m c t) := by dsimp only [datK]

/-- The input's current staging buffer holds its block at every point. -/
theorem beforeK_0 (c : Dev nD) (t : Fin cfg0.N) (d) : (datK m c).before 0 t d = iblkK m c t :=
  ((datK m c).before_in_eq_fetched 0 rfl (fun _ => rfl) (fun _ _ _ => rfl) (fun t => by rw [afterK_0]; unfold Dat.blockOf iblkK; rfl) t d).trans
    (by unfold Dat.fetched Dat.blockOf iblkK; rfl)

/-- The key body at any point. -/
theorem sound_bodyK (c : Dev nD) (t : Fin cfg0.N) :
    iprop((datK m c).Φ t.castSucc ∗ (datK m c).owesAt none t.castSucc
        ∗ (∃ d, owns (c : Thread nD τ) (st0_0 t) fullShare ((datK m c).before 0 t d))
        ∗ (∃ d, owns (c : Thread nD τ) (st0_1 t) fullShare ((datK m c).before 1 t d)))
      ⊢ wp frame (wpE (defs₀ (F := F)) Variants.none c none) Set.univ (bodyAt0 t) (fun _ =>
          iprop((datK m c).Φ t.succ ∗ (datK m c).owesAt none t.succ
            ∗ owns (c : Thread nD τ) (st0_0 t) fullShare ((datK m c).after 0 t)
            ∗ owns (c : Thread nD τ) (st0_1 t) fullShare ((datK m c).after 1 t))) := by
  unfold bodyAt0
  simp only [beforeK_0]
  rw [show (datK m c).Φ t.succ = (datK m c).Φ t.castSucc from rfl,
    show (datK m c).owesAt none t.succ = (datK m c).owesAt none t.castSucc from rfl, afterK_0, afterK_1]
  iintro ⟨HΦ, Ho, ⟨%d0, H0⟩, ⟨%d1, H1⟩⟩
  iapply (sound_kernelK c Set.univ (grid0.coords t) _ _ _ _ (iblkK m c t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligationK (c : Dev nD) : BodyObligation (datK (F := F) m c) (defs₀ (F := F)) Variants.none none Set.univ := fun t => by
  rw [bigSep_W0, bigSep_W0]
  exact sound_bodyK m c t

/-! ## The value cache's call -/

/-- Block `t` of the value input, read off the launch memory. -/
def iblkV (c : Dev nD) (t : Fin cfg2.N) : ((cfg2.win 0).xblock (cfg2.grid.coords t)).Idx → Elt F (cfg2.win 0).elt :=
  ((cfg2.win 0).blk t).view.read (Elt F) (m ((c : Thread nD τ).loc main_arg1))

/-- The value call's proof data: the input as launched and the cache at the zero-tailed array the vector-subcore kernel
    left (copied into the cache's buffer before the call); after the body the input's buffer at its block and the cache's
    at that block; the TensorCore owing nothing for SparseCore calls to come but what the handshake state says. -/
def datV (c : Dev nD) : Dat τ (Elt F) (HIx 1) ℕ UU ℕ cfg2 c where
  A w := match w with
    | ⟨0, _⟩ => m ((c : Thread nD τ).loc main_arg1)
    | ⟨1, _⟩ => Spec.zeroTail (F := F) (m ((c : Thread nD τ).loc main_v1))
  after w t := match w with
    | ⟨0, _⟩ => iblkV m c t
    | ⟨1, _⟩ => outV (iblkV m c t)
  Φ _ := Pipeline.scopedRest (Ix := HIx 1) (Name := ℕ) (U := UU) (Lvl := ℕ) (Val := Elt F) spec2 c
  q _ := fullShare
  owed _ := (K (F := F)).Otc c 1
  recorded _ := recAt (F := F) c 1

theorem afterV_0 (c : Dev nD) (t : Fin cfg2.N) : (datV m c).after 0 t = iblkV m c t := by dsimp only [datV]
theorem afterV_1 (c : Dev nD) (t : Fin cfg2.N) : (datV m c).after 1 t = outV (iblkV m c t) := by dsimp only [datV]

theorem beforeV_0 (c : Dev nD) (t : Fin cfg2.N) (d) : (datV m c).before 0 t d = iblkV m c t :=
  ((datV m c).before_in_eq_fetched 0 rfl (fun _ => rfl) (fun _ _ _ => rfl) (fun t => by rw [afterV_0]; unfold Dat.blockOf iblkV; rfl) t d).trans
    (by unfold Dat.fetched Dat.blockOf iblkV; rfl)

theorem sound_bodyV (c : Dev nD) (t : Fin cfg2.N) :
    iprop((datV m c).Φ t.castSucc ∗ (datV m c).owesAt none t.castSucc
        ∗ (∃ d, owns (c : Thread nD τ) (st2_0 t) fullShare ((datV m c).before 0 t d))
        ∗ (∃ d, owns (c : Thread nD τ) (st2_1 t) fullShare ((datV m c).before 1 t d)))
      ⊢ wp frame (wpE (defs₀ (F := F)) Variants.none c none) Set.univ (bodyAt2 t) (fun _ =>
          iprop((datV m c).Φ t.succ ∗ (datV m c).owesAt none t.succ
            ∗ owns (c : Thread nD τ) (st2_0 t) fullShare ((datV m c).after 0 t)
            ∗ owns (c : Thread nD τ) (st2_1 t) fullShare ((datV m c).after 1 t))) := by
  unfold bodyAt2
  simp only [beforeV_0]
  rw [show (datV m c).Φ t.succ = (datV m c).Φ t.castSucc from rfl,
    show (datV m c).owesAt none t.succ = (datV m c).owesAt none t.castSucc from rfl, afterV_0, afterV_1]
  iintro ⟨HΦ, Ho, ⟨%d0, H0⟩, ⟨%d1, H1⟩⟩
  iapply (sound_kernelV c Set.univ (grid2.coords t) _ _ _ _ _ _ (iblkV m c t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligationV (c : Dev nD) : BodyObligation (datV (F := F) m c) (defs₀ (F := F)) Variants.none none Set.univ := fun t => by
  rw [bigSep_W2, bigSep_W2]
  exact sound_bodyV m c t

/-! ## The family -/

abbrev adm : (p : Fin 2) → (pcfgs (F := F) p).Adm := fun p => (cfgs p).toPCfg_adm

def pdats : (p : Fin 2) → (c : Dev nD) → Dat τ (Elt F) (HIx 1) ℕ UU ℕ (Pipeline.pin (pcfgs (F := F)) adm p) c
  | ⟨0, _⟩ => datK m
  | ⟨1, _⟩ => datV m

end Cert.Proof.KI

end
-- ==== Proof.TcSegs.lean ====
/-
  The two TensorCore calls as regions of @main.

  A region is entered holding its pipeline's arrays at the proof data's entry contents, whatever bypasses it, and what
  the TensorCore owes the SparseCore calls to come (its start signals) with every pair its waits have recorded at a
  level at most `8 n`, `n` the number of SparseCore calls made so far; it is left holding the arrays at their final
  contents, the same bypassing rest and the same debt. The staging waits of a region are recorded at index `none`, level
  0: below everything the TensorCore owes, which is why it may wait while owing, and within the bound it hands on.
-/
import proofs.«209718_g39419209842710_cont_8to1_b_1024_25_alg».proof.Proof.TcRegions

set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ)

/-- What the TensorCore owes before SparseCore call `n`, its recorded pairs at levels at most `8 n`. -/
def tcOwes (c : Dev nD) (n : ℕ) : sProp 𝕄 :=
  iprop(∃ W, ⌜(K (F := F)).WBelow (c : Thread nD τ) W (8 * n)⌝ ∗ owes (c : Thread nD τ) ((K (F := F)).Otc c n) W)

/-- The level facts' pairs and levels: every index at every cell, the launch's levels. -/
abbrev LL : GSem nD τ sig → Finset (HIx 1) := (K (F := F)).L
abbrev lvv : GSem nD τ sig → HIx 1 → ℕ := (K (F := F)).lev

local notation "ℝ𝕊" => Pipeline.RegionSeg (pcfgs (F := F)) adm (pdats m) (none : HIx 1) defs₀ 𝒱₀ (LL (F := F)) (lvv (F := F))

/-- The staging waits of pipeline `p` on core `c` are admissible while the core owes `Otc c n`: the waits sit at level 0,
    the debts at a call's index, strictly above. -/
theorem waits_ok (p : Fin 2) (c : Dev nD) (n : ℕ) (howed : ∀ t, (pdats m p c).owed t = (K (F := F)).Otc c n) :
    (levAts (LL (F := F)) (lvv (F := F)) : sProp 𝕄) ⊢ Pipeline.cellsWaits (Pipeline.pin (pcfgs (F := F)) adm) (pdats m) (none : HIx 1) p c :=
  Pipeline.cellsWaits_of_cut _ (pdats m) (none : HIx 1) p c (lev := (K (F := F)).lev) 0 ((K (F := F)).Otc c n) howed
    (fun _ _ => Finset.mem_univ _) (fun _ _ => le_of_eq ((K (F := F)).lev_none _))
    fun g i hg => ⟨Finset.mem_univ _, lt_of_lt_of_le (Nat.succ_pos _) ((K (F := F)).lev_of_Otc_pos hg)⟩

/-- No prefetched tables: nothing is held for them. -/
theorem prefHeld_none (p : Fin 2) (c : Dev nD) :
    (Pipeline.prefHeld (Ix := HIx 1) (Name := ℕ) (U := UU) (Lvl := ℕ) (pcfgs (F := F) p).pre c (fun _ => fullShare) (adm (F := F) p).1 : sProp 𝕄) = iprop(emp) := by
  unfold Pipeline.prefHeld
  match p with
  | ⟨0, _⟩ => rw [show (Finset.univ : Finset (Fin 0)) = ∅ from rfl, BI.bigSep_empty]; rfl
  | ⟨1, _⟩ => rw [show (Finset.univ : Finset (Fin 0)) = ∅ from rfl, BI.bigSep_empty]; rfl

/-- What the TensorCore owes with its recorded pairs bounded is the pipeline's form of it, at entry, -/
theorem tcOwes_owesAt (p : Fin 2) (c : Dev nD) (n : ℕ) (t : Fin ((Pipeline.pin (pcfgs (F := F)) adm p).N + 1))
    (howed : (pdats m p c).owed t = (K (F := F)).Otc c n) (hrec : (pdats m p c).recorded t = recAt (F := F) c n) :
    tcOwes (F := F) c n ⊢ ((pdats m p c).owesAt (none : HIx 1) t : sProp 𝕄) := by
  unfold tcOwes Pipeline.Dat.owesAt Pipeline.owesWithin Pipeline.Dat.bound
  rw [howed, hrec]
  iintro ⟨%W, %hW, HO⟩
  iexists W; isplitr
  · ipureintro; exact fun p hp => Or.inl (hW p hp)
  · iexact HO

/-- and back at the exit: the staging waits the region added sit at level 0. -/
theorem owesAt_tcOwes (p : Fin 2) (c : Dev nD) (n : ℕ) (t : Fin ((Pipeline.pin (pcfgs (F := F)) adm p).N + 1))
    (howed : (pdats m p c).owed t = (K (F := F)).Otc c n) (hrec : (pdats m p c).recorded t = recAt (F := F) c n) :
    ((pdats m p c).owesAt (none : HIx 1) t : sProp 𝕄) ⊢ tcOwes (F := F) c n := by
  unfold tcOwes Pipeline.Dat.owesAt Pipeline.owesWithin Pipeline.Dat.bound
  rw [howed, hrec]
  iintro ⟨%W, %hW, HO⟩
  iexists W; isplitr
  · ipureintro
    intro q hq
    rcases hW hq with h | ⟨w, s, rfl⟩
    · exact h
    · show (K (F := F)).lev _ none ≤ _
      rw [(K (F := F)).lev_none]; exact Nat.zero_le _
  · iexact HO

/-- The scoped buffers no window stages, handed back beside nothing else. -/
theorem keep_rest (p : Fin 2) (c : Dev nD) :
    (Pipeline.scopedRest (Ix := HIx 1) (Name := ℕ) (U := UU) (Lvl := ℕ) (Val := Elt F) (Pipeline.pin (pcfgs (F := F)) adm p).spec c : sProp 𝕄)
      ⊢ iprop(emp ∗ emp ∗ Pipeline.scopedRest (Ix := HIx 1) (Name := ℕ) (U := UU) (Lvl := ℕ) (Val := Elt F) (Pipeline.pin (pcfgs (F := F)) adm p).spec c) := by
  iintro H; isplitr; · iempintro
  isplitr; · iempintro
  iexact H

/-- THE KEY CACHE'S CALL as a region: entered with its two arrays at their launch contents, `Zr c` bypassing. -/
def regK (Zr : Dev nD → sProp 𝕄) : ℝ𝕊 0 where
  win := launch0.win.to₀
  block_pos := launch0.block_pos
  stage_whole := launch0.stage_whole
  K := PEmpty
  osem k := k.elim
  ho := Pipeline.OwnSemFacts.none _
  hbody c := (body_obligationK m c).loose
  hwaits c := waits_ok m 0 c 0 (fun _ => rfl)
  pre c := iprop((pdats m 0 c).arrays ((pdats m 0 c).arrAt · 0) ∗ Zr c ∗ tcOwes (F := F) c 0)
  post c := iprop((pdats m 0 c).arrays ((pdats m 0 c).arrAt · (Pipeline.pin (pcfgs (F := F)) adm 0).N) ∗ Zr c ∗ tcOwes (F := F) c 0)
  X _ := iprop(emp)
  Y _ := iprop(emp)
  Z c := Zr c
  hentry c := by
    rw [Pipeline.ownSems0_none, prefHeld_none]
    iintro ⟨⟨Ha, Hz, HO⟩, -, -⟩
    imodintro
    isplitl [Ha]; · iexact Ha
    isplitr; · iempintro
    isplitl [HO]; · iapply (tcOwes_owesAt m 0 c 0 0 rfl rfl); iexact HO
    isplitr; · iempintro
    iexact Hz
  hin c := sep_elim_right.trans sep_elim_right
  hout c := by
    rw [Pipeline.ownSems0_none]
    refine BI.Entails.trans ?_ (keep_rest (F := F) 0 c)
    exact BI.Entails.refl _
  hexit c := by
    iintro ⟨Ha, HO, -, Hz⟩
    imodintro
    isplitl [Ha]; · iexact Ha
    isplitl [Hz]; · iexact Hz
    iapply (owesAt_tcOwes m 0 c 0 (Fin.last _) rfl rfl); iexact HO

set_option maxHeartbeats 4000000 in
/-- THE VALUE CACHE'S CALL as a region, after the one SparseCore call. -/
def regV (Zr : Dev nD → sProp 𝕄) : ℝ𝕊 1 where
  win := launch2.win.to₀
  block_pos := launch2.block_pos
  stage_whole := launch2.stage_whole
  K := PEmpty
  osem k := k.elim
  ho := Pipeline.OwnSemFacts.none _
  hbody c := (body_obligationV m c).loose
  hwaits c := waits_ok m 1 c 1 (fun _ => rfl)
  pre c := iprop((pdats m 1 c).arrays ((pdats m 1 c).arrAt · 0) ∗ Zr c ∗ tcOwes (F := F) c 1)
  post c := iprop((pdats m 1 c).arrays ((pdats m 1 c).arrAt · (Pipeline.pin (pcfgs (F := F)) adm 1).N) ∗ Zr c ∗ tcOwes (F := F) c 1)
  X _ := iprop(emp)
  Y _ := iprop(emp)
  Z c := Zr c
  hentry c := by
    rw [Pipeline.ownSems0_none, prefHeld_none]
    iintro ⟨⟨Ha, Hz, HO⟩, -, -⟩
    imodintro
    isplitl [Ha]; · iexact Ha
    isplitr; · iempintro
    isplitl [HO]; · iapply (tcOwes_owesAt m 1 c 1 0 rfl rfl); iexact HO
    isplitr; · iempintro
    iexact Hz
  hin c := sep_elim_right.trans sep_elim_right
  hout c := by
    rw [Pipeline.ownSems0_none]
    refine BI.Entails.trans ?_ (keep_rest (F := F) 1 c)
    exact BI.Entails.refl _
  hexit c := by
    iintro ⟨Ha, HO, -, Hz⟩
    imodintro
    isplitl [Ha]; · iexact Ha
    isplitl [Hz]; · iexact Hz
    iapply (owesAt_tcOwes m 1 c 1 (Fin.last _) rfl rfl); iexact HO

end Cert.Proof.KI

end
-- ==== Proof.RegionStep.lean ====
/-
  Entering a TensorCore call from the @main of a program with SparseCore calls.

  In such a program @main's labels are the extended signature's: a pallas_call's line calls the pipeline entry's label
  lifted. A proof of the region over the pipelines' own signature is a proof of that line.
-/
import proofs.«209718_g39419209842710_cont_8to1_b_1024_25_alg».proof.Proof.TcSegs

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ)

local notation "ℝ𝕊" => Pipeline.RegionSeg (pcfgs (F := F)) adm (pdats m) (none : HIx 1) defs₀ 𝒱₀ (LL (F := F)) (lvv (F := F))

/-- The region's call over the pipelines' signature. -/
abbrev callOf (p : Fin 2) : Prog (TpuEff nD τ sig (Elt F) (ΛP (F := F)) .tc) PUnit :=
  .op (.customCall (Pipeline.entry p) ()) fun _ => .ret ⟨⟩

omit [FloatOps F] in
/-- Equal assertions entail one another. -/
theorem ent_of_eq {A B : sProp 𝕄} (h : A = B) : A ⊢ B := h ▸ BI.Entails.refl _

/-- The region over the pipelines' own signature, the continuation a return. -/
theorem region_inner {p : Fin 2} (R : ℝ𝕊 p) (d : Dev nD) (Q : PUnit → sProp 𝕄) :
    iprop((iprop(boundary (d : Thread nD τ) ∗ R.post d) -∗ Q ⟨⟩)
        ∗ boundary (d : Thread nD τ) ∗ R.pre d ∗ levAts (LL (F := F)) (lvv (F := F))
        ∗ Pipeline.cellsGhost (Pipeline.pin (pcfgs (F := F)) adm) EP p d ∗ Pipeline.toksInit (Pipeline.pin (pcfgs (F := F)) adm) EP p d)
      ⊢ wp frame (wpE (D (F := F)) 𝒱 (d : Thread nD τ) none) Set.univ (callOf (F := F) p) Q := by
  have h := Pipeline.RegionSeg.wp (pcfgs (F := F)) adm (pdats m) (none : HIx 1) cellOf_inj EP defs₀ 𝒱₀ (LL (F := F)) (lvv (F := F))
    R d none (by intro u hu; cases hu) (fun _ => .ret ⟨⟩) Q
  have hpre : iprop((iprop(boundary (d : Thread nD τ) ∗ R.post d) -∗ Q ⟨⟩)
        ∗ boundary (d : Thread nD τ) ∗ R.pre d ∗ levAts (LL (F := F)) (lvv (F := F))
        ∗ Pipeline.cellsGhost (Pipeline.pin (pcfgs (F := F)) adm) EP p d ∗ Pipeline.toksInit (Pipeline.pin (pcfgs (F := F)) adm) EP p d)
      ⊢ iprop((iprop(boundary (d : Thread nD τ) ∗ R.post d) -∗ wp frame (wpE (Pipeline.defs (pcfgs (F := F)) defs₀) (Variants.lift 𝒱₀) (d : Thread nD τ) none) Set.univ (.ret ⟨⟩) Q)
        ∗ boundary (d : Thread nD τ) ∗ R.pre d ∗ levAts (LL (F := F)) (lvv (F := F))
        ∗ Pipeline.cellsGhost (Pipeline.pin (pcfgs (F := F)) adm) EP p d ∗ Pipeline.toksInit (Pipeline.pin (pcfgs (F := F)) adm) EP p d) := by
    iintro ⟨Hk, Hrest⟩
    isplitl [Hk]
    · iintro H
      rw [wp_ret]; imodintro
      iapply Hk; iexact H
    · iexact Hrest
  exact hpre.trans (h.trans (ent_of_eq (by congr 1)))

/-- The same, as @main's line. -/
theorem region_step {p : Fin 2} (R : ℝ𝕊 p) (d : Dev nD) (Q : PUnit → sProp 𝕄) :
    iprop((iprop(boundary (d : Thread nD τ) ∗ R.post d) -∗ Q ⟨⟩)
        ∗ boundary (d : Thread nD τ) ∗ R.pre d ∗ levAts (LL (F := F)) (lvv (F := F))
        ∗ Pipeline.cellsGhost (Pipeline.pin (pcfgs (F := F)) adm) EP p d ∗ Pipeline.toksInit (Pipeline.pin (pcfgs (F := F)) adm) EP p d)
      ⊢ wp frame (wpE ((K (F := F)).defs (D (F := F))) 𝒱 (SparseCore.T d) none) Set.univ
          (Prog.lift (.customCall (SparseCore.inner (Q := 1) (Pipeline.entry (Λ₀ := Λ₀) (A := fun p => (pcfgs (F := F) p).Adm) p)) ())) Q :=
  (region_inner m R d Q).trans
    ((K (F := F)).wp_liftProg (D (F := F)) 𝒱 (SparseCore.T d) Set.univ none (callOf (F := F) p) Q)

end Cert.Proof.KI

end
-- ==== Proof.TileBody.lean ====
/-
  The body of the vector-subcore kernel at one tile, for any float instance.

  A tile fills its 128 × 128 scratch by 1,024 stores of sixteen lanes — one per row and sixteen-lane column block, each
  the broadcast of the all-zero word —, then copies the whole scratch into sixteen 128-row slices of one batch entry of
  the array, every copy counted on the tile's one semaphore, then waits sixteen times for one copy's units.

  * The scratch after the stores. Every store's payload is the zero word at every lane, and the stores' rectangles tile
    the scratch in 1 × 16 blocks; so the scratch read whole after the stores is zero at every index, whatever it held
    before (`AllZero`, the tiling decided by evaluation on the rectangles alone).
  * The copies. All sixteen are outstanding together on one counter and all read the one scratch, each at a part of the
    share the tile holds of it. A wait that is not the last learns nothing about any slice. The sixteenth brings the
    units consumed to sixteen copies' worth, which the counter can only have received if every copy paid in full: every
    copy has landed, the counter is at zero again, and the shares of the scratch join back. Nothing touches the scratch
    or a slice between the first issue and the last wait.
  * A landed slice is its prior contents overwritten, through the whole slice, by what the copy read off the scratch;
    on the slice's own elements that is the zero word (`landed_congr`).
-/
import proofs.«209718_g39419209842710_cont_8to1_b_1024_25_alg».proof.Proof.Setup
import proofs.«209718_g39419209842710_cont_8to1_b_1024_25_alg».proof.Proof.Gen.KernelIdeal.Skeleton
import Idealize.ShloMosaic.Lib.SparseCore.Launch
import Idealize.ShloMosaic.Lib.Batch
import Idealize.ShloMosaic.Lib.Writes
import Idealize.ShloMosaic.Lib.Ring
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The tile's own resources, as the body's memory operations name them -/

section Tile

variable (d : Dev nD) (L : grid1.Coords)

/-- The tile's one DMA semaphore, as a cell. -/
abbrev semCell : GSem nD τ sig := (Vt d L, .dma cc1_scratch1.sem)

omit [FloatOps F] in
theorem ownSems0_Vt :
    (ownSems0 (Vt d L) : sProp 𝕄)
      = iprop(semVal (semCell d L) 0 ∗ bigSep ((ownCells (Vt d L)).erase (semCell d L)) fun g => semVal g 0) := by
  unfold SparseCore.Cfg.ownSems0
  exact SparseCore.bigSep_erase' ((mem_ownCells (g := semCell d L)).mpr ⟨rfl, by
    show (SemLoc.dma cc1_scratch1.sem : SemLoc sig).isScoped .scVector = true; decide⟩)

omit [FloatOps F] in
theorem ownBufs_Vt :
    (ownBufs (Vt d L) : sProp 𝕄)
      = iprop((∃ f, (Vt d L).loc cc1_scratch0 ↦{fullShare} f)
          ∗ bigSep ((ownRefs (τ := τ) (Vt d L).2).erase ((Vt d L).2.devRef cc1_scratch0))
              fun b => iprop(∃ f, ((d, b) : Loc nD τ sig) ↦{fullShare} f)) := by
  unfold SparseCore.Cfg.ownBufs
  exact SparseCore.bigSep_erase' (SparseCore.Cfg.mem_ownRefs_of_owner (p := (Vt d L).2) (b := (Vt d L).2.devRef cc1_scratch0) rfl)

omit [FloatOps F] in
theorem pts_scr (f : Buf (Elt F) ((Vt d L).loc cc1_scratch0)) :
    ((Memref.whole cc1_scratch0 : Memref sig .scVector .vmem S128x128 .f32).view.loc (Vt d L) ↦[(Memref.whole cc1_scratch0 : Memref sig .scVector .vmem S128x128 .f32).view.set]{fullShare} f : sProp 𝕄)
      = (Vt d L).loc cc1_scratch0 ↦{fullShare} f := by
  simp only [Memref.view_whole, View.set_whole]

/-! ## The value: every store writes the zero word, the stores tile the scratch, so every landed copy is zero -/

/-- Every store of the list writes the zero word at each of its elements. -/
def AllZero (Lst : List (View.Piece (Elt F) S128x128 .f32)) : Prop :=
  ∀ p ∈ Lst, ∀ x : p.1.shape.Idx, p.2 x = (Spec.zero32 : F .f32)

theorem allZero_nil : AllZero (F := F) [] := fun _ h => absurd h List.not_mem_nil

theorem allZero_cons {r : Rect S128x128} {w : r.shape.Idx → Elt F .f32} {Lst : List (View.Piece (Elt F) S128x128 .f32)}
    (hw : ∀ x, w x = (Spec.zero32 : F .f32)) (h : AllZero Lst) : AllZero (⟨r, w⟩ :: Lst) := by
  intro p hp
  rcases List.mem_cons.mp hp with rfl | hp
  · exact hw
  · exact h p hp

omit [FloatOps F] in
/-- A view's own elements after one unmasked write of `w` through the whole view, over any prior contents, are held at
    any contents `g` that the view reads as `w`. -/
theorem landed_congr (c : Thread nD τ) {sp : Space} {s : Shape} {e : EltTy} (v : View sig c.2.kind sp s e) (q : PosShare TreeShare)
    (f g : Buf (Elt F) (v.loc c)) (w : s.Idx → Elt F e) (hg : ∀ x, v.read (Elt F) g x = w x) :
    (v.loc c ↦[v.set]{q} v.writes (Elt F) f [⟨Rect.whole s, w⟩] : sProp 𝕄) ⊢ v.loc c ↦[v.set]{q} g := by
  refine Entails.of_eq ?_
  rw [← View.write_univ_eq_writes_whole v f [] w, View.writes_nil]
  refine pointsTo_congr fun i hi => ?_
  obtain ⟨x, -, rfl⟩ := Finset.mem_map.mp hi
  rw [View.write_emb_of_mem _ _ (Finset.mem_univ _), ← hg x, View.read_apply]
  simp

set_option maxHeartbeats 4000000 in
set_option sl_exec.stepHeartbeats 1000000 in
/-- The body of the vector-subcore kernel at the tile of grid point `L`: the 1,024 stores fill the tile's scratch with the
    zero word (every store writes zero and the stores tile the 128 × 128 scratch), the sixteen copies of the scratch, all
    counted on the tile's one semaphore, are outstanding together while nothing touches the scratch or the slices, and the
    sixteenth wait has consumed every copy's units, so every copy has landed: each destination slice holds zero. -/
theorem tile_body (O : CellTallies nD τ sig (HIx 1)) (W : Waits sig (HIx 1)) (hO : ∀ g, O g none = 0)
    (f : Buf (Elt F) ((dst1 L).view.loc (Vt d L))) :
    iprop(levAts (K (F := F)).L (K (F := F)).lev ∗ dstPts d L f ∗ scopedBufs (Vt d L) ∗ scopedSems0 (Vt d L) ∗ owes (Vt d L) O W)
      ⊢ wp frame (wpE (defs₀ (F := F)) 𝒱₀ (Vt d L) none) Set.univ
          (cc1__sc_vzero_body L (Memref.whole main_v1_scv) (Memref.isWhole_whole _) (Memref.whole cc1_scratch0) (Memref.isWhole_whole _) cc1_scratch1)
          fun _ => iprop(dstPts d L (fun _ => Cert.Proof.Spec.zero32) ∗ scopedBufs (Vt d L) ∗ scopedSems0 (Vt d L)
            ∗ ∃ W', ⌜∀ p ∈ W', p ∈ W ∨ p.2 = none⌝ ∗ owes (Vt d L) O W') := by
  -- the sixteen copies share one semaphore and one source: they are one counted batch
  have plan : Transfers.BatchOf (Vt d L) (SemLoc.dma (sig := sig) cc1_scratch1.sem) 16 (windows := true) := trivial
  simp only [cc1__sc_vzero_body_eq_skeleton]; unfold cc1__sc_vzero_body_skel
  rw [(K (F := F)).scopedBufs_V facts d _ _, SparseCore.Cfg.scopedSems0_V (Val := Elt F) d _ _, ownSems0_Vt, ownBufs_Vt]
  unfold dstPts
  iintro ⟨#Hlv, ⟨H1, H2, H3, H4, H5, H6, H7, H8, H9, H10, H11, H12, H13, H14, H15, H16⟩, ⟨⟨%fs, Hs⟩, Hbufs⟩, ⟨Hsem, Hsems⟩, HO⟩
  ihave Hmw := ((K (F := F)).mayWaits_none (thr := Vt d L) hO) $$ Hlv
  ihave Hs' := (Entails.of_eq (pts_scr (F := F) d L _).symm) $$ Hs
  sl_exec_parts
  -- what every copy carried: the scratch read after the 1,024 stores, which is zero everywhere
  have hAll : AllZero (F := F) tile_body.sl.Hs'_1024 := by
    repeat (first | exact allZero_nil | refine allZero_cons (fun _ => rfl) ?_)
  have hcov : ∀ y : S128x128.Idx, ∃ p ∈ (tile_body.sl.Hs'_1024 (F := F)), y ∈ p.1.set :=
    View.cover_of_tiledL _ S1x16.size (by sl_kernel_rfl)
  have hz : ∀ y, tile_body.sl.dma2048 d L fs y = (Spec.zero32 : F .f32) := fun y => by
    show View.read (Elt F) (Memref.whole cc1_scratch0).view ((Memref.whole cc1_scratch0).view.writes (Elt F) fs tile_body.sl.Hs'_1024) y = _
    exact View.read_writes_apply_of_pieces _ _ (fun _ : S128x128.Idx => (Spec.zero32 : F .f32)) _ (fun p hp x => hAll p hp x) y (hcov y)
  generalize tile_body.sl.dma2048 d L fs = pay at hz ⊢
  sl_step
  isplitl [H1 H2 H3 H4 H5 H6 H7 H8 H9 H10 H11 H12 H13 H14 H15 H16]
  · isplitl [H1]; · iapply (landed_congr (F := F) (Vt d L) (dst1 L).view fullShare f (fun _ => Spec.zero32) pay (fun x => (hz x).symm)); iexact H1
    isplitl [H2]; · iapply (landed_congr (F := F) (Vt d L) (dst2 L).view fullShare f (fun _ => Spec.zero32) pay (fun x => (hz x).symm)); iexact H2
    isplitl [H3]; · iapply (landed_congr (F := F) (Vt d L) (dst3 L).view fullShare f (fun _ => Spec.zero32) pay (fun x => (hz x).symm)); iexact H3
    isplitl [H4]; · iapply (landed_congr (F := F) (Vt d L) (dst4 L).view fullShare f (fun _ => Spec.zero32) pay (fun x => (hz x).symm)); iexact H4
    isplitl [H5]; · iapply (landed_congr (F := F) (Vt d L) (dst5 L).view fullShare f (fun _ => Spec.zero32) pay (fun x => (hz x).symm)); iexact H5
    isplitl [H6]; · iapply (landed_congr (F := F) (Vt d L) (dst6 L).view fullShare f (fun _ => Spec.zero32) pay (fun x => (hz x).symm)); iexact H6
    isplitl [H7]; · iapply (landed_congr (F := F) (Vt d L) (dst7 L).view fullShare f (fun _ => Spec.zero32) pay (fun x => (hz x).symm)); iexact H7
    isplitl [H8]; · iapply (landed_congr (F := F) (Vt d L) (dst8 L).view fullShare f (fun _ => Spec.zero32) pay (fun x => (hz x).symm)); iexact H8
    isplitl [H9]; · iapply (landed_congr (F := F) (Vt d L) (dst9 L).view fullShare f (fun _ => Spec.zero32) pay (fun x => (hz x).symm)); iexact H9
    isplitl [H10]; · iapply (landed_congr (F := F) (Vt d L) (dst10 L).view fullShare f (fun _ => Spec.zero32) pay (fun x => (hz x).symm)); iexact H10
    isplitl [H11]; · iapply (landed_congr (F := F) (Vt d L) (dst11 L).view fullShare f (fun _ => Spec.zero32) pay (fun x => (hz x).symm)); iexact H11
    isplitl [H12]; · iapply (landed_congr (F := F) (Vt d L) (dst12 L).view fullShare f (fun _ => Spec.zero32) pay (fun x => (hz x).symm)); iexact H12
    isplitl [H13]; · iapply (landed_congr (F := F) (Vt d L) (dst13 L).view fullShare f (fun _ => Spec.zero32) pay (fun x => (hz x).symm)); iexact H13
    isplitl [H14]; · iapply (landed_congr (F := F) (Vt d L) (dst14 L).view fullShare f (fun _ => Spec.zero32) pay (fun x => (hz x).symm)); iexact H14
    isplitl [H15]; · iapply (landed_congr (F := F) (Vt d L) (dst15 L).view fullShare f (fun _ => Spec.zero32) pay (fun x => (hz x).symm)); iexact H15
    iapply (landed_congr (F := F) (Vt d L) (dst16 L).view fullShare f (fun _ => Spec.zero32) pay (fun x => (hz x).symm)); iexact H16
  isplitl [Hs' Hbufs]
  · isplitl [Hs']
    · iexists _; iapply (Entails.of_eq (pts_scr (F := F) d L _)); iexact Hs'
    · iexact Hbufs
  isplitl [Hsem Hsems]
  · isplitl [Hsem]
    · iexact Hsem
    · iexact Hsems
  iexists _; isplitr
  rotate_left
  · iexact HO
  · ipureintro
    intro p hp
    iterate 16 (rcases Finset.mem_insert.mp hp with hp | hp; exact .inr (hp ▸ rfl))
    exact .inl hp

end Tile

end Cert.Proof.KI

end
-- ==== Proof.TcValue.lean ====
/-
  From blocks to the arrays: what the two TensorCore calls leave in their caches.

  Each call walks four grid points; point `t` handles batch entries `8 t … 8 t + 7`. The key call's output blocks
  (8 × 4096 × 128 at block index (t, 0, 0)) tile the whole cache, and the block written back at `t` is the input's block
  `t` on rows below 2048 and zero on the rows above: block `t` of `padded x`. The value call's output blocks
  (8 × 2048 × 128 at block index (t, 0, 0) of the 32 × 4096 × 128 cache) tile exactly the rows below 2048 and hold the
  input's block `t`: again block `t` of `padded x`; the rows from 2048 on are in no block and keep what the call found
  there, which is zero. Either way the cache ends at `padded x`, and the input arrays, never written back, stay as launched.
-/
import proofs.«209718_g39419209842710_cont_8to1_b_1024_25_alg».proof.Proof.TcRegions
import Idealize.ShloMosaic.Lib.Pipeline.Value
import Idealize.ShloMosaic.Lib.Pipeline.Cells

set_option maxRecDepth 16384

noncomputable section

namespace Cert.Proof.KI

open Cert.KernelIdeal Cert.KernelIdeal.Gen

open Idealize.ShloMosaic Idealize.ShloMosaic.TcCoe
open Idealize.ShloMosaic.SparseCore.Cfg (HIx)
open Idealize.SL Idealize.SL.Sem
open Idealize.ShloMosaic.Pipeline (Dat Cfg Window)

variable {F : FTy → Type} [FloatOps F]

variable (m : (ℓ : Loc nD τ sig) → Buf (Elt F) ℓ)

/-! ## The bodies' output blocks, entry by entry -/

theorem hz3 : (![0, 0, 0] : Fin 3 → Nat) = fun _ => 0 := funext fun a => by fin_cases a <;> rfl

/-- The key body's output block: entry `(b, r, l)` is the input block's `(b, r, l)` on rows below 2048, zero above. The two
    stores are the two halves of this one function: the upper rectangle starts at row 2048, the lower at row 0. -/
theorem outK_apply (x0 : Vec F S8x2048x128 .f32) (y : S8x4096x128.Idx) :
    outK x0 y = if h : (y 1).val < 2048 then x0 (ValueIdx.ix3 (y 0 : Fin 8) (⟨(y 1).val, h⟩ : Fin 2048) (y 2 : Fin 128))
      else (Spec.zero32 : F .f32) := by
  unfold outK
  refine View.canon_apply_of_pieces (Val := Elt F)
    (fun y : S8x4096x128.Idx => if h : (y 1).val < 2048 then x0 (ValueIdx.ix3 (y 0 : Fin 8) (⟨(y 1).val, h⟩ : Fin 2048) (y 2 : Fin 128))
      else (Spec.zero32 : F .f32)) _ ?_ y (coverK _ _ y)
  intro p hp x
  rcases List.mem_cons.mp hp with rfl | hp
  · -- the upper rows: the row coordinate is 2048 + the piece's own
    have h1 : ¬ ((rHi.emb x) 1).val < 2048 := by
      show ¬ 2048 + 1 * (x 1).val < 2048
      omega
    show k0_pay1 (F := F) x = _
    rw [dif_neg h1]
    rfl
  · rcases List.mem_cons.mp hp with rfl | hp
    · -- the lower rows: every coordinate is the piece's own
      have h1 : ((rLo.emb x) 1).val < 2048 := by
        show 0 + 1 * (x 1).val < 2048
        have : (x 1).val < 2048 := (x 1).isLt
        omega
      show x0 (rIn.idx x) = _
      rw [dif_pos h1]
      refine congrArg x0 (funext fun a => Fin.ext ?_)
      match a with
      | ⟨0, _⟩ => rfl
      | ⟨1, _⟩ => rfl
      | ⟨2, _⟩ => rfl
    · exact absurd hp List.not_mem_nil

/-- The value body's output block is the input block. -/
theorem outV_eq (x0 : Vec F S8x2048x128 .f32) : outV x0 = x0 := by
  unfold outV
  rw [View.canon_unit_zero hz3, View.ld_unit_zero (S := S8x2048x128) hz3]

/-! ## A block of the padded array, from the input block at the same batch entries -/

/-- Entry `j` of block `q` of `padded X`, for a cache block of all 4096 rows: `outK` of block `q` of `X`. -/
theorem outK_block (X : FVec F Spec.SIn .f32) (x0 : Vec F S8x2048x128 .f32) (q : Nat)
    (hx0 : ∀ (y : S8x2048x128.Idx) (i : Spec.SIn.Idx), (i 0).val = q * 8 + (y 0).val → (i 1).val = (y 1).val → (i 2).val = (y 2).val → x0 y = X i)
    (j : S8x4096x128.Idx) (i : Spec.SOut.Idx) (hi0 : (i 0).val = q * 8 + (j 0).val) (hi1 : (i 1).val = (j 1).val) (hi2 : (i 2).val = (j 2).val) :
    outK x0 j = Spec.padded X i := by
  rw [outK_apply]
  by_cases h : (j 1).val < 2048
  · rw [dif_pos h, Spec.padded_lt X i (by omega)]
    exact hx0 _ _ hi0 hi1 hi2
  · rw [dif_neg h, Spec.padded_ge X i (by omega)]

/-- Entry `j` of block `q` of `padded X`, for a cache block of the rows below 2048: block `q` of `X` itself. -/
theorem outV_block (X : FVec F Spec.SIn .f32) (x0 : Vec F S8x2048x128 .f32) (q : Nat)
    (hx0 : ∀ (y : S8x2048x128.Idx) (i : Spec.SIn.Idx), (i 0).val = q * 8 + (y 0).val → (i 1).val = (y 1).val → (i 2).val = (y 2).val → x0 y = X i)
    (j : S8x2048x128.Idx) (i : Spec.SOut.Idx) (hi0 : (i 0).val = q * 8 + (j 0).val) (hi1 : (i 1).val = (j 1).val) (hi2 : (i 2).val = (j 2).val) :
    outV x0 j = Spec.padded X i := by
  have hj1 : (j 1).val < 2048 := (j 1).isLt
  rw [outV_eq, Spec.padded_lt X i (by omega)]
  exact hx0 _ _ hi0 hi1 hi2

/-! ## The key cache -/

/-- The printed index maps over the grid: at point `t` both windows of the key call are at block index `(t, 0, 0)`. -/
theorem idxK : ∀ t : Fin cfg0.N, win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

/-- Every batch block is some point's. -/
theorem ontoK : ∀ q : Fin 4, ∃ t : Fin cfg0.N, t.val = q.val :=
  (by decide +kernel : ∀ q : Fin 4, ∃ t : Fin grid0.N, t.val = q.val)

/-- What point `t` writes back to the key cache is block `t` of the padded input. -/
theorem flushedK_eq (c : Dev nD) (t : Fin cfg0.N) :
    (datK m c).flushed 1 t = ((cfg0.win 1).blk t).view.read (Elt F) (Spec.padded (F := F) (m ((c : Thread nD τ).loc main_arg0))) := by
  show (cfg0.win 1).cut (grid0.coords t) ((datK m c).after 1 t) = _
  rw [afterK_1]
  obtain ⟨e0, e1, e2, e3, e4, e5⟩ := idxK t
  funext j
  show outK (iblkK m c t) j = Spec.padded (F := F) (m ((c : Thread nD τ).loc main_arg0)) (((cfg0.win 1).blk t).view.emb j)
  refine outK_block (m ((c : Thread nD τ).loc main_arg0)) (iblkK m c t) t.val (fun y i h0 h1 h2 => ?_) j _ ?_ ?_ ?_
  · show m ((c : Thread nD τ).loc main_arg0) (((cfg0.win 0).blk t).view.emb y) = m ((c : Thread nD τ).loc main_arg0) i
    refine congrArg _ (funext fun a => Fin.ext ?_)
    match a with
    | ⟨0, _⟩ => show win0_0.index t (0 : Fin 3) * 8 + 1 * (y 0).val = (i 0).val; omega
    | ⟨1, _⟩ => show win0_0.index t (1 : Fin 3) * 2048 + 1 * (y 1).val = (i 1).val; omega
    | ⟨2, _⟩ => show win0_0.index t (2 : Fin 3) * 128 + 1 * (y 2).val = (i 2).val; omega
  · show win0_1.index t (0 : Fin 3) * 8 + 1 * (j 0).val = t.val * 8 + (j 0).val; omega
  · show win0_1.index t (1 : Fin 3) * 4096 + 1 * (j 1).val = (j 1).val; omega
  · show win0_1.index t (2 : Fin 3) * 128 + 1 * (j 2).val = (j 2).val; omega

/-- An index of the cache is in point `t`'s block iff each coordinate is in the block's range on its axis. -/
theorem mem_blkK (t : Fin cfg0.N) (i : S32x4096x128.Idx) :
    i ∈ ((cfg0.win 1).blk t).view.set ↔ ∀ a : Fin 3, win0_1.index t a * S8x4096x128.size a ≤ (i a).val ∧ (i a).val < win0_1.index t a * S8x4096x128.size a + S8x4096x128.size a := by
  show i ∈ ((View.whole main_v0).slice (win0_1.rect t)).set ↔ _
  rw [View.set_slice_whole, Rect.mem_set_unit]
  exact Iff.rfl

/-- The key call's output blocks tile the cache: batch entry `b` is in the block of point `b / 8`. -/
theorem coveredK (i : S32x4096x128.Idx) : ∃ t : Fin cfg0.N, (cfg0.win 1).flush t = true ∧ i ∈ ((cfg0.win 1).blk t).view.set := by
  have hi0 : (i 0).val < 32 := (i 0).isLt
  have hi1 : (i 1).val < 4096 := (i 1).isLt
  have hi2 : (i 2).val < 128 := (i 2).isLt
  obtain ⟨t, ht⟩ := ontoK ⟨(i 0).val / 8, by omega⟩
  have ht' : t.val = (i 0).val / 8 := ht
  obtain ⟨e0, e1, e2, e3, e4, e5⟩ := idxK t
  refine ⟨t, flush0_1 t, ?_⟩
  rw [mem_blkK]
  intro a
  match a with
  | ⟨0, _⟩ => show win0_1.index t (0 : Fin 3) * 8 ≤ (i 0).val ∧ (i 0).val < win0_1.index t (0 : Fin 3) * 8 + 8; omega
  | ⟨1, _⟩ => show win0_1.index t (1 : Fin 3) * 4096 ≤ (i 1).val ∧ (i 1).val < win0_1.index t (1 : Fin 3) * 4096 + 4096; omega
  | ⟨2, _⟩ => show win0_1.index t (2 : Fin 3) * 128 ≤ (i 2).val ∧ (i 2).val < win0_1.index t (2 : Fin 3) * 128 + 128; omega

/-- The key cache after the call is the padded key input. -/
theorem finalK (c : Dev nD) : (datK m c).arrAt 1 cfg0.N = Spec.padded (F := F) (m ((c : Thread nD τ).loc main_arg0)) :=
  (datK m c).arrAt_eq_of_cover 1 (Spec.padded (F := F) (m ((c : Thread nD τ).loc main_arg0))) (fun t _ => flushedK_eq m c t) coveredK

/-- The key input is never written back: it stays as launched. -/
theorem keptK (c : Dev nD) : (datK m c).arrAt 0 cfg0.N = m ((c : Thread nD τ).loc main_arg0) :=
  (datK m c).arrAt_in 0 rfl _

/-! ## The value cache -/

theorem idxV : ∀ t : Fin cfg2.N, win2_0.index t (0 : Fin 3) = t.val ∧ win2_0.index t (1 : Fin 3) = 0 ∧ win2_0.index t (2 : Fin 3) = 0
    ∧ win2_1.index t (0 : Fin 3) = t.val ∧ win2_1.index t (1 : Fin 3) = 0 ∧ win2_1.index t (2 : Fin 3) = 0 :=
  (by decide +kernel : ∀ t : Fin grid2.N, _)

theorem ontoV : ∀ q : Fin 4, ∃ t : Fin cfg2.N, t.val = q.val :=
  (by decide +kernel : ∀ q : Fin 4, ∃ t : Fin grid2.N, t.val = q.val)

/-- What point `t` writes back to the value cache is block `t` of the padded input: the block lies in the rows below 2048,
    where the padded array is the input. -/
theorem flushedV_eq (c : Dev nD) (t : Fin cfg2.N) :
    (datV m c).flushed 1 t = ((cfg2.win 1).blk t).view.read (Elt F) (Spec.padded (F := F) (m ((c : Thread nD τ).loc main_arg1))) := by
  show (cfg2.win 1).cut (grid2.coords t) ((datV m c).after 1 t) = _
  rw [afterV_1]
  obtain ⟨e0, e1, e2, e3, e4, e5⟩ := idxV t
  funext j
  show outV (iblkV m c t) j = Spec.padded (F := F) (m ((c : Thread nD τ).loc main_arg1)) (((cfg2.win 1).blk t).view.emb j)
  refine outV_block (m ((c : Thread nD τ).loc main_arg1)) (iblkV m c t) t.val (fun y i h0 h1 h2 => ?_) j _ ?_ ?_ ?_
  · show m ((c : Thread nD τ).loc main_arg1) (((cfg2.win 0).blk t).view.emb y) = m ((c : Thread nD τ).loc main_arg1) i
    refine congrArg _ (funext fun a => Fin.ext ?_)
    match a with
    | ⟨0, _⟩ => show win2_0.index t (0 : Fin 3) * 8 + 1 * (y 0).val = (i 0).val; omega
    | ⟨1, _⟩ => show win2_0.index t (1 : Fin 3) * 2048 + 1 * (y 1).val = (i 1).val; omega
    | ⟨2, _⟩ => show win2_0.index t (2 : Fin 3) * 128 + 1 * (y 2).val = (i 2).val; omega
  · show win2_1.index t (0 : Fin 3) * 8 + 1 * (j 0).val = t.val * 8 + (j 0).val; omega
  · show win2_1.index t (1 : Fin 3) * 2048 + 1 * (j 1).val = (j 1).val; omega
  · show win2_1.index t (2 : Fin 3) * 128 + 1 * (j 2).val = (j 2).val; omega

theorem mem_blkV (t : Fin cfg2.N) (i : S32x4096x128.Idx) :
    i ∈ ((cfg2.win 1).blk t).view.set ↔ ∀ a : Fin 3, win2_1.index t a * S8x2048x128.size a ≤ (i a).val ∧ (i a).val < win2_1.index t a * S8x2048x128.size a + S8x2048x128.size a := by
  show i ∈ ((View.whole main_v2).slice (win2_1.rect t)).set ↔ _
  rw [View.set_slice_whole, Rect.mem_set_unit]
  exact Iff.rfl

/-- The value call's output blocks tile the rows below 2048: there batch entry `b` is in the block of point `b / 8`. -/
theorem coveredV (i : S32x4096x128.Idx) (hr : (i 1).val < 2048) :
    ∃ t : Fin cfg2.N, (cfg2.win 1).flush t = true ∧ i ∈ ((cfg2.win 1).blk t).view.set := by
  have hi0 : (i 0).val < 32 := (i 0).isLt
  have hi2 : (i 2).val < 128 := (i 2).isLt
  obtain ⟨t, ht⟩ := ontoV ⟨(i 0).val / 8, by omega⟩
  have ht' : t.val = (i 0).val / 8 := ht
  obtain ⟨e0, e1, e2, e3, e4, e5⟩ := idxV t
  refine ⟨t, flush2_1 t, ?_⟩
  rw [mem_blkV]
  intro a
  match a with
  | ⟨0, _⟩ => show win2_1.index t (0 : Fin 3) * 8 ≤ (i 0).val ∧ (i 0).val < win2_1.index t (0 : Fin 3) * 8 + 8; omega
  | ⟨1, _⟩ => show win2_1.index t (1 : Fin 3) * 2048 ≤ (i 1).val ∧ (i 1).val < win2_1.index t (1 : Fin 3) * 2048 + 2048; omega
  | ⟨2, _⟩ => show win2_1.index t (2 : Fin 3) * 128 ≤ (i 2).val ∧ (i 2).val < win2_1.index t (2 : Fin 3) * 128 + 128; omega

/-- The value cache after the call is the padded value input: the blocks hold it on the rows below 2048, and the rows above,
    in no block, keep the zero the call found there. -/
theorem finalV (c : Dev nD) : (datV m c).arrAt 1 cfg2.N = Spec.padded (F := F) (m ((c : Thread nD τ).loc main_arg1)) := by
  funext i
  rw [(datV m c).arrAt_eq_piecewise 1 (Spec.padded (F := F) (m ((c : Thread nD τ).loc main_arg1))) (fun t _ => flushedV_eq m c t) i]
  split
  · rfl
  · next hno =>
    have hge : ¬ ((i : S32x4096x128.Idx) 1).val < 2048 := fun hlt => hno (coveredV i hlt)
    show Spec.zeroTail (F := F) (m ((c : Thread nD τ).loc main_v1)) i = _
    rw [Spec.zeroTail_ge _ _ hge, Spec.padded_ge _ _ hge]

/-- The value input is never written back: it stays as launched. -/
theorem keptV (c : Dev nD) : (datV m c).arrAt 0 cfg2.N = m ((c : Thread nD τ).loc main_arg1) :=
  (datV m c).arrAt_in 0 rfl _

end Cert.Proof.KI

end
-- ==== Proof.Ghost.lean ====
/-
  The launch element of the ghost state, and what it funds.

  The ghost state has three parts side by side: the rounds of the handshake cells between the TensorCore and the
  SparseCore, the rounds of the two TensorCore calls' staging cells, and the transfers' counters. The launch element
  is the initial rounds of the first two and the unit of the third. Owning it is owning each part; the staging cells'
  part funds, for every device and each of the two calls, the cells' round states and the duties' tokens its region
  starts from.
-/
import proofs.«209718_g39419209842710_cont_8to1_b_1024_25_alg».proof.Proof.TcRegions
import proofs.«209718_g39419209842710_cont_8to1_b_1024_25_alg».proof.Proof.Gen.KernelIdeal.Launch
import Idealize.ShloMosaic.Lib.Pipeline.Kit
import Idealize.ShloMosaic.Lib.Pipeline.Sound

noncomputable section

namespace Cert.Proof.KI

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The launch element: the handshake cells' initial rounds, the staging cells' initial rounds with the duties' tokens,
    and the unit of the counters. -/
def u₀ : UU :=
  (initOf (K (F := F)).hsCells (K (F := F)).hsToks,
    (initOf (Pipeline.cells (Pipeline.pin (pcfgs (F := F)) adm) cellOf_inj) (Pipeline.launchToks (Pipeline.pin (pcfgs (F := F)) adm) cellOf_inj),
      (1 : Counters)))

/-- What the staging cells' part funds on device `d`: for each of the two calls, its cells' round states and its duties' tokens. -/
def G (d : Dev nD) : sProp 𝕄 :=
  bigSep Finset.univ fun p : Fin 2 =>
    iprop(Pipeline.cellsGhost (Pipeline.pin (pcfgs (F := F)) adm) EP p d ∗ Pipeline.toksInit (Pipeline.pin (pcfgs (F := F)) adm) EP p d)

/-- The two calls' shares, side by side. -/
theorem G_eq (d : Dev nD) : (G (F := F) d : sProp 𝕄)
    = iprop((Pipeline.cellsGhost (Pipeline.pin (pcfgs (F := F)) adm) EP 0 d ∗ Pipeline.toksInit (Pipeline.pin (pcfgs (F := F)) adm) EP 0 d)
        ∗ (Pipeline.cellsGhost (Pipeline.pin (pcfgs (F := F)) adm) EP 1 d ∗ Pipeline.toksInit (Pipeline.pin (pcfgs (F := F)) adm) EP 1 d)) := by
  unfold G
  rw [bigSep_univ_two]

/-- The staging cells' part is the left of the right of the element: its embedding, whichever way the two injections and
    the embedding of the whole are composed, sends an element to the same place. -/
theorem own_EP (a : UP) :
    (BI.own (((Emb.inl : Emb UP (UP × Counters)).trans (embR : Emb (UP × Counters) 𝕄)) a) : sProp 𝕄) = BI.own (EP (F := F) a) := rfl

/-- Owning the launch element gives the handshake cells' rounds and, for every device, what its two calls start from. -/
theorem fund : (ownU (u₀ (F := F)) : sProp 𝕄)
    ⊢ |={Set.univ}=> iprop(BI.own (EH (initOf (K (F := F)).hsCells (K (F := F)).hsToks)) ∗ bigSep Finset.univ fun d : Dev nD => G (F := F) d) := by
  have hghost : iprop((bigSep Finset.univ fun c : Dev nD => bigSep Finset.univ fun p => Pipeline.cellsGhost (Pipeline.pin (pcfgs (F := F)) adm) EP p c)
        ∗ (bigSep Finset.univ fun c : Dev nD => bigSep Finset.univ fun p => (Pipeline.toksInit (Pipeline.pin (pcfgs (F := F)) adm) EP p c : sProp 𝕄)))
      ⊢ bigSep Finset.univ fun d : Dev nD => G (F := F) d := by
    rw [← bigSep_sep']
    exact bigSep_mono fun c _ => show iprop((bigSep Finset.univ fun p => Pipeline.cellsGhost (Pipeline.pin (pcfgs (F := F)) adm) EP p c)
          ∗ bigSep Finset.univ fun p => (Pipeline.toksInit (Pipeline.pin (pcfgs (F := F)) adm) EP p c : sProp 𝕄)) ⊢ G (F := F) c
      from Entails.of_eq (by unfold G; rw [bigSep_sep'])
  unfold u₀
  iintro Hu
  ihave H := (ownU_pair _ _) $$ Hu
  icases H with ⟨HH, HR⟩
  ihave H2 := (own_pair_emb embR _ _) $$ HR
  icases H2 with ⟨HP, -⟩
  ihave HP' := (Entails.of_eq (own_EP (F := F) _)) $$ HP
  imod (Pipeline.fund_ghost (Pipeline.pin (pcfgs (F := F)) adm) EP cellOf_inj) $$ HP' with ⟨Hg, Ht⟩
  imodintro
  isplitl [HH]; · iexact HH
  iapply hghost
  isplitl [Hg] <;> iassumption

end Cert.Proof.KI

end
-- ==== Proof.FinalRead.lean ====
/-
  The final assertions, read.

  When @main ends, each device's TensorCore holds its two inputs as launched and its two caches at the padded inputs.
  Holding a buffer whole at contents `f` beside the state interpretation of a physical state says the state's memory
  there is `f`: so the final memory has the four arrays at those contents.
-/
import proofs.«209718_g39419209842710_cont_8to1_b_1024_25_alg».proof.Proof.TcRegions

noncomputable section

namespace Cert.Proof.KI

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ)

/-- Device `d`'s TensorCore holds buffer `b` whole, at the full share, at contents `f`. -/
abbrev pl (d : Dev nD) (b : Ref sig .tc) (f : Buf (Elt F) ((d : Thread nD τ).loc b)) : sProp 𝕄 :=
  ((d : Thread nD τ).loc b) ↦{fullShare} f

/-- What device `d` holds when @main ends: the inputs as launched, the caches at the padded inputs. -/
def FIN (d : Dev nD) : sProp 𝕄 :=
  iprop(pl d main_arg0 (m ((d : Thread nD τ).loc main_arg0)) ∗ pl d main_arg1 (m ((d : Thread nD τ).loc main_arg1))
    ∗ pl d main_v0 (Spec.padded (F := F) (m ((d : Thread nD τ).loc main_arg0)))
    ∗ pl d main_v2 (Spec.padded (F := F) (m ((d : Thread nD τ).loc main_arg1))))

/-- The claim about device `d` in a final physical state. -/
def fq (d : Dev nD) (s' : Phys nD τ sig (Elt F)) : Prop :=
  s'.mem.mem ((d : Thread nD τ).loc main_v0) = Spec.padded (F := F) (m ((d : Thread nD τ).loc main_arg0))
  ∧ s'.mem.mem ((d : Thread nD τ).loc main_v2) = Spec.padded (F := F) (m ((d : Thread nD τ).loc main_arg1))
  ∧ s'.mem.mem ((d : Thread nD τ).loc main_arg0) = m ((d : Thread nD τ).loc main_arg0)
  ∧ s'.mem.mem ((d : Thread nD τ).loc main_arg1) = m ((d : Thread nD τ).loc main_arg1)

/-- Each of the four buffers held agrees with the state's memory at every index. -/
theorem hfin (d : Dev nD) (s' : Phys nD τ sig (Elt F)) : iprop(FIN m d ∗ SI s') ⊢ (⌜fq m d s'⌝ : sProp 𝕄) := by
  unfold FIN
  iintro ⟨⟨Ha0, Ha1, Hv0, Hv2⟩, HSI⟩
  icombine HSI Ha0 gives %h0
  icombine HSI Ha1 gives %h1
  icombine HSI Hv0 gives %h2
  icombine HSI Hv2 gives %h3
  ipureintro
  exact ⟨funext fun i => h2 i (Finset.mem_univ i), funext fun i => h3 i (Finset.mem_univ i),
    funext fun i => h0 i (Finset.mem_univ i), funext fun i => h1 i (Finset.mem_univ i)⟩

end Cert.Proof.KI

end
-- ==== Proof.CopyStep.lean ====
/-
  The copy between the two calls of the value cache.

  Between the vector-subcore kernel and the second TensorCore call, @main copies the array the kernel filled into the
  buffer the call writes its result in: one host operation, the identity of the first array's contents written to the
  second. Holding both buffers whole, the first at `f1`, the operation leaves the first as it was and the second at `f1`.
-/
import proofs.«209718_g39419209842710_cont_8to1_b_1024_25_alg».proof.Proof.FinalRead
import Idealize.ShloMosaic.Lib.StableHlo.Run
import Idealize.ShloMosaic.Lib.SparseCore.Launch

noncomputable section

namespace Cert.Proof.KI

open Cert.KernelIdeal Cert.KernelIdeal.Gen

open Idealize.ShloMosaic Idealize.ShloMosaic.TcCoe
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)

variable {F : FTy → Type} [FloatOps F]

local notation "𝕄" => MT nD τ sig (HIx 1) (Elt F) ℕ UU ℕ

/-- The two arrays of the copy, as the device names them, and the operation. -/
abbrev v1' : DevRef τ sig := Proc.devRef .tc (main_v1 : Ref sig .tc)
abbrev v2' : DevRef τ sig := Proc.devRef .tc (main_v2 : Ref sig .tc)
abbrev opCopy : HloOp τ sig (Elt F) := StableHlo.unary main_v1 main_v2 id
abbrev S2 : Finset (DevRef τ sig) := {v1', v2'}

theorem held_S2 (d : Dev nD) (W : Valuation τ sig (Elt F)) :
    (held (T d) S2 W : sProp 𝕄) = iprop(((SparseCore.T d).loc main_v1 ↦{fullShare} W v1') ∗ ((SparseCore.T d).loc main_v2 ↦{fullShare} W v2')) := by
  unfold held S2
  rw [SparseCore.bigSep_insert' (by decide), bigSep_singleton]

/-- A valuation with the first array at `f1` and the second at `f2` (the operation reads and writes no other). -/
def Vc (d : Dev nD) (f1 : Buf (Elt F) ((d : Thread nD τ).loc main_v1)) (f2 : Buf (Elt F) ((d : Thread nD τ).loc main_v2)) :
    Valuation τ sig (Elt F) :=
  Function.update (Function.update (fun _ => Classical.arbitrary _) v1' f1) v2' f2

theorem Vc_v1 (d : Dev nD) (f1 : Buf (Elt F) ((d : Thread nD τ).loc main_v1)) (f2 : Buf (Elt F) ((d : Thread nD τ).loc main_v2)) :
    Vc d f1 f2 v1' = f1 :=
  (Function.update_of_ne (show v1' ≠ v2' by decide) _ _).trans (Function.update_self _ _ _)
theorem Vc_v2 (d : Dev nD) (f1 : Buf (Elt F) ((d : Thread nD τ).loc main_v1)) (f2 : Buf (Elt F) ((d : Thread nD τ).loc main_v2)) :
    Vc d f1 f2 v2' = f2 := Function.update_self _ _ _

/-- After the copy the first array is as it was, -/
theorem result_v1 (d : Dev nD) (f1 : Buf (Elt F) ((d : Thread nD τ).loc main_v1)) (f2 : Buf (Elt F) ((d : Thread nD τ).loc main_v2)) :
    (opCopy (F := F)).result (Vc d f1 f2) v1' = f1 :=
  ((opCopy (F := F)).result_of_not_mem (Vc d f1 f2) (b := v1') (show v1' ∉ ({v2'} : Finset (DevRef τ sig)) by decide)).trans (Vc_v1 d f1 f2)
/-- and the second holds the first's contents. -/
theorem result_v2 (d : Dev nD) (f1 : Buf (Elt F) ((d : Thread nD τ).loc main_v1)) (f2 : Buf (Elt F) ((d : Thread nD τ).loc main_v2)) :
    (opCopy (F := F)).result (Vc d f1 f2) v2' = f1 :=
  (StableHlo.unary_result main_v1 main_v2 id _ _ (Vc d f1 f2)).trans (Vc_v1 d f1 f2)

theorem hCopy : (opCopy (F := F)).bufs ⊆ S2 := show ({v1', v2'} : Finset (DevRef τ sig)) ⊆ S2 by decide

/-- The copy at the head of a program: from the boundary and the two buffers whole, the first at `f1`, the continuation runs,
    at whatever value the operation answers, with the boundary back, the first buffer as it was and the second at `f1`. -/
theorem copy_step (d : Dev nD) (f1 : Buf (Elt F) ((d : Thread nD τ).loc main_v1)) (f2 : Buf (Elt F) ((d : Thread nD τ).loc main_v2))
    {α : Type} (k : ((b : (opCopy (F := F)).writes) → b.1.ty.Contents (Elt F)) → Prog (TpuEff nD τ sig (Elt F) (SparseCore.Sig (ΛP (F := F)) 1) .tc) α)
    (Q : α → sProp 𝕄) :
    iprop(boundary (SparseCore.T d) ∗ pl d main_v1 f1 ∗ pl d main_v2 f2
        ∗ (∀ r, iprop(boundary (SparseCore.T d) ∗ pl d main_v1 f1 ∗ pl (F := F) d main_v2 f1)
            -∗ wp frame (wpE ((K (F := F)).defs (D (F := F))) 𝒱 (SparseCore.T d) none) Set.univ (k r) Q))
      ⊢ wp frame (wpE ((K (F := F)).defs (D (F := F))) 𝒱 (SparseCore.T d) none) Set.univ (hlo rfl (opCopy (F := F)) k) Q := by
  iintro ⟨Hb, H1, H2, Hk⟩
  iapply (wp_hlo_within 𝒱 (SparseCore.T d) none Set.univ (op := opCopy (F := F)) (S := S2) hCopy (V := Vc d f1 f2)) $$ [Hb H1 H2]
  · isplitl [Hb]; · iexact Hb
    rw [held_S2, Vc_v1, Vc_v2]
    isplitl [H1]; · iexact H1
    iexact H2
  iintro ⟨Hb, Hheld⟩
  ihave Hh := (Entails.of_eq (held_S2 (F := F) d _)) $$ Hheld
  rw [result_v1, result_v2]
  icases Hh with ⟨H1, H2⟩
  iapply Hk
  isplitl [Hb]; · iexact Hb
  isplitl [H1]; · iexact H1
  iexact H2

/-- The copy as @main has it, the program ending there: the post holds of what the copy leaves. -/
theorem copy_step_ret (d : Dev nD) (f1 : Buf (Elt F) ((d : Thread nD τ).loc main_v1)) (f2 : Buf (Elt F) ((d : Thread nD τ).loc main_v2))
    (Q : PUnit → sProp 𝕄) :
    iprop(boundary (SparseCore.T d) ∗ pl d main_v1 f1 ∗ pl d main_v2 f2
        ∗ (iprop(boundary (SparseCore.T d) ∗ pl d main_v1 f1 ∗ pl (F := F) d main_v2 f1) -∗ Q ⟨⟩))
      ⊢ wp frame (wpE ((K (F := F)).defs (D (F := F))) 𝒱 (SparseCore.T d) none) Set.univ
          (hlo rfl (StableHlo.unary main_v1 main_v2 id) (fun _ => .ret ⟨⟩)) Q := by
  iintro ⟨Hb, H1, H2, Hk⟩
  iapply (copy_step d f1 f2 (fun _ => .ret ⟨⟩) Q)
  isplitl [Hb]; · iexact Hb
  isplitl [H1]; · iexact H1
  isplitl [H2]; · iexact H2
  iintro %r H
  rw [wp_ret]; imodintro
  iapply Hk
  iexact H

end Cert.Proof.KI

end
-- ==== Proof.Main.lean ====
/-
  @main on the TensorCore.

  The TensorCore runs the key cache's call, starts the SparseCores and waits for them, copies the array they filled into
  the value cache's buffer, and runs the value cache's call. It enters with its five unscoped arrays as launched and
  leaves with the two inputs unchanged and the two caches at the padded inputs. Between: the key call turns the first
  cache's buffer into `padded kx`; the SparseCore call takes the upper rows of the third array slice by slice and
  brings them back zero, so that array is `zeroTail` of what it was; the copy gives the value cache's buffer the same
  contents; the value call overwrites its lower rows with `vx`, which makes it `padded vx`.
-/
import proofs.«209718_g39419209842710_cont_8to1_b_1024_25_alg».proof.Proof.Pay
import proofs.«209718_g39419209842710_cont_8to1_b_1024_25_alg».proof.Proof.V1Split
import proofs.«209718_g39419209842710_cont_8to1_b_1024_25_alg».proof.Proof.RegionStep
import proofs.«209718_g39419209842710_cont_8to1_b_1024_25_alg».proof.Proof.TileBody
import proofs.«209718_g39419209842710_cont_8to1_b_1024_25_alg».proof.Proof.TcValue
import proofs.«209718_g39419209842710_cont_8to1_b_1024_25_alg».proof.Proof.Ghost
import proofs.«209718_g39419209842710_cont_8to1_b_1024_25_alg».proof.Proof.FinalRead
import proofs.«209718_g39419209842710_cont_8to1_b_1024_25_alg».proof.Proof.CopyStep

set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ) (ρ : Dev nD → PrngReg)

local notation "ℝ𝕊" => Pipeline.RegionSeg (pcfgs (F := F)) adm (pdats m) (none : HIx 1) defs₀ 𝒱₀ (LL (F := F)) (lvv (F := F))

/-! ## The arrays, one by one -/

omit [FloatOps F] in
/-- The TensorCore's unscoped buffers are its five arrays. -/
theorem unscopedBufs_eq (d : Dev nD) (W : (b : Ref sig .tc) → Buf (Elt F) ((d.tc : Thread nD τ).loc b)) :
    (unscopedBufs d W : sProp 𝕄)
      = iprop(pl d main_arg0 (W main_arg0) ∗ pl d main_arg1 (W main_arg1) ∗ pl d main_v0 (W main_v0) ∗ pl d main_v1 (W main_v1) ∗ pl d main_v2 (W main_v2)) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- The key call's arrays are the first input and the first cache, -/
theorem arraysK_eq (d : Dev nD) (Fa) : ((pdats m 0 d).arrays Fa : sProp 𝕄) = iprop(pl d main_arg0 (Fa 0) ∗ pl d main_v0 (Fa 1)) := by
  rw [Pipeline.arrays_eq (Pipeline.pin (pcfgs (F := F)) adm) (pdats m) 0 d launch0.arr_whole ((pdats m 0 d).share_full fun _ => rfl) Fa, bigSep_W0]
  rfl

/-- the value call's the second input and the second cache. -/
theorem arraysV_eq (d : Dev nD) (Fa) : ((pdats m 1 d).arrays Fa : sProp 𝕄) = iprop(pl d main_arg1 (Fa 0) ∗ pl d main_v2 (Fa 1)) := by
  rw [Pipeline.arrays_eq (Pipeline.pin (pcfgs (F := F)) adm) (pdats m) 1 d launch2.arr_whole ((pdats m 1 d).share_full fun _ => rfl) Fa, bigSep_W2]
  rfl

/-- The key call is entered with the input and the cache's buffer as launched, -/
theorem regK_pre (Zr : Dev nD → sProp 𝕄) (d : Dev nD) :
    (regK m Zr).pre d = iprop((pl d main_arg0 (m ((d : Thread nD τ).loc main_arg0)) ∗ pl d main_v0 (m ((d : Thread nD τ).loc main_v0))) ∗ Zr d ∗ tcOwes (F := F) d 0) := by
  show iprop((pdats m 0 d).arrays _ ∗ _ ∗ _) = _
  rw [arraysK_eq]; rfl

/-- and left with the input unchanged and the cache at the padded input. -/
theorem regK_post (Zr : Dev nD → sProp 𝕄) (d : Dev nD) :
    (regK m Zr).post d = iprop((pl d main_arg0 (m ((d : Thread nD τ).loc main_arg0)) ∗ pl d main_v0 (Spec.padded (F := F) (m ((d : Thread nD τ).loc main_arg0)))) ∗ Zr d ∗ tcOwes (F := F) d 0) := by
  show iprop((pdats m 0 d).arrays _ ∗ _ ∗ _) = _
  rw [arraysK_eq]
  show iprop((pl d main_arg0 ((datK m d).arrAt 0 cfg0.N) ∗ pl d main_v0 ((datK m d).arrAt 1 cfg0.N)) ∗ _ ∗ _) = _
  rw [keptK, finalK]

/-- The value call is entered with the input as launched and the cache's buffer at the zero-tailed array, -/
theorem regV_pre (Zr : Dev nD → sProp 𝕄) (d : Dev nD) :
    (regV m Zr).pre d = iprop((pl d main_arg1 (m ((d : Thread nD τ).loc main_arg1)) ∗ pl (F := F) d main_v2 (Spec.zeroTail (F := F) (m ((d : Thread nD τ).loc main_v1)))) ∗ Zr d ∗ tcOwes (F := F) d 1) := by
  show iprop((pdats m 1 d).arrays _ ∗ _ ∗ _) = _
  rw [arraysV_eq]; rfl

/-- and left with the input unchanged and the cache at the padded input. -/
theorem regV_post (Zr : Dev nD → sProp 𝕄) (d : Dev nD) :
    (regV m Zr).post d = iprop((pl d main_arg1 (m ((d : Thread nD τ).loc main_arg1)) ∗ pl d main_v2 (Spec.padded (F := F) (m ((d : Thread nD τ).loc main_arg1)))) ∗ Zr d ∗ tcOwes (F := F) d 1) := by
  show iprop((pdats m 1 d).arrays _ ∗ _ ∗ _) = _
  rw [arraysV_eq]
  show iprop((pl d main_arg1 ((datV m d).arrAt 0 cfg2.N) ∗ pl d main_v2 ((datV m d).arrAt 1 cfg2.N)) ∗ _ ∗ _) = _
  rw [keptV, finalV]

/-! ## The TensorCore's handshake state lends its debt to a region -/

omit [FloatOps F] in
theorem tcSt_open (d : Dev nD) (n : ℕ) :
    ((K (F := F)).tcSt EH d n : sProp 𝕄) ⊢ iprop(tcOwes (F := F) d n ∗ (tcOwes (F := F) d n -∗ (K (F := F)).tcSt EH d n)) := by
  unfold SparseCore.Cfg.tcSt tcOwes
  iintro ⟨HO, Hr⟩
  isplitl [HO]; · iexact HO
  iintro HO
  isplitl [HO]; · iexact HO
  iexact Hr

/-! ## What the SparseCore call takes and brings back -/

set_option maxHeartbeats 2000000 in
theorem st_eq (d : Dev nD) :
    (bigSep Finset.univ fun c : Fin ((K (F := F)).nCore 0) => (P m).st 0 d c)
      = bigSep Finset.univ fun c : Fin (grid1.bound 0) => bigSep Finset.univ fun s : Fin (grid1.bound 1) => dstPts (F := F) d (coordsV c s) (m (o1Loc d)) := rfl

set_option maxHeartbeats 2000000 in
theorem dn_eq (d : Dev nD) :
    (bigSep Finset.univ fun c : Fin ((K (F := F)).nCore 0) => (P m).dn 0 d c)
      = bigSep Finset.univ fun c : Fin (grid1.bound 0) => bigSep Finset.univ fun s : Fin (grid1.bound 1) => dstPts (F := F) d (coordsV c s) (fun _ => Spec.zero32) := rfl

/-! ## @main -/

set_option maxHeartbeats 4000000 in
/-- @main on device `d`'s TensorCore. -/
theorem hmain (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [G_eq, unscopedBufs_eq]
  simp only [main, wp_bind, wp_pure]
  iintro ⟨#Hctx, Hst, ⟨Hb, ⟨Ha0, Ha1, Hv0, Hv1, Hv2⟩, -, -⟩, ⟨⟨Hcg0, Htk0⟩, ⟨Hcg1, Htk1⟩⟩⟩
  ihave Hlev0 := (SparseCore.Cfg.ctx_levAts (K := K (F := F)) (EH := EH) (P := P m) κ (lv := (K (F := F)).lev)) $$ Hctx
  ihave Hlev1 := (SparseCore.Cfg.ctx_levAts (K := K (F := F)) (EH := EH) (P := P m) κ (lv := (K (F := F)).lev)) $$ Hctx
  ihave Hst' := (tcSt_open (F := F) d 0) $$ Hst
  icases Hst' with ⟨HO, Hback⟩
  -- the key cache's call
  iapply (region_step m (regK m fun _ => iprop(emp)) d _)
  rw [regK_pre, regK_post]
  isplitr [Hb HO Ha0 Hv0 Hlev0 Hcg0 Htk0]
  swap
  · isplitl [Hb]; · iexact Hb
    isplitl [HO Ha0 Hv0]
    · isplitl [Ha0 Hv0]
      · isplitl [Ha0] <;> iassumption
      isplitr; · iempintro
      iexact HO
    isplitl [Hlev0]; · iexact Hlev0
    isplitl [Hcg0] <;> iassumption
  iintro ⟨Hb, ⟨Ha0, Hv0⟩, -, HO⟩
  ihave Hst := Hback $$ HO
  -- the SparseCore call: the upper rows of the third array out, slice by slice, and back zero
  ihave Hs := (v1_split (F := F) d (m (o1Loc d))) $$ Hv1
  icases Hs with ⟨Hup, Hlow⟩
  iapply ((K (F := F)).wp_run (D (F := F)) 𝒱 (EH := EH) (P := P m) κ d 0)
  isplitr; · iexact Hctx
  isplitl [Hst]; · iexact Hst
  isplitl [Hup]; · rw [st_eq]; iexact Hup
  iintro ⟨Hst, Hdn⟩
  ihave Hdn' := (Entails.of_eq (dn_eq m d)) $$ Hdn
  ihave Hv1 := (v1_join (F := F) d (m (o1Loc d))) $$ [Hdn' Hlow]
  · isplitl [Hdn'] <;> iassumption
  -- the copy of the filled array into the value cache's buffer
  iapply (copy_step_ret (F := F) d _ _ _)
  isplitl [Hb]; · iexact Hb
  isplitl [Hv1]; · iexact Hv1
  isplitl [Hv2]; · iexact Hv2
  iintro ⟨Hb, Hv1, Hv2⟩
  -- the value cache's call
  ihave Hst' := (tcSt_open (F := F) d ((0 : Fin 1).val + 1)) $$ Hst
  icases Hst' with ⟨HO, Hback⟩
  iapply (region_step m (regV m fun _ => iprop(emp)) d _)
  rw [regV_pre, regV_post]
  isplitr [Hb HO Ha1 Hv2 Hlev1 Hcg1 Htk1]
  swap
  · isplitl [Hb]; · iexact Hb
    isplitl [HO Ha1 Hv2]
    · isplitl [Ha1 Hv2]
      · isplitl [Ha1] <;> iassumption
      isplitr; · iempintro
      iexact HO
    isplitl [Hlev1]; · iexact Hlev1
    isplitl [Hcg1] <;> iassumption
  iintro ⟨Hb, ⟨Ha1, Hv2⟩, -, HO⟩
  ihave HO' := (ent_of_eq (show tcOwes (F := F) d 1 = tcOwes (F := F) d ((0 : Fin 1).val + 1) from rfl)) $$ HO
  ihave Hst := Hback $$ HO'
  ihave Hst1 := (ent_of_eq (show ((K (F := F)).tcSt EH d ((0 : Fin 1).val + 1) : sProp 𝕄) = (K (F := F)).tcSt EH d 1 from rfl)) $$ Hst
  imodintro
  isplitl [Hst1]; · iexact Hst1
  unfold FIN
  isplitl [Ha0]; · iexact Ha0
  isplitl [Ha1]; · iexact Ha1
  isplitl [Hv0]; · iexact Hv0
  iexact Hv2

end Cert.Proof.KI

end
-- ==== Proof.TileObl.lean ====
/-
  The launch theorem's obligation at a tile of the vector-subcore kernel, from the tile's body.

  The launch theorem asks, for every tile `(c, i)` of the call's 2 × 16 grid: from the tile's operands (its sixteen
  slices at the array's launch contents), the tile's scoped storage and what it owes, the body the kernel's label has on
  that tile's processor runs to the tile's results (the sixteen slices zero-filled) with the scoped storage given back
  and every new wait at index `none` or at the call's own index. The body table's row on that processor is the kernel
  function at the tile's grid point (the grid holds the point, so the guard of the table's row is true); the kernel's
  label in the extended signature runs the same program, lifted; the call carries no side payload (an `emp`) and owes
  nothing for a protocol of its own. What is left is the statement about the kernel function itself at a grid point,
  which is the hypothesis.
-/
import proofs.«209718_g39419209842710_cont_8to1_b_1024_25_alg».proof.Proof.Pay

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)

variable [FloatOps F]

/-! ## The body table's row at a tile -/

/-- On a vector subcore, the kernel's label runs the kernel function at the subcore's grid point when the grid holds it. -/
theorem tobl_defs₀_vector (c : Fin τ.nSC) (s : Fin τ.nSub) :
    defs₀ (F := F) (.scVector c s) 1 ⟨⟩
      = SparseCore.onTile hcore1 hsub1 (fun c s => cc1__sc_vzero_body (coordsV c s)
          (Memref.whole main_v1_scv) (Memref.isWhole_whole _) (Memref.whole cc1_scratch0) (Memref.isWhole_whole _) cc1_scratch1) ⟨⟩ c s := rfl

/-- At the processor of grid point `tileAt c i`, which the grid holds, that is the kernel function at `tileAt c i`. -/
theorem tobl_defs₀_tile (c : Fin ((K (F := F)).nCore 0)) (i : Fin ((K (F := F)).nSub 0)) :
    defs₀ (F := F) (.scVector (((tileAt (F := F) c i) 0).castLE hcore1) (((tileAt (F := F) c i) 1).castLE hsub1)) 1 ⟨⟩
      = cc1__sc_vzero_body (tileAt c i) (Memref.whole main_v1_scv) (Memref.isWhole_whole _) (Memref.whole cc1_scratch0) (Memref.isWhole_whole _) cc1_scratch1 := by
  have hc : (((tileAt (F := F) c i) 0).castLE hcore1).val < grid1.bound 0 ∧ (((tileAt (F := F) c i) 1).castLE hsub1).val < grid1.bound 1 := ⟨c.isLt, i.isLt⟩
  rw [tobl_defs₀_vector]; simp only [SparseCore.onTile, hc, and_self, ↓reduceDIte]
  rfl

omit [FloatOps F] in
/-- A wait list that grew only by waits at index `none` grew only by waits at `none` or at the call's own index. -/
theorem tobl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-! ## The tile obligation -/

/-- What the call's payloads are at a tile: nothing beside the slices; the slices at the launch contents in; at zero out. -/
theorem tobl_P_x (thr : Thread nD τ) : (P m).x 0 thr = iprop(emp) := rfl
theorem tobl_P_go (d : Dev nD) (c : Fin ((K (F := F)).nCore 0)) (i : Fin ((K (F := F)).nSub 0)) :
    (P m).go 0 d c i = dstPts d (tileAt c i) (m (o1Loc d)) := rfl
theorem tobl_P_td (d : Dev nD) (c : Fin ((K (F := F)).nCore 0)) (i : Fin ((K (F := F)).nSub 0)) :
    (P m).td 0 d c i = dstPts d (tileAt c i) (fun _ => Cert.Proof.Spec.zero32) := rfl

omit [FloatOps F] in
/-- An `emp` in second place may be dropped. -/
theorem tobl_drop_emp {A B : sProp 𝕄} : iprop(A ∗ emp ∗ B) ⊢ iprop(A ∗ B) := by
  iintro ⟨HA, _, HB⟩
  isplitl [HA]; · iexact HA
  iexact HB

/-- The tile's body, with the empty side payload beside its precondition and the wait list's growth read at the call's
    index: the form the launch theorem's obligation takes at a tile. -/
theorem tobl_aux
    (htile : ∀ (d : Dev nD) (L : grid1.Coords) (O : CellTallies nD τ sig (HIx 1)) (W : Waits sig (HIx 1)) (hO : ∀ g, O g none = 0) (f : Buf (Elt F) ((dst1 L).view.loc (Vt d L))),
        iprop(levAts (K (F := F)).L (K (F := F)).lev ∗ dstPts d L f ∗ scopedBufs (Vt d L) ∗ scopedSems0 (Vt d L) ∗ owes (Vt d L) O W)
          ⊢ wp frame (wpE (defs₀ (F := F)) 𝒱₀ (Vt d L) none) Set.univ
              (cc1__sc_vzero_body L (Memref.whole main_v1_scv) (Memref.isWhole_whole _) (Memref.whole cc1_scratch0) (Memref.isWhole_whole _) cc1_scratch1)
              fun _ => iprop(dstPts d L (fun _ => Cert.Proof.Spec.zero32) ∗ scopedBufs (Vt d L) ∗ scopedSems0 (Vt d L)
                ∗ ∃ W', ⌜∀ p ∈ W', p ∈ W ∨ p.2 = none⌝ ∗ owes (Vt d L) O W'))
    (d : Dev nD) (L : grid1.Coords) (O : CellTallies nD τ sig (HIx 1)) (W : Waits sig (HIx 1)) (hO : ∀ g, O g none = 0)
    (f : Buf (Elt F) ((dst1 L).view.loc (Vt d L))) :
    iprop(levAts (K (F := F)).L (K (F := F)).lev ∗ emp ∗ dstPts d L f ∗ scopedBufs (Vt d L) ∗ scopedSems0 (Vt d L) ∗ owes (Vt d L) O W)
      ⊢ wp frame (wpE (defs₀ (F := F)) 𝒱₀ (Vt d L) none) Set.univ
          (cc1__sc_vzero_body L (Memref.whole main_v1_scv) (Memref.isWhole_whole _) (Memref.whole cc1_scratch0) (Memref.isWhole_whole _) cc1_scratch1)
          fun _ => iprop(dstPts d L (fun _ => Cert.Proof.Spec.zero32) ∗ scopedBufs (Vt d L) ∗ scopedSems0 (Vt d L)
            ∗ ∃ W', ⌜∀ p ∈ W', p ∈ W ∨ p.2 = none ∨ p.2 = some (0 : Fin 1)⌝ ∗ owes (Vt d L) O W') :=
  BI.Entails.trans tobl_drop_emp ((htile d L O W hO f).trans (wp_mono frame _ _ fun _ => tobl_post))

omit [FloatOps F] in
/-- Equal assertions entail one another. -/
theorem tobl_entails_of_eq {P Q : sProp 𝕄} (h : P = Q) : Idealize.SL.BI.Entails P Q := h ▸ BI.Entails.refl _

/-- The launch theorem's obligation for the vector-subcore kernel, from the tile's body: the tile is handed its sixteen
    slices at the array's launch contents and its scoped storage, runs the kernel function at its grid point, and hands
    the slices back zero-filled with its scoped storage; the call owes nothing for a protocol of its own, and carries
    nothing beside the slices. -/
theorem tileObl_of
    (htile : ∀ (d : Dev nD) (L : grid1.Coords) (O : CellTallies nD τ sig (HIx 1)) (W : Waits sig (HIx 1)) (hO : ∀ g, O g none = 0) (f : Buf (Elt F) ((dst1 L).view.loc (Vt d L))),
        iprop(levAts (K (F := F)).L (K (F := F)).lev ∗ dstPts d L f ∗ scopedBufs (Vt d L) ∗ scopedSems0 (Vt d L) ∗ owes (Vt d L) O W)
          ⊢ wp frame (wpE (defs₀ (F := F)) 𝒱₀ (Vt d L) none) Set.univ
              (cc1__sc_vzero_body L (Memref.whole main_v1_scv) (Memref.isWhole_whole _) (Memref.whole cc1_scratch0) (Memref.isWhole_whole _) cc1_scratch1)
              fun _ => iprop(dstPts d L (fun _ => Cert.Proof.Spec.zero32) ∗ scopedBufs (Vt d L) ∗ scopedSems0 (Vt d L)
                ∗ ∃ W', ⌜∀ p ∈ W', p ∈ W ∨ p.2 = none⌝ ∗ owes (Vt d L) O W')) :
    (K (F := F)).TileObl (D (F := F)) 𝒱 (P m) v₀ 0 := by
  intro d c i O W hO _ _
  -- the call owes nothing for a protocol of its own
  simp only [show (P m).ox = fun _ _ => 0 from rfl, add_zero]
  -- the tile's processor, named by its grid point: SparseCore `c` of the grid is SparseCore `c` of the device, and tile `i` tile `i`
  generalize hcc : (K (F := F)).core 0 c = cc
  generalize hss : (K (F := F)).sub 0 i = ss
  obtain rfl : cc = ((tileAt (F := F) c i) 0).castLE hcore1 := hcc.symm
  obtain rfl : ss = ((tileAt (F := F) c i) 1).castLE hsub1 := hss.symm
  change _ ⊢ wp _ _ _ (Pipeline.liftProg (defs₀ (F := F) (.scVector (((tileAt (F := F) c i) 0).castLE hcore1) (((tileAt (F := F) c i) 1).castLE hsub1)) 1 ⟨⟩)) _
  refine BI.Entails.trans ?_ (Pipeline.wp_liftProg (D (F := F)) (Pipeline.defs_kernel pcfgs defs₀) 𝒱₀ _ Set.univ none _ _)
  rw [tobl_defs₀_tile, tobl_P_x, tobl_P_go, tobl_P_td]
  refine BI.Entails.trans ?_ (BI.Entails.trans (tobl_aux htile d (tileAt c i) O W hO (m (o1Loc d))) ?_)
  · exact BI.Entails.refl _
  · -- the same weakest precondition: the same thread, program and postcondition, argument by argument
    refine tobl_entails_of_eq ?_
    congr 1

end Cert.Proof.KI

end
-- ==== Proof.Run.lean ====
/-
  The program's run.

  Every weakly fair execution of the device's threads — the TensorCore's @main, the two sequencers, the thirty-two
  tiles — terminates, nothing faulting, and in every final memory the two inputs are unchanged, the key cache is the
  padded key input and the value cache the padded value input: the launch theorem of a SparseCore program applied to
  the tiles' obligation, the split of a SparseCore's operands among its tiles, the launch element, @main's proof and the
  reading of the final assertions.
-/
import proofs.«209718_g39419209842710_cont_8to1_b_1024_25_alg».proof.Proof.Main
import proofs.«209718_g39419209842710_cont_8to1_b_1024_25_alg».proof.Proof.TileObl

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)

/-- A tile's obligation: its body, zero-filling its sixteen slices. -/
theorem tileObl : (K (F := F)).TileObl (D (F := F)) 𝒱 (P m) v₀ 0 :=
  tileObl_of m fun d L O W hO f => tile_body d L O W hO f

omit [FloatOps F] in
theorem bigSep_emp' {I : Type} (s : Finset I) : (bigSep s fun _ => iprop(emp)) = (iprop(emp) : sProp 𝕄) := bigSep_emp_const s

/-- The launch element: the handshakes' rounds, the pipelines' staging cells funded; no tile's proof consumes anything. -/
theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  iintro Hu
  imod (fund (F := F)) $$ Hu with ⟨HH, HG⟩
  imodintro
  isplitl [HH]; · iexact HH
  isplitl [HG]; · iexact HG
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-- What the claim reads of a final memory. -/
def QC : PUnit × MemSt nD τ sig (Elt F) → Prop := fun r => ∀ c : Dev nD,
  r.2.mem ((c : Thread nD τ).loc main_v0) = Spec.padded (F := F) (m ((c : Thread nD τ).loc main_arg0))
  ∧ r.2.mem ((c : Thread nD τ).loc main_v2) = Spec.padded (F := F) (m ((c : Thread nD τ).loc main_arg1))
  ∧ r.2.mem ((c : Thread nD τ).loc main_arg0) = m ((c : Thread nD τ).loc main_arg0)
  ∧ r.2.mem ((c : Thread nD τ).loc main_arg1) = m ((c : Thread nD τ).loc main_arg1)

theorem run_main [∀ e, Nonempty (Elt F e)] :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m)
    (fun q _ => match q with | 0 => SparseCore.Cfg.VecSplit.of_plain (vecSplit m))
    m ρ main (G (F := F)) (FIN m) (u₀ (F := F)) (sep_elim_left.trans (hu₀ m)) (hmain m ρ) (fq m) (hfin m) (QC m) (fun _ h => h)

end Cert.Proof.KI

end
-- ==== Proof.B.Setup.lean ====
/-
  The program as the launch theorem of a SparseCore program sees it, and the names the other modules share.

  The program has three kernels: a TensorCore call that writes `[kx | 0]` into the key cache block by block (four
  blocks of eight batch entries), a vector-subcore kernel on 2 × 16 tiles in which tile `(c, s)` zero-fills rows
  2048 … 4095 of batch entry `2 s + c` of a fresh array by sixteen copies of one zeroed 128 × 128 scratch, and a
  second TensorCore call that overwrites rows 0 … 2047 of a copy of that array with `vx`. Here: the label signature,
  the body table, the ghost state (the handshakes' rounds beside the pipelines' rounds beside the transfers' counters),
  a tile's thread, and the sixteen 128 × 128 destination slices of one tile with the assertion that holds them all.
-/
import proofs.«209718_g39419209842710_cont_8to1_b_1024_25_alg».proof.Kernel
import proofs.«209718_g39419209842710_cont_8to1_b_1024_25_alg».proof.Proof.Gen.Kernel
import proofs.«209718_g39419209842710_cont_8to1_b_1024_25_alg».proof.Proof.Gen.Kernel.Launch
import proofs.«209718_g39419209842710_cont_8to1_b_1024_25_alg».proof.Proof.Gen.Kernel.Points
import proofs.«209718_g39419209842710_cont_8to1_b_1024_25_alg».proof.Proof.Spec
import Idealize.ShloMosaic.Lib.SparseCore.Launch
import Idealize.ShloMosaic.Lib.Pipeline.Kit
import Idealize.ShloMosaic.Lib.Pipeline.Regions
import Idealize.ShloMosaic.Lib.Batch
import Idealize.ShloMosaic.Lib.Tactic

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the two pipelines' rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds: the left factor. -/
abbrev EH : Emb UH (MT nD τ sig (HIx 1) (Elt F) ℕ UU ℕ) := embL
/-- The pipelines' rounds: the left factor of the right factor. The transfers' counters are found by instance. -/
def EP : Emb UP (MT nD τ sig (HIx 1) (Elt F) ℕ UU ℕ) :=
  ((Emb.inl : Emb UP (UP × Counters)).trans (Emb.inr : Emb (UP × Counters) UU)).trans
    (uEmb (nD := nD) (τ := τ) (sig := sig) (Ix := HIx 1) (Val := Elt F) (Name := ℕ) (U := UU) (Lvl := ℕ)).toEmb

instance EP_landsIn : (EP : Emb UP 𝕄).LandsIn (upEmb : UEmb _ 𝕄) := by unfold EP; infer_instance

/-! ## A tile: its coordinates, its thread, its sixteen destination slices -/

/-- The grid point of SparseCore `c`, vector subcore `s`. -/
def coordsV (c : Fin (grid1.bound 0)) (s : Fin (grid1.bound 1)) : grid1.Coords :=
  fun | 0 => c | 1 => s | ⟨_ + 2, h⟩ => absurd h (Nat.not_lt.2 (Nat.le_add_left _ _))

/-- The thread of the tile at grid point `L`. -/
abbrev Vt (d : Dev nD) (L : grid1.Coords) : Thread nD τ := V d ((L 0).castLE hcore1) ((L 1).castLE hsub1)

/-- The location of the array the vector-subcore kernel fills, as the TensorCore names it. -/
abbrev o1Loc (d : Dev nD) : Loc nD τ sig := (SparseCore.T d).loc main_v1

-- the sixteen 128-row slices of batch entry `2 s + c` a tile copies its zero scratch into, spelt as the kernel slices them
abbrev dst1 (L : grid1.Coords) : Memref sig .scVector .hbm S128x128 .f32 :=
  ((Memref.whole main_v1_scv : Memref sig .scVector .hbm S32x4096x128 .f32).slice (Rect.unit (s := S32x4096x128) (k1_off1 L) S1x128x128.size (k1_off1_inb L)) (fun _ => rfl)).squeeze S128x128 squeezes_S1x128x128_S128x128
abbrev dst2 (L : grid1.Coords) : Memref sig .scVector .hbm S128x128 .f32 :=
  ((Memref.whole main_v1_scv : Memref sig .scVector .hbm S32x4096x128 .f32).slice (Rect.unit (s := S32x4096x128) (k1_off2 L) S1x128x128.size (k1_off2_inb L)) (fun _ => rfl)).squeeze S128x128 squeezes_S1x128x128_S128x128
abbrev dst3 (L : grid1.Coords) : Memref sig .scVector .hbm S128x128 .f32 :=
  ((Memref.whole main_v1_scv : Memref sig .scVector .hbm S32x4096x128 .f32).slice (Rect.unit (s := S32x4096x128) (k1_off3 L) S1x128x128.size (k1_off3_inb L)) (fun _ => rfl)).squeeze S128x128 squeezes_S1x128x128_S128x128
abbrev dst4 (L : grid1.Coords) : Memref sig .scVector .hbm S128x128 .f32 :=
  ((Memref.whole main_v1_scv : Memref sig .scVector .hbm S32x4096x128 .f32).slice (Rect.unit (s := S32x4096x128) (k1_off4 L) S1x128x128.size (k1_off4_inb L)) (fun _ => rfl)).squeeze S128x128 squeezes_S1x128x128_S128x128
abbrev dst5 (L : grid1.Coords) : Memref sig .scVector .hbm S128x128 .f32 :=
  ((Memref.whole main_v1_scv : Memref sig .scVector .hbm S32x4096x128 .f32).slice (Rect.unit (s := S32x4096x128) (k1_off5 L) S1x128x128.size (k1_off5_inb L)) (fun _ => rfl)).squeeze S128x128 squeezes_S1x128x128_S128x128
abbrev dst6 (L : grid1.Coords) : Memref sig .scVector .hbm S128x128 .f32 :=
  ((Memref.whole main_v1_scv : Memref sig .scVector .hbm S32x4096x128 .f32).slice (Rect.unit (s := S32x4096x128) (k1_off6 L) S1x128x128.size (k1_off6_inb L)) (fun _ => rfl)).squeeze S128x128 squeezes_S1x128x128_S128x128
abbrev dst7 (L : grid1.Coords) : Memref sig .scVector .hbm S128x128 .f32 :=
  ((Memref.whole main_v1_scv : Memref sig .scVector .hbm S32x4096x128 .f32).slice (Rect.unit (s := S32x4096x128) (k1_off7 L) S1x128x128.size (k1_off7_inb L)) (fun _ => rfl)).squeeze S128x128 squeezes_S1x128x128_S128x128
abbrev dst8 (L : grid1.Coords) : Memref sig .scVector .hbm S128x128 .f32 :=
  ((Memref.whole main_v1_scv : Memref sig .scVector .hbm S32x4096x128 .f32).slice (Rect.unit (s := S32x4096x128) (k1_off8 L) S1x128x128.size (k1_off8_inb L)) (fun _ => rfl)).squeeze S128x128 squeezes_S1x128x128_S128x128
abbrev dst9 (L : grid1.Coords) : Memref sig .scVector .hbm S128x128 .f32 :=
  ((Memref.whole main_v1_scv : Memref sig .scVector .hbm S32x4096x128 .f32).slice (Rect.unit (s := S32x4096x128) (k1_off9 L) S1x128x128.size (k1_off9_inb L)) (fun _ => rfl)).squeeze S128x128 squeezes_S1x128x128_S128x128
abbrev dst10 (L : grid1.Coords) : Memref sig .scVector .hbm S128x128 .f32 :=
  ((Memref.whole main_v1_scv : Memref sig .scVector .hbm S32x4096x128 .f32).slice (Rect.unit (s := S32x4096x128) (k1_off10 L) S1x128x128.size (k1_off10_inb L)) (fun _ => rfl)).squeeze S128x128 squeezes_S1x128x128_S128x128
abbrev dst11 (L : grid1.Coords) : Memref sig .scVector .hbm S128x128 .f32 :=
  ((Memref.whole main_v1_scv : Memref sig .scVector .hbm S32x4096x128 .f32).slice (Rect.unit (s := S32x4096x128) (k1_off11 L) S1x128x128.size (k1_off11_inb L)) (fun _ => rfl)).squeeze S128x128 squeezes_S1x128x128_S128x128
abbrev dst12 (L : grid1.Coords) : Memref sig .scVector .hbm S128x128 .f32 :=
  ((Memref.whole main_v1_scv : Memref sig .scVector .hbm S32x4096x128 .f32).slice (Rect.unit (s := S32x4096x128) (k1_off12 L) S1x128x128.size (k1_off12_inb L)) (fun _ => rfl)).squeeze S128x128 squeezes_S1x128x128_S128x128
abbrev dst13 (L : grid1.Coords) : Memref sig .scVector .hbm S128x128 .f32 :=
  ((Memref.whole main_v1_scv : Memref sig .scVector .hbm S32x4096x128 .f32).slice (Rect.unit (s := S32x4096x128) (k1_off13 L) S1x128x128.size (k1_off13_inb L)) (fun _ => rfl)).squeeze S128x128 squeezes_S1x128x128_S128x128
abbrev dst14 (L : grid1.Coords) : Memref sig .scVector .hbm S128x128 .f32 :=
  ((Memref.whole main_v1_scv : Memref sig .scVector .hbm S32x4096x128 .f32).slice (Rect.unit (s := S32x4096x128) (k1_off14 L) S1x128x128.size (k1_off14_inb L)) (fun _ => rfl)).squeeze S128x128 squeezes_S1x128x128_S128x128
abbrev dst15 (L : grid1.Coords) : Memref sig .scVector .hbm S128x128 .f32 :=
  ((Memref.whole main_v1_scv : Memref sig .scVector .hbm S32x4096x128 .f32).slice (Rect.unit (s := S32x4096x128) (k1_off15 L) S1x128x128.size (k1_off15_inb L)) (fun _ => rfl)).squeeze S128x128 squeezes_S1x128x128_S128x128
abbrev dst16 (L : grid1.Coords) : Memref sig .scVector .hbm S128x128 .f32 :=
  ((Memref.whole main_v1_scv : Memref sig .scVector .hbm S32x4096x128 .f32).slice (Rect.unit (s := S32x4096x128) (k1_off16 L) S1x128x128.size (k1_off16_inb L)) (fun _ => rfl)).squeeze S128x128 squeezes_S1x128x128_S128x128

/-- A tile's sixteen destination slices, each held whole at the full share, all at the contents `f` of the array. -/
def dstPts (d : Dev nD) (L : grid1.Coords) (f : Buf (Elt F) ((dst1 L).view.loc (Vt d L))) : sProp 𝕄 :=
  iprop(((dst1 L).view.loc (Vt d L) ↦[(dst1 L).view.set]{fullShare} f)
      ∗ ((dst2 L).view.loc (Vt d L) ↦[(dst2 L).view.set]{fullShare} f)
      ∗ ((dst3 L).view.loc (Vt d L) ↦[(dst3 L).view.set]{fullShare} f)
      ∗ ((dst4 L).view.loc (Vt d L) ↦[(dst4 L).view.set]{fullShare} f)
      ∗ ((dst5 L).view.loc (Vt d L) ↦[(dst5 L).view.set]{fullShare} f)
      ∗ ((dst6 L).view.loc (Vt d L) ↦[(dst6 L).view.set]{fullShare} f)
      ∗ ((dst7 L).view.loc (Vt d L) ↦[(dst7 L).view.set]{fullShare} f)
      ∗ ((dst8 L).view.loc (Vt d L) ↦[(dst8 L).view.set]{fullShare} f)
      ∗ ((dst9 L).view.loc (Vt d L) ↦[(dst9 L).view.set]{fullShare} f)
      ∗ ((dst10 L).view.loc (Vt d L) ↦[(dst10 L).view.set]{fullShare} f)
      ∗ ((dst11 L).view.loc (Vt d L) ↦[(dst11 L).view.set]{fullShare} f)
      ∗ ((dst12 L).view.loc (Vt d L) ↦[(dst12 L).view.set]{fullShare} f)
      ∗ ((dst13 L).view.loc (Vt d L) ↦[(dst13 L).view.set]{fullShare} f)
      ∗ ((dst14 L).view.loc (Vt d L) ↦[(dst14 L).view.set]{fullShare} f)
      ∗ ((dst15 L).view.loc (Vt d L) ↦[(dst15 L).view.set]{fullShare} f)
      ∗ ((dst16 L).view.loc (Vt d L) ↦[(dst16 L).view.set]{fullShare} f))

end Cert.Proof.KB

end
-- ==== Proof.B.V1Split.lean ====
/-
  Splitting one array among the tiles of the vector-subcore grid, and joining it back.

  The array is f32[32, 4096, 128]. Tile `(c, s)` of the 2 × 16 grid owns sixteen 128 × 128 slices of batch entry
  `2 s + c`: slice `n` (`n = 0 … 15`) is rows `[2048 + 128 n, 2048 + 128 (n + 1))`, all 128 columns. Since
  `b ↦ (b % 2, b / 2)` is a bijection of `{0 … 31}` onto `{0, 1} × {0 … 15}` and `r ↦ (r − 2048) / 128` sends
  `{2048 … 4095}` onto `{0 … 15}` with fibres the blocks, the 2 · 16 · 16 = 512 slices are pairwise disjoint and their
  union is exactly the elements whose row is at least 2048; what is left over is the rows below 2048. So the whole array,
  held at the full share, is the tiles' slices beside the lower rows (`v1_split`); and the slices all at zero beside
  the lower rows at `f` are the whole array at `f` with its upper rows zeroed (`v1_join`).
-/
import proofs.«209718_g39419209842710_cont_8to1_b_1024_25_alg».proof.Proof.B.Setup
import proofs.«209718_g39419209842710_cont_8to1_b_1024_25_alg».proof.Proof.Fill

noncomputable section

namespace Cert.Proof.KB

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-! ## The blocks: 128 consecutive rows of one batch entry -/

/-- The 128 rows from row `2048 + 128 n` of batch entry `b`, all columns. -/
def blk (b n : ℕ) : Finset S32x4096x128.Idx :=
  Finset.univ.filter fun j => (j 0).val = b ∧ 2048 + 128 * n ≤ (j 1).val ∧ (j 1).val < 2048 + 128 * (n + 1)

theorem mem_blk {b n : ℕ} {j : S32x4096x128.Idx} :
    j ∈ blk b n ↔ (j 0).val = b ∧ 2048 + 128 * n ≤ (j 1).val ∧ (j 1).val < 2048 + 128 * (n + 1) := by
  simp only [blk, Finset.mem_filter, Finset.mem_univ, true_and]

/-- A 1 × 128 × 128 slice of the array at offset `(b, 2048 + 128 n, 0)`, read as a 128 × 128 matrix, holds exactly the
    elements of block `n` of batch entry `b`: the slice fixes the first coordinate, takes 128 rows, and every column. -/
theorem set_unit_blk (b n : ℕ) (off : Fin 3 → ℕ) (inb : ∀ a, off a + S1x128x128.size a ≤ S32x4096x128.size a)
    (h : off = ![b, 2048 + 128 * n, 0]) :
    (((Memref.whole main_v1_scv : Memref sig .scVector .hbm S32x4096x128 .f32).slice (Rect.unit (s := S32x4096x128) off S1x128x128.size inb) (fun _ => rfl)).squeeze S128x128 squeezes_S1x128x128_S128x128).view.set = blk b n := by
  subst h
  show (((Memref.whole main_v1_scv : Memref sig .scVector .hbm S32x4096x128 .f32).view.slice (Rect.unit (s := S32x4096x128) ![b, 2048 + 128 * n, 0] S1x128x128.size inb)).reshape S128x128 squeezes_S1x128x128_S128x128.numel_eq).set = _
  rw [View.set_reshape]
  show ((View.whole (main_v1_scv : Ref sig .scVector)).slice (Rect.unit (s := S32x4096x128) ![b, 2048 + 128 * n, 0] S1x128x128.size inb)).set = _
  rw [View.set_slice_whole]
  ext j
  rw [mem_blk, Rect.mem_set_unit]
  have h2 : (j 2).val < 128 := (j 2).isLt
  constructor
  · intro h
    have h0 := h 0
    have h1 := h 1
    simp at h0 h1
    omega
  · intro h a
    fin_cases a <;> simp
    · omega
    · omega
    · exact h2

theorem set_dst1 (L : grid1.Coords) : (dst1 L).view.set = blk (2 * (L 1).val + (L 0).val) 0 :=
  set_unit_blk _ 0 _ _ (k1_off1_eq L)
theorem set_dst2 (L : grid1.Coords) : (dst2 L).view.set = blk (2 * (L 1).val + (L 0).val) 1 :=
  set_unit_blk _ 1 _ _ (k1_off2_eq L)
theorem set_dst3 (L : grid1.Coords) : (dst3 L).view.set = blk (2 * (L 1).val + (L 0).val) 2 :=
  set_unit_blk _ 2 _ _ (k1_off3_eq L)
theorem set_dst4 (L : grid1.Coords) : (dst4 L).view.set = blk (2 * (L 1).val + (L 0).val) 3 :=
  set_unit_blk _ 3 _ _ (k1_off4_eq L)
theorem set_dst5 (L : grid1.Coords) : (dst5 L).view.set = blk (2 * (L 1).val + (L 0).val) 4 :=
  set_unit_blk _ 4 _ _ (k1_off5_eq L)
theorem set_dst6 (L : grid1.Coords) : (dst6 L).view.set = blk (2 * (L 1).val + (L 0).val) 5 :=
  set_unit_blk _ 5 _ _ (k1_off6_eq L)
theorem set_dst7 (L : grid1.Coords) : (dst7 L).view.set = blk (2 * (L 1).val + (L 0).val) 6 :=
  set_unit_blk _ 6 _ _ (k1_off7_eq L)
theorem set_dst8 (L : grid1.Coords) : (dst8 L).view.set = blk (2 * (L 1).val + (L 0).val) 7 :=
  set_unit_blk _ 7 _ _ (k1_off8_eq L)
theorem set_dst9 (L : grid1.Coords) : (dst9 L).view.set = blk (2 * (L 1).val + (L 0).val) 8 :=
  set_unit_blk _ 8 _ _ (k1_off9_eq L)
theorem set_dst10 (L : grid1.Coords) : (dst10 L).view.set = blk (2 * (L 1).val + (L 0).val) 9 :=
  set_unit_blk _ 9 _ _ (k1_off10_eq L)
theorem set_dst11 (L : grid1.Coords) : (dst11 L).view.set = blk (2 * (L 1).val + (L 0).val) 10 :=
  set_unit_blk _ 10 _ _ (k1_off11_eq L)
theorem set_dst12 (L : grid1.Coords) : (dst12 L).view.set = blk (2 * (L 1).val + (L 0).val) 11 :=
  set_unit_blk _ 11 _ _ (k1_off12_eq L)
theorem set_dst13 (L : grid1.Coords) : (dst13 L).view.set = blk (2 * (L 1).val + (L 0).val) 12 :=
  set_unit_blk _ 12 _ _ (k1_off13_eq L)
theorem set_dst14 (L : grid1.Coords) : (dst14 L).view.set = blk (2 * (L 1).val + (L 0).val) 13 :=
  set_unit_blk _ 13 _ _ (k1_off14_eq L)
theorem set_dst15 (L : grid1.Coords) : (dst15 L).view.set = blk (2 * (L 1).val + (L 0).val) 14 :=
  set_unit_blk _ 14 _ _ (k1_off15_eq L)
theorem set_dst16 (L : grid1.Coords) : (dst16 L).view.set = blk (2 * (L 1).val + (L 0).val) 15 :=
  set_unit_blk _ 15 _ _ (k1_off16_eq L)

/-! ## Each slice, as the TensorCore names the array -/

theorem pts_dst1 (d : Dev nD) (L : grid1.Coords) (f : Buf (Elt F) (o1Loc d)) :
    ((dst1 L).view.loc (Vt d L) ↦[(dst1 L).view.set]{fullShare} f : sProp 𝕄) = o1Loc d ↦[blk (2 * (L 1).val + (L 0).val) 0]{fullShare} f := by
  rw [set_dst1]
theorem pts_dst2 (d : Dev nD) (L : grid1.Coords) (f : Buf (Elt F) (o1Loc d)) :
    ((dst2 L).view.loc (Vt d L) ↦[(dst2 L).view.set]{fullShare} f : sProp 𝕄) = o1Loc d ↦[blk (2 * (L 1).val + (L 0).val) 1]{fullShare} f := by
  rw [set_dst2]
theorem pts_dst3 (d : Dev nD) (L : grid1.Coords) (f : Buf (Elt F) (o1Loc d)) :
    ((dst3 L).view.loc (Vt d L) ↦[(dst3 L).view.set]{fullShare} f : sProp 𝕄) = o1Loc d ↦[blk (2 * (L 1).val + (L 0).val) 2]{fullShare} f := by
  rw [set_dst3]
theorem pts_dst4 (d : Dev nD) (L : grid1.Coords) (f : Buf (Elt F) (o1Loc d)) :
    ((dst4 L).view.loc (Vt d L) ↦[(dst4 L).view.set]{fullShare} f : sProp 𝕄) = o1Loc d ↦[blk (2 * (L 1).val + (L 0).val) 3]{fullShare} f := by
  rw [set_dst4]
theorem pts_dst5 (d : Dev nD) (L : grid1.Coords) (f : Buf (Elt F) (o1Loc d)) :
    ((dst5 L).view.loc (Vt d L) ↦[(dst5 L).view.set]{fullShare} f : sProp 𝕄) = o1Loc d ↦[blk (2 * (L 1).val + (L 0).val) 4]{fullShare} f := by
  rw [set_dst5]
theorem pts_dst6 (d : Dev nD) (L : grid1.Coords) (f : Buf (Elt F) (o1Loc d)) :
    ((dst6 L).view.loc (Vt d L) ↦[(dst6 L).view.set]{fullShare} f : sProp 𝕄) = o1Loc d ↦[blk (2 * (L 1).val + (L 0).val) 5]{fullShare} f := by
  rw [set_dst6]
theorem pts_dst7 (d : Dev nD) (L : grid1.Coords) (f : Buf (Elt F) (o1Loc d)) :
    ((dst7 L).view.loc (Vt d L) ↦[(dst7 L).view.set]{fullShare} f : sProp 𝕄) = o1Loc d ↦[blk (2 * (L 1).val + (L 0).val) 6]{fullShare} f := by
  rw [set_dst7]
theorem pts_dst8 (d : Dev nD) (L : grid1.Coords) (f : Buf (Elt F) (o1Loc d)) :
    ((dst8 L).view.loc (Vt d L) ↦[(dst8 L).view.set]{fullShare} f : sProp 𝕄) = o1Loc d ↦[blk (2 * (L 1).val + (L 0).val) 7]{fullShare} f := by
  rw [set_dst8]
theorem pts_dst9 (d : Dev nD) (L : grid1.Coords) (f : Buf (Elt F) (o1Loc d)) :
    ((dst9 L).view.loc (Vt d L) ↦[(dst9 L).view.set]{fullShare} f : sProp 𝕄) = o1Loc d ↦[blk (2 * (L 1).val + (L 0).val) 8]{fullShare} f := by
  rw [set_dst9]
theorem pts_dst10 (d : Dev nD) (L : grid1.Coords) (f : Buf (Elt F) (o1Loc d)) :
    ((dst10 L).view.loc (Vt d L) ↦[(dst10 L).view.set]{fullShare} f : sProp 𝕄) = o1Loc d ↦[blk (2 * (L 1).val + (L 0).val) 9]{fullShare} f := by
  rw [set_dst10]
theorem pts_dst11 (d : Dev nD) (L : grid1.Coords) (f : Buf (Elt F) (o1Loc d)) :
    ((dst11 L).view.loc (Vt d L) ↦[(dst11 L).view.set]{fullShare} f : sProp 𝕄) = o1Loc d ↦[blk (2 * (L 1).val + (L 0).val) 10]{fullShare} f := by
  rw [set_dst11]
theorem pts_dst12 (d : Dev nD) (L : grid1.Coords) (f : Buf (Elt F) (o1Loc d)) :
    ((dst12 L).view.loc (Vt d L) ↦[(dst12 L).view.set]{fullShare} f : sProp 𝕄) = o1Loc d ↦[blk (2 * (L 1).val + (L 0).val) 11]{fullShare} f := by
  rw [set_dst12]
theorem pts_dst13 (d : Dev nD) (L : grid1.Coords) (f : Buf (Elt F) (o1Loc d)) :
    ((dst13 L).view.loc (Vt d L) ↦[(dst13 L).view.set]{fullShare} f : sProp 𝕄) = o1Loc d ↦[blk (2 * (L 1).val + (L 0).val) 12]{fullShare} f := by
  rw [set_dst13]
theorem pts_dst14 (d : Dev nD) (L : grid1.Coords) (f : Buf (Elt F) (o1Loc d)) :
    ((dst14 L).view.loc (Vt d L) ↦[(dst14 L).view.set]{fullShare} f : sProp 𝕄) = o1Loc d ↦[blk (2 * (L 1).val + (L 0).val) 13]{fullShare} f := by
  rw [set_dst14]
theorem pts_dst15 (d : Dev nD) (L : grid1.Coords) (f : Buf (Elt F) (o1Loc d)) :
    ((dst15 L).view.loc (Vt d L) ↦[(dst15 L).view.set]{fullShare} f : sProp 𝕄) = o1Loc d ↦[blk (2 * (L 1).val + (L 0).val) 14]{fullShare} f := by
  rw [set_dst15]
theorem pts_dst16 (d : Dev nD) (L : grid1.Coords) (f : Buf (Elt F) (o1Loc d)) :
    ((dst16 L).view.loc (Vt d L) ↦[(dst16 L).view.set]{fullShare} f : sProp 𝕄) = o1Loc d ↦[blk (2 * (L 1).val + (L 0).val) 15]{fullShare} f := by
  rw [set_dst16]

/-! ## A chain of sixteen as an indexed product -/

theorem sep_congr_eq {P P' Q Q' : sProp 𝕄} (h₁ : P = P') (h₂ : Q = Q') : iprop(P ∗ Q) = iprop(P' ∗ Q') := by
  rw [h₁, h₂]

/-- An indexed separating product over `n + 1` indices is its first factor beside the product over the rest. -/
theorem bigSep_fin_succ {n : ℕ} (Φ : Fin (n + 1) → sProp 𝕄) :
    bigSep Finset.univ Φ = iprop(Φ 0 ∗ bigSep Finset.univ fun i : Fin n => Φ i.succ) := by
  rw [Fin.univ_succ, Finset.cons_eq_insert, bigSep_insert (by simp [Fin.succ_ne_zero]), bigSep_map]
  rfl

/-- The product over sixteen indices written out. -/
theorem bigSep_fin16 (Φ : Fin 16 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) := by
  iterate 15 rw [bigSep_fin_succ]
  rw [bigSep_univ_of_subsingleton 0]
  rfl

/-- A tile's sixteen slices are the sixteen blocks of its batch entry. -/
theorem dstPts_eq (d : Dev nD) (L : grid1.Coords) (f : Buf (Elt F) (o1Loc d)) :
    (dstPts d L f : sProp 𝕄) = bigSep Finset.univ fun n : Fin 16 => o1Loc d ↦[blk (2 * (L 1).val + (L 0).val) n.val]{fullShare} f := by
  rw [bigSep_fin16]
  unfold dstPts
  exact (sep_congr_eq (pts_dst1 d L f) (sep_congr_eq (pts_dst2 d L f) (sep_congr_eq (pts_dst3 d L f) (sep_congr_eq (pts_dst4 d L f) (sep_congr_eq (pts_dst5 d L f) (sep_congr_eq (pts_dst6 d L f) (sep_congr_eq (pts_dst7 d L f) (sep_congr_eq (pts_dst8 d L f) (sep_congr_eq (pts_dst9 d L f) (sep_congr_eq (pts_dst10 d L f) (sep_congr_eq (pts_dst11 d L f) (sep_congr_eq (pts_dst12 d L f) (sep_congr_eq (pts_dst13 d L f) (sep_congr_eq (pts_dst14 d L f) (sep_congr_eq (pts_dst15 d L f) (pts_dst16 d L f))))))))))))))))

/-! ## The cover: 2 × 16 × 16 blocks are exactly the rows from 2048 up -/

/-- The rows below 2048, of every batch entry: what the vector-subcore kernel leaves alone. -/
def lowRows : Finset S32x4096x128.Idx := Finset.univ.filter fun j => (j 1).val < 2048

/-- The block of SparseCore `c`, tile `s`, slice `n`: block `n` of batch entry `2 s + c`. -/
def tblk (t : Fin (grid1.bound 0) × Fin (grid1.bound 1) × Fin 16) : Finset S32x4096x128.Idx :=
  blk (2 * t.2.1.val + t.1.val) t.2.2.val

/-- Distinct (SparseCore, tile, slice) triples have disjoint blocks: an element of both has batch entry
    `2 s + c = 2 s' + c'` with `c, c' < 2`, so `c = c'` and `s = s'`; and its row lies in
    `[2048 + 128 n, 2048 + 128 (n + 1))` and in `[2048 + 128 n', 2048 + 128 (n' + 1))`, so `n = n'`. -/
theorem tblk_disjoint : ∀ t ∈ (Finset.univ : Finset (Fin (grid1.bound 0) × Fin (grid1.bound 1) × Fin 16)),
    ∀ t' ∈ (Finset.univ : Finset (Fin (grid1.bound 0) × Fin (grid1.bound 1) × Fin 16)), t ≠ t' → Disjoint (tblk t) (tblk t') := by
  rintro ⟨c, s, n⟩ - ⟨c', s', n'⟩ - hne
  rw [Finset.disjoint_left]
  intro j hj hj'
  rw [tblk, mem_blk] at hj hj'
  apply hne
  have hc : c.val < 2 := c.isLt
  have hc' : c'.val < 2 := c'.isLt
  simp only at hj hj'
  have e1 : c.val = c'.val := by omega
  have e2 : s.val = s'.val := by omega
  have e3 : n.val = n'.val := by omega
  exact Prod.ext (Fin.ext e1) (Prod.ext (Fin.ext e2) (Fin.ext e3))

/-- An element lies in some block exactly when its row is at least 2048: batch entry `b < 32` is `2 (b / 2) + b % 2`,
    and row `r` with `2048 ≤ r < 4096` lies in block `(r - 2048) / 128 < 16`. -/
theorem mem_cover (j : S32x4096x128.Idx) :
    j ∈ (Finset.univ : Finset (Fin (grid1.bound 0) × Fin (grid1.bound 1) × Fin 16)).biUnion tblk ↔ 2048 ≤ (j 1).val := by
  have h0 : (j 0).val < 32 := (j 0).isLt
  have h1 : (j 1).val < 4096 := (j 1).isLt
  rw [Finset.mem_biUnion]
  constructor
  · rintro ⟨t, -, ht⟩
    rw [tblk, mem_blk] at ht
    omega
  · intro h
    refine ⟨(⟨(j 0).val % 2, by show _ < 2; omega⟩, ⟨(j 0).val / 2, by show _ < 16; omega⟩, ⟨((j 1).val - 2048) / 128, by omega⟩),
      Finset.mem_univ _, ?_⟩
    rw [tblk, mem_blk]
    simp only
    omega

/-- What no block holds is the rows below 2048. -/
theorem sdiff_cover :
    Finset.univ \ (Finset.univ : Finset (Fin (grid1.bound 0) × Fin (grid1.bound 1) × Fin 16)).biUnion tblk = lowRows := by
  ext j
  rw [Finset.mem_sdiff, mem_cover]
  simp only [lowRows, Finset.mem_filter, Finset.mem_univ, true_and]
  omega

/-- The rows from 2048 up, held whole, are the tiles' slices held tile by tile. -/
theorem upper_eq (d : Dev nD) (f : Buf (Elt F) (o1Loc d)) :
    (o1Loc d ↦[(Finset.univ : Finset (Fin (grid1.bound 0) × Fin (grid1.bound 1) × Fin 16)).biUnion tblk]{fullShare} f : sProp 𝕄)
      = bigSep Finset.univ fun c : Fin (grid1.bound 0) => bigSep Finset.univ fun s : Fin (grid1.bound 1) => dstPts d (coordsV c s) f := by
  rw [pointsTo_biUnion Finset.univ (ℓ := o1Loc d) tblk tblk_disjoint, bigSep_univ_prod]
  refine bigSep_congr fun c _ => ?_
  rw [bigSep_univ_prod]
  refine bigSep_congr fun s _ => ?_
  rw [dstPts_eq]
  rfl

/-! ## Splitting the array among the tiles, and joining it back -/

/-- The whole array is the tiles' slices beside the rows below 2048. -/
theorem v1_split (d : Dev nD) (f : Buf (Elt F) (o1Loc d)) :
    (o1Loc d ↦{fullShare} f : sProp 𝕄)
      ⊢ iprop((bigSep Finset.univ fun c : Fin (grid1.bound 0) => bigSep Finset.univ fun s : Fin (grid1.bound 1) => dstPts d (coordsV c s) f)
          ∗ (o1Loc d ↦[lowRows]{fullShare} f)) := by
  rw [← upper_eq, ← sdiff_cover]
  exact (pointsTo_split_subset (Finset.subset_univ _)).1

/-- The tiles' slices all zero, beside the rows below 2048 at `f`, are the whole array at `f` with its rows from 2048
    up zeroed: the constant zero agrees with `zeroTail f` on rows ≥ 2048, and `f` agrees with it on rows < 2048. -/
theorem v1_join [FloatOps F] (d : Dev nD) (f : Buf (Elt F) (o1Loc d)) :
    iprop((bigSep Finset.univ fun c : Fin (grid1.bound 0) => bigSep Finset.univ fun s : Fin (grid1.bound 1) => dstPts d (coordsV c s) (fun _ => Cert.Proof.Spec.zero32))
        ∗ (o1Loc d ↦[lowRows]{fullShare} f))
      ⊢ (o1Loc d ↦{fullShare} Cert.Proof.Spec.zeroTail f : sProp 𝕄) := by
  have hU : (o1Loc d ↦[(Finset.univ : Finset (Fin (grid1.bound 0) × Fin (grid1.bound 1) × Fin 16)).biUnion tblk]{fullShare} (fun _ => Cert.Proof.Spec.zero32) : sProp 𝕄)
      = o1Loc d ↦[(Finset.univ : Finset (Fin (grid1.bound 0) × Fin (grid1.bound 1) × Fin 16)).biUnion tblk]{fullShare} Cert.Proof.Spec.zeroTail f :=
    pointsTo_congr fun i hi => (Cert.Proof.Spec.zeroTail_ge f i (by have := (mem_cover i).1 hi; omega)).symm
  have hL : (o1Loc d ↦[lowRows]{fullShare} f : sProp 𝕄) = o1Loc d ↦[lowRows]{fullShare} Cert.Proof.Spec.zeroTail f :=
    pointsTo_congr fun i hi => by
      have hlt : (i 1).val < 2048 := by
        simpa only [lowRows, Finset.mem_filter, Finset.mem_univ, true_and] using hi
      exact (if_pos hlt).symm
  have hbig : (bigSep Finset.univ fun c : Fin (grid1.bound 0) => bigSep Finset.univ fun s : Fin (grid1.bound 1) => dstPts d (coordsV c s) (fun _ => Cert.Proof.Spec.zero32) : sProp 𝕄)
      = o1Loc d ↦[(Finset.univ : Finset (Fin (grid1.bound 0) × Fin (grid1.bound 1) × Fin 16)).biUnion tblk]{fullShare} Cert.Proof.Spec.zeroTail f :=
    (upper_eq d (fun _ => Cert.Proof.Spec.zero32)).symm.trans hU
  rw [hbig, hL, ← sdiff_cover]
  exact (pointsTo_split_subset (Finset.subset_univ _)).2

end Cert.Proof.KB

end
-- ==== Proof.B.Pay.lean ====
/-
  What the SparseCore call's handshakes carry.

  The TensorCore hands each SparseCore the sixteen destination slices of each of its sixteen tiles, all at the array's
  launch contents; the sequencer hands tile `i` its own sixteen; each tile hands them back zero-filled, and the
  SparseCore hands all of them back. Nothing of the launch's is consumed by a tile's proof.
-/
import proofs.«209718_g39419209842710_cont_8to1_b_1024_25_alg».proof.Proof.B.V1Split

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)

theorem nCore_zero : (K (F := F)).nCore 0 = grid1.bound 0 := rfl
theorem nSub_zero : (K (F := F)).nSub 0 = grid1.bound 1 := rfl

/-- The grid point of SparseCore `c` of the call's grid, tile `i`. -/
abbrev tileAt (c : Fin ((K (F := F)).nCore 0)) (i : Fin ((K (F := F)).nSub 0)) : grid1.Coords :=
  coordsV (Fin.cast nCore_zero c) (Fin.cast nSub_zero i)

variable [FloatOps F]

/-- The one call's payloads. -/
def P : (K (F := F)).Pay (nD := nD) (Val := Elt F) (Name := ℕ) (U := UU) where
  st := fun q d c => match q with
    | 0 => bigSep Finset.univ fun i : Fin ((K (F := F)).nSub 0) => dstPts d (tileAt c i) (m (o1Loc d))
  dn := fun q d c => match q with
    | 0 => bigSep Finset.univ fun i : Fin ((K (F := F)).nSub 0) => dstPts d (tileAt c i) (fun _ => Spec.zero32)
  go := fun q d c i => match q with
    | 0 => dstPts d (tileAt c i) (m (o1Loc d))
  td := fun q d c i => match q with
    | 0 => dstPts d (tileAt c i) (fun _ => Spec.zero32)
  x := fun _ _ => iprop(emp)

/-- A tile's sixteen slices are plain elements of the array's buffer: they may ride in a handshake's payload. -/
theorem dstPts_storable (d : Dev nD) (L : grid1.Coords) (f : Buf (Elt F) (o1Loc d)) :
    BI.Storable (upEmb : UEmb _ 𝕄) (dstPts (F := F) d L f) := by
  rw [dstPts_eq]; infer_instance

set_option maxHeartbeats 2000000 in
instance P_storable : (P (F := F) m).IsStorable where
  st q d c := match q with
    | 0 => by
      haveI : ∀ i : Fin ((K (F := F)).nSub 0), BI.Storable (upEmb : UEmb _ 𝕄) (dstPts (F := F) d (tileAt c i) (m (o1Loc d))) :=
        fun i => dstPts_storable d (tileAt c i) (m (o1Loc d))
      show BI.Storable (upEmb : UEmb _ 𝕄) (bigSep Finset.univ fun i : Fin ((K (F := F)).nSub 0) => dstPts (F := F) d (tileAt c i) (m (o1Loc d)))
      infer_instance
  dn q d c := match q with
    | 0 => by
      haveI : ∀ i : Fin ((K (F := F)).nSub 0), BI.Storable (upEmb : UEmb _ 𝕄) (dstPts (F := F) d (tileAt c i) (fun _ => Spec.zero32)) :=
        fun i => dstPts_storable d (tileAt c i) (fun _ => Spec.zero32)
      show BI.Storable (upEmb : UEmb _ 𝕄) (bigSep Finset.univ fun i : Fin ((K (F := F)).nSub 0) => dstPts (F := F) d (tileAt c i) (fun _ => Spec.zero32))
      infer_instance
  go q d c i := match q with
    | 0 => dstPts_storable d (tileAt c i) (m (o1Loc d))
  td q d c i := match q with
    | 0 => dstPts_storable d (tileAt c i) (fun _ => Spec.zero32)

set_option maxHeartbeats 2000000 in
/-- A SparseCore's operands are its tiles' shares, and its results theirs. -/
theorem vecSplit : (K (F := F)).VecSplit' (P m) 0 := by
  intro d c
  show (bigSep Finset.univ fun i : Fin ((K (F := F)).nSub 0) => dstPts d (tileAt c i) (m (o1Loc d))) ⊢ |={Set.univ}=> iprop(
      (bigSep Finset.univ fun i : Fin ((K (F := F)).nSub 0) => dstPts d (tileAt c i) (m (o1Loc d)))
      ∗ ((bigSep Finset.univ fun i : Fin ((K (F := F)).nSub 0) => dstPts (F := F) d (tileAt c i) (fun _ => Spec.zero32))
          -∗ (bigSep Finset.univ fun i : Fin ((K (F := F)).nSub 0) => dstPts (F := F) d (tileAt c i) (fun _ => Spec.zero32))))
  iintro H; imodintro
  isplitl [H]; · iexact H
  iintro H; iexact H

end Cert.Proof.KB

end
-- ==== Proof.B.TcBodies.lean ====
/-
  The two TensorCore kernel bodies, each as a triple over its staging buffers.

  The key-cache body holds one block of eight batch entries of the input (8 × 2048 × 128) and one block of the cache
  (8 × 4096 × 128): it stores the input block into rows 0 … 2047 of the cache block and a zero vector into rows
  2048 … 4095. The value-cache body holds a block of the input and a block of the cache's first 2048 rows and stores the
  first into the second. What each leaves in its output buffer is the canonical reading of its stores, last first.
-/
import proofs.«209718_g39419209842710_cont_8to1_b_1024_25_alg».proof.Proof.B.Setup
import proofs.«209718_g39419209842710_cont_8to1_b_1024_25_alg».proof.Proof.Gen.Kernel.Skeleton
import Idealize.ShloMosaic.Lib.Pipeline.FrameBody
import Idealize.ShloMosaic.Lib.Tactic

set_option maxRecDepth 16384

noncomputable section

namespace Cert.Proof.KB

open Cert.Kernel Cert.Kernel.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The bodies' rectangles -/

/-- The whole of an input block. -/
abbrev rIn : Rect S8x2048x128 := Rect.unit (s := S8x2048x128) ![0, 0, 0] S8x2048x128.size Shapes1.Facts₀.inb_S8x2048x128_S8x2048x128_0_0_0
/-- Rows 0 … 2047 of a cache block, and rows 2048 … 4095. -/
abbrev rLo : Rect S8x4096x128 := Rect.unit (s := S8x4096x128) ![0, 0, 0] S8x2048x128.size Shapes1.Facts₀.inb_S8x4096x128_S8x2048x128_0_0_0
abbrev rHi : Rect S8x4096x128 := Rect.unit (s := S8x4096x128) ![0, 2048, 0] S8x2048x128.size Shapes1.Facts₀.inb_S8x4096x128_S8x2048x128_0_2048_0

/-! ## What each body leaves in its output buffer -/

/-- The key-cache block after the body: the zero vector on the upper rows, the input block on the lower (the stores, last first). -/
def outK (x0 : Vec F S8x2048x128 .f32) : Vec F S8x4096x128 .f32 :=
  View.canon [⟨rHi, k0_pay1 (F := F)⟩, ⟨rLo, View.ld x0 rIn⟩]

/-- The value-cache block after the body: the input block. -/
def outV (x0 : Vec F S8x2048x128 .f32) : Vec F S8x2048x128 .f32 :=
  View.canon [⟨rIn, View.ld x0 rIn⟩]

theorem coverK (p1 p0 : Vec F S8x2048x128 .f32) (y : S8x4096x128.Idx) :
    ∃ pc ∈ ([⟨rHi, p1⟩, ⟨rLo, p0⟩] : List (View.Piece (Elt F) S8x4096x128 .f32)), y ∈ pc.1.set :=
  View.cover_of_tiled [⟨rHi, p1⟩, ⟨rLo, p0⟩] S8x2048x128.size (by rfl) y

theorem coverV (p0 : Vec F S8x2048x128 .f32) (y : S8x2048x128.Idx) :
    ∃ pc ∈ ([⟨rIn, p0⟩] : List (View.Piece (Elt F) S8x2048x128 .f32)), y ∈ pc.1.set :=
  View.cover_of_tiled [⟨rIn, p0⟩] S8x2048x128.size (by rfl) y

/-! ## The bodies' triples -/

set_option maxHeartbeats 1000000 in
/-- The key-cache body on whole staging memrefs, the input's at `x0` and the output's at anything, runs to the
    continuation holding the input's as it was and the output's at `outK x0`. -/
theorem sound_kernelK (c : Dev nD) (E : Set ℕ) (i : grid0.Coords) (arg1 : Memref sig .tc .vmem S8x2048x128 .f32) (harg1 : arg1.IsWhole)
    (arg2 : Memref sig .tc .vmem S8x4096x128 .f32) (harg2 : arg2.IsWhole) (x0 : Vec F S8x2048x128 .f32) (Kk : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (outK x0)) -∗ Kk ⟨⟩))
      ⊢ wp frame (wpE (defs₀ (F := F)) Variants.none c none) E (cc0__k_body i arg1 harg1 arg2 harg2) Kk := by
  simp only [cc0__k_body_eq_skeleton]; unfold cc0__k_body_skel
  unfold owns
  iintro ⟨⟨%f0, %hf0, H0⟩, ⟨%d2, %f2, -, H2⟩, Hk⟩
  subst hf0
  sl_exec
  sl_step
  iapply Hk
  isplitl [H0]
  · iexists f0; isplitr; · ipureintro; rfl
    iexact H0
  iexists _; isplitr
  swap; · iexact H2
  ipureintro
  exact View.read_writes_eq_canon _ _ _ (coverK _ _)

set_option maxHeartbeats 1000000 in
/-- The value-cache body: the array operand it never touches aside, the input's buffer at `x0` and the output's at
    anything, it runs to the continuation holding the input's as it was and the output's at `outV x0`. -/
theorem sound_kernelV (c : Dev nD) (E : Set ℕ) (i : grid2.Coords) (arg1 : Memref sig .tc .hbm S32x4096x128 .f32) (harg1 : arg1.IsWhole)
    (arg2 : Memref sig .tc .vmem S8x2048x128 .f32) (harg2 : arg2.IsWhole)
    (arg3 : Memref sig .tc .vmem S8x2048x128 .f32) (harg3 : arg3.IsWhole) (x0 : Vec F S8x2048x128 .f32) (Kk : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (outV x0)) -∗ Kk ⟨⟩))
      ⊢ wp frame (wpE (defs₀ (F := F)) Variants.none c none) E (cc2__vcopy_body i arg1 harg1 arg2 harg2 arg3 harg3) Kk := by
  simp only [cc2__vcopy_body_eq_skeleton]; unfold cc2__vcopy_body_skel
  unfold owns
  iintro ⟨⟨%f0, %hf0, H0⟩, ⟨%d2, %f2, -, H2⟩, Hk⟩
  subst hf0
  sl_exec
  sl_step
  iapply Hk
  isplitl [H0]
  · iexists f0; isplitr; · ipureintro; rfl
    iexact H0
  iexists _; isplitr
  swap; · iexact H2
  ipureintro
  exact View.read_writes_eq_canon _ _ _ (coverV _)

end Cert.Proof.KB

end
-- ==== Proof.B.TcRegions.lean ====
/-
  The two TensorCore calls as pipelines: their proof data and their body obligations.

  Each call walks four grid points; at point `t` it fetches block `t` (eight batch entries) of its input, runs its body,
  and writes block `t` of its output back. The proof data says what each staging buffer holds after the body at each
  point — the input's its block, the output's what the body's stores leave of that block — and that the body neither
  touches the scoped buffers no window stages nor changes what the TensorCore owes the SparseCore calls still to come.
-/
import proofs.«209718_g39419209842710_cont_8to1_b_1024_25_alg».proof.Proof.B.TcBodies
import proofs.«209718_g39419209842710_cont_8to1_b_1024_25_alg».proof.Proof.Fill

set_option maxRecDepth 16384

noncomputable section

namespace Cert.Proof.KB

open Cert.Kernel Cert.Kernel.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ)

/-- The pairs a TensorCore's waits may have recorded before SparseCore call `n`: those at level at most `8 n`. -/
def recAt (c : Dev nD) (n : ℕ) : Set (SemLoc sig × HIx 1) := {p | (K (F := F)).lev ((c : Thread nD τ), p.1) p.2 ≤ 8 * n}

/-! ## The key cache's call -/

/-- Block `t` of the key input, read off the launch memory. -/
def iblkK (c : Dev nD) (t : Fin cfg0.N) : ((cfg0.win 0).xblock (cfg0.grid.coords t)).Idx → Elt F (cfg0.win 0).elt :=
  ((cfg0.win 0).blk t).view.read (Elt F) (m ((c : Thread nD τ).loc main_arg0))

/-- The key call's proof data: the arrays as launched; after the body the input's buffer at its block and the cache's at
    `outK` of it; the invariant the scoped buffers no window stages; the TensorCore owing its start signals throughout. -/
def datK (c : Dev nD) : Dat τ (Elt F) (HIx 1) ℕ UU ℕ cfg0 c where
  A w := m ((cfg0.win w).arr.view.loc (c : Thread nD τ))
  after w t := match w with
    | ⟨0, _⟩ => iblkK m c t
    | ⟨1, _⟩ => outK (iblkK m c t)
  Φ _ := Pipeline.scopedRest (Ix := HIx 1) (Name := ℕ) (U := UU) (Lvl := ℕ) (Val := Elt F) spec0 c
  q _ := fullShare
  owed _ := (K (F := F)).Otc c 0
  recorded _ := recAt (F := F) c 0

theorem afterK_0 (c : Dev nD) (t : Fin cfg0.N) : (datK m c).after 0 t = iblkK m c t := by dsimp only [datK]
theorem afterK_1 (c : Dev nD) (t : Fin cfg0.N) : (datK m c).after 1 t = outK (iblkK m c t) := by dsimp only [datK]

/-- The input's current staging buffer holds its block at every point. -/
theorem beforeK_0 (c : Dev nD) (t : Fin cfg0.N) (d) : (datK m c).before 0 t d = iblkK m c t :=
  ((datK m c).before_in_eq_fetched 0 rfl (fun _ => rfl) (fun _ _ _ => rfl) (fun t => by rw [afterK_0]; unfold Dat.blockOf iblkK; rfl) t d).trans
    (by unfold Dat.fetched Dat.blockOf iblkK; rfl)

/-- The key body at any point. -/
theorem sound_bodyK (c : Dev nD) (t : Fin cfg0.N) :
    iprop((datK m c).Φ t.castSucc ∗ (datK m c).owesAt none t.castSucc
        ∗ (∃ d, owns (c : Thread nD τ) (st0_0 t) fullShare ((datK m c).before 0 t d))
        ∗ (∃ d, owns (c : Thread nD τ) (st0_1 t) fullShare ((datK m c).before 1 t d)))
      ⊢ wp frame (wpE (defs₀ (F := F)) Variants.none c none) Set.univ (bodyAt0 t) (fun _ =>
          iprop((datK m c).Φ t.succ ∗ (datK m c).owesAt none t.succ
            ∗ owns (c : Thread nD τ) (st0_0 t) fullShare ((datK m c).after 0 t)
            ∗ owns (c : Thread nD τ) (st0_1 t) fullShare ((datK m c).after 1 t))) := by
  unfold bodyAt0
  simp only [beforeK_0]
  rw [show (datK m c).Φ t.succ = (datK m c).Φ t.castSucc from rfl,
    show (datK m c).owesAt none t.succ = (datK m c).owesAt none t.castSucc from rfl, afterK_0, afterK_1]
  iintro ⟨HΦ, Ho, ⟨%d0, H0⟩, ⟨%d1, H1⟩⟩
  iapply (sound_kernelK c Set.univ (grid0.coords t) _ _ _ _ (iblkK m c t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligationK (c : Dev nD) : BodyObligation (datK (F := F) m c) (defs₀ (F := F)) Variants.none none Set.univ := fun t => by
  rw [bigSep_W0, bigSep_W0]
  exact sound_bodyK m c t

/-! ## The value cache's call -/

/-- Block `t` of the value input, read off the launch memory. -/
def iblkV (c : Dev nD) (t : Fin cfg2.N) : ((cfg2.win 0).xblock (cfg2.grid.coords t)).Idx → Elt F (cfg2.win 0).elt :=
  ((cfg2.win 0).blk t).view.read (Elt F) (m ((c : Thread nD τ).loc main_arg1))

/-- The value call's proof data: the input as launched and the cache at the zero-tailed array the vector-subcore kernel
    left (copied into the cache's buffer before the call); after the body the input's buffer at its block and the cache's
    at that block; the TensorCore owing nothing for SparseCore calls to come but what the handshake state says. -/
def datV (c : Dev nD) : Dat τ (Elt F) (HIx 1) ℕ UU ℕ cfg2 c where
  A w := match w with
    | ⟨0, _⟩ => m ((c : Thread nD τ).loc main_arg1)
    | ⟨1, _⟩ => Spec.zeroTail (F := F) (m ((c : Thread nD τ).loc main_v1))
  after w t := match w with
    | ⟨0, _⟩ => iblkV m c t
    | ⟨1, _⟩ => outV (iblkV m c t)
  Φ _ := Pipeline.scopedRest (Ix := HIx 1) (Name := ℕ) (U := UU) (Lvl := ℕ) (Val := Elt F) spec2 c
  q _ := fullShare
  owed _ := (K (F := F)).Otc c 1
  recorded _ := recAt (F := F) c 1

theorem afterV_0 (c : Dev nD) (t : Fin cfg2.N) : (datV m c).after 0 t = iblkV m c t := by dsimp only [datV]
theorem afterV_1 (c : Dev nD) (t : Fin cfg2.N) : (datV m c).after 1 t = outV (iblkV m c t) := by dsimp only [datV]

theorem beforeV_0 (c : Dev nD) (t : Fin cfg2.N) (d) : (datV m c).before 0 t d = iblkV m c t :=
  ((datV m c).before_in_eq_fetched 0 rfl (fun _ => rfl) (fun _ _ _ => rfl) (fun t => by rw [afterV_0]; unfold Dat.blockOf iblkV; rfl) t d).trans
    (by unfold Dat.fetched Dat.blockOf iblkV; rfl)

theorem sound_bodyV (c : Dev nD) (t : Fin cfg2.N) :
    iprop((datV m c).Φ t.castSucc ∗ (datV m c).owesAt none t.castSucc
        ∗ (∃ d, owns (c : Thread nD τ) (st2_0 t) fullShare ((datV m c).before 0 t d))
        ∗ (∃ d, owns (c : Thread nD τ) (st2_1 t) fullShare ((datV m c).before 1 t d)))
      ⊢ wp frame (wpE (defs₀ (F := F)) Variants.none c none) Set.univ (bodyAt2 t) (fun _ =>
          iprop((datV m c).Φ t.succ ∗ (datV m c).owesAt none t.succ
            ∗ owns (c : Thread nD τ) (st2_0 t) fullShare ((datV m c).after 0 t)
            ∗ owns (c : Thread nD τ) (st2_1 t) fullShare ((datV m c).after 1 t))) := by
  unfold bodyAt2
  simp only [beforeV_0]
  rw [show (datV m c).Φ t.succ = (datV m c).Φ t.castSucc from rfl,
    show (datV m c).owesAt none t.succ = (datV m c).owesAt none t.castSucc from rfl, afterV_0, afterV_1]
  iintro ⟨HΦ, Ho, ⟨%d0, H0⟩, ⟨%d1, H1⟩⟩
  iapply (sound_kernelV c Set.univ (grid2.coords t) _ _ _ _ _ _ (iblkV m c t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligationV (c : Dev nD) : BodyObligation (datV (F := F) m c) (defs₀ (F := F)) Variants.none none Set.univ := fun t => by
  rw [bigSep_W2, bigSep_W2]
  exact sound_bodyV m c t

/-! ## The family -/

abbrev adm : (p : Fin 2) → (pcfgs (F := F) p).Adm := fun p => (cfgs p).toPCfg_adm

def pdats : (p : Fin 2) → (c : Dev nD) → Dat τ (Elt F) (HIx 1) ℕ UU ℕ (Pipeline.pin (pcfgs (F := F)) adm p) c
  | ⟨0, _⟩ => datK m
  | ⟨1, _⟩ => datV m

end Cert.Proof.KB

end
-- ==== Proof.B.TcSegs.lean ====
/-
  The two TensorCore calls as regions of @main.

  A region is entered holding its pipeline's arrays at the proof data's entry contents, whatever bypasses it, and what
  the TensorCore owes the SparseCore calls to come (its start signals) with every pair its waits have recorded at a
  level at most `8 n`, `n` the number of SparseCore calls made so far; it is left holding the arrays at their final
  contents, the same bypassing rest and the same debt. The staging waits of a region are recorded at index `none`, level
  0: below everything the TensorCore owes, which is why it may wait while owing, and within the bound it hands on.
-/
import proofs.«209718_g39419209842710_cont_8to1_b_1024_25_alg».proof.Proof.B.TcRegions

set_option maxRecDepth 16384

noncomputable section

namespace Cert.Proof.KB

open Cert.Kernel Cert.Kernel.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ)

/-- What the TensorCore owes before SparseCore call `n`, its recorded pairs at levels at most `8 n`. -/
def tcOwes (c : Dev nD) (n : ℕ) : sProp 𝕄 :=
  iprop(∃ W, ⌜(K (F := F)).WBelow (c : Thread nD τ) W (8 * n)⌝ ∗ owes (c : Thread nD τ) ((K (F := F)).Otc c n) W)

/-- The level facts' pairs and levels: every index at every cell, the launch's levels. -/
abbrev LL : GSem nD τ sig → Finset (HIx 1) := (K (F := F)).L
abbrev lvv : GSem nD τ sig → HIx 1 → ℕ := (K (F := F)).lev

local notation "ℝ𝕊" => Pipeline.RegionSeg (pcfgs (F := F)) adm (pdats m) (none : HIx 1) defs₀ 𝒱₀ (LL (F := F)) (lvv (F := F))

/-- The staging waits of pipeline `p` on core `c` are admissible while the core owes `Otc c n`: the waits sit at level 0,
    the debts at a call's index, strictly above. -/
theorem waits_ok (p : Fin 2) (c : Dev nD) (n : ℕ) (howed : ∀ t, (pdats m p c).owed t = (K (F := F)).Otc c n) :
    (levAts (LL (F := F)) (lvv (F := F)) : sProp 𝕄) ⊢ Pipeline.cellsWaits (Pipeline.pin (pcfgs (F := F)) adm) (pdats m) (none : HIx 1) p c :=
  Pipeline.cellsWaits_of_cut _ (pdats m) (none : HIx 1) p c (lev := (K (F := F)).lev) 0 ((K (F := F)).Otc c n) howed
    (fun _ _ => Finset.mem_univ _) (fun _ _ => le_of_eq ((K (F := F)).lev_none _))
    fun g i hg => ⟨Finset.mem_univ _, lt_of_lt_of_le (Nat.succ_pos _) ((K (F := F)).lev_of_Otc_pos hg)⟩

/-- No prefetched tables: nothing is held for them. -/
theorem prefHeld_none (p : Fin 2) (c : Dev nD) :
    (Pipeline.prefHeld (Ix := HIx 1) (Name := ℕ) (U := UU) (Lvl := ℕ) (pcfgs (F := F) p).pre c (fun _ => fullShare) (adm (F := F) p).1 : sProp 𝕄) = iprop(emp) := by
  unfold Pipeline.prefHeld
  match p with
  | ⟨0, _⟩ => rw [show (Finset.univ : Finset (Fin 0)) = ∅ from rfl, BI.bigSep_empty]; rfl
  | ⟨1, _⟩ => rw [show (Finset.univ : Finset (Fin 0)) = ∅ from rfl, BI.bigSep_empty]; rfl

/-- What the TensorCore owes with its recorded pairs bounded is the pipeline's form of it, at entry, -/
theorem tcOwes_owesAt (p : Fin 2) (c : Dev nD) (n : ℕ) (t : Fin ((Pipeline.pin (pcfgs (F := F)) adm p).N + 1))
    (howed : (pdats m p c).owed t = (K (F := F)).Otc c n) (hrec : (pdats m p c).recorded t = recAt (F := F) c n) :
    tcOwes (F := F) c n ⊢ ((pdats m p c).owesAt (none : HIx 1) t : sProp 𝕄) := by
  unfold tcOwes Pipeline.Dat.owesAt Pipeline.owesWithin Pipeline.Dat.bound
  rw [howed, hrec]
  iintro ⟨%W, %hW, HO⟩
  iexists W; isplitr
  · ipureintro; exact fun p hp => Or.inl (hW p hp)
  · iexact HO

/-- and back at the exit: the staging waits the region added sit at level 0. -/
theorem owesAt_tcOwes (p : Fin 2) (c : Dev nD) (n : ℕ) (t : Fin ((Pipeline.pin (pcfgs (F := F)) adm p).N + 1))
    (howed : (pdats m p c).owed t = (K (F := F)).Otc c n) (hrec : (pdats m p c).recorded t = recAt (F := F) c n) :
    ((pdats m p c).owesAt (none : HIx 1) t : sProp 𝕄) ⊢ tcOwes (F := F) c n := by
  unfold tcOwes Pipeline.Dat.owesAt Pipeline.owesWithin Pipeline.Dat.bound
  rw [howed, hrec]
  iintro ⟨%W, %hW, HO⟩
  iexists W; isplitr
  · ipureintro
    intro q hq
    rcases hW hq with h | ⟨w, s, rfl⟩
    · exact h
    · show (K (F := F)).lev _ none ≤ _
      rw [(K (F := F)).lev_none]; exact Nat.zero_le _
  · iexact HO

/-- The scoped buffers no window stages, handed back beside nothing else. -/
theorem keep_rest (p : Fin 2) (c : Dev nD) :
    (Pipeline.scopedRest (Ix := HIx 1) (Name := ℕ) (U := UU) (Lvl := ℕ) (Val := Elt F) (Pipeline.pin (pcfgs (F := F)) adm p).spec c : sProp 𝕄)
      ⊢ iprop(emp ∗ emp ∗ Pipeline.scopedRest (Ix := HIx 1) (Name := ℕ) (U := UU) (Lvl := ℕ) (Val := Elt F) (Pipeline.pin (pcfgs (F := F)) adm p).spec c) := by
  iintro H; isplitr; · iempintro
  isplitr; · iempintro
  iexact H

/-- THE KEY CACHE'S CALL as a region: entered with its two arrays at their launch contents, `Zr c` bypassing. -/
def regK (Zr : Dev nD → sProp 𝕄) : ℝ𝕊 0 where
  win := launch0.win.to₀
  block_pos := launch0.block_pos
  stage_whole := launch0.stage_whole
  K := PEmpty
  osem k := k.elim
  ho := Pipeline.OwnSemFacts.none _
  hbody c := (body_obligationK m c).loose
  hwaits c := waits_ok m 0 c 0 (fun _ => rfl)
  pre c := iprop((pdats m 0 c).arrays ((pdats m 0 c).arrAt · 0) ∗ Zr c ∗ tcOwes (F := F) c 0)
  post c := iprop((pdats m 0 c).arrays ((pdats m 0 c).arrAt · (Pipeline.pin (pcfgs (F := F)) adm 0).N) ∗ Zr c ∗ tcOwes (F := F) c 0)
  X _ := iprop(emp)
  Y _ := iprop(emp)
  Z c := Zr c
  hentry c := by
    rw [Pipeline.ownSems0_none, prefHeld_none]
    iintro ⟨⟨Ha, Hz, HO⟩, -, -⟩
    imodintro
    isplitl [Ha]; · iexact Ha
    isplitr; · iempintro
    isplitl [HO]; · iapply (tcOwes_owesAt m 0 c 0 0 rfl rfl); iexact HO
    isplitr; · iempintro
    iexact Hz
  hin c := sep_elim_right.trans sep_elim_right
  hout c := by
    rw [Pipeline.ownSems0_none]
    refine BI.Entails.trans ?_ (keep_rest (F := F) 0 c)
    exact BI.Entails.refl _
  hexit c := by
    iintro ⟨Ha, HO, -, Hz⟩
    imodintro
    isplitl [Ha]; · iexact Ha
    isplitl [Hz]; · iexact Hz
    iapply (owesAt_tcOwes m 0 c 0 (Fin.last _) rfl rfl); iexact HO

set_option maxHeartbeats 4000000 in
/-- THE VALUE CACHE'S CALL as a region, after the one SparseCore call. -/
def regV (Zr : Dev nD → sProp 𝕄) : ℝ𝕊 1 where
  win := launch2.win.to₀
  block_pos := launch2.block_pos
  stage_whole := launch2.stage_whole
  K := PEmpty
  osem k := k.elim
  ho := Pipeline.OwnSemFacts.none _
  hbody c := (body_obligationV m c).loose
  hwaits c := waits_ok m 1 c 1 (fun _ => rfl)
  pre c := iprop((pdats m 1 c).arrays ((pdats m 1 c).arrAt · 0) ∗ Zr c ∗ tcOwes (F := F) c 1)
  post c := iprop((pdats m 1 c).arrays ((pdats m 1 c).arrAt · (Pipeline.pin (pcfgs (F := F)) adm 1).N) ∗ Zr c ∗ tcOwes (F := F) c 1)
  X _ := iprop(emp)
  Y _ := iprop(emp)
  Z c := Zr c
  hentry c := by
    rw [Pipeline.ownSems0_none, prefHeld_none]
    iintro ⟨⟨Ha, Hz, HO⟩, -, -⟩
    imodintro
    isplitl [Ha]; · iexact Ha
    isplitr; · iempintro
    isplitl [HO]; · iapply (tcOwes_owesAt m 1 c 1 0 rfl rfl); iexact HO
    isplitr; · iempintro
    iexact Hz
  hin c := sep_elim_right.trans sep_elim_right
  hout c := by
    rw [Pipeline.ownSems0_none]
    refine BI.Entails.trans ?_ (keep_rest (F := F) 1 c)
    exact BI.Entails.refl _
  hexit c := by
    iintro ⟨Ha, HO, -, Hz⟩
    imodintro
    isplitl [Ha]; · iexact Ha
    isplitl [Hz]; · iexact Hz
    iapply (owesAt_tcOwes m 1 c 1 (Fin.last _) rfl rfl); iexact HO

end Cert.Proof.KB

end
-- ==== Proof.B.RegionStep.lean ====
/-
  Entering a TensorCore call from the @main of a program with SparseCore calls.

  In such a program @main's labels are the extended signature's: a pallas_call's line calls the pipeline entry's label
  lifted. A proof of the region over the pipelines' own signature is a proof of that line.
-/
import proofs.«209718_g39419209842710_cont_8to1_b_1024_25_alg».proof.Proof.B.TcSegs

noncomputable section

namespace Cert.Proof.KB

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ)

local notation "ℝ𝕊" => Pipeline.RegionSeg (pcfgs (F := F)) adm (pdats m) (none : HIx 1) defs₀ 𝒱₀ (LL (F := F)) (lvv (F := F))

/-- The region's call over the pipelines' signature. -/
abbrev callOf (p : Fin 2) : Prog (TpuEff nD τ sig (Elt F) (ΛP (F := F)) .tc) PUnit :=
  .op (.customCall (Pipeline.entry p) ()) fun _ => .ret ⟨⟩

omit [FloatOps F] in
/-- Equal assertions entail one another. -/
theorem ent_of_eq {A B : sProp 𝕄} (h : A = B) : A ⊢ B := h ▸ BI.Entails.refl _

/-- The region over the pipelines' own signature, the continuation a return. -/
theorem region_inner {p : Fin 2} (R : ℝ𝕊 p) (d : Dev nD) (Q : PUnit → sProp 𝕄) :
    iprop((iprop(boundary (d : Thread nD τ) ∗ R.post d) -∗ Q ⟨⟩)
        ∗ boundary (d : Thread nD τ) ∗ R.pre d ∗ levAts (LL (F := F)) (lvv (F := F))
        ∗ Pipeline.cellsGhost (Pipeline.pin (pcfgs (F := F)) adm) EP p d ∗ Pipeline.toksInit (Pipeline.pin (pcfgs (F := F)) adm) EP p d)
      ⊢ wp frame (wpE (D (F := F)) 𝒱 (d : Thread nD τ) none) Set.univ (callOf (F := F) p) Q := by
  have h := Pipeline.RegionSeg.wp (pcfgs (F := F)) adm (pdats m) (none : HIx 1) cellOf_inj EP defs₀ 𝒱₀ (LL (F := F)) (lvv (F := F))
    R d none (by intro u hu; cases hu) (fun _ => .ret ⟨⟩) Q
  have hpre : iprop((iprop(boundary (d : Thread nD τ) ∗ R.post d) -∗ Q ⟨⟩)
        ∗ boundary (d : Thread nD τ) ∗ R.pre d ∗ levAts (LL (F := F)) (lvv (F := F))
        ∗ Pipeline.cellsGhost (Pipeline.pin (pcfgs (F := F)) adm) EP p d ∗ Pipeline.toksInit (Pipeline.pin (pcfgs (F := F)) adm) EP p d)
      ⊢ iprop((iprop(boundary (d : Thread nD τ) ∗ R.post d) -∗ wp frame (wpE (Pipeline.defs (pcfgs (F := F)) defs₀) (Variants.lift 𝒱₀) (d : Thread nD τ) none) Set.univ (.ret ⟨⟩) Q)
        ∗ boundary (d : Thread nD τ) ∗ R.pre d ∗ levAts (LL (F := F)) (lvv (F := F))
        ∗ Pipeline.cellsGhost (Pipeline.pin (pcfgs (F := F)) adm) EP p d ∗ Pipeline.toksInit (Pipeline.pin (pcfgs (F := F)) adm) EP p d) := by
    iintro ⟨Hk, Hrest⟩
    isplitl [Hk]
    · iintro H
      rw [wp_ret]; imodintro
      iapply Hk; iexact H
    · iexact Hrest
  exact hpre.trans (h.trans (ent_of_eq (by congr 1)))

/-- The same, as @main's line. -/
theorem region_step {p : Fin 2} (R : ℝ𝕊 p) (d : Dev nD) (Q : PUnit → sProp 𝕄) :
    iprop((iprop(boundary (d : Thread nD τ) ∗ R.post d) -∗ Q ⟨⟩)
        ∗ boundary (d : Thread nD τ) ∗ R.pre d ∗ levAts (LL (F := F)) (lvv (F := F))
        ∗ Pipeline.cellsGhost (Pipeline.pin (pcfgs (F := F)) adm) EP p d ∗ Pipeline.toksInit (Pipeline.pin (pcfgs (F := F)) adm) EP p d)
      ⊢ wp frame (wpE ((K (F := F)).defs (D (F := F))) 𝒱 (SparseCore.T d) none) Set.univ
          (Prog.lift (.customCall (SparseCore.inner (Q := 1) (Pipeline.entry (Λ₀ := Λ₀) (A := fun p => (pcfgs (F := F) p).Adm) p)) ())) Q :=
  (region_inner m R d Q).trans
    ((K (F := F)).wp_liftProg (D (F := F)) 𝒱 (SparseCore.T d) Set.univ none (callOf (F := F) p) Q)

end Cert.Proof.KB

end
-- ==== Proof.B.TileBody.lean ====
/-
  The body of the vector-subcore kernel at one tile, for any float instance.

  A tile fills its 128 × 128 scratch by 1,024 stores of sixteen lanes — one per row and sixteen-lane column block, each
  the broadcast of the all-zero word —, then copies the whole scratch into sixteen 128-row slices of one batch entry of
  the array, every copy counted on the tile's one semaphore, then waits sixteen times for one copy's units.

  * The scratch after the stores. Every store's payload is the zero word at every lane, and the stores' rectangles tile
    the scratch in 1 × 16 blocks; so the scratch read whole after the stores is zero at every index, whatever it held
    before (`AllZero`, the tiling decided by evaluation on the rectangles alone).
  * The copies. All sixteen are outstanding together on one counter and all read the one scratch, each at a part of the
    share the tile holds of it. A wait that is not the last learns nothing about any slice. The sixteenth brings the
    units consumed to sixteen copies' worth, which the counter can only have received if every copy paid in full: every
    copy has landed, the counter is at zero again, and the shares of the scratch join back. Nothing touches the scratch
    or a slice between the first issue and the last wait.
  * A landed slice is its prior contents overwritten, through the whole slice, by what the copy read off the scratch;
    on the slice's own elements that is the zero word (`landed_congr`).
-/
import proofs.«209718_g39419209842710_cont_8to1_b_1024_25_alg».proof.Proof.B.Setup
import proofs.«209718_g39419209842710_cont_8to1_b_1024_25_alg».proof.Proof.Gen.Kernel.Skeleton
import Idealize.ShloMosaic.Lib.SparseCore.Launch
import Idealize.ShloMosaic.Lib.Batch
import Idealize.ShloMosaic.Lib.Writes
import Idealize.ShloMosaic.Lib.Ring
import Idealize.ShloMosaic.Lib.Tactic

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The tile's own resources, as the body's memory operations name them -/

section Tile

variable (d : Dev nD) (L : grid1.Coords)

/-- The tile's one DMA semaphore, as a cell. -/
abbrev semCell : GSem nD τ sig := (Vt d L, .dma cc1_scratch1.sem)

omit [FloatOps F] in
theorem ownSems0_Vt :
    (ownSems0 (Vt d L) : sProp 𝕄)
      = iprop(semVal (semCell d L) 0 ∗ bigSep ((ownCells (Vt d L)).erase (semCell d L)) fun g => semVal g 0) := by
  unfold SparseCore.Cfg.ownSems0
  exact SparseCore.bigSep_erase' ((mem_ownCells (g := semCell d L)).mpr ⟨rfl, by
    show (SemLoc.dma cc1_scratch1.sem : SemLoc sig).isScoped .scVector = true; decide⟩)

omit [FloatOps F] in
theorem ownBufs_Vt :
    (ownBufs (Vt d L) : sProp 𝕄)
      = iprop((∃ f, (Vt d L).loc cc1_scratch0 ↦{fullShare} f)
          ∗ bigSep ((ownRefs (τ := τ) (Vt d L).2).erase ((Vt d L).2.devRef cc1_scratch0))
              fun b => iprop(∃ f, ((d, b) : Loc nD τ sig) ↦{fullShare} f)) := by
  unfold SparseCore.Cfg.ownBufs
  exact SparseCore.bigSep_erase' (SparseCore.Cfg.mem_ownRefs_of_owner (p := (Vt d L).2) (b := (Vt d L).2.devRef cc1_scratch0) rfl)

omit [FloatOps F] in
theorem pts_scr (f : Buf (Elt F) ((Vt d L).loc cc1_scratch0)) :
    ((Memref.whole cc1_scratch0 : Memref sig .scVector .vmem S128x128 .f32).view.loc (Vt d L) ↦[(Memref.whole cc1_scratch0 : Memref sig .scVector .vmem S128x128 .f32).view.set]{fullShare} f : sProp 𝕄)
      = (Vt d L).loc cc1_scratch0 ↦{fullShare} f := by
  simp only [Memref.view_whole, View.set_whole]

/-! ## The value: every store writes the zero word, the stores tile the scratch, so every landed copy is zero -/

/-- Every store of the list writes the zero word at each of its elements. -/
def AllZero (Lst : List (View.Piece (Elt F) S128x128 .f32)) : Prop :=
  ∀ p ∈ Lst, ∀ x : p.1.shape.Idx, p.2 x = (Spec.zero32 : F .f32)

theorem allZero_nil : AllZero (F := F) [] := fun _ h => absurd h List.not_mem_nil

theorem allZero_cons {r : Rect S128x128} {w : r.shape.Idx → Elt F .f32} {Lst : List (View.Piece (Elt F) S128x128 .f32)}
    (hw : ∀ x, w x = (Spec.zero32 : F .f32)) (h : AllZero Lst) : AllZero (⟨r, w⟩ :: Lst) := by
  intro p hp
  rcases List.mem_cons.mp hp with rfl | hp
  · exact hw
  · exact h p hp

omit [FloatOps F] in
/-- A view's own elements after one unmasked write of `w` through the whole view, over any prior contents, are held at
    any contents `g` that the view reads as `w`. -/
theorem landed_congr (c : Thread nD τ) {sp : Space} {s : Shape} {e : EltTy} (v : View sig c.2.kind sp s e) (q : PosShare TreeShare)
    (f g : Buf (Elt F) (v.loc c)) (w : s.Idx → Elt F e) (hg : ∀ x, v.read (Elt F) g x = w x) :
    (v.loc c ↦[v.set]{q} v.writes (Elt F) f [⟨Rect.whole s, w⟩] : sProp 𝕄) ⊢ v.loc c ↦[v.set]{q} g := by
  refine Entails.of_eq ?_
  rw [← View.write_univ_eq_writes_whole v f [] w, View.writes_nil]
  refine pointsTo_congr fun i hi => ?_
  obtain ⟨x, -, rfl⟩ := Finset.mem_map.mp hi
  rw [View.write_emb_of_mem _ _ (Finset.mem_univ _), ← hg x, View.read_apply]
  simp

set_option maxHeartbeats 4000000 in
set_option sl_exec.stepHeartbeats 1000000 in
/-- The body of the vector-subcore kernel at the tile of grid point `L`: the 1,024 stores fill the tile's scratch with the
    zero word (every store writes zero and the stores tile the 128 × 128 scratch), the sixteen copies of the scratch, all
    counted on the tile's one semaphore, are outstanding together while nothing touches the scratch or the slices, and the
    sixteenth wait has consumed every copy's units, so every copy has landed: each destination slice holds zero. -/
theorem tile_body (O : CellTallies nD τ sig (HIx 1)) (W : Waits sig (HIx 1)) (hO : ∀ g, O g none = 0)
    (f : Buf (Elt F) ((dst1 L).view.loc (Vt d L))) :
    iprop(levAts (K (F := F)).L (K (F := F)).lev ∗ dstPts d L f ∗ scopedBufs (Vt d L) ∗ scopedSems0 (Vt d L) ∗ owes (Vt d L) O W)
      ⊢ wp frame (wpE (defs₀ (F := F)) 𝒱₀ (Vt d L) none) Set.univ
          (cc1__sc_vzero_body L (Memref.whole main_v1_scv) (Memref.isWhole_whole _) (Memref.whole cc1_scratch0) (Memref.isWhole_whole _) cc1_scratch1)
          fun _ => iprop(dstPts d L (fun _ => Cert.Proof.Spec.zero32) ∗ scopedBufs (Vt d L) ∗ scopedSems0 (Vt d L)
            ∗ ∃ W', ⌜∀ p ∈ W', p ∈ W ∨ p.2 = none⌝ ∗ owes (Vt d L) O W') := by
  -- the sixteen copies share one semaphore and one source: they are one counted batch
  have plan : Transfers.BatchOf (Vt d L) (SemLoc.dma (sig := sig) cc1_scratch1.sem) 16 (windows := true) := trivial
  simp only [cc1__sc_vzero_body_eq_skeleton]; unfold cc1__sc_vzero_body_skel
  rw [(K (F := F)).scopedBufs_V facts d _ _, SparseCore.Cfg.scopedSems0_V (Val := Elt F) d _ _, ownSems0_Vt, ownBufs_Vt]
  unfold dstPts
  iintro ⟨#Hlv, ⟨H1, H2, H3, H4, H5, H6, H7, H8, H9, H10, H11, H12, H13, H14, H15, H16⟩, ⟨⟨%fs, Hs⟩, Hbufs⟩, ⟨Hsem, Hsems⟩, HO⟩
  ihave Hmw := ((K (F := F)).mayWaits_none (thr := Vt d L) hO) $$ Hlv
  ihave Hs' := (Entails.of_eq (pts_scr (F := F) d L _).symm) $$ Hs
  sl_exec_parts
  -- what every copy carried: the scratch read after the 1,024 stores, which is zero everywhere
  have hAll : AllZero (F := F) tile_body.sl.Hs'_1024 := by
    repeat (first | exact allZero_nil | refine allZero_cons (fun _ => rfl) ?_)
  have hcov : ∀ y : S128x128.Idx, ∃ p ∈ (tile_body.sl.Hs'_1024 (F := F)), y ∈ p.1.set :=
    View.cover_of_tiledL _ S1x16.size (by sl_kernel_rfl)
  have hz : ∀ y, tile_body.sl.dma2048 d L fs y = (Spec.zero32 : F .f32) := fun y => by
    show View.read (Elt F) (Memref.whole cc1_scratch0).view ((Memref.whole cc1_scratch0).view.writes (Elt F) fs tile_body.sl.Hs'_1024) y = _
    exact View.read_writes_apply_of_pieces _ _ (fun _ : S128x128.Idx => (Spec.zero32 : F .f32)) _ (fun p hp x => hAll p hp x) y (hcov y)
  generalize tile_body.sl.dma2048 d L fs = pay at hz ⊢
  sl_step
  isplitl [H1 H2 H3 H4 H5 H6 H7 H8 H9 H10 H11 H12 H13 H14 H15 H16]
  · isplitl [H1]; · iapply (landed_congr (F := F) (Vt d L) (dst1 L).view fullShare f (fun _ => Spec.zero32) pay (fun x => (hz x).symm)); iexact H1
    isplitl [H2]; · iapply (landed_congr (F := F) (Vt d L) (dst2 L).view fullShare f (fun _ => Spec.zero32) pay (fun x => (hz x).symm)); iexact H2
    isplitl [H3]; · iapply (landed_congr (F := F) (Vt d L) (dst3 L).view fullShare f (fun _ => Spec.zero32) pay (fun x => (hz x).symm)); iexact H3
    isplitl [H4]; · iapply (landed_congr (F := F) (Vt d L) (dst4 L).view fullShare f (fun _ => Spec.zero32) pay (fun x => (hz x).symm)); iexact H4
    isplitl [H5]; · iapply (landed_congr (F := F) (Vt d L) (dst5 L).view fullShare f (fun _ => Spec.zero32) pay (fun x => (hz x).symm)); iexact H5
    isplitl [H6]; · iapply (landed_congr (F := F) (Vt d L) (dst6 L).view fullShare f (fun _ => Spec.zero32) pay (fun x => (hz x).symm)); iexact H6
    isplitl [H7]; · iapply (landed_congr (F := F) (Vt d L) (dst7 L).view fullShare f (fun _ => Spec.zero32) pay (fun x => (hz x).symm)); iexact H7
    isplitl [H8]; · iapply (landed_congr (F := F) (Vt d L) (dst8 L).view fullShare f (fun _ => Spec.zero32) pay (fun x => (hz x).symm)); iexact H8
    isplitl [H9]; · iapply (landed_congr (F := F) (Vt d L) (dst9 L).view fullShare f (fun _ => Spec.zero32) pay (fun x => (hz x).symm)); iexact H9
    isplitl [H10]; · iapply (landed_congr (F := F) (Vt d L) (dst10 L).view fullShare f (fun _ => Spec.zero32) pay (fun x => (hz x).symm)); iexact H10
    isplitl [H11]; · iapply (landed_congr (F := F) (Vt d L) (dst11 L).view fullShare f (fun _ => Spec.zero32) pay (fun x => (hz x).symm)); iexact H11
    isplitl [H12]; · iapply (landed_congr (F := F) (Vt d L) (dst12 L).view fullShare f (fun _ => Spec.zero32) pay (fun x => (hz x).symm)); iexact H12
    isplitl [H13]; · iapply (landed_congr (F := F) (Vt d L) (dst13 L).view fullShare f (fun _ => Spec.zero32) pay (fun x => (hz x).symm)); iexact H13
    isplitl [H14]; · iapply (landed_congr (F := F) (Vt d L) (dst14 L).view fullShare f (fun _ => Spec.zero32) pay (fun x => (hz x).symm)); iexact H14
    isplitl [H15]; · iapply (landed_congr (F := F) (Vt d L) (dst15 L).view fullShare f (fun _ => Spec.zero32) pay (fun x => (hz x).symm)); iexact H15
    iapply (landed_congr (F := F) (Vt d L) (dst16 L).view fullShare f (fun _ => Spec.zero32) pay (fun x => (hz x).symm)); iexact H16
  isplitl [Hs' Hbufs]
  · isplitl [Hs']
    · iexists _; iapply (Entails.of_eq (pts_scr (F := F) d L _)); iexact Hs'
    · iexact Hbufs
  isplitl [Hsem Hsems]
  · isplitl [Hsem]
    · iexact Hsem
    · iexact Hsems
  iexists _; isplitr
  rotate_left
  · iexact HO
  · ipureintro
    intro p hp
    iterate 16 (rcases Finset.mem_insert.mp hp with hp | hp; exact .inr (hp ▸ rfl))
    exact .inl hp

end Tile

end Cert.Proof.KB

end
-- ==== Proof.B.TcValue.lean ====
/-
  From blocks to the arrays: what the two TensorCore calls leave in their caches.

  Each call walks four grid points; point `t` handles batch entries `8 t … 8 t + 7`. The key call's output blocks
  (8 × 4096 × 128 at block index (t, 0, 0)) tile the whole cache, and the block written back at `t` is the input's block
  `t` on rows below 2048 and zero on the rows above: block `t` of `padded x`. The value call's output blocks
  (8 × 2048 × 128 at block index (t, 0, 0) of the 32 × 4096 × 128 cache) tile exactly the rows below 2048 and hold the
  input's block `t`: again block `t` of `padded x`; the rows from 2048 on are in no block and keep what the call found
  there, which is zero. Either way the cache ends at `padded x`, and the input arrays, never written back, stay as launched.
-/
import proofs.«209718_g39419209842710_cont_8to1_b_1024_25_alg».proof.Proof.B.TcRegions
import Idealize.ShloMosaic.Lib.Pipeline.Value
import Idealize.ShloMosaic.Lib.Pipeline.Cells

set_option maxRecDepth 16384

noncomputable section

namespace Cert.Proof.KB

open Cert.Kernel Cert.Kernel.Gen

open Idealize.ShloMosaic Idealize.ShloMosaic.TcCoe
open Idealize.ShloMosaic.SparseCore.Cfg (HIx)
open Idealize.SL Idealize.SL.Sem
open Idealize.ShloMosaic.Pipeline (Dat Cfg Window)

variable {F : FTy → Type} [FloatOps F]

variable (m : (ℓ : Loc nD τ sig) → Buf (Elt F) ℓ)

/-! ## The bodies' output blocks, entry by entry -/

theorem hz3 : (![0, 0, 0] : Fin 3 → Nat) = fun _ => 0 := funext fun a => by fin_cases a <;> rfl

/-- The key body's output block: entry `(b, r, l)` is the input block's `(b, r, l)` on rows below 2048, zero above. The two
    stores are the two halves of this one function: the upper rectangle starts at row 2048, the lower at row 0. -/
theorem outK_apply (x0 : Vec F S8x2048x128 .f32) (y : S8x4096x128.Idx) :
    outK x0 y = if h : (y 1).val < 2048 then x0 (ValueIdx.ix3 (y 0 : Fin 8) (⟨(y 1).val, h⟩ : Fin 2048) (y 2 : Fin 128))
      else (Spec.zero32 : F .f32) := by
  unfold outK
  refine View.canon_apply_of_pieces (Val := Elt F)
    (fun y : S8x4096x128.Idx => if h : (y 1).val < 2048 then x0 (ValueIdx.ix3 (y 0 : Fin 8) (⟨(y 1).val, h⟩ : Fin 2048) (y 2 : Fin 128))
      else (Spec.zero32 : F .f32)) _ ?_ y (coverK _ _ y)
  intro p hp x
  rcases List.mem_cons.mp hp with rfl | hp
  · -- the upper rows: the row coordinate is 2048 + the piece's own
    have h1 : ¬ ((rHi.emb x) 1).val < 2048 := by
      show ¬ 2048 + 1 * (x 1).val < 2048
      omega
    show k0_pay1 (F := F) x = _
    rw [dif_neg h1]
    rfl
  · rcases List.mem_cons.mp hp with rfl | hp
    · -- the lower rows: every coordinate is the piece's own
      have h1 : ((rLo.emb x) 1).val < 2048 := by
        show 0 + 1 * (x 1).val < 2048
        have : (x 1).val < 2048 := (x 1).isLt
        omega
      show x0 (rIn.idx x) = _
      rw [dif_pos h1]
      refine congrArg x0 (funext fun a => Fin.ext ?_)
      match a with
      | ⟨0, _⟩ => rfl
      | ⟨1, _⟩ => rfl
      | ⟨2, _⟩ => rfl
    · exact absurd hp List.not_mem_nil

/-- The value body's output block is the input block. -/
theorem outV_eq (x0 : Vec F S8x2048x128 .f32) : outV x0 = x0 := by
  unfold outV
  rw [View.canon_unit_zero hz3, View.ld_unit_zero (S := S8x2048x128) hz3]

/-! ## A block of the padded array, from the input block at the same batch entries -/

/-- Entry `j` of block `q` of `padded X`, for a cache block of all 4096 rows: `outK` of block `q` of `X`. -/
theorem outK_block (X : FVec F Spec.SIn .f32) (x0 : Vec F S8x2048x128 .f32) (q : Nat)
    (hx0 : ∀ (y : S8x2048x128.Idx) (i : Spec.SIn.Idx), (i 0).val = q * 8 + (y 0).val → (i 1).val = (y 1).val → (i 2).val = (y 2).val → x0 y = X i)
    (j : S8x4096x128.Idx) (i : Spec.SOut.Idx) (hi0 : (i 0).val = q * 8 + (j 0).val) (hi1 : (i 1).val = (j 1).val) (hi2 : (i 2).val = (j 2).val) :
    outK x0 j = Spec.padded X i := by
  rw [outK_apply]
  by_cases h : (j 1).val < 2048
  · rw [dif_pos h, Spec.padded_lt X i (by omega)]
    exact hx0 _ _ hi0 hi1 hi2
  · rw [dif_neg h, Spec.padded_ge X i (by omega)]

/-- Entry `j` of block `q` of `padded X`, for a cache block of the rows below 2048: block `q` of `X` itself. -/
theorem outV_block (X : FVec F Spec.SIn .f32) (x0 : Vec F S8x2048x128 .f32) (q : Nat)
    (hx0 : ∀ (y : S8x2048x128.Idx) (i : Spec.SIn.Idx), (i 0).val = q * 8 + (y 0).val → (i 1).val = (y 1).val → (i 2).val = (y 2).val → x0 y = X i)
    (j : S8x2048x128.Idx) (i : Spec.SOut.Idx) (hi0 : (i 0).val = q * 8 + (j 0).val) (hi1 : (i 1).val = (j 1).val) (hi2 : (i 2).val = (j 2).val) :
    outV x0 j = Spec.padded X i := by
  have hj1 : (j 1).val < 2048 := (j 1).isLt
  rw [outV_eq, Spec.padded_lt X i (by omega)]
  exact hx0 _ _ hi0 hi1 hi2

/-! ## The key cache -/

/-- The printed index maps over the grid: at point `t` both windows of the key call are at block index `(t, 0, 0)`. -/
theorem idxK : ∀ t : Fin cfg0.N, win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

/-- Every batch block is some point's. -/
theorem ontoK : ∀ q : Fin 4, ∃ t : Fin cfg0.N, t.val = q.val :=
  (by decide +kernel : ∀ q : Fin 4, ∃ t : Fin grid0.N, t.val = q.val)

/-- What point `t` writes back to the key cache is block `t` of the padded input. -/
theorem flushedK_eq (c : Dev nD) (t : Fin cfg0.N) :
    (datK m c).flushed 1 t = ((cfg0.win 1).blk t).view.read (Elt F) (Spec.padded (F := F) (m ((c : Thread nD τ).loc main_arg0))) := by
  show (cfg0.win 1).cut (grid0.coords t) ((datK m c).after 1 t) = _
  rw [afterK_1]
  obtain ⟨e0, e1, e2, e3, e4, e5⟩ := idxK t
  funext j
  show outK (iblkK m c t) j = Spec.padded (F := F) (m ((c : Thread nD τ).loc main_arg0)) (((cfg0.win 1).blk t).view.emb j)
  refine outK_block (m ((c : Thread nD τ).loc main_arg0)) (iblkK m c t) t.val (fun y i h0 h1 h2 => ?_) j _ ?_ ?_ ?_
  · show m ((c : Thread nD τ).loc main_arg0) (((cfg0.win 0).blk t).view.emb y) = m ((c : Thread nD τ).loc main_arg0) i
    refine congrArg _ (funext fun a => Fin.ext ?_)
    match a with
    | ⟨0, _⟩ => show win0_0.index t (0 : Fin 3) * 8 + 1 * (y 0).val = (i 0).val; omega
    | ⟨1, _⟩ => show win0_0.index t (1 : Fin 3) * 2048 + 1 * (y 1).val = (i 1).val; omega
    | ⟨2, _⟩ => show win0_0.index t (2 : Fin 3) * 128 + 1 * (y 2).val = (i 2).val; omega
  · show win0_1.index t (0 : Fin 3) * 8 + 1 * (j 0).val = t.val * 8 + (j 0).val; omega
  · show win0_1.index t (1 : Fin 3) * 4096 + 1 * (j 1).val = (j 1).val; omega
  · show win0_1.index t (2 : Fin 3) * 128 + 1 * (j 2).val = (j 2).val; omega

/-- An index of the cache is in point `t`'s block iff each coordinate is in the block's range on its axis. -/
theorem mem_blkK (t : Fin cfg0.N) (i : S32x4096x128.Idx) :
    i ∈ ((cfg0.win 1).blk t).view.set ↔ ∀ a : Fin 3, win0_1.index t a * S8x4096x128.size a ≤ (i a).val ∧ (i a).val < win0_1.index t a * S8x4096x128.size a + S8x4096x128.size a := by
  show i ∈ ((View.whole main_v0).slice (win0_1.rect t)).set ↔ _
  rw [View.set_slice_whole, Rect.mem_set_unit]
  exact Iff.rfl

/-- The key call's output blocks tile the cache: batch entry `b` is in the block of point `b / 8`. -/
theorem coveredK (i : S32x4096x128.Idx) : ∃ t : Fin cfg0.N, (cfg0.win 1).flush t = true ∧ i ∈ ((cfg0.win 1).blk t).view.set := by
  have hi0 : (i 0).val < 32 := (i 0).isLt
  have hi1 : (i 1).val < 4096 := (i 1).isLt
  have hi2 : (i 2).val < 128 := (i 2).isLt
  obtain ⟨t, ht⟩ := ontoK ⟨(i 0).val / 8, by omega⟩
  have ht' : t.val = (i 0).val / 8 := ht
  obtain ⟨e0, e1, e2, e3, e4, e5⟩ := idxK t
  refine ⟨t, flush0_1 t, ?_⟩
  rw [mem_blkK]
  intro a
  match a with
  | ⟨0, _⟩ => show win0_1.index t (0 : Fin 3) * 8 ≤ (i 0).val ∧ (i 0).val < win0_1.index t (0 : Fin 3) * 8 + 8; omega
  | ⟨1, _⟩ => show win0_1.index t (1 : Fin 3) * 4096 ≤ (i 1).val ∧ (i 1).val < win0_1.index t (1 : Fin 3) * 4096 + 4096; omega
  | ⟨2, _⟩ => show win0_1.index t (2 : Fin 3) * 128 ≤ (i 2).val ∧ (i 2).val < win0_1.index t (2 : Fin 3) * 128 + 128; omega

/-- The key cache after the call is the padded key input. -/
theorem finalK (c : Dev nD) : (datK m c).arrAt 1 cfg0.N = Spec.padded (F := F) (m ((c : Thread nD τ).loc main_arg0)) :=
  (datK m c).arrAt_eq_of_cover 1 (Spec.padded (F := F) (m ((c : Thread nD τ).loc main_arg0))) (fun t _ => flushedK_eq m c t) coveredK

/-- The key input is never written back: it stays as launched. -/
theorem keptK (c : Dev nD) : (datK m c).arrAt 0 cfg0.N = m ((c : Thread nD τ).loc main_arg0) :=
  (datK m c).arrAt_in 0 rfl _

/-! ## The value cache -/

theorem idxV : ∀ t : Fin cfg2.N, win2_0.index t (0 : Fin 3) = t.val ∧ win2_0.index t (1 : Fin 3) = 0 ∧ win2_0.index t (2 : Fin 3) = 0
    ∧ win2_1.index t (0 : Fin 3) = t.val ∧ win2_1.index t (1 : Fin 3) = 0 ∧ win2_1.index t (2 : Fin 3) = 0 :=
  (by decide +kernel : ∀ t : Fin grid2.N, _)

theorem ontoV : ∀ q : Fin 4, ∃ t : Fin cfg2.N, t.val = q.val :=
  (by decide +kernel : ∀ q : Fin 4, ∃ t : Fin grid2.N, t.val = q.val)

/-- What point `t` writes back to the value cache is block `t` of the padded input: the block lies in the rows below 2048,
    where the padded array is the input. -/
theorem flushedV_eq (c : Dev nD) (t : Fin cfg2.N) :
    (datV m c).flushed 1 t = ((cfg2.win 1).blk t).view.read (Elt F) (Spec.padded (F := F) (m ((c : Thread nD τ).loc main_arg1))) := by
  show (cfg2.win 1).cut (grid2.coords t) ((datV m c).after 1 t) = _
  rw [afterV_1]
  obtain ⟨e0, e1, e2, e3, e4, e5⟩ := idxV t
  funext j
  show outV (iblkV m c t) j = Spec.padded (F := F) (m ((c : Thread nD τ).loc main_arg1)) (((cfg2.win 1).blk t).view.emb j)
  refine outV_block (m ((c : Thread nD τ).loc main_arg1)) (iblkV m c t) t.val (fun y i h0 h1 h2 => ?_) j _ ?_ ?_ ?_
  · show m ((c : Thread nD τ).loc main_arg1) (((cfg2.win 0).blk t).view.emb y) = m ((c : Thread nD τ).loc main_arg1) i
    refine congrArg _ (funext fun a => Fin.ext ?_)
    match a with
    | ⟨0, _⟩ => show win2_0.index t (0 : Fin 3) * 8 + 1 * (y 0).val = (i 0).val; omega
    | ⟨1, _⟩ => show win2_0.index t (1 : Fin 3) * 2048 + 1 * (y 1).val = (i 1).val; omega
    | ⟨2, _⟩ => show win2_0.index t (2 : Fin 3) * 128 + 1 * (y 2).val = (i 2).val; omega
  · show win2_1.index t (0 : Fin 3) * 8 + 1 * (j 0).val = t.val * 8 + (j 0).val; omega
  · show win2_1.index t (1 : Fin 3) * 2048 + 1 * (j 1).val = (j 1).val; omega
  · show win2_1.index t (2 : Fin 3) * 128 + 1 * (j 2).val = (j 2).val; omega

theorem mem_blkV (t : Fin cfg2.N) (i : S32x4096x128.Idx) :
    i ∈ ((cfg2.win 1).blk t).view.set ↔ ∀ a : Fin 3, win2_1.index t a * S8x2048x128.size a ≤ (i a).val ∧ (i a).val < win2_1.index t a * S8x2048x128.size a + S8x2048x128.size a := by
  show i ∈ ((View.whole main_v2).slice (win2_1.rect t)).set ↔ _
  rw [View.set_slice_whole, Rect.mem_set_unit]
  exact Iff.rfl

/-- The value call's output blocks tile the rows below 2048: there batch entry `b` is in the block of point `b / 8`. -/
theorem coveredV (i : S32x4096x128.Idx) (hr : (i 1).val < 2048) :
    ∃ t : Fin cfg2.N, (cfg2.win 1).flush t = true ∧ i ∈ ((cfg2.win 1).blk t).view.set := by
  have hi0 : (i 0).val < 32 := (i 0).isLt
  have hi2 : (i 2).val < 128 := (i 2).isLt
  obtain ⟨t, ht⟩ := ontoV ⟨(i 0).val / 8, by omega⟩
  have ht' : t.val = (i 0).val / 8 := ht
  obtain ⟨e0, e1, e2, e3, e4, e5⟩ := idxV t
  refine ⟨t, flush2_1 t, ?_⟩
  rw [mem_blkV]
  intro a
  match a with
  | ⟨0, _⟩ => show win2_1.index t (0 : Fin 3) * 8 ≤ (i 0).val ∧ (i 0).val < win2_1.index t (0 : Fin 3) * 8 + 8; omega
  | ⟨1, _⟩ => show win2_1.index t (1 : Fin 3) * 2048 ≤ (i 1).val ∧ (i 1).val < win2_1.index t (1 : Fin 3) * 2048 + 2048; omega
  | ⟨2, _⟩ => show win2_1.index t (2 : Fin 3) * 128 ≤ (i 2).val ∧ (i 2).val < win2_1.index t (2 : Fin 3) * 128 + 128; omega

/-- The value cache after the call is the padded value input: the blocks hold it on the rows below 2048, and the rows above,
    in no block, keep the zero the call found there. -/
theorem finalV (c : Dev nD) : (datV m c).arrAt 1 cfg2.N = Spec.padded (F := F) (m ((c : Thread nD τ).loc main_arg1)) := by
  funext i
  rw [(datV m c).arrAt_eq_piecewise 1 (Spec.padded (F := F) (m ((c : Thread nD τ).loc main_arg1))) (fun t _ => flushedV_eq m c t) i]
  split
  · rfl
  · next hno =>
    have hge : ¬ ((i : S32x4096x128.Idx) 1).val < 2048 := fun hlt => hno (coveredV i hlt)
    show Spec.zeroTail (F := F) (m ((c : Thread nD τ).loc main_v1)) i = _
    rw [Spec.zeroTail_ge _ _ hge, Spec.padded_ge _ _ hge]

/-- The value input is never written back: it stays as launched. -/
theorem keptV (c : Dev nD) : (datV m c).arrAt 0 cfg2.N = m ((c : Thread nD τ).loc main_arg1) :=
  (datV m c).arrAt_in 0 rfl _

end Cert.Proof.KB

end
-- ==== Proof.B.Ghost.lean ====
/-
  The launch element of the ghost state, and what it funds.

  The ghost state has three parts side by side: the rounds of the handshake cells between the TensorCore and the
  SparseCore, the rounds of the two TensorCore calls' staging cells, and the transfers' counters. The launch element
  is the initial rounds of the first two and the unit of the third. Owning it is owning each part; the staging cells'
  part funds, for every device and each of the two calls, the cells' round states and the duties' tokens its region
  starts from.
-/
import proofs.«209718_g39419209842710_cont_8to1_b_1024_25_alg».proof.Proof.B.TcRegions
import proofs.«209718_g39419209842710_cont_8to1_b_1024_25_alg».proof.Proof.Gen.Kernel.Launch
import Idealize.ShloMosaic.Lib.Pipeline.Kit
import Idealize.ShloMosaic.Lib.Pipeline.Sound

noncomputable section

namespace Cert.Proof.KB

open Cert.Kernel Cert.Kernel.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The launch element: the handshake cells' initial rounds, the staging cells' initial rounds with the duties' tokens,
    and the unit of the counters. -/
def u₀ : UU :=
  (initOf (K (F := F)).hsCells (K (F := F)).hsToks,
    (initOf (Pipeline.cells (Pipeline.pin (pcfgs (F := F)) adm) cellOf_inj) (Pipeline.launchToks (Pipeline.pin (pcfgs (F := F)) adm) cellOf_inj),
      (1 : Counters)))

/-- What the staging cells' part funds on device `d`: for each of the two calls, its cells' round states and its duties' tokens. -/
def G (d : Dev nD) : sProp 𝕄 :=
  bigSep Finset.univ fun p : Fin 2 =>
    iprop(Pipeline.cellsGhost (Pipeline.pin (pcfgs (F := F)) adm) EP p d ∗ Pipeline.toksInit (Pipeline.pin (pcfgs (F := F)) adm) EP p d)

/-- The two calls' shares, side by side. -/
theorem G_eq (d : Dev nD) : (G (F := F) d : sProp 𝕄)
    = iprop((Pipeline.cellsGhost (Pipeline.pin (pcfgs (F := F)) adm) EP 0 d ∗ Pipeline.toksInit (Pipeline.pin (pcfgs (F := F)) adm) EP 0 d)
        ∗ (Pipeline.cellsGhost (Pipeline.pin (pcfgs (F := F)) adm) EP 1 d ∗ Pipeline.toksInit (Pipeline.pin (pcfgs (F := F)) adm) EP 1 d)) := by
  unfold G
  rw [bigSep_univ_two]

/-- The staging cells' part is the left of the right of the element: its embedding, whichever way the two injections and
    the embedding of the whole are composed, sends an element to the same place. -/
theorem own_EP (a : UP) :
    (BI.own (((Emb.inl : Emb UP (UP × Counters)).trans (embR : Emb (UP × Counters) 𝕄)) a) : sProp 𝕄) = BI.own (EP (F := F) a) := rfl

/-- Owning the launch element gives the handshake cells' rounds and, for every device, what its two calls start from. -/
theorem fund : (ownU (u₀ (F := F)) : sProp 𝕄)
    ⊢ |={Set.univ}=> iprop(BI.own (EH (initOf (K (F := F)).hsCells (K (F := F)).hsToks)) ∗ bigSep Finset.univ fun d : Dev nD => G (F := F) d) := by
  have hghost : iprop((bigSep Finset.univ fun c : Dev nD => bigSep Finset.univ fun p => Pipeline.cellsGhost (Pipeline.pin (pcfgs (F := F)) adm) EP p c)
        ∗ (bigSep Finset.univ fun c : Dev nD => bigSep Finset.univ fun p => (Pipeline.toksInit (Pipeline.pin (pcfgs (F := F)) adm) EP p c : sProp 𝕄)))
      ⊢ bigSep Finset.univ fun d : Dev nD => G (F := F) d := by
    rw [← bigSep_sep']
    exact bigSep_mono fun c _ => show iprop((bigSep Finset.univ fun p => Pipeline.cellsGhost (Pipeline.pin (pcfgs (F := F)) adm) EP p c)
          ∗ bigSep Finset.univ fun p => (Pipeline.toksInit (Pipeline.pin (pcfgs (F := F)) adm) EP p c : sProp 𝕄)) ⊢ G (F := F) c
      from Entails.of_eq (by unfold G; rw [bigSep_sep'])
  unfold u₀
  iintro Hu
  ihave H := (ownU_pair _ _) $$ Hu
  icases H with ⟨HH, HR⟩
  ihave H2 := (own_pair_emb embR _ _) $$ HR
  icases H2 with ⟨HP, -⟩
  ihave HP' := (Entails.of_eq (own_EP (F := F) _)) $$ HP
  imod (Pipeline.fund_ghost (Pipeline.pin (pcfgs (F := F)) adm) EP cellOf_inj) $$ HP' with ⟨Hg, Ht⟩
  imodintro
  isplitl [HH]; · iexact HH
  iapply hghost
  isplitl [Hg] <;> iassumption

end Cert.Proof.KB

end
-- ==== Proof.B.FinalRead.lean ====
/-
  The final assertions, read.

  When @main ends, each device's TensorCore holds its two inputs as launched and its two caches at the padded inputs.
  Holding a buffer whole at contents `f` beside the state interpretation of a physical state says the state's memory
  there is `f`: so the final memory has the four arrays at those contents.
-/
import proofs.«209718_g39419209842710_cont_8to1_b_1024_25_alg».proof.Proof.B.TcRegions

noncomputable section

namespace Cert.Proof.KB

open Cert.Kernel Cert.Kernel.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ)

/-- Device `d`'s TensorCore holds buffer `b` whole, at the full share, at contents `f`. -/
abbrev pl (d : Dev nD) (b : Ref sig .tc) (f : Buf (Elt F) ((d : Thread nD τ).loc b)) : sProp 𝕄 :=
  ((d : Thread nD τ).loc b) ↦{fullShare} f

/-- What device `d` holds when @main ends: the inputs as launched, the caches at the padded inputs. -/
def FIN (d : Dev nD) : sProp 𝕄 :=
  iprop(pl d main_arg0 (m ((d : Thread nD τ).loc main_arg0)) ∗ pl d main_arg1 (m ((d : Thread nD τ).loc main_arg1))
    ∗ pl d main_v0 (Spec.padded (F := F) (m ((d : Thread nD τ).loc main_arg0)))
    ∗ pl d main_v2 (Spec.padded (F := F) (m ((d : Thread nD τ).loc main_arg1))))

/-- The claim about device `d` in a final physical state. -/
def fq (d : Dev nD) (s' : Phys nD τ sig (Elt F)) : Prop :=
  s'.mem.mem ((d : Thread nD τ).loc main_v0) = Spec.padded (F := F) (m ((d : Thread nD τ).loc main_arg0))
  ∧ s'.mem.mem ((d : Thread nD τ).loc main_v2) = Spec.padded (F := F) (m ((d : Thread nD τ).loc main_arg1))
  ∧ s'.mem.mem ((d : Thread nD τ).loc main_arg0) = m ((d : Thread nD τ).loc main_arg0)
  ∧ s'.mem.mem ((d : Thread nD τ).loc main_arg1) = m ((d : Thread nD τ).loc main_arg1)

/-- Each of the four buffers held agrees with the state's memory at every index. -/
theorem hfin (d : Dev nD) (s' : Phys nD τ sig (Elt F)) : iprop(FIN m d ∗ SI s') ⊢ (⌜fq m d s'⌝ : sProp 𝕄) := by
  unfold FIN
  iintro ⟨⟨Ha0, Ha1, Hv0, Hv2⟩, HSI⟩
  icombine HSI Ha0 gives %h0
  icombine HSI Ha1 gives %h1
  icombine HSI Hv0 gives %h2
  icombine HSI Hv2 gives %h3
  ipureintro
  exact ⟨funext fun i => h2 i (Finset.mem_univ i), funext fun i => h3 i (Finset.mem_univ i),
    funext fun i => h0 i (Finset.mem_univ i), funext fun i => h1 i (Finset.mem_univ i)⟩

end Cert.Proof.KB

end
-- ==== Proof.B.CopyStep.lean ====
/-
  The copy between the two calls of the value cache.

  Between the vector-subcore kernel and the second TensorCore call, @main copies the array the kernel filled into the
  buffer the call writes its result in: one host operation, the identity of the first array's contents written to the
  second. Holding both buffers whole, the first at `f1`, the operation leaves the first as it was and the second at `f1`.
-/
import proofs.«209718_g39419209842710_cont_8to1_b_1024_25_alg».proof.Proof.B.FinalRead
import Idealize.ShloMosaic.Lib.StableHlo.Run
import Idealize.ShloMosaic.Lib.SparseCore.Launch

noncomputable section

namespace Cert.Proof.KB

open Cert.Kernel Cert.Kernel.Gen

open Idealize.ShloMosaic Idealize.ShloMosaic.TcCoe
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)

variable {F : FTy → Type} [FloatOps F]

local notation "𝕄" => MT nD τ sig (HIx 1) (Elt F) ℕ UU ℕ

/-- The two arrays of the copy, as the device names them, and the operation. -/
abbrev v1' : DevRef τ sig := Proc.devRef .tc (main_v1 : Ref sig .tc)
abbrev v2' : DevRef τ sig := Proc.devRef .tc (main_v2 : Ref sig .tc)
abbrev opCopy : HloOp τ sig (Elt F) := StableHlo.unary main_v1 main_v2 id
abbrev S2 : Finset (DevRef τ sig) := {v1', v2'}

theorem held_S2 (d : Dev nD) (W : Valuation τ sig (Elt F)) :
    (held (T d) S2 W : sProp 𝕄) = iprop(((SparseCore.T d).loc main_v1 ↦{fullShare} W v1') ∗ ((SparseCore.T d).loc main_v2 ↦{fullShare} W v2')) := by
  unfold held S2
  rw [SparseCore.bigSep_insert' (by decide), bigSep_singleton]

/-- A valuation with the first array at `f1` and the second at `f2` (the operation reads and writes no other). -/
def Vc (d : Dev nD) (f1 : Buf (Elt F) ((d : Thread nD τ).loc main_v1)) (f2 : Buf (Elt F) ((d : Thread nD τ).loc main_v2)) :
    Valuation τ sig (Elt F) :=
  Function.update (Function.update (fun _ => Classical.arbitrary _) v1' f1) v2' f2

theorem Vc_v1 (d : Dev nD) (f1 : Buf (Elt F) ((d : Thread nD τ).loc main_v1)) (f2 : Buf (Elt F) ((d : Thread nD τ).loc main_v2)) :
    Vc d f1 f2 v1' = f1 :=
  (Function.update_of_ne (show v1' ≠ v2' by decide) _ _).trans (Function.update_self _ _ _)
theorem Vc_v2 (d : Dev nD) (f1 : Buf (Elt F) ((d : Thread nD τ).loc main_v1)) (f2 : Buf (Elt F) ((d : Thread nD τ).loc main_v2)) :
    Vc d f1 f2 v2' = f2 := Function.update_self _ _ _

/-- After the copy the first array is as it was, -/
theorem result_v1 (d : Dev nD) (f1 : Buf (Elt F) ((d : Thread nD τ).loc main_v1)) (f2 : Buf (Elt F) ((d : Thread nD τ).loc main_v2)) :
    (opCopy (F := F)).result (Vc d f1 f2) v1' = f1 :=
  ((opCopy (F := F)).result_of_not_mem (Vc d f1 f2) (b := v1') (show v1' ∉ ({v2'} : Finset (DevRef τ sig)) by decide)).trans (Vc_v1 d f1 f2)
/-- and the second holds the first's contents. -/
theorem result_v2 (d : Dev nD) (f1 : Buf (Elt F) ((d : Thread nD τ).loc main_v1)) (f2 : Buf (Elt F) ((d : Thread nD τ).loc main_v2)) :
    (opCopy (F := F)).result (Vc d f1 f2) v2' = f1 :=
  (StableHlo.unary_result main_v1 main_v2 id _ _ (Vc d f1 f2)).trans (Vc_v1 d f1 f2)

theorem hCopy : (opCopy (F := F)).bufs ⊆ S2 := show ({v1', v2'} : Finset (DevRef τ sig)) ⊆ S2 by decide

/-- The copy at the head of a program: from the boundary and the two buffers whole, the first at `f1`, the continuation runs,
    at whatever value the operation answers, with the boundary back, the first buffer as it was and the second at `f1`. -/
theorem copy_step (d : Dev nD) (f1 : Buf (Elt F) ((d : Thread nD τ).loc main_v1)) (f2 : Buf (Elt F) ((d : Thread nD τ).loc main_v2))
    {α : Type} (k : ((b : (opCopy (F := F)).writes) → b.1.ty.Contents (Elt F)) → Prog (TpuEff nD τ sig (Elt F) (SparseCore.Sig (ΛP (F := F)) 1) .tc) α)
    (Q : α → sProp 𝕄) :
    iprop(boundary (SparseCore.T d) ∗ pl d main_v1 f1 ∗ pl d main_v2 f2
        ∗ (∀ r, iprop(boundary (SparseCore.T d) ∗ pl d main_v1 f1 ∗ pl (F := F) d main_v2 f1)
            -∗ wp frame (wpE ((K (F := F)).defs (D (F := F))) 𝒱 (SparseCore.T d) none) Set.univ (k r) Q))
      ⊢ wp frame (wpE ((K (F := F)).defs (D (F := F))) 𝒱 (SparseCore.T d) none) Set.univ (hlo rfl (opCopy (F := F)) k) Q := by
  iintro ⟨Hb, H1, H2, Hk⟩
  iapply (wp_hlo_within 𝒱 (SparseCore.T d) none Set.univ (op := opCopy (F := F)) (S := S2) hCopy (V := Vc d f1 f2)) $$ [Hb H1 H2]
  · isplitl [Hb]; · iexact Hb
    rw [held_S2, Vc_v1, Vc_v2]
    isplitl [H1]; · iexact H1
    iexact H2
  iintro ⟨Hb, Hheld⟩
  ihave Hh := (Entails.of_eq (held_S2 (F := F) d _)) $$ Hheld
  rw [result_v1, result_v2]
  icases Hh with ⟨H1, H2⟩
  iapply Hk
  isplitl [Hb]; · iexact Hb
  isplitl [H1]; · iexact H1
  iexact H2

/-- The copy as @main has it, the program ending there: the post holds of what the copy leaves. -/
theorem copy_step_ret (d : Dev nD) (f1 : Buf (Elt F) ((d : Thread nD τ).loc main_v1)) (f2 : Buf (Elt F) ((d : Thread nD τ).loc main_v2))
    (Q : PUnit → sProp 𝕄) :
    iprop(boundary (SparseCore.T d) ∗ pl d main_v1 f1 ∗ pl d main_v2 f2
        ∗ (iprop(boundary (SparseCore.T d) ∗ pl d main_v1 f1 ∗ pl (F := F) d main_v2 f1) -∗ Q ⟨⟩))
      ⊢ wp frame (wpE ((K (F := F)).defs (D (F := F))) 𝒱 (SparseCore.T d) none) Set.univ
          (hlo rfl (StableHlo.unary main_v1 main_v2 id) (fun _ => .ret ⟨⟩)) Q := by
  iintro ⟨Hb, H1, H2, Hk⟩
  iapply (copy_step d f1 f2 (fun _ => .ret ⟨⟩) Q)
  isplitl [Hb]; · iexact Hb
  isplitl [H1]; · iexact H1
  isplitl [H2]; · iexact H2
  iintro %r H
  rw [wp_ret]; imodintro
  iapply Hk
  iexact H

end Cert.Proof.KB

end
-- ==== Proof.B.Main.lean ====
/-
  @main on the TensorCore.

  The TensorCore runs the key cache's call, starts the SparseCores and waits for them, copies the array they filled into
  the value cache's buffer, and runs the value cache's call. It enters with its five unscoped arrays as launched and
  leaves with the two inputs unchanged and the two caches at the padded inputs. Between: the key call turns the first
  cache's buffer into `padded kx`; the SparseCore call takes the upper rows of the third array slice by slice and
  brings them back zero, so that array is `zeroTail` of what it was; the copy gives the value cache's buffer the same
  contents; the value call overwrites its lower rows with `vx`, which makes it `padded vx`.
-/
import proofs.«209718_g39419209842710_cont_8to1_b_1024_25_alg».proof.Proof.B.Pay
import proofs.«209718_g39419209842710_cont_8to1_b_1024_25_alg».proof.Proof.B.V1Split
import proofs.«209718_g39419209842710_cont_8to1_b_1024_25_alg».proof.Proof.B.RegionStep
import proofs.«209718_g39419209842710_cont_8to1_b_1024_25_alg».proof.Proof.B.TileBody
import proofs.«209718_g39419209842710_cont_8to1_b_1024_25_alg».proof.Proof.B.TcValue
import proofs.«209718_g39419209842710_cont_8to1_b_1024_25_alg».proof.Proof.B.Ghost
import proofs.«209718_g39419209842710_cont_8to1_b_1024_25_alg».proof.Proof.B.FinalRead
import proofs.«209718_g39419209842710_cont_8to1_b_1024_25_alg».proof.Proof.B.CopyStep

set_option maxRecDepth 16384

noncomputable section

namespace Cert.Proof.KB

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ) (ρ : Dev nD → PrngReg)

local notation "ℝ𝕊" => Pipeline.RegionSeg (pcfgs (F := F)) adm (pdats m) (none : HIx 1) defs₀ 𝒱₀ (LL (F := F)) (lvv (F := F))

/-! ## The arrays, one by one -/

omit [FloatOps F] in
/-- The TensorCore's unscoped buffers are its five arrays. -/
theorem unscopedBufs_eq (d : Dev nD) (W : (b : Ref sig .tc) → Buf (Elt F) ((d.tc : Thread nD τ).loc b)) :
    (unscopedBufs d W : sProp 𝕄)
      = iprop(pl d main_arg0 (W main_arg0) ∗ pl d main_arg1 (W main_arg1) ∗ pl d main_v0 (W main_v0) ∗ pl d main_v1 (W main_v1) ∗ pl d main_v2 (W main_v2)) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- The key call's arrays are the first input and the first cache, -/
theorem arraysK_eq (d : Dev nD) (Fa) : ((pdats m 0 d).arrays Fa : sProp 𝕄) = iprop(pl d main_arg0 (Fa 0) ∗ pl d main_v0 (Fa 1)) := by
  rw [Pipeline.arrays_eq (Pipeline.pin (pcfgs (F := F)) adm) (pdats m) 0 d launch0.arr_whole ((pdats m 0 d).share_full fun _ => rfl) Fa, bigSep_W0]
  rfl

/-- the value call's the second input and the second cache. -/
theorem arraysV_eq (d : Dev nD) (Fa) : ((pdats m 1 d).arrays Fa : sProp 𝕄) = iprop(pl d main_arg1 (Fa 0) ∗ pl d main_v2 (Fa 1)) := by
  rw [Pipeline.arrays_eq (Pipeline.pin (pcfgs (F := F)) adm) (pdats m) 1 d launch2.arr_whole ((pdats m 1 d).share_full fun _ => rfl) Fa, bigSep_W2]
  rfl

/-- The key call is entered with the input and the cache's buffer as launched, -/
theorem regK_pre (Zr : Dev nD → sProp 𝕄) (d : Dev nD) :
    (regK m Zr).pre d = iprop((pl d main_arg0 (m ((d : Thread nD τ).loc main_arg0)) ∗ pl d main_v0 (m ((d : Thread nD τ).loc main_v0))) ∗ Zr d ∗ tcOwes (F := F) d 0) := by
  show iprop((pdats m 0 d).arrays _ ∗ _ ∗ _) = _
  rw [arraysK_eq]; rfl

/-- and left with the input unchanged and the cache at the padded input. -/
theorem regK_post (Zr : Dev nD → sProp 𝕄) (d : Dev nD) :
    (regK m Zr).post d = iprop((pl d main_arg0 (m ((d : Thread nD τ).loc main_arg0)) ∗ pl d main_v0 (Spec.padded (F := F) (m ((d : Thread nD τ).loc main_arg0)))) ∗ Zr d ∗ tcOwes (F := F) d 0) := by
  show iprop((pdats m 0 d).arrays _ ∗ _ ∗ _) = _
  rw [arraysK_eq]
  show iprop((pl d main_arg0 ((datK m d).arrAt 0 cfg0.N) ∗ pl d main_v0 ((datK m d).arrAt 1 cfg0.N)) ∗ _ ∗ _) = _
  rw [keptK, finalK]

/-- The value call is entered with the input as launched and the cache's buffer at the zero-tailed array, -/
theorem regV_pre (Zr : Dev nD → sProp 𝕄) (d : Dev nD) :
    (regV m Zr).pre d = iprop((pl d main_arg1 (m ((d : Thread nD τ).loc main_arg1)) ∗ pl (F := F) d main_v2 (Spec.zeroTail (F := F) (m ((d : Thread nD τ).loc main_v1)))) ∗ Zr d ∗ tcOwes (F := F) d 1) := by
  show iprop((pdats m 1 d).arrays _ ∗ _ ∗ _) = _
  rw [arraysV_eq]; rfl

/-- and left with the input unchanged and the cache at the padded input. -/
theorem regV_post (Zr : Dev nD → sProp 𝕄) (d : Dev nD) :
    (regV m Zr).post d = iprop((pl d main_arg1 (m ((d : Thread nD τ).loc main_arg1)) ∗ pl d main_v2 (Spec.padded (F := F) (m ((d : Thread nD τ).loc main_arg1)))) ∗ Zr d ∗ tcOwes (F := F) d 1) := by
  show iprop((pdats m 1 d).arrays _ ∗ _ ∗ _) = _
  rw [arraysV_eq]
  show iprop((pl d main_arg1 ((datV m d).arrAt 0 cfg2.N) ∗ pl d main_v2 ((datV m d).arrAt 1 cfg2.N)) ∗ _ ∗ _) = _
  rw [keptV, finalV]

/-! ## The TensorCore's handshake state lends its debt to a region -/

omit [FloatOps F] in
theorem tcSt_open (d : Dev nD) (n : ℕ) :
    ((K (F := F)).tcSt EH d n : sProp 𝕄) ⊢ iprop(tcOwes (F := F) d n ∗ (tcOwes (F := F) d n -∗ (K (F := F)).tcSt EH d n)) := by
  unfold SparseCore.Cfg.tcSt tcOwes
  iintro ⟨HO, Hr⟩
  isplitl [HO]; · iexact HO
  iintro HO
  isplitl [HO]; · iexact HO
  iexact Hr

/-! ## What the SparseCore call takes and brings back -/

set_option maxHeartbeats 2000000 in
theorem st_eq (d : Dev nD) :
    (bigSep Finset.univ fun c : Fin ((K (F := F)).nCore 0) => (P m).st 0 d c)
      = bigSep Finset.univ fun c : Fin (grid1.bound 0) => bigSep Finset.univ fun s : Fin (grid1.bound 1) => dstPts (F := F) d (coordsV c s) (m (o1Loc d)) := rfl

set_option maxHeartbeats 2000000 in
theorem dn_eq (d : Dev nD) :
    (bigSep Finset.univ fun c : Fin ((K (F := F)).nCore 0) => (P m).dn 0 d c)
      = bigSep Finset.univ fun c : Fin (grid1.bound 0) => bigSep Finset.univ fun s : Fin (grid1.bound 1) => dstPts (F := F) d (coordsV c s) (fun _ => Spec.zero32) := rfl

/-! ## @main -/

set_option maxHeartbeats 4000000 in
/-- @main on device `d`'s TensorCore. -/
theorem hmain (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [G_eq, unscopedBufs_eq]
  simp only [main, wp_bind, wp_pure]
  iintro ⟨#Hctx, Hst, ⟨Hb, ⟨Ha0, Ha1, Hv0, Hv1, Hv2⟩, -, -⟩, ⟨⟨Hcg0, Htk0⟩, ⟨Hcg1, Htk1⟩⟩⟩
  ihave Hlev0 := (SparseCore.Cfg.ctx_levAts (K := K (F := F)) (EH := EH) (P := P m) κ (lv := (K (F := F)).lev)) $$ Hctx
  ihave Hlev1 := (SparseCore.Cfg.ctx_levAts (K := K (F := F)) (EH := EH) (P := P m) κ (lv := (K (F := F)).lev)) $$ Hctx
  ihave Hst' := (tcSt_open (F := F) d 0) $$ Hst
  icases Hst' with ⟨HO, Hback⟩
  -- the key cache's call
  iapply (region_step m (regK m fun _ => iprop(emp)) d _)
  rw [regK_pre, regK_post]
  isplitr [Hb HO Ha0 Hv0 Hlev0 Hcg0 Htk0]
  swap
  · isplitl [Hb]; · iexact Hb
    isplitl [HO Ha0 Hv0]
    · isplitl [Ha0 Hv0]
      · isplitl [Ha0] <;> iassumption
      isplitr; · iempintro
      iexact HO
    isplitl [Hlev0]; · iexact Hlev0
    isplitl [Hcg0] <;> iassumption
  iintro ⟨Hb, ⟨Ha0, Hv0⟩, -, HO⟩
  ihave Hst := Hback $$ HO
  -- the SparseCore call: the upper rows of the third array out, slice by slice, and back zero
  ihave Hs := (v1_split (F := F) d (m (o1Loc d))) $$ Hv1
  icases Hs with ⟨Hup, Hlow⟩
  iapply ((K (F := F)).wp_run (D (F := F)) 𝒱 (EH := EH) (P := P m) κ d 0)
  isplitr; · iexact Hctx
  isplitl [Hst]; · iexact Hst
  isplitl [Hup]; · rw [st_eq]; iexact Hup
  iintro ⟨Hst, Hdn⟩
  ihave Hdn' := (Entails.of_eq (dn_eq m d)) $$ Hdn
  ihave Hv1 := (v1_join (F := F) d (m (o1Loc d))) $$ [Hdn' Hlow]
  · isplitl [Hdn'] <;> iassumption
  -- the copy of the filled array into the value cache's buffer
  iapply (copy_step_ret (F := F) d _ _ _)
  isplitl [Hb]; · iexact Hb
  isplitl [Hv1]; · iexact Hv1
  isplitl [Hv2]; · iexact Hv2
  iintro ⟨Hb, Hv1, Hv2⟩
  -- the value cache's call
  ihave Hst' := (tcSt_open (F := F) d ((0 : Fin 1).val + 1)) $$ Hst
  icases Hst' with ⟨HO, Hback⟩
  iapply (region_step m (regV m fun _ => iprop(emp)) d _)
  rw [regV_pre, regV_post]
  isplitr [Hb HO Ha1 Hv2 Hlev1 Hcg1 Htk1]
  swap
  · isplitl [Hb]; · iexact Hb
    isplitl [HO Ha1 Hv2]
    · isplitl [Ha1 Hv2]
      · isplitl [Ha1] <;> iassumption
      isplitr; · iempintro
      iexact HO
    isplitl [Hlev1]; · iexact Hlev1
    isplitl [Hcg1] <;> iassumption
  iintro ⟨Hb, ⟨Ha1, Hv2⟩, -, HO⟩
  ihave HO' := (ent_of_eq (show tcOwes (F := F) d 1 = tcOwes (F := F) d ((0 : Fin 1).val + 1) from rfl)) $$ HO
  ihave Hst := Hback $$ HO'
  ihave Hst1 := (ent_of_eq (show ((K (F := F)).tcSt EH d ((0 : Fin 1).val + 1) : sProp 𝕄) = (K (F := F)).tcSt EH d 1 from rfl)) $$ Hst
  imodintro
  isplitl [Hst1]; · iexact Hst1
  unfold FIN
  isplitl [Ha0]; · iexact Ha0
  isplitl [Ha1]; · iexact Ha1
  isplitl [Hv0]; · iexact Hv0
  iexact Hv2

end Cert.Proof.KB

end
-- ==== Proof.B.TileObl.lean ====
/-
  The launch theorem's obligation at a tile of the vector-subcore kernel, from the tile's body.

  The launch theorem asks, for every tile `(c, i)` of the call's 2 × 16 grid: from the tile's operands (its sixteen
  slices at the array's launch contents), the tile's scoped storage and what it owes, the body the kernel's label has on
  that tile's processor runs to the tile's results (the sixteen slices zero-filled) with the scoped storage given back
  and every new wait at index `none` or at the call's own index. The body table's row on that processor is the kernel
  function at the tile's grid point (the grid holds the point, so the guard of the table's row is true); the kernel's
  label in the extended signature runs the same program, lifted; the call carries no side payload (an `emp`) and owes
  nothing for a protocol of its own. What is left is the statement about the kernel function itself at a grid point,
  which is the hypothesis.
-/
import proofs.«209718_g39419209842710_cont_8to1_b_1024_25_alg».proof.Proof.B.Pay

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)

variable [FloatOps F]

/-! ## The body table's row at a tile -/

/-- On a vector subcore, the kernel's label runs the kernel function at the subcore's grid point when the grid holds it. -/
theorem tobl_defs₀_vector (c : Fin τ.nSC) (s : Fin τ.nSub) :
    defs₀ (F := F) (.scVector c s) 1 ⟨⟩
      = SparseCore.onTile hcore1 hsub1 (fun c s => cc1__sc_vzero_body (coordsV c s)
          (Memref.whole main_v1_scv) (Memref.isWhole_whole _) (Memref.whole cc1_scratch0) (Memref.isWhole_whole _) cc1_scratch1) ⟨⟩ c s := rfl

/-- At the processor of grid point `tileAt c i`, which the grid holds, that is the kernel function at `tileAt c i`. -/
theorem tobl_defs₀_tile (c : Fin ((K (F := F)).nCore 0)) (i : Fin ((K (F := F)).nSub 0)) :
    defs₀ (F := F) (.scVector (((tileAt (F := F) c i) 0).castLE hcore1) (((tileAt (F := F) c i) 1).castLE hsub1)) 1 ⟨⟩
      = cc1__sc_vzero_body (tileAt c i) (Memref.whole main_v1_scv) (Memref.isWhole_whole _) (Memref.whole cc1_scratch0) (Memref.isWhole_whole _) cc1_scratch1 := by
  have hc : (((tileAt (F := F) c i) 0).castLE hcore1).val < grid1.bound 0 ∧ (((tileAt (F := F) c i) 1).castLE hsub1).val < grid1.bound 1 := ⟨c.isLt, i.isLt⟩
  rw [tobl_defs₀_vector]; simp only [SparseCore.onTile, hc, and_self, ↓reduceDIte]
  rfl

omit [FloatOps F] in
/-- A wait list that grew only by waits at index `none` grew only by waits at `none` or at the call's own index. -/
theorem tobl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-! ## The tile obligation -/

/-- What the call's payloads are at a tile: nothing beside the slices; the slices at the launch contents in; at zero out. -/
theorem tobl_P_x (thr : Thread nD τ) : (P m).x 0 thr = iprop(emp) := rfl
theorem tobl_P_go (d : Dev nD) (c : Fin ((K (F := F)).nCore 0)) (i : Fin ((K (F := F)).nSub 0)) :
    (P m).go 0 d c i = dstPts d (tileAt c i) (m (o1Loc d)) := rfl
theorem tobl_P_td (d : Dev nD) (c : Fin ((K (F := F)).nCore 0)) (i : Fin ((K (F := F)).nSub 0)) :
    (P m).td 0 d c i = dstPts d (tileAt c i) (fun _ => Cert.Proof.Spec.zero32) := rfl

omit [FloatOps F] in
/-- An `emp` in second place may be dropped. -/
theorem tobl_drop_emp {A B : sProp 𝕄} : iprop(A ∗ emp ∗ B) ⊢ iprop(A ∗ B) := by
  iintro ⟨HA, _, HB⟩
  isplitl [HA]; · iexact HA
  iexact HB

/-- The tile's body, with the empty side payload beside its precondition and the wait list's growth read at the call's
    index: the form the launch theorem's obligation takes at a tile. -/
theorem tobl_aux
    (htile : ∀ (d : Dev nD) (L : grid1.Coords) (O : CellTallies nD τ sig (HIx 1)) (W : Waits sig (HIx 1)) (hO : ∀ g, O g none = 0) (f : Buf (Elt F) ((dst1 L).view.loc (Vt d L))),
        iprop(levAts (K (F := F)).L (K (F := F)).lev ∗ dstPts d L f ∗ scopedBufs (Vt d L) ∗ scopedSems0 (Vt d L) ∗ owes (Vt d L) O W)
          ⊢ wp frame (wpE (defs₀ (F := F)) 𝒱₀ (Vt d L) none) Set.univ
              (cc1__sc_vzero_body L (Memref.whole main_v1_scv) (Memref.isWhole_whole _) (Memref.whole cc1_scratch0) (Memref.isWhole_whole _) cc1_scratch1)
              fun _ => iprop(dstPts d L (fun _ => Cert.Proof.Spec.zero32) ∗ scopedBufs (Vt d L) ∗ scopedSems0 (Vt d L)
                ∗ ∃ W', ⌜∀ p ∈ W', p ∈ W ∨ p.2 = none⌝ ∗ owes (Vt d L) O W'))
    (d : Dev nD) (L : grid1.Coords) (O : CellTallies nD τ sig (HIx 1)) (W : Waits sig (HIx 1)) (hO : ∀ g, O g none = 0)
    (f : Buf (Elt F) ((dst1 L).view.loc (Vt d L))) :
    iprop(levAts (K (F := F)).L (K (F := F)).lev ∗ emp ∗ dstPts d L f ∗ scopedBufs (Vt d L) ∗ scopedSems0 (Vt d L) ∗ owes (Vt d L) O W)
      ⊢ wp frame (wpE (defs₀ (F := F)) 𝒱₀ (Vt d L) none) Set.univ
          (cc1__sc_vzero_body L (Memref.whole main_v1_scv) (Memref.isWhole_whole _) (Memref.whole cc1_scratch0) (Memref.isWhole_whole _) cc1_scratch1)
          fun _ => iprop(dstPts d L (fun _ => Cert.Proof.Spec.zero32) ∗ scopedBufs (Vt d L) ∗ scopedSems0 (Vt d L)
            ∗ ∃ W', ⌜∀ p ∈ W', p ∈ W ∨ p.2 = none ∨ p.2 = some (0 : Fin 1)⌝ ∗ owes (Vt d L) O W') :=
  BI.Entails.trans tobl_drop_emp ((htile d L O W hO f).trans (wp_mono frame _ _ fun _ => tobl_post))

omit [FloatOps F] in
/-- Equal assertions entail one another. -/
theorem tobl_entails_of_eq {P Q : sProp 𝕄} (h : P = Q) : Idealize.SL.BI.Entails P Q := h ▸ BI.Entails.refl _

/-- The launch theorem's obligation for the vector-subcore kernel, from the tile's body: the tile is handed its sixteen
    slices at the array's launch contents and its scoped storage, runs the kernel function at its grid point, and hands
    the slices back zero-filled with its scoped storage; the call owes nothing for a protocol of its own, and carries
    nothing beside the slices. -/
theorem tileObl_of
    (htile : ∀ (d : Dev nD) (L : grid1.Coords) (O : CellTallies nD τ sig (HIx 1)) (W : Waits sig (HIx 1)) (hO : ∀ g, O g none = 0) (f : Buf (Elt F) ((dst1 L).view.loc (Vt d L))),
        iprop(levAts (K (F := F)).L (K (F := F)).lev ∗ dstPts d L f ∗ scopedBufs (Vt d L) ∗ scopedSems0 (Vt d L) ∗ owes (Vt d L) O W)
          ⊢ wp frame (wpE (defs₀ (F := F)) 𝒱₀ (Vt d L) none) Set.univ
              (cc1__sc_vzero_body L (Memref.whole main_v1_scv) (Memref.isWhole_whole _) (Memref.whole cc1_scratch0) (Memref.isWhole_whole _) cc1_scratch1)
              fun _ => iprop(dstPts d L (fun _ => Cert.Proof.Spec.zero32) ∗ scopedBufs (Vt d L) ∗ scopedSems0 (Vt d L)
                ∗ ∃ W', ⌜∀ p ∈ W', p ∈ W ∨ p.2 = none⌝ ∗ owes (Vt d L) O W')) :
    (K (F := F)).TileObl (D (F := F)) 𝒱 (P m) v₀ 0 := by
  intro d c i O W hO _ _
  -- the call owes nothing for a protocol of its own
  simp only [show (P m).ox = fun _ _ => 0 from rfl, add_zero]
  -- the tile's processor, named by its grid point: SparseCore `c` of the grid is SparseCore `c` of the device, and tile `i` tile `i`
  generalize hcc : (K (F := F)).core 0 c = cc
  generalize hss : (K (F := F)).sub 0 i = ss
  obtain rfl : cc = ((tileAt (F := F) c i) 0).castLE hcore1 := hcc.symm
  obtain rfl : ss = ((tileAt (F := F) c i) 1).castLE hsub1 := hss.symm
  change _ ⊢ wp _ _ _ (Pipeline.liftProg (defs₀ (F := F) (.scVector (((tileAt (F := F) c i) 0).castLE hcore1) (((tileAt (F := F) c i) 1).castLE hsub1)) 1 ⟨⟩)) _
  refine BI.Entails.trans ?_ (Pipeline.wp_liftProg (D (F := F)) (Pipeline.defs_kernel pcfgs defs₀) 𝒱₀ _ Set.univ none _ _)
  rw [tobl_defs₀_tile, tobl_P_x, tobl_P_go, tobl_P_td]
  refine BI.Entails.trans ?_ (BI.Entails.trans (tobl_aux htile d (tileAt c i) O W hO (m (o1Loc d))) ?_)
  · exact BI.Entails.refl _
  · -- the same weakest precondition: the same thread, program and postcondition, argument by argument
    refine tobl_entails_of_eq ?_
    congr 1

end Cert.Proof.KB

end
-- ==== Proof.B.Run.lean ====
/-
  The program's run.

  Every weakly fair execution of the device's threads — the TensorCore's @main, the two sequencers, the thirty-two
  tiles — terminates, nothing faulting, and in every final memory the two inputs are unchanged, the key cache is the
  padded key input and the value cache the padded value input: the launch theorem of a SparseCore program applied to
  the tiles' obligation, the split of a SparseCore's operands among its tiles, the launch element, @main's proof and the
  reading of the final assertions.
-/
import proofs.«209718_g39419209842710_cont_8to1_b_1024_25_alg».proof.Proof.B.Main
import proofs.«209718_g39419209842710_cont_8to1_b_1024_25_alg».proof.Proof.B.TileObl

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)

/-- A tile's obligation: its body, zero-filling its sixteen slices. -/
theorem tileObl : (K (F := F)).TileObl (D (F := F)) 𝒱 (P m) v₀ 0 :=
  tileObl_of m fun d L O W hO f => tile_body d L O W hO f

omit [FloatOps F] in
theorem bigSep_emp' {I : Type} (s : Finset I) : (bigSep s fun _ => iprop(emp)) = (iprop(emp) : sProp 𝕄) := bigSep_emp_const s

/-- The launch element: the handshakes' rounds, the pipelines' staging cells funded; no tile's proof consumes anything. -/
theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  iintro Hu
  imod (fund (F := F)) $$ Hu with ⟨HH, HG⟩
  imodintro
  isplitl [HH]; · iexact HH
  isplitl [HG]; · iexact HG
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-- What the claim reads of a final memory. -/
def QC : PUnit × MemSt nD τ sig (Elt F) → Prop := fun r => ∀ c : Dev nD,
  r.2.mem ((c : Thread nD τ).loc main_v0) = Spec.padded (F := F) (m ((c : Thread nD τ).loc main_arg0))
  ∧ r.2.mem ((c : Thread nD τ).loc main_v2) = Spec.padded (F := F) (m ((c : Thread nD τ).loc main_arg1))
  ∧ r.2.mem ((c : Thread nD τ).loc main_arg0) = m ((c : Thread nD τ).loc main_arg0)
  ∧ r.2.mem ((c : Thread nD τ).loc main_arg1) = m ((c : Thread nD τ).loc main_arg1)

theorem run_main [∀ e, Nonempty (Elt F e)] :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m)
    (fun q _ => match q with | 0 => SparseCore.Cfg.VecSplit.of_plain (vecSplit m))
    m ρ main (G (F := F)) (FIN m) (u₀ (F := F)) (sep_elim_left.trans (hu₀ m)) (hmain m ρ) (fq m) (hfin m) (QC m) (fun _ h => h)

end Cert.Proof.KB

end
-- ==== Proof.RefSide.lean ====
/-
  The reference side: what the plain reference computes, entry by entry.

  The reference writes its input `x : f32[32, 2048, 128]` into a zero array `f32[32, 4096, 128]` at the start
  indices (0, 0, 0). A `dynamic_update_slice` clamps each start index to `[0, operand size - update size]`; the
  three start indices are the constant 0, so the clamped start is 0 on every axis and the update's window is
  `[0, 32) × [0, 2048) × [0, 128)`. The extents of axes 0 and 2 are the operand's own, so an index `(b, r, l)` of
  the result lies in the window exactly when `r < 2048`: there it reads `x (b, r, l)`, elsewhere the operand, whose
  every entry is the zero word. That is `Spec.padded x`.
-/
import proofs.«209718_g39419209842710_cont_8to1_b_1024_25_alg».proof.Defs
import proofs.«209718_g39419209842710_cont_8to1_b_1024_25_alg».proof.Proof.Gen.ReferenceIdeal.Run
import proofs.«209718_g39419209842710_cont_8to1_b_1024_25_alg».proof.Proof.Gen.ReferenceIdeal.Read
import proofs.«209718_g39419209842710_cont_8to1_b_1024_25_alg».proof.Proof.Spec
import proofs.«209718_g39419209842710_cont_8to1_b_1024_25_alg».proof.Proof.Gen.Pre_finite_inputs
import Idealize.ShloMosaic.Lib.Pipeline.Value

noncomputable section

namespace Cert.Proof.RefSide

open Idealize.ShloMosaic Idealize.ShloMosaic.TcCoe Idealize.SL.Sem
open Cert.ReferenceIdeal Cert.ReferenceIdeal.Gen

variable {F : FTy → Type} [FloatOps F]

/-- Every entry of the zero constant broadcast to the cache's shape is the zero word. -/
theorem zeros_apply (j : S32x4096x128.Idx) :
    broadcastInDim S32x4096x128 ![] bcast_S_S32x4096x128 (constant (F := F) S_ .f32 0x00000000#32) j
      = (Spec.zero32 : F .f32) := rfl

/-- An update of shape (32, 2048, 128) placed at the origin of an array of shape (32, 4096, 128): index `(b, r, l)`
    reads the update at `(b, r, l)` when `r < 2048` and the array elsewhere. The window's conditions on axes 0 and 2
    hold of every index, those extents being the array's own. -/
theorem updateSlice_origin_apply {α : Type} (z : S32x4096x128.Idx → α) (x : S32x2048x128.Idx → α)
    (h : S32x4096x128.Slices (fun _ => 0) S32x2048x128) (j : S32x4096x128.Idx) :
    updateSlice z x (fun _ => 0) h j
      = if hr : (j 1).val < 2048 then x (ValueIdx.ix3 (j 0 : Fin 32) (⟨(j 1).val, hr⟩ : Fin 2048) (j 2 : Fin 128)) else z j := by
  have h0 : (j 0).val < 32 := (j 0).isLt
  have h2 : (j 2).val < 128 := (j 2).isLt
  unfold updateSlice
  by_cases hr : (j 1).val < 2048
  · rw [dif_pos hr]
    split
    · refine congrArg x (funext fun b => ?_)
      match b with
      | ⟨0, _⟩ => exact Fin.ext (Nat.sub_zero _)
      | ⟨1, _⟩ => exact Fin.ext (Nat.sub_zero _)
      | ⟨2, _⟩ => exact Fin.ext (Nat.sub_zero _)
    · next hn =>
      refine absurd (fun a => ?_) hn
      match a with
      | ⟨0, _⟩ => exact ⟨Nat.zero_le _, by show (j 0).val < 0 + 32; omega⟩
      | ⟨1, _⟩ => exact ⟨Nat.zero_le _, by show (j 1).val < 0 + 2048; omega⟩
      | ⟨2, _⟩ => exact ⟨Nat.zero_le _, by show (j 2).val < 0 + 128; omega⟩
  · rw [dif_neg hr]
    split
    · next hin =>
      have h1 : (j 1).val < 0 + 2048 := (hin 1).2
      omega
    · rfl

/-- The reference's result term is the specification: the zero array with `x` written at the clamped start, which is
    the origin, the three start indices being the constant 0. -/
theorem dus_eq_padded (x : FVec F Spec.SIn .f32) :
    Host.dynamicUpdateSlice (broadcastInDim S32x4096x128 ![] bcast_S_S32x4096x128 (constant (F := F) S_ .f32 0x00000000#32)) x
        (fun k => (((![constantI S_ 32 0#32, constantI S_ 32 0#32, constantI S_ 32 0#32] : Fin 3 → (⟨S_, .i32⟩ : BufTy).Contents (Elt F))) k (Shape.Idx.first h_S_)).toInt)
        updateFits_S32x4096x128_S32x2048x128
      = Spec.padded x := by
  refine (Host.dynamicUpdateSlice_eq_updateSlice _ _ _ _ (fun _ => 0) (fun a => ?_) updateFits_S32x4096x128_S32x2048x128).trans ?_
  · -- the clamp of the start 0 to [0, size - update size] is 0, on each of the three axes
    match a with
    | ⟨0, _⟩ => rfl
    | ⟨1, _⟩ => rfl
    | ⟨2, _⟩ => rfl
  · funext j
    rw [updateSlice_origin_apply]
    unfold Spec.padded
    by_cases hr : (j 1).val < 2048
    · rw [dif_pos hr, dif_pos hr]
    · rw [dif_neg hr, dif_neg hr]; exact zeros_apply j

/-- Every weakly fair execution of the reference terminates with each result the specification's array of its argument,
    the arguments unchanged. -/
theorem run (m' : (ℓ : Loc Cert.ReferenceIdeal.nD Cert.ReferenceIdeal.τ Cert.ReferenceIdeal.sig) → Buf (Elt Ideal) ℓ) (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
        r.2.mem ((c.tc : Thread Cert.ReferenceIdeal.nD Cert.ReferenceIdeal.τ).loc Cert.ReferenceIdeal.main_v2) = Cert.Proof.Spec.padded (F := Ideal) (m' ((c.tc : Thread Cert.ReferenceIdeal.nD Cert.ReferenceIdeal.τ).loc Cert.ReferenceIdeal.main_arg0))
      ∧ r.2.mem ((c.tc : Thread Cert.ReferenceIdeal.nD Cert.ReferenceIdeal.τ).loc Cert.ReferenceIdeal.main_v3) = Cert.Proof.Spec.padded (F := Ideal) (m' ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)) :=
  (θ_run (Cert.ReferenceIdeal.defs (F := Ideal)) _ _).mono
    (fun _ h c => ⟨(h c).1.trans (dus_eq_padded _), (h c).2.1.trans (dus_eq_padded _), (h c).2.2.1, (h c).2.2.2⟩)
    (Cert.ReferenceIdeal.Value.run (F := Ideal) m' g')

/-- The reference runs and leaves its arguments unchanged: the run above with the values dropped. -/
theorem frame : Cert.frame_ReferenceIdeal := fun m ρ _ =>
  (θ_run (Cert.ReferenceIdeal.defs (F := Ideal)) _ _).mono (fun _ h c => (h c).2.2)
    (Cert.ReferenceIdeal.Value.run (F := Ideal) m ρ)

end Cert.Proof.RefSide

end
-- ==== Proof.lean ====
/-
  The five claims.

  Both programs end, from memories agreeing on the two inputs, with the key cache at the padded key input and the value
  cache at the padded value input (`Spec.padded`: rows 0 … 2047 of each batch entry the input's, rows 2048 … 4095 zero),
  the inputs unchanged. On the kernel's side this is the run of the whole family of threads — the TensorCore's @main,
  the sequencers, the thirty-two tiles — proved once for any float instance and read at the word-level instance for the
  printed program's frame and at the extended reals for the idealized program's frame and value; on the reference's side
  it is the run of its two `dynamic_update_slice`s into zero arrays. The ideal pass rewrote nothing, so there is nothing
  to preserve.
-/
import proofs.«209718_g39419209842710_cont_8to1_b_1024_25_alg».proof.Defs
import proofs.«209718_g39419209842710_cont_8to1_b_1024_25_alg».proof.Proof.Gen.Kernel
import proofs.«209718_g39419209842710_cont_8to1_b_1024_25_alg».proof.Proof.Gen.KernelIdeal
import proofs.«209718_g39419209842710_cont_8to1_b_1024_25_alg».proof.Proof.Gen.ReferenceIdeal
import proofs.«209718_g39419209842710_cont_8to1_b_1024_25_alg».proof.Proof.Gen.Pre_finite_inputs
import proofs.«209718_g39419209842710_cont_8to1_b_1024_25_alg».proof.Proof.Run
import proofs.«209718_g39419209842710_cont_8to1_b_1024_25_alg».proof.Proof.B.Run
import proofs.«209718_g39419209842710_cont_8to1_b_1024_25_alg».proof.Proof.RefSide
import Idealize.ShloMosaic.Adequacy
import Idealize.ShloMosaic.Init

noncomputable section

namespace Cert.Proof

open Idealize.ShloMosaic Idealize.ShloMosaic.TcCoe Idealize.SL.Sem

/-- The printed program runs and leaves its inputs unchanged: its run at the word-level instance, the values dropped. -/
theorem frame_kernel : Cert.frame_Kernel := fun m ρ _ =>
  (θ_run Cert.Kernel.defs _ _).mono (fun _ h c => ⟨(h c).2.2.1, (h c).2.2.2⟩) (Cert.Proof.KB.run_main (F := Bits) m ρ)

/-- The idealized program runs and leaves its inputs unchanged: its run on the extended reals, the values dropped. -/
theorem frame_kernelIdeal : Cert.frame_KernelIdeal := fun m ρ _ =>
  (θ_run Cert.KernelIdeal.defs _ _).mono (fun _ h c => ⟨(h c).2.2.1, (h c).2.2.2⟩) (Cert.Proof.KI.run_main (F := Ideal) m ρ)

/-- The ideal pass rewrote no operation. -/
theorem preserves : Cert.preserves_Kernel_KernelIdeal := trivial

/-- On the extended reals both programs leave the padded inputs in their two results. -/
theorem algebraic : Cert.algebraic_KernelIdeal_ReferenceIdeal := by
  intro m ρ m' ρ' _ hagree
  refine ⟨fun c => Cert.Proof.Spec.padded (F := Ideal) (m ((c : Thread Cert.KernelIdeal.nD Cert.KernelIdeal.τ).loc Cert.KernelIdeal.main_arg0)),
    fun c => Cert.Proof.Spec.padded (F := Ideal) (m ((c : Thread Cert.KernelIdeal.nD Cert.KernelIdeal.τ).loc Cert.KernelIdeal.main_arg1)),
    (θ_run Cert.KernelIdeal.defs _ _).mono (fun _ h c => h c) (Cert.Proof.KI.run_main (F := Ideal) m ρ), ?_⟩
  refine (θ_run Cert.ReferenceIdeal.defs _ _).mono (fun _ h c => ?_) (Cert.Proof.RefSide.run m' ρ')
  obtain ⟨h2, h3, ha0, ha1⟩ := h c
  refine ⟨h2.trans ?_, h3.trans ?_, ha0, ha1⟩
  · rw [(hagree c).1]
  · rw [(hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, Cert.Proof.RefSide.frame, preserves, algebraic⟩

end Cert.Proof

end
